-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3072 : Shape := ⟨2, ![2048, 3072]⟩
abbrev S3072x3072 : Shape := ⟨2, ![3072, 3072]⟩
abbrev S3072 : Shape := ⟨1, ![3072]⟩
abbrev S10x6145 : Shape := ⟨2, ![10, 6145]⟩
abbrev S10 : Shape := ⟨1, ![10]⟩
abbrev S10x10 : Shape := ⟨2, ![10, 10]⟩
abbrev S1x10 : Shape := ⟨2, ![1, 10]⟩
abbrev S1 : Shape := ⟨1, ![1]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S3072x3072 : S_.BroadcastsInDim S3072x3072 (![] : Fin 0 → Fin S3072x3072.rank)
  reducesTo_S3072x3072_S_d0_1 : S3072x3072.ReducesTo [0, 1] S_
  bcast_S_S3072 : S_.BroadcastsInDim S3072 (![] : Fin 0 → Fin S3072.rank)
  reducesTo_S3072_S_d0 : S3072.ReducesTo [0] S_
  bcast_S_S10x6145 : S_.BroadcastsInDim S10x6145 (![] : Fin 0 → Fin S10x6145.rank)
  reducesTo_S10x6145_S_d0_1 : S10x6145.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S1x10 : S_.BroadcastsInDim S1x10 (![] : Fin 0 → Fin S1x10.rank)
  reducesTo_S1x10_S_d0_1 : S1x10.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x10 .f32) (main_arg8 : FVec F S1 .f32) (main_v33 : IVec S_ 1) : IVec S_ 1 :=
  let main_v34 : FVec F S1x10 .f32 := Host.absf main_arg7
  let main_cst_12 : FVec F S_ .f32 := constant S_ .f32 0x7F800000#32
  let main_v35 : FVec F S1x10 .f32 := broadcastInDim S1x10 ![] bcast_S_S1x10 main_cst_12
  let main_v36 : IVec S1x10 1 := cmpf .olt main_v34 main_v35
  let main_c_13 : IVec S_ 1 := constantI S_ 1 1#1
  let main_v37 : IVec S_ 1 := (fun x v => Host.reduce IntOp.andi x v reducesTo_S1x10_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S10 .f32) (main_arg5 : FVec F S10x10 .f32) (main_arg6 : FVec F S10 .f32) (main_arg7 : FVec F S1x10 .f32) (main_arg8 : FVec F S1 .f32) (main_v13 : IVec S_ 1) (main_v16 : IVec S10x6145 1) : IVec S_ 1 :=
  let main_c_5 : IVec S_ 1 := constantI S_ 1 1#1
  let main_v17 : IVec S_ 1 := (fun x v => Host.reduce IntOp.andi x v reducesTo_S10x6145_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10x10 .f32 := Host.absf main_arg5
  let main_cst_8 : FVec F S_ .f32 := constant S_ .f32 0x7F800000#32
  let main_v25 : FVec F S10x10 .f32 := broadcastInDim S10x10 ![] bcast_S_S10x10 main_cst_8
  let main_v26 : IVec S10x10 1 := cmpf .olt main_v24 main_v25
  let main_c_9 : IVec S_ 1 := constantI S_ 1 1#1
  let main_v27 : IVec S_ 1 := (fun x v => Host.reduce IntOp.andi x v reducesTo_S10x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_v33

def fn {F : FTy → Type} [FloatOps F] (main_arg0 : FVec F S2048x3072 .f32) (main_arg1 : FVec F S3072x3072 .f32) (main_arg2 : FVec F S3072 .f32) (main_arg3 : FVec F S10x6145 .f32) (main_arg4 : FVec F S10 .f32) (main_arg5 : FVec F S10x10 .f32) (main_arg6 : FVec F S10 .f32) (main_arg7 : FVec F S1x10 .f32) (main_arg8 : FVec F S1 .f32) : IVec S_ 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S3072x3072 .f32 := Host.absf main_arg1
  let main_cst_0 : FVec F S_ .f32 := constant S_ .f32 0x7F800000#32
  let main_v5 : FVec F S3072x3072 .f32 := broadcastInDim S3072x3072 ![] bcast_S_S3072x3072 main_cst_0
  let main_v6 : IVec S3072x3072 1 := cmpf .olt main_v4 main_v5
  let main_c_1 : IVec S_ 1 := constantI S_ 1 1#1
  let main_v7 : IVec S_ 1 := (fun x v => Host.reduce IntOp.andi x v reducesTo_S3072x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S10x6145 .f32 := Host.absf main_arg3
  let main_cst_4 : FVec F S_ .f32 := constant S_ .f32 0x7F800000#32
  let main_v15 : FVec F S10x6145 .f32 := broadcastInDim S10x6145 ![] bcast_S_S10x6145 main_cst_4
  let main_v16 : IVec S10x6145 1 := cmpf .olt main_v14 main_v15
  fn_part1 (F := F) main_arg4 main_arg5 main_arg6 main_arg7 main_arg8 main_v13 main_v16
-- ==== Kernel.lean ====
abbrev S2048x3072 : Shape := ⟨2, ![2048, 3072]⟩
abbrev S3072x3072 : Shape := ⟨2, ![3072, 3072]⟩
abbrev S3072 : Shape := ⟨1, ![3072]⟩
abbrev S10x6145 : Shape := ⟨2, ![10, 6145]⟩
abbrev S10 : Shape := ⟨1, ![10]⟩
abbrev S10x10 : Shape := ⟨2, ![10, 10]⟩
abbrev S1x10 : Shape := ⟨2, ![1, 10]⟩
abbrev S1 : Shape := ⟨1, ![1]⟩
abbrev S10x3072 : Shape := ⟨2, ![10, 3072]⟩
abbrev S10x1 : Shape := ⟨2, ![10, 1]⟩
abbrev S3072x10 : Shape := ⟨2, ![3072, 10]⟩
abbrev S512x512 : Shape := ⟨2, ![512, 512]⟩
abbrev S512x10 : Shape := ⟨2, ![512, 10]⟩
abbrev S10x512 : Shape := ⟨2, ![10, 512]⟩
abbrev S3072x1 : Shape := ⟨2, ![3072, 1]⟩
abbrev S384x384 : Shape := ⟨2, ![384, 384]⟩
abbrev S384x10 : Shape := ⟨2, ![384, 10]⟩
abbrev S10x384x384 : Shape := ⟨3, ![10, 384, 384]⟩
abbrev S10x384 : Shape := ⟨2, ![10, 384]⟩
abbrev S1x384 : Shape := ⟨2, ![1, 384]⟩
abbrev S384 : Shape := ⟨1, ![384]⟩
abbrev S384x1 : Shape := ⟨2, ![384, 1]⟩
abbrev S1x384x384 : Shape := ⟨3, ![1, 384, 384]⟩
abbrev S1x1 : Shape := ⟨2, ![1, 1]⟩
abbrev S_ : Shape := ⟨0, ![]⟩
abbrev S128x3072 : Shape := ⟨2, ![128, 3072]⟩
abbrev S1x3072 : Shape := ⟨2, ![1, 3072]⟩
abbrev S128 : Shape := ⟨1, ![128]⟩
abbrev S128x1 : Shape := ⟨2, ![128, 1]⟩

abbrev nBuf : Space → Nat
  | .hbm => 51
  | .vmem => 44
  | .smem => 0
  | _ => 0

abbrev bufTy : (tb : Table) → Fin (tcTables nBuf tb) → BufTy
  | .hbm, ⟨0, _⟩ => ⟨S2048x3072, .f32⟩
  | .hbm, ⟨1, _⟩ => ⟨S3072x3072, .f32⟩
  | .hbm, ⟨2, _⟩ => ⟨S3072, .f32⟩
  | .hbm, ⟨3, _⟩ => ⟨S10x6145, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S1x10, .f32⟩
  | .hbm, ⟨8, _⟩ => ⟨S1, .f32⟩
  | .hbm, ⟨9, _⟩ => ⟨S10x3072, .f32⟩
  | .hbm, ⟨10, _⟩ => ⟨S10x3072, .f32⟩
  | .hbm, ⟨11, _⟩ => ⟨S10x1, .f32⟩
  | .hbm, ⟨12, _⟩ => ⟨S10, .f32⟩
  | .hbm, ⟨13, _⟩ => ⟨S3072x10, .f32⟩
  | .hbm, ⟨14, _⟩ => ⟨S3072x10, .f32⟩
  | .hbm, ⟨15, _⟩ => ⟨S10x3072, .f32⟩
  | .hbm, ⟨16, _⟩ => ⟨S3072x10, .f32⟩
  | .hbm, ⟨17, _⟩ => ⟨S3072x1, .f32⟩
  | .hbm, ⟨18, _⟩ => ⟨S1x10, .f32⟩
  | .hbm, ⟨19, _⟩ => ⟨S3072x10, .f32⟩
  | .hbm, ⟨20, _⟩ => ⟨S3072x10, .f32⟩
  | .hbm, ⟨21, _⟩ => ⟨S3072x10, .f32⟩
  | .hbm, ⟨22, _⟩ => ⟨S3072x10, .f32⟩
  | .hbm, ⟨23, _⟩ => ⟨S10, .f32⟩
  | .hbm, ⟨24, _⟩ => ⟨S3072x3072, .f32⟩
  | .hbm, ⟨25, _⟩ => ⟨S3072x3072, .bf16⟩
  | .hbm, ⟨26, _⟩ => ⟨S10x3072, .f32⟩
  | .hbm, ⟨27, _⟩ => ⟨S3072x10, .f32⟩
  | .hbm, ⟨28, _⟩ => ⟨S3072x10, .f32⟩
  | .hbm, ⟨29, _⟩ => ⟨S1x10, .f32⟩
  | .hbm, ⟨30, _⟩ => ⟨S3072x10, .f32⟩
  | .hbm, ⟨31, _⟩ => ⟨S3072x10, .f32⟩
  | .hbm, ⟨32, _⟩ => ⟨S_, .f32⟩
  | .hbm, ⟨33, _⟩ => ⟨S3072x10, .f32⟩
  | .hbm, ⟨34, _⟩ => ⟨S3072x10, .f32⟩
  | .hbm, ⟨35, _⟩ => ⟨S10x10, .f32⟩
  | .hbm, ⟨36, _⟩ => ⟨S3072x10, .f32⟩
  | .hbm, ⟨37, _⟩ => ⟨S1x10, .f32⟩
  | .hbm, ⟨38, _⟩ => ⟨S3072x10, .f32⟩
  | .hbm, ⟨39, _⟩ => ⟨S3072x10, .f32⟩
  | .hbm, ⟨40, _⟩ => ⟨S_, .f32⟩
  | .hbm, ⟨41, _⟩ => ⟨S3072x10, .f32⟩
  | .hbm, ⟨42, _⟩ => ⟨S3072x10, .f32⟩
  | .hbm, ⟨43, _⟩ => ⟨S10x1, .f32⟩
  | .hbm, ⟨44, _⟩ => ⟨S3072x1, .f32⟩
  | .hbm, ⟨45, _⟩ => ⟨S3072, .f32⟩
  | .hbm, ⟨46, _⟩ => ⟨S3072, .f32⟩
  | .hbm, ⟨47, _⟩ => ⟨S_, .f32⟩
  | .hbm, ⟨48, _⟩ => ⟨S3072, .f32⟩
  | .hbm, ⟨49, _⟩ => ⟨S3072, .f32⟩
  | .hbm, ⟨50, _⟩ => ⟨S2048x3072, .f32⟩
  | .local _ .vmem, ⟨0, _⟩ => ⟨S512x512, .f32⟩
  | .local _ .vmem, ⟨1, _⟩ => ⟨S512x512, .f32⟩
  | .local _ .vmem, ⟨2, _⟩ => ⟨S512x10, .f32⟩
  | .local _ .vmem, ⟨3, _⟩ => ⟨S512x10, .f32⟩
  | .local _ .vmem, ⟨4, _⟩ => ⟨S512x10, .f32⟩
  | .local _ .vmem, ⟨5, _⟩ => ⟨S512x10, .f32⟩
  | .local _ .vmem, ⟨6, _⟩ => ⟨S512x10, .f32⟩
  | .local _ .vmem, ⟨7, _⟩ => ⟨S10x512, .f32⟩
  | .local _ .vmem, ⟨8, _⟩ => ⟨S10x512, .f32⟩
  | .local _ .vmem, ⟨9, _⟩ => ⟨S512x512, .f32⟩
  | .local _ .vmem, ⟨10, _⟩ => ⟨S512x512, .f32⟩
  | .local _ .vmem, ⟨11, _⟩ => ⟨S10x512, .f32⟩
  | .local _ .vmem, ⟨12, _⟩ => ⟨S10x512, .f32⟩
  | .local _ .vmem, ⟨13, _⟩ => ⟨S10x512, .f32⟩
  | .local _ .vmem, ⟨14, _⟩ => ⟨S384x384, .f32⟩
  | .local _ .vmem, ⟨15, _⟩ => ⟨S384x384, .f32⟩
  | .local _ .vmem, ⟨16, _⟩ => ⟨S384x10, .f32⟩
  | .local _ .vmem, ⟨17, _⟩ => ⟨S384x10, .f32⟩
  | .local _ .vmem, ⟨18, _⟩ => ⟨S384x10, .f32⟩
  | .local _ .vmem, ⟨19, _⟩ => ⟨S384x10, .f32⟩
  | .local _ .vmem, ⟨20, _⟩ => ⟨S10, .f32⟩
  | .local _ .vmem, ⟨21, _⟩ => ⟨S10x10, .f32⟩
  | .local _ .vmem, ⟨22, _⟩ => ⟨S10, .f32⟩
  | .local _ .vmem, ⟨23, _⟩ => ⟨S10, .f32⟩
  | .local _ .vmem, ⟨24, _⟩ => ⟨S1, .f32⟩
  | .local _ .vmem, ⟨25, _⟩ => ⟨S384x384, .f32⟩
  | .local _ .vmem, ⟨26, _⟩ => ⟨S384x384, .f32⟩
  | .local _ .vmem, ⟨27, _⟩ => ⟨S384x384, .bf16⟩
  | .local _ .vmem, ⟨28, _⟩ => ⟨S384x384, .bf16⟩
  | .local _ .vmem, ⟨29, _⟩ => ⟨S10x384x384, .f32⟩
  | .local _ .vmem, ⟨30, _⟩ => ⟨S384x384, .f32⟩
  | .local _ .vmem, ⟨31, _⟩ => ⟨S10x512, .f32⟩
  | .local _ .vmem, ⟨32, _⟩ => ⟨S10x512, .f32⟩
  | .local _ .vmem, ⟨33, _⟩ => ⟨S512x512, .f32⟩
  | .local _ .vmem, ⟨34, _⟩ => ⟨S512x512, .f32⟩
  | .local _ .vmem, ⟨35, _⟩ => ⟨S10x512, .f32⟩
  | .local _ .vmem, ⟨36, _⟩ => ⟨S10x512, .f32⟩
  | .local _ .vmem, ⟨37, _⟩ => ⟨S10x512, .f32⟩
  | .local _ .vmem, ⟨38, _⟩ => ⟨S128x3072, .f32⟩
  | .local _ .vmem, ⟨39, _⟩ => ⟨S128x3072, .f32⟩
  | .local _ .vmem, ⟨40, _⟩ => ⟨S3072x3072, .bf16⟩
  | .local _ .vmem, ⟨41, _⟩ => ⟨S3072, .f32⟩
  | .local _ .vmem, ⟨42, _⟩ => ⟨S128x3072, .f32⟩
  | .local _ .vmem, ⟨43, _⟩ => ⟨S128x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call1_cst : Ref sig .tc := ⟨.hbm, 40, rfl⟩
abbrev main_call1_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg8_1 : Ref sig .tc := ⟨.vmem, 26, rfl⟩
abbrev cc2_stg9_0 : Ref sig .tc := ⟨.vmem, 27, rfl⟩
abbrev cc2_stg9_1 : Ref sig .tc := ⟨.vmem, 28, rfl⟩
abbrev cc2_scratch0 : Ref sig .tc := ⟨.vmem, 29, rfl⟩
abbrev cc2_scratch1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_scratch0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem8_1 : DmaSem sig := 24
abbrev cc2_sem9_0 : DmaSem sig := 25
abbrev cc2_sem9_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38

abbrev nD : Nat := 1
abbrev τ : Topo := Topo.v7x

variable {F : FTy → Type} [FloatOps F]

abbrev grid0 : Pipeline.Grid := ⟨3, ![6, 1, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 6, 6], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S10x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S10x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S384x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S384x10 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S384x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S10x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S384x384 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S384x384 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨3, ![1, 6, 6], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S10x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S10x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x3072 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3072x3072 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S3072 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S128x3072 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S10x6145_S10x3072_0_0 : S10x6145.Slices ![0, 0] S10x3072
  slices_S10x6145_S10x3072_0_3072 : S10x6145.Slices ![0, 3072] S10x3072
  slices_S10x6145_S10x1_0_6144 : S10x6145.Slices ![0, 6144] S10x1
  shapeCasts_S10x1_S10 : S10x1.ShapeCasts S10
  transposes_S10x3072_S3072x10_1_0 : S10x3072.Transposes [1, 0] S3072x10
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S10x512_S10x512_0_0 : ∀ a, (![0, 0] : Fin 2 → Nat) a + S10x512.size a ≤ S10x512.size a
  h_S10x512 : 0 < S10x512.numel
  shapeCasts_S10x512_S10x512 : S10x512.ShapeCasts S10x512
  bcast_S3072_S3072x1_0 : S3072.BroadcastsInDim S3072x1 (![0] : Fin 1 → Fin S3072x1.rank)
  bcast_S10_S1x10_1 : S10.BroadcastsInDim S1x10 (![1] : Fin 1 → Fin S1x10.rank)
  bcast_S3072x1_S3072x10_0_1 : S3072x1.BroadcastsInDim S3072x10 (![0, 1] : Fin 2 → Fin S3072x10.rank)
  bcast_S1x10_S3072x10_0_1 : S1x10.BroadcastsInDim S3072x10 (![0, 1] : Fin 2 → Fin S3072x10.rank)
  shapeCasts_S1x10_S10 : S1x10.ShapeCasts S10
  inb_S10_S10_0 : ∀ a, (![0] : Fin 1 → Nat) a + S10.size a ≤ S10.size a
  h_S10 : 0 < S10.numel
  inb_S10x10_S10x10_0_0 : ∀ a, (![0, 0] : Fin 2 → Nat) a + S10x10.size a ≤ S10x10.size a
  h_S10x10 : 0 < S10x10.numel
  shapeCasts_S10_S10 : S10.ShapeCasts S10
  inb_S1_S1_0 : ∀ a, (![0] : Fin 1 → Nat) a + S1.size a ≤ S1.size a
  h_S1 : 0 < S1.numel
  inpos_S1_p0 : ∀ a, (![0] : Fin 1 → Nat) a < S1.size a
  inb_S384x10_S384x10_0_0 : ∀ a, (![0, 0] : Fin 2 → Nat) a + S384x10.size a ≤ S384x10.size a
  h_S384x10 : 0 < S384x10.numel
  shapeCasts_S384x10_S384x10 : S384x10.ShapeCasts S384x10
  transposes_S384x10_p1_0_S10x384 : S384x10.Transposes [1, 0] S10x384
  slices_S10x384_o0_0_S1x384 : S10x384.Slices ![0, 0] S1x384
  shapeCasts_S1x384_S384 : S1x384.ShapeCasts S384
  shapeCasts_S384_S384x1 : S384.ShapeCasts S384x1
  shapeCasts_S384_S1x384 : S384.ShapeCasts S1x384
  broadcasts_S384x1_S384x384 : S384x1.Broadcasts S384x384
  broadcasts_S1x384_S384x384 : S1x384.Broadcasts S384x384
  slices_S10_o0_S1 : S10.Slices ![0] S1
  inb_S10x384x384_S1x384x384_0_0_0 : ∀ a, (![0, 0, 0] : Fin 3 → Nat) a + S1x384x384.size a ≤ S10x384x384.size a
  h_S1x384x384 : 0 < S1x384x384.numel
  shapeCasts_S1x384x384_S384x384 : S1x384x384.ShapeCasts S384x384
  shapeCasts_S384x384_S1x384x384 : S384x384.ShapeCasts S1x384x384
  slices_S10x384_o1_0_S1x384 : S10x384.Slices ![1, 0] S1x384
  slices_S10_o1_S1 : S10.Slices ![1] S1
  inb_S10x384x384_S1x384x384_1_0_0 : ∀ a, (![1, 0, 0] : Fin 3 → Nat) a + S1x384x384.size a ≤ S10x384x384.size a
  slices_S10x384_o2_0_S1x384 : S10x384.Slices ![2, 0] S1x384
  slices_S10_o2_S1 : S10.Slices ![2] S1
  inb_S10x384x384_S1x384x384_2_0_0 : ∀ a, (![2, 0, 0] : Fin 3 → Nat) a + S1x384x384.size a ≤ S10x384x384.size a
  slices_S10x384_o3_0_S1x384 : S10x384.Slices ![3, 0] S1x384
  slices_S10_o3_S1 : S10.Slices ![3] S1
  inb_S10x384x384_S1x384x384_3_0_0 : ∀ a, (![3, 0, 0] : Fin 3 → Nat) a + S1x384x384.size a ≤ S10x384x384.size a
  slices_S10x384_o4_0_S1x384 : S10x384.Slices ![4, 0] S1x384
  slices_S10_o4_S1 : S10.Slices ![4] S1
  inb_S10x384x384_S1x384x384_4_0_0 : ∀ a, (![4, 0, 0] : Fin 3 → Nat) a + S1x384x384.size a ≤ S10x384x384.size a
  slices_S10x384_o5_0_S1x384 : S10x384.Slices ![5, 0] S1x384
  slices_S10_o5_S1 : S10.Slices ![5] S1
  inb_S10x384x384_S1x384x384_5_0_0 : ∀ a, (![5, 0, 0] : Fin 3 → Nat) a + S1x384x384.size a ≤ S10x384x384.size a
  slices_S10x384_o6_0_S1x384 : S10x384.Slices ![6, 0] S1x384
  slices_S10_o6_S1 : S10.Slices ![6] S1
  inb_S10x384x384_S1x384x384_6_0_0 : ∀ a, (![6, 0, 0] : Fin 3 → Nat) a + S1x384x384.size a ≤ S10x384x384.size a
  slices_S10x384_o7_0_S1x384 : S10x384.Slices ![7, 0] S1x384
  slices_S10_o7_S1 : S10.Slices ![7] S1
  inb_S10x384x384_S1x384x384_7_0_0 : ∀ a, (![7, 0, 0] : Fin 3 → Nat) a + S1x384x384.size a ≤ S10x384x384.size a
  slices_S10x384_o8_0_S1x384 : S10x384.Slices ![8, 0] S1x384
  slices_S10_o8_S1 : S10.Slices ![8] S1
  inb_S10x384x384_S1x384x384_8_0_0 : ∀ a, (![8, 0, 0] : Fin 3 → Nat) a + S1x384x384.size a ≤ S10x384x384.size a
  slices_S10x384_o9_0_S1x384 : S10x384.Slices ![9, 0] S1x384
  slices_S10_o9_S1 : S10.Slices ![9] S1
  inb_S10x384x384_S1x384x384_9_0_0 : ∀ a, (![9, 0, 0] : Fin 3 → Nat) a + S1x384x384.size a ≤ S10x384x384.size a
  inb_S384x384_S384x384_0_0 : ∀ a, (![0, 0] : Fin 2 → Nat) a + S384x384.size a ≤ S384x384.size a
  h_S384x384 : 0 < S384x384.numel
  shapeCasts_S384x384_S384x384 : S384x384.ShapeCasts S384x384
  slices_S10x10_o0_0_S1x1 : S10x10.Slices ![0, 0] S1x1
  inpos_S1x1_p0_0 : ∀ a, (![0, 0] : Fin 2 → Nat) a < S1x1.size a
  slices_S10x10_o0_1_S1x1 : S10x10.Slices ![0, 1] S1x1
  slices_S10x10_o0_2_S1x1 : S10x10.Slices ![0, 2] S1x1
  slices_S10x10_o0_3_S1x1 : S10x10.Slices ![0, 3] S1x1
  slices_S10x10_o0_4_S1x1 : S10x10.Slices ![0, 4] S1x1
  slices_S10x10_o0_5_S1x1 : S10x10.Slices ![0, 5] S1x1
  slices_S10x10_o0_6_S1x1 : S10x10.Slices ![0, 6] S1x1
  slices_S10x10_o0_7_S1x1 : S10x10.Slices ![0, 7] S1x1
  slices_S10x10_o0_8_S1x1 : S10x10.Slices ![0, 8] S1x1
  slices_S10x10_o0_9_S1x1 : S10x10.Slices ![0, 9] S1x1
  slices_S10x10_o1_0_S1x1 : S10x10.Slices ![1, 0] S1x1
  slices_S10x10_o1_1_S1x1 : S10x10.Slices ![1, 1] S1x1
  slices_S10x10_o1_2_S1x1 : S10x10.Slices ![1, 2] S1x1
  slices_S10x10_o1_3_S1x1 : S10x10.Slices ![1, 3] S1x1
  slices_S10x10_o1_4_S1x1 : S10x10.Slices ![1, 4] S1x1
  slices_S10x10_o1_5_S1x1 : S10x10.Slices ![1, 5] S1x1
  slices_S10x10_o1_6_S1x1 : S10x10.Slices ![1, 6] S1x1
  slices_S10x10_o1_7_S1x1 : S10x10.Slices ![1, 7] S1x1
  slices_S10x10_o1_8_S1x1 : S10x10.Slices ![1, 8] S1x1
  slices_S10x10_o1_9_S1x1 : S10x10.Slices ![1, 9] S1x1
  slices_S10x10_o2_0_S1x1 : S10x10.Slices ![2, 0] S1x1
  slices_S10x10_o2_1_S1x1 : S10x10.Slices ![2, 1] S1x1
  slices_S10x10_o2_2_S1x1 : S10x10.Slices ![2, 2] S1x1
  slices_S10x10_o2_3_S1x1 : S10x10.Slices ![2, 3] S1x1
  slices_S10x10_o2_4_S1x1 : S10x10.Slices ![2, 4] S1x1
  slices_S10x10_o2_5_S1x1 : S10x10.Slices ![2, 5] S1x1
  slices_S10x10_o2_6_S1x1 : S10x10.Slices ![2, 6] S1x1
  slices_S10x10_o2_7_S1x1 : S10x10.Slices ![2, 7] S1x1
  slices_S10x10_o2_8_S1x1 : S10x10.Slices ![2, 8] S1x1
  slices_S10x10_o2_9_S1x1 : S10x10.Slices ![2, 9] S1x1
  slices_S10x10_o3_0_S1x1 : S10x10.Slices ![3, 0] S1x1
  slices_S10x10_o3_1_S1x1 : S10x10.Slices ![3, 1] S1x1
  slices_S10x10_o3_2_S1x1 : S10x10.Slices ![3, 2] S1x1
  slices_S10x10_o3_3_S1x1 : S10x10.Slices ![3, 3] S1x1
  slices_S10x10_o3_4_S1x1 : S10x10.Slices ![3, 4] S1x1
  slices_S10x10_o3_5_S1x1 : S10x10.Slices ![3, 5] S1x1
  slices_S10x10_o3_6_S1x1 : S10x10.Slices ![3, 6] S1x1
  slices_S10x10_o3_7_S1x1 : S10x10.Slices ![3, 7] S1x1
  slices_S10x10_o3_8_S1x1 : S10x10.Slices ![3, 8] S1x1
  slices_S10x10_o3_9_S1x1 : S10x10.Slices ![3, 9] S1x1
  slices_S10x10_o4_0_S1x1 : S10x10.Slices ![4, 0] S1x1
  slices_S10x10_o4_1_S1x1 : S10x10.Slices ![4, 1] S1x1
  slices_S10x10_o4_2_S1x1 : S10x10.Slices ![4, 2] S1x1
  slices_S10x10_o4_3_S1x1 : S10x10.Slices ![4, 3] S1x1
  slices_S10x10_o4_4_S1x1 : S10x10.Slices ![4, 4] S1x1
  slices_S10x10_o4_5_S1x1 : S10x10.Slices ![4, 5] S1x1
  slices_S10x10_o4_6_S1x1 : S10x10.Slices ![4, 6] S1x1
  slices_S10x10_o4_7_S1x1 : S10x10.Slices ![4, 7] S1x1
  slices_S10x10_o4_8_S1x1 : S10x10.Slices ![4, 8] S1x1
  slices_S10x10_o4_9_S1x1 : S10x10.Slices ![4, 9] S1x1
  slices_S10x10_o5_0_S1x1 : S10x10.Slices ![5, 0] S1x1
  slices_S10x10_o5_1_S1x1 : S10x10.Slices ![5, 1] S1x1
  slices_S10x10_o5_2_S1x1 : S10x10.Slices ![5, 2] S1x1
  slices_S10x10_o5_3_S1x1 : S10x10.Slices ![5, 3] S1x1
  slices_S10x10_o5_4_S1x1 : S10x10.Slices ![5, 4] S1x1
  slices_S10x10_o5_5_S1x1 : S10x10.Slices ![5, 5] S1x1
  slices_S10x10_o5_6_S1x1 : S10x10.Slices ![5, 6] S1x1
  slices_S10x10_o5_7_S1x1 : S10x10.Slices ![5, 7] S1x1
  slices_S10x10_o5_8_S1x1 : S10x10.Slices ![5, 8] S1x1
  slices_S10x10_o5_9_S1x1 : S10x10.Slices ![5, 9] S1x1
  slices_S10x10_o6_0_S1x1 : S10x10.Slices ![6, 0] S1x1
  slices_S10x10_o6_1_S1x1 : S10x10.Slices ![6, 1] S1x1
  slices_S10x10_o6_2_S1x1 : S10x10.Slices ![6, 2] S1x1
  slices_S10x10_o6_3_S1x1 : S10x10.Slices ![6, 3] S1x1
  slices_S10x10_o6_4_S1x1 : S10x10.Slices ![6, 4] S1x1
  slices_S10x10_o6_5_S1x1 : S10x10.Slices ![6, 5] S1x1
  slices_S10x10_o6_6_S1x1 : S10x10.Slices ![6, 6] S1x1
  slices_S10x10_o6_7_S1x1 : S10x10.Slices ![6, 7] S1x1
  slices_S10x10_o6_8_S1x1 : S10x10.Slices ![6, 8] S1x1
  slices_S10x10_o6_9_S1x1 : S10x10.Slices ![6, 9] S1x1
  slices_S10x10_o7_0_S1x1 : S10x10.Slices ![7, 0] S1x1
  slices_S10x10_o7_1_S1x1 : S10x10.Slices ![7, 1] S1x1
  slices_S10x10_o7_2_S1x1 : S10x10.Slices ![7, 2] S1x1
  slices_S10x10_o7_3_S1x1 : S10x10.Slices ![7, 3] S1x1
  slices_S10x10_o7_4_S1x1 : S10x10.Slices ![7, 4] S1x1
  slices_S10x10_o7_5_S1x1 : S10x10.Slices ![7, 5] S1x1
  slices_S10x10_o7_6_S1x1 : S10x10.Slices ![7, 6] S1x1
  slices_S10x10_o7_7_S1x1 : S10x10.Slices ![7, 7] S1x1
  slices_S10x10_o7_8_S1x1 : S10x10.Slices ![7, 8] S1x1
  slices_S10x10_o7_9_S1x1 : S10x10.Slices ![7, 9] S1x1
  slices_S10x10_o8_0_S1x1 : S10x10.Slices ![8, 0] S1x1
  slices_S10x10_o8_1_S1x1 : S10x10.Slices ![8, 1] S1x1
  slices_S10x10_o8_2_S1x1 : S10x10.Slices ![8, 2] S1x1
  slices_S10x10_o8_3_S1x1 : S10x10.Slices ![8, 3] S1x1
  slices_S10x10_o8_4_S1x1 : S10x10.Slices ![8, 4] S1x1
  slices_S10x10_o8_5_S1x1 : S10x10.Slices ![8, 5] S1x1
  slices_S10x10_o8_6_S1x1 : S10x10.Slices ![8, 6] S1x1
  slices_S10x10_o8_7_S1x1 : S10x10.Slices ![8, 7] S1x1
  slices_S10x10_o8_8_S1x1 : S10x10.Slices ![8, 8] S1x1
  slices_S10x10_o8_9_S1x1 : S10x10.Slices ![8, 9] S1x1
  slices_S10x10_o9_0_S1x1 : S10x10.Slices ![9, 0] S1x1
  slices_S10x10_o9_1_S1x1 : S10x10.Slices ![9, 1] S1x1
  slices_S10x10_o9_2_S1x1 : S10x10.Slices ![9, 2] S1x1
  slices_S10x10_o9_3_S1x1 : S10x10.Slices ![9, 3] S1x1
  slices_S10x10_o9_4_S1x1 : S10x10.Slices ![9, 4] S1x1
  slices_S10x10_o9_5_S1x1 : S10x10.Slices ![9, 5] S1x1
  slices_S10x10_o9_6_S1x1 : S10x10.Slices ![9, 6] S1x1
  slices_S10x10_o9_7_S1x1 : S10x10.Slices ![9, 7] S1x1
  slices_S10x10_o9_8_S1x1 : S10x10.Slices ![9, 8] S1x1
  slices_S10x10_o9_9_S1x1 : S10x10.Slices ![9, 9] S1x1
  packedbf16_S384x384_S384x384_0_0 : (Rect.unit (s := S384x384) ![0, 0] S384x384.size inb_S384x384_S384x384_0_0).PackedRows (EltTy.packing .bf16)
  shapeCasts_S512x512_S512x512 : S512x512.ShapeCasts S512x512
  bcast_S_S3072x10 : S_.BroadcastsInDim S3072x10 (![] : Fin 0 → Fin S3072x10.rank)
  transposes_S10x10_S10x10_1_0 : S10x10.Transposes [1, 0] S10x10
  transposes_S1x10_S10x1_1_0 : S1x10.Transposes [1, 0] S10x1
  shapeCasts_S3072x1_S3072 : S3072x1.ShapeCasts S3072
  shapeCasts_S1_S_ : S1.ShapeCasts S_
  bcast_S_S3072 : S_.BroadcastsInDim S3072 (![] : Fin 0 → Fin S3072.rank)
  inb_S128x3072_S128x3072_0_0 : ∀ a, (![0, 0] : Fin 2 → Nat) a + S128x3072.size a ≤ S128x3072.size a
  h_S128x3072 : 0 < S128x3072.numel
  inb_S3072x3072_S3072x3072_0_0 : ∀ a, (![0, 0] : Fin 2 → Nat) a + S3072x3072.size a ≤ S3072x3072.size a
  h_S3072x3072 : 0 < S3072x3072.numel
  shapeCasts_S3072x3072_S3072x3072 : S3072x3072.ShapeCasts S3072x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S128x3072 : S1x3072.Broadcasts S128x3072
  reduces_S128x3072_S128 : S128x3072.Reduces [1] S128
  shapeCasts_S128_S128x1 : S128.ShapeCasts S128x1
  broadcasts_S128x1_S128x3072 : S128x1.Broadcasts S128x3072
  dot_S512x512_S512x10_S512x10_1_0_0_1_n_n_wf : DotDims.WF S512x512 S512x10 S512x10 [1] [0] [0] [1] [] []
  dot_S10x512_S512x512_S10x512_1_0_0_1_n_n_wf : DotDims.WF S10x512 S512x512 S10x512 [1] [0] [0] [1] [] []
  dot_S3072x10_S10x10_S3072x10_1_0_0_1_n_n_wf : DotDims.WF S3072x10 S10x10 S3072x10 [1] [0] [0] [1] [] []
  dot_S3072x10_S10x1_S3072x1_1_0_0_1_n_n_wf : DotDims.WF S3072x10 S10x1 S3072x1 [1] [0] [0] [1] [] []
  dot_S128x3072_S3072x3072_S128x3072_1_0_0_1_n_n_wf : DotDims.WF S128x3072 S3072x3072 S128x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S3072x3072.size a
  hwx0_0 : ∀ i : grid0.Coords, EltTy.bits .f32 = 32 ∨ (Rect.block (s := S3072x3072) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x10.size a ≤ S3072x10.size a
  hwx0_1 : ∀ i : grid0.Coords, EltTy.bits .f32 = 32 ∨ (Rect.block (s := S3072x10) S512x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x10.size a ≤ S3072x10.size a
  hwx0_2 : ∀ i : grid0.Coords, EltTy.bits .f32 = 32 ∨ (Rect.block (s := S3072x10) S512x10.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10x512.size a ≤ S10x3072.size a
  hwx1_0 : ∀ i : grid1.Coords, EltTy.bits .f32 = 32 ∨ (Rect.block (s := S10x3072) S10x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S3072x3072.size a
  hwx1_1 : ∀ i : grid1.Coords, EltTy.bits .f32 = 32 ∨ (Rect.block (s := S3072x3072) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10x512.size a ≤ S10x3072.size a
  hwx1_2 : ∀ i : grid1.Coords, EltTy.bits .f32 = 32 ∨ (Rect.block (s := S10x3072) S10x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S384x384.size a ≤ S3072x3072.size a
  hwx2_0 : ∀ i : grid2.Coords, EltTy.bits .f32 = 32 ∨ (Rect.block (s := S3072x3072) S384x384.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S384x10.size a ≤ S3072x10.size a
  hwx2_1 : ∀ i : grid2.Coords, EltTy.bits .f32 = 32 ∨ (Rect.block (s := S3072x10) S384x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S384x10.size a ≤ S3072x10.size a
  hwx2_2 : ∀ i : grid2.Coords, EltTy.bits .f32 = 32 ∨ (Rect.block (s := S3072x10) S384x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10.size a ≤ S10.size a
  hwx2_3 : ∀ i : grid2.Coords, EltTy.bits .f32 = 32 ∨ (Rect.block (s := S10) S10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S10x10.size a ≤ S10x10.size a
  hwx2_4 : ∀ i : grid2.Coords, EltTy.bits .f32 = 32 ∨ (Rect.block (s := S10x10) S10x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S10.size a ≤ S10.size a
  hwx2_5 : ∀ i : grid2.Coords, EltTy.bits .f32 = 32 ∨ (Rect.block (s := S10) S10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S10.size a ≤ S10.size a
  hwx2_6 : ∀ i : grid2.Coords, EltTy.bits .f32 = 32 ∨ (Rect.block (s := S10) S10.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1.size a ≤ S1.size a
  hwx2_7 : ∀ i : grid2.Coords, EltTy.bits .f32 = 32 ∨ (Rect.block (s := S1) S1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S384x384.size a ≤ S3072x3072.size a
  hwx2_8 : ∀ i : grid2.Coords, EltTy.bits .f32 = 32 ∨ (Rect.block (s := S3072x3072) S384x384.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S384x384.size a ≤ S3072x3072.size a
  hwx2_9 : ∀ i : grid2.Coords, EltTy.bits .bf16 = 32 ∨ (Rect.block (s := S3072x3072) S384x384.size (cc2_transform_9 i) (hinb2_9 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10x512.size a ≤ S10x3072.size a
  hwx3_0 : ∀ i : grid3.Coords, EltTy.bits .f32 = 32 ∨ (Rect.block (s := S10x3072) S10x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S3072x3072.size a
  hwx3_1 : ∀ i : grid3.Coords, EltTy.bits .f32 = 32 ∨ (Rect.block (s := S3072x3072) S512x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10x512.size a ≤ S10x3072.size a
  hwx3_2 : ∀ i : grid3.Coords, EltTy.bits .f32 = 32 ∨ (Rect.block (s := S10x3072) S10x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x3072.size a ≤ S2048x3072.size a
  hwx4_0 : ∀ i : grid4.Coords, EltTy.bits .f32 = 32 ∨ (Rect.block (s := S2048x3072) S128x3072.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S3072x3072.size a ≤ S3072x3072.size a
  hwx4_1 : ∀ i : grid4.Coords, EltTy.bits .bf16 = 32 ∨ (Rect.block (s := S3072x3072) S3072x3072.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S3072.size a ≤ S3072.size a
  hwx4_2 : ∀ i : grid4.Coords, EltTy.bits .f32 = 32 ∨ (Rect.block (s := S3072) S3072.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S128x3072.size a ≤ S2048x3072.size a
  hwx4_3 : ∀ i : grid4.Coords, EltTy.bits .f32 = 32 ∨ (Rect.block (s := S2048x3072) S128x3072.size (cc4_transform_3 i) (hinb4_3 i)).WholeWords (EltTy.packing .f32)

variable [Facts₀]

def dot_S512x512_S512x10_S512x10_1_0_0_1_n_n : DotDims S512x512 S512x10 S512x10 where
  lhsContracting := [1]
  rhsContracting := [0]
  lhsNonContracting := [0]
  rhsNonContracting := [1]
  lhsBatch := []
  rhsBatch := []
  wf := dot_S512x512_S512x10_S512x10_1_0_0_1_n_n_wf
def dot_S10x512_S512x512_S10x512_1_0_0_1_n_n : DotDims S10x512 S512x512 S10x512 where
  lhsContracting := [1]
  rhsContracting := [0]
  lhsNonContracting := [0]
  rhsNonContracting := [1]
  lhsBatch := []
  rhsBatch := []
  wf := dot_S10x512_S512x512_S10x512_1_0_0_1_n_n_wf
def dot_S3072x10_S10x10_S3072x10_1_0_0_1_n_n : DotDims S3072x10 S10x10 S3072x10 where
  lhsContracting := [1]
  rhsContracting := [0]
  lhsNonContracting := [0]
  rhsNonContracting := [1]
  lhsBatch := []
  rhsBatch := []
  wf := dot_S3072x10_S10x10_S3072x10_1_0_0_1_n_n_wf
def dot_S3072x10_S10x1_S3072x1_1_0_0_1_n_n : DotDims S3072x10 S10x1 S3072x1 where
  lhsContracting := [1]
  rhsContracting := [0]
  lhsNonContracting := [0]
  rhsNonContracting := [1]
  lhsBatch := []
  rhsBatch := []
  wf := dot_S3072x10_S10x1_S3072x1_1_0_0_1_n_n_wf
def dot_S128x3072_S3072x3072_S128x3072_1_0_0_1_n_n : DotDims S128x3072 S3072x3072 S128x3072 where
  lhsContracting := [1]
  rhsContracting := [0]
  lhsNonContracting := [0]
  rhsNonContracting := [1]
  lhsBatch := []
  rhsBatch := []
  wf := dot_S128x3072_S3072x3072_S128x3072_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S10x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S10x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S384x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S384x10.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S384x10.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S10x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14) S10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg8) S1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v15_0) S384x384.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v15_1) S384x384.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v1) S10x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15_0) S512x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S10x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg0) S128x3072.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15_1) S3072x3072.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v35) S3072.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v36) S128x3072.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2048x3072 : Shape := ⟨2, ![2048, 3072]⟩
abbrev S3072x3072 : Shape := ⟨2, ![3072, 3072]⟩
abbrev S3072 : Shape := ⟨1, ![3072]⟩
abbrev S10x6145 : Shape := ⟨2, ![10, 6145]⟩
abbrev S10 : Shape := ⟨1, ![10]⟩
abbrev S10x10 : Shape := ⟨2, ![10, 10]⟩
abbrev S1x10 : Shape := ⟨2, ![1, 10]⟩
abbrev S1 : Shape := ⟨1, ![1]⟩
abbrev S10x3072 : Shape := ⟨2, ![10, 3072]⟩
abbrev S10x1 : Shape := ⟨2, ![10, 1]⟩
abbrev S3072x10 : Shape := ⟨2, ![3072, 10]⟩
abbrev S3072x1 : Shape := ⟨2, ![3072, 1]⟩
abbrev S3072x1x10 : Shape := ⟨3, ![3072, 1, 10]⟩
abbrev S1x3072x10 : Shape := ⟨3, ![1, 3072, 10]⟩
abbrev S3072x3072x10 : Shape := ⟨3, ![3072, 3072, 10]⟩
abbrev S1x1x10 : Shape := ⟨3, ![1, 1, 10]⟩
abbrev S_ : Shape := ⟨0, ![]⟩
abbrev S3072x3072x1 : Shape := ⟨3, ![3072, 3072, 1]⟩
abbrev S1x3072 : Shape := ⟨2, ![1, 3072]⟩
abbrev S2048 : Shape := ⟨1, ![2048]⟩
abbrev S2048x1 : Shape := ⟨2, ![2048, 1]⟩

abbrev nBuf : Space → Nat
  | .hbm => 91
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S3072x3072, .f32⟩
  | .hbm, ⟨2, _⟩ => ⟨S3072, .f32⟩
  | .hbm, ⟨3, _⟩ => ⟨S10x6145, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S1x10, .f32⟩
  | .hbm, ⟨8, _⟩ => ⟨S1, .f32⟩
  | .hbm, ⟨9, _⟩ => ⟨S10x3072, .f32⟩
  | .hbm, ⟨10, _⟩ => ⟨S10x3072, .f32⟩
  | .hbm, ⟨11, _⟩ => ⟨S10x1, .f32⟩
  | .hbm, ⟨12, _⟩ => ⟨S10, .f32⟩
  | .hbm, ⟨13, _⟩ => ⟨S3072x10, .f32⟩
  | .hbm, ⟨14, _⟩ => ⟨S3072x10, .f32⟩
  | .hbm, ⟨15, _⟩ => ⟨S3072x3072, .f32⟩
  | .hbm, ⟨16, _⟩ => ⟨S3072x10, .f32⟩
  | .hbm, ⟨17, _⟩ => ⟨S3072x10, .f32⟩
  | .hbm, ⟨18, _⟩ => ⟨S3072x1, .f32⟩
  | .hbm, ⟨19, _⟩ => ⟨S1x10, .f32⟩
  | .hbm, ⟨20, _⟩ => ⟨S3072x10, .f32⟩
  | .hbm, ⟨21, _⟩ => ⟨S3072x10, .f32⟩
  | .hbm, ⟨22, _⟩ => ⟨S3072x10, .f32⟩
  | .hbm, ⟨23, _⟩ => ⟨S3072x1x10, .f32⟩
  | .hbm, ⟨24, _⟩ => ⟨S3072x10, .f32⟩
  | .hbm, ⟨25, _⟩ => ⟨S1x3072x10, .f32⟩
  | .hbm, ⟨26, _⟩ => ⟨S3072x3072x10, .f32⟩
  | .hbm, ⟨27, _⟩ => ⟨S3072x3072x10, .f32⟩
  | .hbm, ⟨28, _⟩ => ⟨S3072x3072x10, .f32⟩
  | .hbm, ⟨29, _⟩ => ⟨S1x1x10, .f32⟩
  | .hbm, ⟨30, _⟩ => ⟨S3072x3072x10, .f32⟩
  | .hbm, ⟨31, _⟩ => ⟨S3072x3072x10, .f32⟩
  | .hbm, ⟨32, _⟩ => ⟨S_, .f32⟩
  | .hbm, ⟨33, _⟩ => ⟨S3072x3072x10, .f32⟩
  | .hbm, ⟨34, _⟩ => ⟨S3072x3072x10, .f32⟩
  | .hbm, ⟨35, _⟩ => ⟨S3072x3072x10, .f32⟩
  | .hbm, ⟨36, _⟩ => ⟨S1x1x10, .f32⟩
  | .hbm, ⟨37, _⟩ => ⟨S3072x3072x10, .f32⟩
  | .hbm, ⟨38, _⟩ => ⟨S3072x3072x10, .f32⟩
  | .hbm, ⟨39, _⟩ => ⟨S_, .f32⟩
  | .hbm, ⟨40, _⟩ => ⟨S3072x3072x10, .f32⟩
  | .hbm, ⟨41, _⟩ => ⟨S3072x3072x10, .f32⟩
  | .hbm, ⟨42, _⟩ => ⟨S3072x3072x1, .f32⟩
  | .hbm, ⟨43, _⟩ => ⟨S3072x3072, .f32⟩
  | .hbm, ⟨44, _⟩ => ⟨S_, .f32⟩
  | .hbm, ⟨45, _⟩ => ⟨S3072x3072, .f32⟩
  | .hbm, ⟨46, _⟩ => ⟨S3072x3072, .f32⟩
  | .hbm, ⟨47, _⟩ => ⟨S3072x3072, .f32⟩
  | .hbm, ⟨48, _⟩ => ⟨S3072x3072, .f32⟩
  | .hbm, ⟨49, _⟩ => ⟨S3072x10, .f32⟩
  | .hbm, ⟨50, _⟩ => ⟨S3072x10, .f32⟩
  | .hbm, ⟨51, _⟩ => ⟨S3072x10, .f32⟩
  | .hbm, ⟨52, _⟩ => ⟨S1x10, .f32⟩
  | .hbm, ⟨53, _⟩ => ⟨S3072x10, .f32⟩
  | .hbm, ⟨54, _⟩ => ⟨S3072x10, .f32⟩
  | .hbm, ⟨55, _⟩ => ⟨S_, .f32⟩
  | .hbm, ⟨56, _⟩ => ⟨S3072x10, .f32⟩
  | .hbm, ⟨57, _⟩ => ⟨S3072x10, .f32⟩
  | .hbm, ⟨58, _⟩ => ⟨S10x10, .f32⟩
  | .hbm, ⟨59, _⟩ => ⟨S3072x10, .f32⟩
  | .hbm, ⟨60, _⟩ => ⟨S1x10, .f32⟩
  | .hbm, ⟨61, _⟩ => ⟨S3072x10, .f32⟩
  | .hbm, ⟨62, _⟩ => ⟨S3072x10, .f32⟩
  | .hbm, ⟨63, _⟩ => ⟨S_, .f32⟩
  | .hbm, ⟨64, _⟩ => ⟨S3072x10, .f32⟩
  | .hbm, ⟨65, _⟩ => ⟨S3072x10, .f32⟩
  | .hbm, ⟨66, _⟩ => ⟨S10x1, .f32⟩
  | .hbm, ⟨67, _⟩ => ⟨S3072x1, .f32⟩
  | .hbm, ⟨68, _⟩ => ⟨S3072, .f32⟩
  | .hbm, ⟨69, _⟩ => ⟨S3072, .f32⟩
  | .hbm, ⟨70, _⟩ => ⟨S_, .f32⟩
  | .hbm, ⟨71, _⟩ => ⟨S3072, .f32⟩
  | .hbm, ⟨72, _⟩ => ⟨S3072, .f32⟩
  | .hbm, ⟨73, _⟩ => ⟨S2048x3072, .f32⟩
  | .hbm, ⟨74, _⟩ => ⟨S1x3072, .f32⟩
  | .hbm, ⟨75, _⟩ => ⟨S2048x3072, .f32⟩
  | .hbm, ⟨76, _⟩ => ⟨S2048x3072, .f32⟩
  | .hbm, ⟨77, _⟩ => ⟨S_, .f32⟩
  | .hbm, ⟨78, _⟩ => ⟨S2048, .f32⟩
  | .hbm, ⟨79, _⟩ => ⟨S_, .f32⟩
  | .hbm, ⟨80, _⟩ => ⟨S2048, .f32⟩
  | .hbm, ⟨81, _⟩ => ⟨S2048, .f32⟩
  | .hbm, ⟨82, _⟩ => ⟨S2048x1, .f32⟩
  | .hbm, ⟨83, _⟩ => ⟨S2048x3072, .f32⟩
  | .hbm, ⟨84, _⟩ => ⟨S2048x3072, .f32⟩
  | .hbm, ⟨85, _⟩ => ⟨S2048x3072, .f32⟩
  | .hbm, ⟨86, _⟩ => ⟨S_, .f32⟩
  | .hbm, ⟨87, _⟩ => ⟨S2048, .f32⟩
  | .hbm, ⟨88, _⟩ => ⟨S2048x1, .f32⟩
  | .hbm, ⟨89, _⟩ => ⟨S2048x3072, .f32⟩
  | .hbm, ⟨90, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call1_cst : Ref sig .tc := ⟨.hbm, 39, rfl⟩
abbrev main_call1_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call2_cst : Ref sig .tc := ⟨.hbm, 55, rfl⟩
abbrev main_call2_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call3_cst : Ref sig .tc := ⟨.hbm, 63, rfl⟩
abbrev main_call3_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst : Ref sig .tc := ⟨.hbm, 77, rfl⟩
abbrev main_v60 : Ref sig .tc := ⟨.hbm, 78, rfl⟩
abbrev main_cst_0 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_1 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]

class Facts₀ : Prop where
  slices_S10x6145_S10x3072_0_0 : S10x6145.Slices ![0, 0] S10x3072
  slices_S10x6145_S10x3072_0_3072 : S10x6145.Slices ![0, 3072] S10x3072
  slices_S10x6145_S10x1_0_6144 : S10x6145.Slices ![0, 6144] S10x1
  shapeCasts_S10x1_S10 : S10x1.ShapeCasts S10
  transposes_S10x3072_S3072x10_1_0 : S10x3072.Transposes [1, 0] S3072x10
  transposes_S3072x3072_S3072x3072_1_0 : S3072x3072.Transposes [1, 0] S3072x3072
  bcast_S3072_S3072x1_0 : S3072.BroadcastsInDim S3072x1 (![0] : Fin 1 → Fin S3072x1.rank)
  bcast_S10_S1x10_1 : S10.BroadcastsInDim S1x10 (![1] : Fin 1 → Fin S1x10.rank)
  bcast_S3072x1_S3072x10_0_1 : S3072x1.BroadcastsInDim S3072x10 (![0, 1] : Fin 2 → Fin S3072x10.rank)
  bcast_S1x10_S3072x10_0_1 : S1x10.BroadcastsInDim S3072x10 (![0, 1] : Fin 2 → Fin S3072x10.rank)
  bcast_S3072x10_S3072x1x10_0_2 : S3072x10.BroadcastsInDim S3072x1x10 (![0, 2] : Fin 2 → Fin S3072x1x10.rank)
  bcast_S3072x10_S1x3072x10_1_2 : S3072x10.BroadcastsInDim S1x3072x10 (![1, 2] : Fin 2 → Fin S1x3072x10.rank)
  bcast_S3072x1x10_S3072x3072x10_0_1_2 : S3072x1x10.BroadcastsInDim S3072x3072x10 (![0, 1, 2] : Fin 3 → Fin S3072x3072x10.rank)
  bcast_S1x3072x10_S3072x3072x10_0_1_2 : S1x3072x10.BroadcastsInDim S3072x3072x10 (![0, 1, 2] : Fin 3 → Fin S3072x3072x10.rank)
  bcast_S10_S1x1x10_2 : S10.BroadcastsInDim S1x1x10 (![2] : Fin 1 → Fin S1x1x10.rank)
  bcast_S1x1x10_S3072x3072x10_0_1_2 : S1x1x10.BroadcastsInDim S3072x3072x10 (![0, 1, 2] : Fin 3 → Fin S3072x3072x10.rank)
  bcast_S_S3072x3072x10 : S_.BroadcastsInDim S3072x3072x10 (![] : Fin 0 → Fin S3072x3072x10.rank)
  shapeCasts_S3072x3072x1_S3072x3072 : S3072x3072x1.ShapeCasts S3072x3072
  shapeCasts_S1_S_ : S1.ShapeCasts S_
  bcast_S_S3072x3072 : S_.BroadcastsInDim S3072x3072 (![] : Fin 0 → Fin S3072x3072.rank)
  bcast_S_S3072x10 : S_.BroadcastsInDim S3072x10 (![] : Fin 0 → Fin S3072x10.rank)
  transposes_S10x10_S10x10_1_0 : S10x10.Transposes [1, 0] S10x10
  transposes_S1x10_S10x1_1_0 : S1x10.Transposes [1, 0] S10x1
  shapeCasts_S3072x1_S3072 : S3072x1.ShapeCasts S3072
  bcast_S_S3072 : S_.BroadcastsInDim S3072 (![] : Fin 0 → Fin S3072.rank)
  bcast_S3072_S1x3072_1 : S3072.BroadcastsInDim S1x3072 (![1] : Fin 1 → Fin S1x3072.rank)
  bcast_S1x3072_S2048x3072_0_1 : S1x3072.BroadcastsInDim S2048x3072 (![0, 1] : Fin 2 → Fin S2048x3072.rank)
  reducesTo_S2048x3072_S2048_d1 : S2048x3072.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x3072_0_1 : S2048x1.BroadcastsInDim S2048x3072 (![0, 1] : Fin 2 → Fin S2048x3072.rank)
  dot_S3072x3072_S3072x10_S3072x10_1_0_0_1_n_n_wf : DotDims.WF S3072x3072 S3072x10 S3072x10 [1] [0] [0] [1] [] []
  dot_S3072x3072x10_S10x10_S3072x3072x10_2_1_01_0_n_n_wf : DotDims.WF S3072x3072x10 S10x10 S3072x3072x10 [2] [1] [0, 1] [0] [] []
  dot_S3072x3072x10_S1x10_S3072x3072x1_2_1_01_0_n_n_wf : DotDims.WF S3072x3072x10 S1x10 S3072x3072x1 [2] [1] [0, 1] [0] [] []
  dot_S3072x10_S10x10_S3072x10_1_0_0_1_n_n_wf : DotDims.WF S3072x10 S10x10 S3072x10 [1] [0] [0] [1] [] []
  dot_S3072x10_S10x1_S3072x1_1_0_0_1_n_n_wf : DotDims.WF S3072x10 S10x1 S3072x1 [1] [0] [0] [1] [] []
  dot_S2048x3072_S3072x3072_S2048x3072_1_0_0_1_n_n_wf : DotDims.WF S2048x3072 S3072x3072 S2048x3072 [1] [0] [0] [1] [] []

variable [Facts₀]

def dot_S3072x3072_S3072x10_S3072x10_1_0_0_1_n_n : DotDims S3072x3072 S3072x10 S3072x10 where
  lhsContracting := [1]
  rhsContracting := [0]
  lhsNonContracting := [0]
  rhsNonContracting := [1]
  lhsBatch := []
  rhsBatch := []
  wf := dot_S3072x3072_S3072x10_S3072x10_1_0_0_1_n_n_wf
def dot_S3072x3072x10_S10x10_S3072x3072x10_2_1_01_0_n_n : DotDims S3072x3072x10 S10x10 S3072x3072x10 where
  lhsContracting := [2]
  rhsContracting := [1]
  lhsNonContracting := [0, 1]
  rhsNonContracting := [0]
  lhsBatch := []
  rhsBatch := []
  wf := dot_S3072x3072x10_S10x10_S3072x3072x10_2_1_01_0_n_n_wf
def dot_S3072x3072x10_S1x10_S3072x3072x1_2_1_01_0_n_n : DotDims S3072x3072x10 S1x10 S3072x3072x1 where
  lhsContracting := [2]
  rhsContracting := [1]
  lhsNonContracting := [0, 1]
  rhsNonContracting := [0]
  lhsBatch := []
  rhsBatch := []
  wf := dot_S3072x3072x10_S1x10_S3072x3072x1_2_1_01_0_n_n_wf
def dot_S3072x10_S10x10_S3072x10_1_0_0_1_n_n : DotDims S3072x10 S10x10 S3072x10 where
  lhsContracting := [1]
  rhsContracting := [0]
  lhsNonContracting := [0]
  rhsNonContracting := [1]
  lhsBatch := []
  rhsBatch := []
  wf := dot_S3072x10_S10x10_S3072x10_1_0_0_1_n_n_wf
def dot_S3072x10_S10x1_S3072x1_1_0_0_1_n_n : DotDims S3072x10 S10x1 S3072x1 where
  lhsContracting := [1]
  rhsContracting := [0]
  lhsNonContracting := [0]
  rhsNonContracting := [1]
  lhsBatch := []
  rhsBatch := []
  wf := dot_S3072x10_S10x1_S3072x1_1_0_0_1_n_n_wf
def dot_S2048x3072_S3072x3072_S2048x3072_1_0_0_1_n_n : DotDims S2048x3072 S3072x3072 S2048x3072 where
  lhsContracting := [1]
  rhsContracting := [0]
  lhsNonContracting := [0]
  rhsNonContracting := [1]
  lhsBatch := []
  rhsBatch := []
  wf := dot_S2048x3072_S3072x3072_S2048x3072_1_0_0_1_n_n_wf

class Facts : Prop extends Facts₀ where

variable [Facts]
-- ==== Proof.KB.Entry.lean ====
import proofs.«164935_j86474871537726_2_alg».proof.Proof.Gen.Kernel.Regions

/-!
The buffer contents each kernel region is entered from, read at the TensorCore's references: the running valuation of
the program's items (launch contents, then each host stretch applied, then each region's results put in).
-/

noncomputable section

namespace Cert.Kernel.Gen

open Idealize.ShloMosaic Idealize.ShloMosaic.TcCoe Idealize.SL.Sem

variable {F : FTy → Type} [FloatOps F]
variable (m : (ℓ : Loc nD τ sig) → Buf (Elt F) ℓ) (outs : Outs (F := F))

/-- Region 0's entry contents. -/
abbrev U1 : (c : Dev nD) → (b : Ref sig .tc) → Buf (Elt F) ((c : Thread nD τ).loc b) := fun c b => V1 m c b
/-- Region 1's entry contents. -/
abbrev U2 : (c : Dev nD) → (b : Ref sig .tc) → Buf (Elt F) ((c : Thread nD τ).loc b) := fun c b => V2 m outs c b
/-- Region 2's entry contents. -/
abbrev U4 : (c : Dev nD) → (b : Ref sig .tc) → Buf (Elt F) ((c : Thread nD τ).loc b) := fun c b => V4 m outs c b
/-- Region 3's entry contents. -/
abbrev U5 : (c : Dev nD) → (b : Ref sig .tc) → Buf (Elt F) ((c : Thread nD τ).loc b) := fun c b => V5 m outs c b
/-- Region 4's entry contents. -/
abbrev U11 : (c : Dev nD) → (b : Ref sig .tc) → Buf (Elt F) ((c : Thread nD τ).loc b) := fun c b => V11 m outs c b

end Cert.Kernel.Gen

end
-- ==== Proof.KB.R0Run.lean ====
import proofs.«164935_j86474871537726_2_alg».proof.Proof.Gen.Kernel.Launch
import proofs.«164935_j86474871537726_2_alg».proof.Proof.Gen.Kernel.Skeleton
import proofs.«164935_j86474871537726_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Region 0: a matrix product accumulated over the last grid axis. At a grid point the body zeroes its accumulator
when the contraction block index is 0, adds the product of the two input blocks to it, and copies it to the output
block. What the accumulator and the output block hold after each point is defined by recursion over the points
(`acc0`), the invariant carries the accumulator from a point to the next, and the body obligation follows case by case.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition: the contraction block index is 0 -/

abbrev cond0 (i : grid0.Coords) : Prop := (Scalar.cmpi .ne (Scalar.extui (Scalar.cmpi .eq (BitVec.ofNat 32 (i 2).val) 0#32)) 0#32) = 1#1
/-- It holds at the points ≡ 0 (mod 6). -/
theorem hcond0 : ∀ t : Fin cfg0.N, cond0 (grid0.coords t) ↔ t.val % 6 = 0 :=
  (by decide +kernel : ∀ t : Fin grid0.N, cond0 (grid0.coords t) ↔ t.val % 6 = 0)

/-! ## The memrefs the body is called with -/

abbrev VO0 : View sig .tc .vmem S512x10 .f32 := (Memref.whole cc0_stg2_0 : Memref sig .tc .vmem S512x10 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x10 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x10 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S512x10 .f32 := Memref.whole cc0_scratch0
abbrev VS0 : View sig .tc .vmem S512x10 .f32 := (scM0).view

/-- The class invariant with the accumulator taken out of the scoped rest at some contents. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## The body's run, case by case -/

set_option maxHeartbeats 1000000 in
/-- The first contraction block: the accumulator is zeroed, then the product added. The pieces the output buffer and the
    accumulator end with are found by the run. -/
noncomputable def kernelRun0_A (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : cond0 i)
    (x0 : Vec F S512x512 .f32) (x1 : Vec F S512x10 .f32) :
    Σ' (L2 : List (View.Piece (Elt F) S512x10 .f32)), { LS : List (View.Piece (Elt F) S512x10 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__mm_kernel i arg3 harg3 arg4 harg4 arg5 harg5 arg6 harg6) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

set_option maxHeartbeats 1000000 in
/-- A later contraction block: the product is added to what the point before left in the accumulator (`xs`). -/
noncomputable def kernelRun0_B (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : ¬cond0 i)
    (x0 : Vec F S512x512 .f32) (x1 : Vec F S512x10 .f32) (xs : Vec F S512x10 .f32) :
    Σ' (L2 : List (View.Piece (Elt F) S512x10 .f32)), { LS : List (View.Piece (Elt F) S512x10 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__mm_kernel i arg3 harg3 arg4 harg4 arg5 harg5 arg6 harg6) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Gen

end
-- ==== Proof.KB.R0.lean ====
import proofs.«164935_j86474871537726_2_alg».proof.Proof.KB.R0Run

/-!
Region 0, continued: what the output block and the accumulator hold after each grid point (`acc0`), the invariant
that carries the accumulator between points, the proof data and the body obligation.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover0_A (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : cond0 i)
    (x0 : Vec F S512x512 .f32) (x1 : Vec F S512x10 .f32) (y : S512x10.Idx) :
    ∃ pc ∈ (kernelRun0_A c i arg3 harg3 arg4 harg4 arg5 harg5 arg6 harg6 hc x0 x1).1, y ∈ pc.1.set :=
  View.cover_of_tiledL (kernelRun0_A c i arg3 harg3 arg4 harg4 arg5 harg5 arg6 harg6 hc x0 x1).1 S512x10.size (by sl_kernel_rfl) y
theorem scover0_A (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : cond0 i)
    (x0 : Vec F S512x512 .f32) (x1 : Vec F S512x10 .f32) (y : S512x10.Idx) :
    ∃ pc ∈ (kernelRun0_A c i arg3 harg3 arg4 harg4 arg5 harg5 arg6 harg6 hc x0 x1).2.1, y ∈ pc.1.set :=
  View.cover_of_tiledL (kernelRun0_A c i arg3 harg3 arg4 harg4 arg5 harg5 arg6 harg6 hc x0 x1).2.1 S512x10.size (by sl_kernel_rfl) y
/-- The output block after a first contraction block. -/
def out0_A (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : cond0 i)
    (x0 : Vec F S512x512 .f32) (x1 : Vec F S512x10 .f32) : Vec F S512x10 .f32 :=
  VO0.read (Elt F) (VO0.writes (Elt F) VO0.junk (kernelRun0_A c i arg3 harg3 arg4 harg4 arg5 harg5 arg6 harg6 hc x0 x1).1)
/-- The accumulator after a first contraction block. -/
def sout0_A (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : cond0 i)
    (x0 : Vec F S512x512 .f32) (x1 : Vec F S512x10 .f32) : Vec F S512x10 .f32 :=
  VS0.read (Elt F) (VS0.writes (Elt F) VS0.junk (kernelRun0_A c i arg3 harg3 arg4 harg4 arg5 harg5 arg6 harg6 hc x0 x1).2.1)

theorem cover0_B (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : ¬cond0 i)
    (x0 : Vec F S512x512 .f32) (x1 : Vec F S512x10 .f32) (xs : Vec F S512x10 .f32) (y : S512x10.Idx) :
    ∃ pc ∈ (kernelRun0_B c i arg3 harg3 arg4 harg4 arg5 harg5 arg6 harg6 hc x0 x1 xs).1, y ∈ pc.1.set :=
  View.cover_of_tiledL (kernelRun0_B c i arg3 harg3 arg4 harg4 arg5 harg5 arg6 harg6 hc x0 x1 xs).1 S512x10.size (by sl_kernel_rfl) y
theorem scover0_B (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : ¬cond0 i)
    (x0 : Vec F S512x512 .f32) (x1 : Vec F S512x10 .f32) (xs : Vec F S512x10 .f32) (y : S512x10.Idx) :
    ∃ pc ∈ (kernelRun0_B c i arg3 harg3 arg4 harg4 arg5 harg5 arg6 harg6 hc x0 x1 xs).2.1, y ∈ pc.1.set :=
  View.cover_of_tiledL (kernelRun0_B c i arg3 harg3 arg4 harg4 arg5 harg5 arg6 harg6 hc x0 x1 xs).2.1 S512x10.size (by sl_kernel_rfl) y
/-- The output block after a later contraction block, from what the accumulator held (`xs`). -/
def out0_B (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : ¬cond0 i)
    (x0 : Vec F S512x512 .f32) (x1 : Vec F S512x10 .f32) (xs : Vec F S512x10 .f32) : Vec F S512x10 .f32 :=
  VO0.read (Elt F) (VO0.writes (Elt F) VO0.junk (kernelRun0_B c i arg3 harg3 arg4 harg4 arg5 harg5 arg6 harg6 hc x0 x1 xs).1)
/-- The accumulator after a later contraction block. -/
def sout0_B (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : ¬cond0 i)
    (x0 : Vec F S512x512 .f32) (x1 : Vec F S512x10 .f32) (xs : Vec F S512x10 .f32) : Vec F S512x10 .f32 :=
  VS0.read (Elt F) (VS0.writes (Elt F) VS0.junk (kernelRun0_B c i arg3 harg3 arg4 harg4 arg5 harg5 arg6 harg6 hc x0 x1 xs).2.1)

/-! ## The accumulation over the grid points -/

/-- What the output block and the accumulator hold after the body at position `n` (output, accumulator). -/
def acc0 (c : Dev nD) : (n : ℕ) → n < cfg0.N → Vec F S512x10 .f32 × Vec F S512x10 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩),
              sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn =>
    if h0 : (n + 1) % 6 = 0 then
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩),
       sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩))
    else
      (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (acc0 c n (Nat.lt_of_succ_lt hn)).2,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (acc0 c n (Nat.lt_of_succ_lt hn)).2)

theorem acc0_A (c : Dev nD) (t : Fin cfg0.N) (h0 : t.val % 6 = 0) :
    acc0 V c t.val t.isLt = (out0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact (dif_pos h0).trans rfl

theorem acc0_B (c : Dev nD) (t : Fin cfg0.N) (h0 : ¬t.val % 6 = 0) :
    acc0 V c t.val t.isLt = (out0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (acc0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (acc0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: before the first point the class's; afterwards the accumulator at what the point
    before left in it, the rest of the scoped buffers untouched, the generator register at some state. -/
def PhiS0 (c : Dev nD) : (n : ℕ) → n ≤ cfg0.N → sProp 𝕄
  | 0, _ => Pipeline.ΦA spec0 c
  | n + 1, hn => iprop(iprop(owns (c : Thread nD τ) scM0 fullShare ((acc0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((acc0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((acc0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  have hN : t.val < 36 := lt_of_lt_of_eq t.isLt (show cfg0.N = 36 from N_0)
  by_cases h0 : t.val % 6 = 0
  · rw [acc0_A V c t h0]
    unfold out0_A sout0_A; (try dsimp only)
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
    · rw [PhiS0_castSucc V c t, PhiS0_pos V c _ _ hz]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
  · rw [acc0_B V c t h0]
    unfold out0_B sout0_B; (try dsimp only)
    have hz : t.val ≠ 0 := fun h => h0 (by rw [h])
    rw [PhiS0_castSucc V c t, PhiS0_pos V c _ _ hz]
    iintro ⟨⟨⟨HS, HR⟩, Hg⟩, Ho, ⟨%d0, H0⟩, ⟨%d1, H1⟩, ⟨%d2, H2⟩⟩
    iapply ((kernelRun0_B c (grid0.coords t) _ _ _ _ _ _ _ _ (fun h => h0 ((hcond0 t).mp h)) (iblk0 V c 0 t) (iblk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover0_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 36 := N_0; omega), PhiA0_eq]
  iintro ⟨⟨HS, HR⟩, Hg⟩
  isplitl [HS HR]
  · isplitl [HS]
    · iexists _; iexact HS
    iexact HR
  iexact Hg

end Cert.Kernel.Gen

end
-- ==== Proof.KB.R1Run.lean ====
import proofs.«164935_j86474871537726_2_alg».proof.Proof.Gen.Kernel.Launch
import proofs.«164935_j86474871537726_2_alg».proof.Proof.Gen.Kernel.Skeleton
import proofs.«164935_j86474871537726_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Region 1: a matrix product accumulated over the last grid axis. At a grid point the body zeroes its accumulator
when the contraction block index is 0, adds the product of the two input blocks to it, and copies it to the output
block. What the accumulator and the output block hold after each point is defined by recursion over the points
(`acc1`), the invariant carries the accumulator from a point to the next, and the body obligation follows case by case.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition: the contraction block index is 0 -/

abbrev cond1 (i : grid1.Coords) : Prop := (Scalar.cmpi .ne (Scalar.extui (Scalar.cmpi .eq (BitVec.ofNat 32 (i 2).val) 0#32)) 0#32) = 1#1
/-- It holds at the points ≡ 0 (mod 6). -/
theorem hcond1 : ∀ t : Fin cfg1.N, cond1 (grid1.coords t) ↔ t.val % 6 = 0 :=
  (by decide +kernel : ∀ t : Fin grid1.N, cond1 (grid1.coords t) ↔ t.val % 6 = 0)

/-! ## The memrefs the body is called with -/

abbrev VO1 : View sig .tc .vmem S10x512 .f32 := (Memref.whole cc1_stg2_0 : Memref sig .tc .vmem S10x512 .f32).view
abbrev ms1_0 (t : Fin cfg1.N) : Memref sig .tc .vmem S10x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10x512 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S10x512 .f32 := Memref.whole cc1_scratch0
abbrev VS1 : View sig .tc .vmem S10x512 .f32 := (scM1).view

/-- The class invariant with the accumulator taken out of the scoped rest at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's run, case by case -/

set_option maxHeartbeats 1000000 in
/-- The first contraction block: the accumulator is zeroed, then the product added. The pieces the output buffer and the
    accumulator end with are found by the run. -/
noncomputable def kernelRun1_A (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond1 i)
    (x0 : Vec F S10x512 .f32) (x1 : Vec F S512x512 .f32) :
    Σ' (L2 : List (View.Piece (Elt F) S10x512 .f32)), { LS : List (View.Piece (Elt F) S10x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__mm_kernel i arg3 harg3 arg4 harg4 arg5 harg5 arg6 harg6) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

set_option maxHeartbeats 1000000 in
/-- A later contraction block: the product is added to what the point before left in the accumulator (`xs`). -/
noncomputable def kernelRun1_B (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond1 i)
    (x0 : Vec F S10x512 .f32) (x1 : Vec F S512x512 .f32) (xs : Vec F S10x512 .f32) :
    Σ' (L2 : List (View.Piece (Elt F) S10x512 .f32)), { LS : List (View.Piece (Elt F) S10x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__mm_kernel i arg3 harg3 arg4 harg4 arg5 harg5 arg6 harg6) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Gen

end
-- ==== Proof.KB.R1.lean ====
import proofs.«164935_j86474871537726_2_alg».proof.Proof.KB.R1Run

/-!
Region 1, continued: what the output block and the accumulator hold after each grid point (`acc1`), the invariant
that carries the accumulator between points, the proof data and the body obligation.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover1_A (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond1 i)
    (x0 : Vec F S10x512 .f32) (x1 : Vec F S512x512 .f32) (y : S10x512.Idx) :
    ∃ pc ∈ (kernelRun1_A c i arg3 harg3 arg4 harg4 arg5 harg5 arg6 harg6 hc x0 x1).1, y ∈ pc.1.set :=
  View.cover_of_tiledL (kernelRun1_A c i arg3 harg3 arg4 harg4 arg5 harg5 arg6 harg6 hc x0 x1).1 S10x512.size (by sl_kernel_rfl) y
theorem scover1_A (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond1 i)
    (x0 : Vec F S10x512 .f32) (x1 : Vec F S512x512 .f32) (y : S10x512.Idx) :
    ∃ pc ∈ (kernelRun1_A c i arg3 harg3 arg4 harg4 arg5 harg5 arg6 harg6 hc x0 x1).2.1, y ∈ pc.1.set :=
  View.cover_of_tiledL (kernelRun1_A c i arg3 harg3 arg4 harg4 arg5 harg5 arg6 harg6 hc x0 x1).2.1 S10x512.size (by sl_kernel_rfl) y
/-- The output block after a first contraction block. -/
def out1_A (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond1 i)
    (x0 : Vec F S10x512 .f32) (x1 : Vec F S512x512 .f32) : Vec F S10x512 .f32 :=
  VO1.read (Elt F) (VO1.writes (Elt F) VO1.junk (kernelRun1_A c i arg3 harg3 arg4 harg4 arg5 harg5 arg6 harg6 hc x0 x1).1)
/-- The accumulator after a first contraction block. -/
def sout1_A (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond1 i)
    (x0 : Vec F S10x512 .f32) (x1 : Vec F S512x512 .f32) : Vec F S10x512 .f32 :=
  VS1.read (Elt F) (VS1.writes (Elt F) VS1.junk (kernelRun1_A c i arg3 harg3 arg4 harg4 arg5 harg5 arg6 harg6 hc x0 x1).2.1)

theorem cover1_B (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond1 i)
    (x0 : Vec F S10x512 .f32) (x1 : Vec F S512x512 .f32) (xs : Vec F S10x512 .f32) (y : S10x512.Idx) :
    ∃ pc ∈ (kernelRun1_B c i arg3 harg3 arg4 harg4 arg5 harg5 arg6 harg6 hc x0 x1 xs).1, y ∈ pc.1.set :=
  View.cover_of_tiledL (kernelRun1_B c i arg3 harg3 arg4 harg4 arg5 harg5 arg6 harg6 hc x0 x1 xs).1 S10x512.size (by sl_kernel_rfl) y
theorem scover1_B (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond1 i)
    (x0 : Vec F S10x512 .f32) (x1 : Vec F S512x512 .f32) (xs : Vec F S10x512 .f32) (y : S10x512.Idx) :
    ∃ pc ∈ (kernelRun1_B c i arg3 harg3 arg4 harg4 arg5 harg5 arg6 harg6 hc x0 x1 xs).2.1, y ∈ pc.1.set :=
  View.cover_of_tiledL (kernelRun1_B c i arg3 harg3 arg4 harg4 arg5 harg5 arg6 harg6 hc x0 x1 xs).2.1 S10x512.size (by sl_kernel_rfl) y
/-- The output block after a later contraction block, from what the accumulator held (`xs`). -/
def out1_B (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond1 i)
    (x0 : Vec F S10x512 .f32) (x1 : Vec F S512x512 .f32) (xs : Vec F S10x512 .f32) : Vec F S10x512 .f32 :=
  VO1.read (Elt F) (VO1.writes (Elt F) VO1.junk (kernelRun1_B c i arg3 harg3 arg4 harg4 arg5 harg5 arg6 harg6 hc x0 x1 xs).1)
/-- The accumulator after a later contraction block. -/
def sout1_B (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond1 i)
    (x0 : Vec F S10x512 .f32) (x1 : Vec F S512x512 .f32) (xs : Vec F S10x512 .f32) : Vec F S10x512 .f32 :=
  VS1.read (Elt F) (VS1.writes (Elt F) VS1.junk (kernelRun1_B c i arg3 harg3 arg4 harg4 arg5 harg5 arg6 harg6 hc x0 x1 xs).2.1)

/-! ## The accumulation over the grid points -/

/-- What the output block and the accumulator hold after the body at position `n` (output, accumulator). -/
def acc1 (c : Dev nD) : (n : ℕ) → n < cfg1.N → Vec F S10x512 .f32 × Vec F S10x512 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩),
              sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩))
  | n + 1, hn =>
    if h0 : (n + 1) % 6 = 0 then
      (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1 ⟨n + 1, hn⟩).mpr h0) (iblk1 V c 0 ⟨n + 1, hn⟩) (iblk1 V c 1 ⟨n + 1, hn⟩),
       sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1 ⟨n + 1, hn⟩).mpr h0) (iblk1 V c 0 ⟨n + 1, hn⟩) (iblk1 V c 1 ⟨n + 1, hn⟩))
    else
      (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1 ⟨n + 1, hn⟩).mp h)) (iblk1 V c 0 ⟨n + 1, hn⟩) (iblk1 V c 1 ⟨n + 1, hn⟩) (acc1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1 ⟨n + 1, hn⟩).mp h)) (iblk1 V c 0 ⟨n + 1, hn⟩) (iblk1 V c 1 ⟨n + 1, hn⟩) (acc1 c n (Nat.lt_of_succ_lt hn)).2)

theorem acc1_A (c : Dev nD) (t : Fin cfg1.N) (h0 : t.val % 6 = 0) :
    acc1 V c t.val t.isLt = (out1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t),
      sout1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t)) := by
  obtain ⟨n, hn⟩ := t
  cases n with
  | zero => exact rfl
  | succ n => exact (dif_pos h0).trans rfl

theorem acc1_B (c : Dev nD) (t : Fin cfg1.N) (h0 : ¬t.val % 6 = 0) :
    acc1 V c t.val t.isLt = (out1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (acc1 V c (t.val - 1) (Nat.lt_of_le_of_lt (Nat.sub_le _ _) t.isLt)).2,
      sout1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (acc1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: before the first point the class's; afterwards the accumulator at what the point
    before left in it, the rest of the scoped buffers untouched, the generator register at some state. -/
def PhiS1 (c : Dev nD) : (n : ℕ) → n ≤ cfg1.N → sProp 𝕄
  | 0, _ => Pipeline.ΦA spec1 c
  | n + 1, hn => iprop(iprop(owns (c : Thread nD τ) scM1 fullShare ((acc1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((acc1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((acc1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (acc1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (acc1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  have hN : t.val < 36 := lt_of_lt_of_eq t.isLt (show cfg1.N = 36 from N_1)
  by_cases h0 : t.val % 6 = 0
  · rw [acc1_A V c t h0]
    unfold out1_A sout1_A; (try dsimp only)
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩⟩
      iapply ((kernelRun1_A c (grid1.coords t) _ _ _ _ _ _ _ _ ((hcond1 t).mpr h0) (iblk1 V c 0 t) (iblk1 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
    · rw [PhiS1_castSucc V c t, PhiS1_pos V c _ _ hz]
      iintro ⟨⟨⟨HS, HR⟩, Hg⟩, Ho, ⟨%d0, H0⟩, ⟨%d1, H1⟩, ⟨%d2, H2⟩⟩
      iapply ((kernelRun1_A c (grid1.coords t) _ _ _ _ _ _ _ _ ((hcond1 t).mpr h0) (iblk1 V c 0 t) (iblk1 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
  · rw [acc1_B V c t h0]
    unfold out1_B sout1_B; (try dsimp only)
    have hz : t.val ≠ 0 := fun h => h0 (by rw [h])
    rw [PhiS1_castSucc V c t, PhiS1_pos V c _ _ hz]
    iintro ⟨⟨⟨HS, HR⟩, Hg⟩, Ho, ⟨%d0, H0⟩, ⟨%d1, H1⟩, ⟨%d2, H2⟩⟩
    iapply ((kernelRun1_B c (grid1.coords t) _ _ _ _ _ _ _ _ (fun h => h0 ((hcond1 t).mp h)) (iblk1 V c 0 t) (iblk1 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover1_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 36 := N_1; omega), PhiA1_eq]
  iintro ⟨⟨HS, HR⟩, Hg⟩
  isplitl [HS HR]
  · isplitl [HS]
    · iexists _; iexact HS
    iexact HR
  iexact Hg

end Cert.Kernel.Gen

end
-- ==== Proof.KB.R2.lean ====
import proofs.«164935_j86474871537726_2_alg».proof.Proof.Gen.Kernel.Launch
import proofs.«164935_j86474871537726_2_alg».proof.Proof.Gen.Kernel.Skeleton
import proofs.«164935_j86474871537726_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 2 of @main: custom_call 2, `cc2__main_kernel` (pipeline 2), at the entry contents `V` -/

/-! ## What a load reads back -/

/-- A load through a whole memref's own view, the memref held at the raw contents that read `X`, reads `X` through the
    load's rectangle. -/
theorem readAt_unread_ld2 {κ : Kind} {sp : Space} {s : Shape} {e : EltTy} {Val : EltTy → Type} {m : Memref sig κ sp s e}
    (h : m.IsWhole) (X : s.Idx → Val e) (R : Rect s) :
    View.readAt Val m.view R.toLoadRect (h.unread X) = View.ld X R :=
  funext fun x => congrFun (h.read_unread X) (R.toLoadRect.idx x)

/-- A covered load whose box is separated on some axis from the last write's rectangle reads the earlier writes. -/
theorem readCov_cons_of_disj2 {κ : Kind} {sp : Space} {s : Shape} {e : EltTy} {Val : EltTy → Type} [∀ e, Nonempty (Val e)]
    (v : View sig κ sp s e) (r : Rect s) (w : r.shape.Idx → Val e) (L : List (View.Piece Val s e)) (B : LoadRect s)
    (h : LoadRect.disj r B = true) : v.readCov (⟨r, w⟩ :: L) B = v.readCov L B := by
  rw [View.readCov_eq_canon', View.readCov_eq_canon']
  funext j
  exact View.canon_cons_of_not_mem ⟨r, w⟩ L (LoadRect.idx_not_mem_of_disj h j)

open Lean Elab Tactic Meta in
/-- Unfold, in the goal, every auxiliary definition a run of the body named (`….sl.…`): each is a payload over
    earlier ones, a list of written pieces, or a covered load of such a list. -/
elab "unfold_sl2" : tactic => do
  let g ← getMainGoal
  let tgt ← instantiateMVars (← g.getType)
  let isSl (n : Name) : Bool := n.components.contains `sl
  let tgt' ← Meta.transform tgt (pre := fun e => do
    if let .const n _ := e.getAppFn then
      if isSl n then
        if let some e' ← delta? e (fun m => m == n) then return .visit e'.headBeta
    return .continue)
  let g' ← g.replaceTargetDefEq tgt'
  replaceMainGoal [g']

/-! ## The body's values, from the input windows' blocks

Every point runs the same straight-line code. Each value below is one the body computes, over the eight input blocks
`x0 … x7` (the weight block, the row part, the column part, `b1`, `W2`, `b2`, the `W3` row, `b3`): a load of an input
window through its whole rectangle (`View.ld`), a payload the body stores into a slab of the first scratch operand
(`k2t_st12_·`, read back by later loads of that slab) or into the second scratch operand (`k2t_st13_·`: the accumulator,
each store over the one before), or a value a part hands to the next (`k2t_v·`, named as the root sequence binds it). -/

def k2t_v0 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S10 .f32 :=
  View.ld x3 (Rect.unit (s := S10) ![0] S10.size inb_S10_S10_0)
def k2t_v1 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S10x10 .f32 :=
  View.ld x4 (Rect.unit (s := S10x10) ![0, 0] S10x10.size inb_S10x10_S10x10_0_0)
def k2t_v2 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S10 .f32 :=
  View.ld x5 (Rect.unit (s := S10) ![0] S10.size inb_S10_S10_0)
def k2t_v3 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S10 .f32 :=
  View.ld x6 (Rect.unit (s := S10) ![0] S10.size inb_S10_S10_0)
def k2t_v5 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S1 .f32 :=
  View.ld x7 (Rect.unit (s := S1) ![0] S1.size inb_S1_S1_0)
def k2t_v7 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S384x10 .f32 :=
  View.ld x1 (Rect.unit (s := S384x10) ![0, 0] S384x10.size inb_S384x10_S384x10_0_0)
def k2t_v9 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S384x10 .f32 :=
  View.ld x2 (Rect.unit (s := S384x10) ![0, 0] S384x10.size inb_S384x10_S384x10_0_0)
def k2t_st12_1 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay7 (k2t_v0 x0 x1 x2 x3 x4 x5 x6 x7) (k2t_v7 x0 x1 x2 x3 x4 x5 x6 x7) (k2t_v9 x0 x1 x2 x3 x4 x5 x6 x7)
def k2t_v4 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay3 (k2t_v3 x0 x1 x2 x3 x4 x5 x6 x7)
def k2t_v6 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay4 (k2t_v5 x0 x1 x2 x3 x4 x5 x6 x7)
def k2t_v11 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay5 (k2t_v7 x0 x1 x2 x3 x4 x5 x6 x7)
def k2t_v12 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay6 (k2t_v9 x0 x1 x2 x3 x4 x5 x6 x7)
def k2t_v39 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay8 (k2t_v7 x0 x1 x2 x3 x4 x5 x6 x7) (k2t_v9 x0 x1 x2 x3 x4 x5 x6 x7)
def k2t_v42 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay9 (k2t_v0 x0 x1 x2 x3 x4 x5 x6 x7)
def k2t_st12_2 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay10 (k2t_v39 x0 x1 x2 x3 x4 x5 x6 x7) (k2t_v42 x0 x1 x2 x3 x4 x5 x6 x7)
def k2t_st12_3 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay11 (k2t_v0 x0 x1 x2 x3 x4 x5 x6 x7) (k2t_v11 x0 x1 x2 x3 x4 x5 x6 x7) (k2t_v12 x0 x1 x2 x3 x4 x5 x6 x7)
def k2t_st12_4 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay12 (k2t_v0 x0 x1 x2 x3 x4 x5 x6 x7) (k2t_v11 x0 x1 x2 x3 x4 x5 x6 x7) (k2t_v12 x0 x1 x2 x3 x4 x5 x6 x7)
def k2t_v87 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay13 (k2t_v11 x0 x1 x2 x3 x4 x5 x6 x7)
def k2t_st12_5 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay14 (k2t_v0 x0 x1 x2 x3 x4 x5 x6 x7) (k2t_v12 x0 x1 x2 x3 x4 x5 x6 x7) (k2t_v87 x0 x1 x2 x3 x4 x5 x6 x7)
def k2t_st12_6 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay15 (k2t_v0 x0 x1 x2 x3 x4 x5 x6 x7) (k2t_v11 x0 x1 x2 x3 x4 x5 x6 x7) (k2t_v12 x0 x1 x2 x3 x4 x5 x6 x7)
def k2t_v135 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay16 (k2t_v0 x0 x1 x2 x3 x4 x5 x6 x7) (k2t_v11 x0 x1 x2 x3 x4 x5 x6 x7) (k2t_v12 x0 x1 x2 x3 x4 x5 x6 x7)
def k2t_st12_7 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay17 (k2t_v135 x0 x1 x2 x3 x4 x5 x6 x7)
def k2t_st12_8 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay18 (k2t_v0 x0 x1 x2 x3 x4 x5 x6 x7) (k2t_v11 x0 x1 x2 x3 x4 x5 x6 x7) (k2t_v12 x0 x1 x2 x3 x4 x5 x6 x7)
def k2t_st12_9 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay19 (k2t_v0 x0 x1 x2 x3 x4 x5 x6 x7) (k2t_v11 x0 x1 x2 x3 x4 x5 x6 x7) (k2t_v12 x0 x1 x2 x3 x4 x5 x6 x7)
def k2t_v181 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay20 (k2t_v11 x0 x1 x2 x3 x4 x5 x6 x7)
def k2t_v182 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay21 (k2t_v12 x0 x1 x2 x3 x4 x5 x6 x7)
def k2t_st12_10 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay22 (k2t_v0 x0 x1 x2 x3 x4 x5 x6 x7) (k2t_v181 x0 x1 x2 x3 x4 x5 x6 x7) (k2t_v182 x0 x1 x2 x3 x4 x5 x6 x7)
def k2t_st13_11 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay23 (F := F)
def k2t_v218 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay24 (k2t_v1 x0 x1 x2 x3 x4 x5 x6 x7) (k2t_st12_1 x0 x1 x2 x3 x4 x5 x6 x7) (k2t_st12_2 x0 x1 x2 x3 x4 x5 x6 x7) (k2t_st12_3 x0 x1 x2 x3 x4 x5 x6 x7)
def k2t_v220 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay25 (k2t_st12_4 x0 x1 x2 x3 x4 x5 x6 x7)
def k2t_v260 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay26 (k2t_v1 x0 x1 x2 x3 x4 x5 x6 x7) (k2t_v218 x0 x1 x2 x3 x4 x5 x6 x7) (k2t_v220 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7) (k2t_st12_8 x0 x1 x2 x3 x4 x5 x6 x7) (k2t_st12_9 x0 x1 x2 x3 x4 x5 x6 x7)
def k2t_v262 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay27 (k2t_st12_10 x0 x1 x2 x3 x4 x5 x6 x7)
def k2t_st13_12 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay28 (k2t_v1 x0 x1 x2 x3 x4 x5 x6 x7) (k2t_v2 x0 x1 x2 x3 x4 x5 x6 x7) (k2t_v4 x0 x1 x2 x3 x4 x5 x6 x7) (k2t_v260 x0 x1 x2 x3 x4 x5 x6 x7) (k2t_v262 x0 x1 x2 x3 x4 x5 x6 x7) (k2t_st13_11 x0 x1 x2 x3 x4 x5 x6 x7)
def k2t_v304 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay29 (k2t_v1 x0 x1 x2 x3 x4 x5 x6 x7) (k2t_st12_1 x0 x1 x2 x3 x4 x5 x6 x7) (k2t_st12_2 x0 x1 x2 x3 x4 x5 x6 x7) (k2t_st12_3 x0 x1 x2 x3 x4 x5 x6 x7)
def k2t_v346 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay30 (k2t_v1 x0 x1 x2 x3 x4 x5 x6 x7) (k2t_v304 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7) (k2t_st12_8 x0 x1 x2 x3 x4 x5 x6 x7) (k2t_st12_9 x0 x1 x2 x3 x4 x5 x6 x7)
def k2t_st13_13 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay31 (k2t_v1 x0 x1 x2 x3 x4 x5 x6 x7) (k2t_v2 x0 x1 x2 x3 x4 x5 x6 x7) (k2t_v4 x0 x1 x2 x3 x4 x5 x6 x7) (k2t_v346 x0 x1 x2 x3 x4 x5 x6 x7) (k2t_st12_10 x0 x1 x2 x3 x4 x5 x6 x7) (k2t_st13_12 x0 x1 x2 x3 x4 x5 x6 x7)
def k2t_v383 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay32 (k2t_v1 x0 x1 x2 x3 x4 x5 x6 x7) (k2t_st12_1 x0 x1 x2 x3 x4 x5 x6 x7) (k2t_st12_2 x0 x1 x2 x3 x4 x5 x6 x7)
def k2t_v389 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay33 (k2t_v1 x0 x1 x2 x3 x4 x5 x6 x7) (k2t_st12_3 x0 x1 x2 x3 x4 x5 x6 x7)
def k2t_v425 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay34 (k2t_v1 x0 x1 x2 x3 x4 x5 x6 x7) (k2t_v383 x0 x1 x2 x3 x4 x5 x6 x7) (k2t_v389 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7) (k2t_st12_8 x0 x1 x2 x3 x4 x5 x6 x7)
def k2t_v431 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay35 (k2t_v1 x0 x1 x2 x3 x4 x5 x6 x7) (k2t_st12_9 x0 x1 x2 x3 x4 x5 x6 x7)
def k2t_st13_14 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay36 (k2t_v1 x0 x1 x2 x3 x4 x5 x6 x7) (k2t_v2 x0 x1 x2 x3 x4 x5 x6 x7) (k2t_v4 x0 x1 x2 x3 x4 x5 x6 x7) (k2t_v425 x0 x1 x2 x3 x4 x5 x6 x7) (k2t_v431 x0 x1 x2 x3 x4 x5 x6 x7) (k2t_st12_10 x0 x1 x2 x3 x4 x5 x6 x7) (k2t_st13_13 x0 x1 x2 x3 x4 x5 x6 x7)
def k2t_v469 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay37 (k2t_v1 x0 x1 x2 x3 x4 x5 x6 x7) (k2t_st12_1 x0 x1 x2 x3 x4 x5 x6 x7) (k2t_st12_2 x0 x1 x2 x3 x4 x5 x6 x7)
def k2t_v471 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay38 (k2t_st12_3 x0 x1 x2 x3 x4 x5 x6 x7)
def k2t_v472 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay39 (k2t_v1 x0 x1 x2 x3 x4 x5 x6 x7)
def k2t_v511 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay40 (k2t_v1 x0 x1 x2 x3 x4 x5 x6 x7) (k2t_v469 x0 x1 x2 x3 x4 x5 x6 x7) (k2t_v471 x0 x1 x2 x3 x4 x5 x6 x7) (k2t_v472 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7) (k2t_st12_8 x0 x1 x2 x3 x4 x5 x6 x7)
def k2t_v513 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay41 (k2t_st12_9 x0 x1 x2 x3 x4 x5 x6 x7)
def k2t_v514 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay42 (k2t_v1 x0 x1 x2 x3 x4 x5 x6 x7)
def k2t_st13_15 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay43 (k2t_v1 x0 x1 x2 x3 x4 x5 x6 x7) (k2t_v2 x0 x1 x2 x3 x4 x5 x6 x7) (k2t_v4 x0 x1 x2 x3 x4 x5 x6 x7) (k2t_v511 x0 x1 x2 x3 x4 x5 x6 x7) (k2t_v513 x0 x1 x2 x3 x4 x5 x6 x7) (k2t_v514 x0 x1 x2 x3 x4 x5 x6 x7) (k2t_st12_10 x0 x1 x2 x3 x4 x5 x6 x7) (k2t_st13_14 x0 x1 x2 x3 x4 x5 x6 x7)
def k2t_v555 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay44 (k2t_v1 x0 x1 x2 x3 x4 x5 x6 x7) (k2t_st12_1 x0 x1 x2 x3 x4 x5 x6 x7) (k2t_st12_2 x0 x1 x2 x3 x4 x5 x6 x7)
def k2t_v597 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay45 (k2t_v1 x0 x1 x2 x3 x4 x5 x6 x7) (k2t_v555 x0 x1 x2 x3 x4 x5 x6 x7) (k2t_st12_3 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7) (k2t_st12_8 x0 x1 x2 x3 x4 x5 x6 x7)
def k2t_st13_16 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay46 (k2t_v1 x0 x1 x2 x3 x4 x5 x6 x7) (k2t_v2 x0 x1 x2 x3 x4 x5 x6 x7) (k2t_v4 x0 x1 x2 x3 x4 x5 x6 x7) (k2t_v597 x0 x1 x2 x3 x4 x5 x6 x7) (k2t_st12_9 x0 x1 x2 x3 x4 x5 x6 x7) (k2t_st12_10 x0 x1 x2 x3 x4 x5 x6 x7) (k2t_st13_15 x0 x1 x2 x3 x4 x5 x6 x7)
def k2t_v641 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay47 (k2t_v1 x0 x1 x2 x3 x4 x5 x6 x7) (k2t_st12_1 x0 x1 x2 x3 x4 x5 x6 x7) (k2t_st12_2 x0 x1 x2 x3 x4 x5 x6 x7)
def k2t_v683 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay48 (k2t_v1 x0 x1 x2 x3 x4 x5 x6 x7) (k2t_v641 x0 x1 x2 x3 x4 x5 x6 x7) (k2t_st12_3 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7) (k2t_st12_8 x0 x1 x2 x3 x4 x5 x6 x7)
def k2t_st13_17 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay49 (k2t_v1 x0 x1 x2 x3 x4 x5 x6 x7) (k2t_v2 x0 x1 x2 x3 x4 x5 x6 x7) (k2t_v4 x0 x1 x2 x3 x4 x5 x6 x7) (k2t_v683 x0 x1 x2 x3 x4 x5 x6 x7) (k2t_st12_9 x0 x1 x2 x3 x4 x5 x6 x7) (k2t_st12_10 x0 x1 x2 x3 x4 x5 x6 x7) (k2t_st13_16 x0 x1 x2 x3 x4 x5 x6 x7)
def k2t_v720 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay50 (k2t_v1 x0 x1 x2 x3 x4 x5 x6 x7) (k2t_st12_1 x0 x1 x2 x3 x4 x5 x6 x7)
def k2t_v722 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay51 (k2t_st12_2 x0 x1 x2 x3 x4 x5 x6 x7)
def k2t_v724 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay52 (k2t_v1 x0 x1 x2 x3 x4 x5 x6 x7)
def k2t_v762 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay53 (k2t_v1 x0 x1 x2 x3 x4 x5 x6 x7) (k2t_v720 x0 x1 x2 x3 x4 x5 x6 x7) (k2t_v722 x0 x1 x2 x3 x4 x5 x6 x7) (k2t_v724 x0 x1 x2 x3 x4 x5 x6 x7) (k2t_st12_3 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7)
def k2t_v764 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay54 (k2t_st12_8 x0 x1 x2 x3 x4 x5 x6 x7)
def k2t_v766 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay55 (k2t_v1 x0 x1 x2 x3 x4 x5 x6 x7)
def k2t_st13_18 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay56 (k2t_v1 x0 x1 x2 x3 x4 x5 x6 x7) (k2t_v2 x0 x1 x2 x3 x4 x5 x6 x7) (k2t_v4 x0 x1 x2 x3 x4 x5 x6 x7) (k2t_v762 x0 x1 x2 x3 x4 x5 x6 x7) (k2t_v764 x0 x1 x2 x3 x4 x5 x6 x7) (k2t_v766 x0 x1 x2 x3 x4 x5 x6 x7) (k2t_st12_9 x0 x1 x2 x3 x4 x5 x6 x7) (k2t_st12_10 x0 x1 x2 x3 x4 x5 x6 x7) (k2t_st13_17 x0 x1 x2 x3 x4 x5 x6 x7)
def k2t_v806 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay57 (k2t_v1 x0 x1 x2 x3 x4 x5 x6 x7) (k2t_st12_1 x0 x1 x2 x3 x4 x5 x6 x7)
def k2t_v848 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay58 (k2t_v1 x0 x1 x2 x3 x4 x5 x6 x7) (k2t_v806 x0 x1 x2 x3 x4 x5 x6 x7) (k2t_st12_2 x0 x1 x2 x3 x4 x5 x6 x7) (k2t_st12_3 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7)
def k2t_st13_19 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay59 (k2t_v1 x0 x1 x2 x3 x4 x5 x6 x7) (k2t_v2 x0 x1 x2 x3 x4 x5 x6 x7) (k2t_v4 x0 x1 x2 x3 x4 x5 x6 x7) (k2t_v848 x0 x1 x2 x3 x4 x5 x6 x7) (k2t_st12_8 x0 x1 x2 x3 x4 x5 x6 x7) (k2t_st12_9 x0 x1 x2 x3 x4 x5 x6 x7) (k2t_st12_10 x0 x1 x2 x3 x4 x5 x6 x7) (k2t_st13_18 x0 x1 x2 x3 x4 x5 x6 x7)
def k2t_v892 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay60 (k2t_v1 x0 x1 x2 x3 x4 x5 x6 x7) (k2t_st12_1 x0 x1 x2 x3 x4 x5 x6 x7)
def k2t_v934 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay61 (k2t_v1 x0 x1 x2 x3 x4 x5 x6 x7) (k2t_v892 x0 x1 x2 x3 x4 x5 x6 x7) (k2t_st12_2 x0 x1 x2 x3 x4 x5 x6 x7) (k2t_st12_3 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7)
def k2t_st13_20 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay62 (k2t_v1 x0 x1 x2 x3 x4 x5 x6 x7) (k2t_v2 x0 x1 x2 x3 x4 x5 x6 x7) (k2t_v4 x0 x1 x2 x3 x4 x5 x6 x7) (k2t_v934 x0 x1 x2 x3 x4 x5 x6 x7) (k2t_st12_8 x0 x1 x2 x3 x4 x5 x6 x7) (k2t_st12_9 x0 x1 x2 x3 x4 x5 x6 x7) (k2t_st12_10 x0 x1 x2 x3 x4 x5 x6 x7) (k2t_st13_19 x0 x1 x2 x3 x4 x5 x6 x7)
def k2t_v971 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay63 (F := F)
def k2t_v973 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay64 (k2t_st12_1 x0 x1 x2 x3 x4 x5 x6 x7)
def k2t_v976 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay65 (k2t_v1 x0 x1 x2 x3 x4 x5 x6 x7)
def k2t_v1013 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay66 (k2t_v1 x0 x1 x2 x3 x4 x5 x6 x7) (k2t_v971 x0 x1 x2 x3 x4 x5 x6 x7) (k2t_v973 x0 x1 x2 x3 x4 x5 x6 x7) (k2t_v976 x0 x1 x2 x3 x4 x5 x6 x7) (k2t_st12_2 x0 x1 x2 x3 x4 x5 x6 x7) (k2t_st12_3 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7)
def k2t_v1015 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay67 (k2t_st12_7 x0 x1 x2 x3 x4 x5 x6 x7)
def k2t_v1018 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay68 (k2t_v1 x0 x1 x2 x3 x4 x5 x6 x7)
def k2t_st13_21 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay69 (k2t_v1 x0 x1 x2 x3 x4 x5 x6 x7) (k2t_v2 x0 x1 x2 x3 x4 x5 x6 x7) (k2t_v4 x0 x1 x2 x3 x4 x5 x6 x7) (k2t_v1013 x0 x1 x2 x3 x4 x5 x6 x7) (k2t_v1015 x0 x1 x2 x3 x4 x5 x6 x7) (k2t_v1018 x0 x1 x2 x3 x4 x5 x6 x7) (k2t_st12_8 x0 x1 x2 x3 x4 x5 x6 x7) (k2t_st12_9 x0 x1 x2 x3 x4 x5 x6 x7) (k2t_st12_10 x0 x1 x2 x3 x4 x5 x6 x7) (k2t_st13_20 x0 x1 x2 x3 x4 x5 x6 x7)
def k2t_v1057 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S384x384 .f32 :=
  View.ld x0 (Rect.unit (s := S384x384) ![0, 0] S384x384.size inb_S384x384_S384x384_0_0)
def k2t_v1059 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay70 (k2t_v1057 x0 x1 x2 x3 x4 x5 x6 x7) (k2t_st13_21 x0 x1 x2 x3 x4 x5 x6 x7)
def k2t_st10_22 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay1 (k2t_v6 x0 x1 x2 x3 x4 x5 x6 x7) (k2t_v1059 x0 x1 x2 x3 x4 x5 x6 x7)
def k2t_st11_23 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay2 (k2t_v6 x0 x1 x2 x3 x4 x5 x6 x7) (k2t_v1059 x0 x1 x2 x3 x4 x5 x6 x7)

/-! ## What the body leaves in each output window's buffer -/

/-- Window 8's staging buffer after the body, from the input windows' blocks: its one store, whole. -/
def out2_8 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S384x384 .f32 :=
  View.canon [⟨Rect.unit (s := S384x384) ![0, 0] S384x384.size inb_S384x384_S384x384_0_0, k2_pay1 (k2t_v6 x0 x1 x2 x3 x4 x5 x6 x7) (k2t_v1059 x0 x1 x2 x3 x4 x5 x6 x7)⟩]

/-- Window 9's staging buffer after the body, from the input windows' blocks: its one store, whole. -/
def out2_9 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S384x384 .bf16 :=
  View.canon [⟨Rect.unit (s := S384x384) ![0, 0] S384x384.size inb_S384x384_S384x384_0_0, k2_pay2 (k2t_v6 x0 x1 x2 x3 x4 x5 x6 x7) (k2t_v1059 x0 x1 x2 x3 x4 x5 x6 x7)⟩]

theorem offsets_zero2 : (![0, 0] : Fin S384x384.rank → ℕ) = fun _ => 0 := by
  funext a; fin_cases a <;> rfl

/-- The one store fills the buffer: what it leaves is its payload. -/
theorem out2_8_eq (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :
    out2_8 x0 x1 x2 x3 x4 x5 x6 x7 = k2_pay1 (k2t_v6 x0 x1 x2 x3 x4 x5 x6 x7) (k2t_v1059 x0 x1 x2 x3 x4 x5 x6 x7) :=
  View.canon_unit_zero offsets_zero2 inb_S384x384_S384x384_0_0 _

theorem out2_9_eq (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :
    out2_9 x0 x1 x2 x3 x4 x5 x6 x7 = k2_pay2 (k2t_v6 x0 x1 x2 x3 x4 x5 x6 x7) (k2t_v1059 x0 x1 x2 x3 x4 x5 x6 x7) :=
  View.canon_unit_zero offsets_zero2 inb_S384x384_S384x384_0_0 _

/-- Its store tiles the buffer (checked by evaluation), so it covers it. -/
theorem cover2_8 (p0 : Vec F S384x384 .f32) (y : S384x384.Idx) :
    ∃ pc ∈ ([⟨Rect.unit (s := S384x384) ![0, 0] S384x384.size inb_S384x384_S384x384_0_0, p0⟩] : List (View.Piece (Elt F) S384x384 .f32)), y ∈ pc.1.set :=
  View.cover_of_tiled [⟨Rect.unit (s := S384x384) ![0, 0] S384x384.size inb_S384x384_S384x384_0_0, p0⟩] S384x384.size (by rfl) y

theorem cover2_9 (p0 : Vec F S384x384 .bf16) (y : S384x384.Idx) :
    ∃ pc ∈ ([⟨Rect.unit (s := S384x384) ![0, 0] S384x384.size inb_S384x384_S384x384_0_0, p0⟩] : List (View.Piece (Elt F) S384x384 .bf16)), y ∈ pc.1.set :=
  View.cover_of_tiled [⟨Rect.unit (s := S384x384) ![0, 0] S384x384.size inb_S384x384_S384x384_0_0, p0⟩] S384x384.size (by rfl) y

/-! ## The body's triple -/

set_option maxHeartbeats 8000000 in
/-- The kernel body on whole memrefs, the inputs' at read contents `x·`, the outputs' and the two scratch operands' at
    anything, runs to the continuation holding the inputs' as they were, each output's at `out2_·` of the inputs' and the
    scratch operands' at something: the printed functions are their skeletons, run part by part; every slab of the
    first scratch operand is stored before it is read and the second is stored whole before it is read, so each
    load of them reads the payload last stored there. -/
theorem sound_kernel2 (c : Dev nD) (E : Set ℕ) (i : grid2.Coords) (arg2 : Memref sig .tc .vmem S384x384 .f32) (harg2 : arg2.IsWhole) (arg3 : Memref sig .tc .vmem S384x10 .f32) (harg3 : arg3.IsWhole) (arg4 : Memref sig .tc .vmem S384x10 .f32) (harg4 : arg4.IsWhole) (arg5 : Memref sig .tc .vmem S10 .f32) (harg5 : arg5.IsWhole) (arg6 : Memref sig .tc .vmem S10x10 .f32) (harg6 : arg6.IsWhole) (arg7 : Memref sig .tc .vmem S10 .f32) (harg7 : arg7.IsWhole) (arg8 : Memref sig .tc .vmem S10 .f32) (harg8 : arg8.IsWhole) (arg9 : Memref sig .tc .vmem S1 .f32) (harg9 : arg9.IsWhole) (arg10 : Memref sig .tc .vmem S384x384 .f32) (harg10 : arg10.IsWhole) (arg11 : Memref sig .tc .vmem S384x384 .bf16) (harg11 : arg11.IsWhole) (arg12 : Memref sig .tc .vmem S10x384x384 .f32) (harg12 : arg12.IsWhole) (arg13 : Memref sig .tc .vmem S384x384 .f32) (harg13 : arg13.IsWhole)
    (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out2_8 x0 x1 x2 x3 x4 x5 x6 x7) ∗ owns (c : Thread nD τ) arg11 fullShare (out2_9 x0 x1 x2 x3 x4 x5 x6 x7)
            ∗ (∃ d, owns (c : Thread nD τ) arg12 fullShare d) ∗ (∃ d, owns (c : Thread nD τ) arg13 fullShare d)) -∗ K ⟨⟩))
      ⊢ wp frame (wpE (defs₀ (F := F)) Variants.none c none) E (cc2__main_kernel i arg2 harg2 arg3 harg3 arg4 harg4 arg5 harg5 arg6 harg6 arg7 harg7 arg8 harg8 arg9 harg9 arg10 harg10 arg11 harg11 arg12 harg12 arg13 harg13) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d12, %f12, -, H12⟩, ⟨%d13, %f13, -, H13⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec_parts
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (View.read_writes_eq_canon _ _ _ (cover2_8 _)).trans ?_
    unfold out2_8
    unfold_sl2
    simp (disch := first | rfl | decide) only [readAt_unread_ld2, View.readCov_cons_toLoadRect, readCov_cons_of_disj2, k2t_v0, k2t_v1, k2t_v2, k2t_v3, k2t_v5, k2t_v7, k2t_v9, k2t_st12_1, k2t_v4, k2t_v6, k2t_v11, k2t_v12, k2t_v39, k2t_v42, k2t_st12_2, k2t_st12_3, k2t_st12_4, k2t_v87, k2t_st12_5, k2t_st12_6, k2t_v135, k2t_st12_7, k2t_st12_8, k2t_st12_9, k2t_v181, k2t_v182, k2t_st12_10, k2t_st13_11, k2t_v218, k2t_v220, k2t_v260, k2t_v262, k2t_st13_12, k2t_v304, k2t_v346, k2t_st13_13, k2t_v383, k2t_v389, k2t_v425, k2t_v431, k2t_st13_14, k2t_v469, k2t_v471, k2t_v472, k2t_v511, k2t_v513, k2t_v514, k2t_st13_15, k2t_v555, k2t_v597, k2t_st13_16, k2t_v641, k2t_v683, k2t_st13_17, k2t_v720, k2t_v722, k2t_v724, k2t_v762, k2t_v764, k2t_v766, k2t_st13_18, k2t_v806, k2t_v848, k2t_st13_19, k2t_v892, k2t_v934, k2t_st13_20, k2t_v971, k2t_v973, k2t_v976, k2t_v1013, k2t_v1015, k2t_v1018, k2t_st13_21, k2t_v1057, k2t_v1059, k2t_st10_22, k2t_st11_23]
  isplitl [H9]
  · iexists _; isplitr
    swap; · iexact H9
    ipureintro
    refine (View.read_writes_eq_canon _ _ _ (cover2_9 _)).trans ?_
    unfold out2_9
    unfold_sl2
    simp (disch := first | rfl | decide) only [readAt_unread_ld2, View.readCov_cons_toLoadRect, readCov_cons_of_disj2, k2t_v0, k2t_v1, k2t_v2, k2t_v3, k2t_v5, k2t_v7, k2t_v9, k2t_st12_1, k2t_v4, k2t_v6, k2t_v11, k2t_v12, k2t_v39, k2t_v42, k2t_st12_2, k2t_st12_3, k2t_st12_4, k2t_v87, k2t_st12_5, k2t_st12_6, k2t_v135, k2t_st12_7, k2t_st12_8, k2t_st12_9, k2t_v181, k2t_v182, k2t_st12_10, k2t_st13_11, k2t_v218, k2t_v220, k2t_v260, k2t_v262, k2t_st13_12, k2t_v304, k2t_v346, k2t_st13_13, k2t_v383, k2t_v389, k2t_v425, k2t_v431, k2t_st13_14, k2t_v469, k2t_v471, k2t_v472, k2t_v511, k2t_v513, k2t_v514, k2t_st13_15, k2t_v555, k2t_v597, k2t_st13_16, k2t_v641, k2t_v683, k2t_st13_17, k2t_v720, k2t_v722, k2t_v724, k2t_v762, k2t_v764, k2t_v766, k2t_st13_18, k2t_v806, k2t_v848, k2t_st13_19, k2t_v892, k2t_v934, k2t_st13_20, k2t_v971, k2t_v973, k2t_v976, k2t_v1013, k2t_v1015, k2t_v1018, k2t_st13_21, k2t_v1057, k2t_v1059, k2t_st10_22, k2t_st11_23]
  isplitl [H12]
  · iexists _; iexists _; isplitr
    swap; · iexact H12
    ipureintro; rfl
  iexists _; iexists _; isplitr
  swap; · iexact H13
  ipureintro; rfl

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place (unfetched, the index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place (unfetched, the index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place (unfetched, the index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place (unfetched, the index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place (unfetched, the index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place (unfetched, the index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place (unfetched, the index has not moved). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s and whose body leaves the block in place (unfetched, the index has not moved). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of pipeline 2 on core `c`: the arrays as the region finds them (`V`); after the body at point `t`
    each input's buffer at its block and each output's at `out2_·` of the input blocks; the invariant the class's
    (the scoped rest — the two scratch operands among it, at anything — and the generator register); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
    | ⟨9, _⟩ => out2_9 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- The class's invariant with the two scratch operands as memrefs owned at some contents: what the body obligation
    hands the body and takes back. -/
theorem PhiA2_eq (c : Dev nD) :
    (Pipeline.ΦA spec2 c : sProp 𝕄)
      = iprop(iprop(iprop((∃ d, owns (c : Thread nD τ) (Memref.whole cc2_scratch0) fullShare d) ∗ (∃ d, owns (c : Thread nD τ) (Memref.whole cc2_scratch1) fullShare d))
          ∗ Pipeline.scopedRestBut (Ix := Unit) (Name := ℕ) (U := UR sig nD τ) (Lvl := ℕ) (Val := Elt F) spec2 c [cc2_scratch0, cc2_scratch1])
        ∗ (∃ r, prngReg c r)) := by
  unfold Pipeline.ΦA; rw [scopedRest2_split]; simp only [owns_whole]

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 4000000 in
/-- The body at any point: the inputs' memrefs hold their blocks, the invariant hands over the two scratch operands at
    some contents, so the body's triple applies; the scratch operands go back into the invariant at whatever they hold
    (nothing is carried between points), the rest of the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  rw [show (dat2 V c).Φ t.castSucc = Pipeline.ΦA spec2 c from rfl, PhiA2_eq]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 HR Hg]
  · isplitr [Hg]
    · isplitr [HR]
      · isplitl [HS0]; · iexact HS0
        iexact HS1
      · iexact HR
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := .rfl

/-- The invariant after the last point is what the region hands back. -/
theorem hout2 (c : Dev nD) : (dat2 V c).Φ (Fin.last cfg2.N) ⊢ (Pipeline.ΦA spec2 c : sProp 𝕄) := .rfl

end Region

end Cert.Kernel.Gen

end
-- ==== Proof.KB.R3Run.lean ====
import proofs.«164935_j86474871537726_2_alg».proof.Proof.Gen.Kernel.Launch
import proofs.«164935_j86474871537726_2_alg».proof.Proof.Gen.Kernel.Skeleton
import proofs.«164935_j86474871537726_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Region 3: a matrix product accumulated over the last grid axis. At a grid point the body zeroes its accumulator
when the contraction block index is 0, adds the product of the two input blocks to it, and copies it to the output
block. What the accumulator and the output block hold after each point is defined by recursion over the points
(`acc3`), the invariant carries the accumulator from a point to the next, and the body obligation follows case by case.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition: the contraction block index is 0 -/

abbrev cond3 (i : grid3.Coords) : Prop := (Scalar.cmpi .ne (Scalar.extui (Scalar.cmpi .eq (BitVec.ofNat 32 (i 2).val) 0#32)) 0#32) = 1#1
/-- It holds at the points ≡ 0 (mod 6). -/
theorem hcond3 : ∀ t : Fin cfg3.N, cond3 (grid3.coords t) ↔ t.val % 6 = 0 :=
  (by decide +kernel : ∀ t : Fin grid3.N, cond3 (grid3.coords t) ↔ t.val % 6 = 0)

/-! ## The memrefs the body is called with -/

abbrev VO3 : View sig .tc .vmem S10x512 .f32 := (Memref.whole cc3_stg2_0 : Memref sig .tc .vmem S10x512 .f32).view
abbrev ms3_0 (t : Fin cfg3.N) : Memref sig .tc .vmem S10x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S10x512 .f32 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev scM3 : Memref sig .tc .vmem S10x512 .f32 := Memref.whole cc3_scratch0
abbrev VS3 : View sig .tc .vmem S10x512 .f32 := (scM3).view

/-- The class invariant with the accumulator taken out of the scoped rest at some contents. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's run, case by case -/

set_option maxHeartbeats 1000000 in
/-- The first contraction block: the accumulator is zeroed, then the product added. The pieces the output buffer and the
    accumulator end with are found by the run. -/
noncomputable def kernelRun3_A (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond3 i)
    (x0 : Vec F S10x512 .f32) (x1 : Vec F S512x512 .f32) :
    Σ' (L2 : List (View.Piece (Elt F) S10x512 .f32)), { LS : List (View.Piece (Elt F) S10x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc3__mm_kernel i arg3 harg3 arg4 harg4 arg5 harg5 arg6 harg6) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

set_option maxHeartbeats 1000000 in
/-- A later contraction block: the product is added to what the point before left in the accumulator (`xs`). -/
noncomputable def kernelRun3_B (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond3 i)
    (x0 : Vec F S10x512 .f32) (x1 : Vec F S512x512 .f32) (xs : Vec F S10x512 .f32) :
    Σ' (L2 : List (View.Piece (Elt F) S10x512 .f32)), { LS : List (View.Piece (Elt F) S10x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc3__mm_kernel i arg3 harg3 arg4 harg4 arg5 harg5 arg6 harg6) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Gen

end
-- ==== Proof.KB.R3.lean ====
import proofs.«164935_j86474871537726_2_alg».proof.Proof.KB.R3Run

/-!
Region 3, continued: what the output block and the accumulator hold after each grid point (`acc3`), the invariant
that carries the accumulator between points, the proof data and the body obligation.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover3_A (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond3 i)
    (x0 : Vec F S10x512 .f32) (x1 : Vec F S512x512 .f32) (y : S10x512.Idx) :
    ∃ pc ∈ (kernelRun3_A c i arg3 harg3 arg4 harg4 arg5 harg5 arg6 harg6 hc x0 x1).1, y ∈ pc.1.set :=
  View.cover_of_tiledL (kernelRun3_A c i arg3 harg3 arg4 harg4 arg5 harg5 arg6 harg6 hc x0 x1).1 S10x512.size (by sl_kernel_rfl) y
theorem scover3_A (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond3 i)
    (x0 : Vec F S10x512 .f32) (x1 : Vec F S512x512 .f32) (y : S10x512.Idx) :
    ∃ pc ∈ (kernelRun3_A c i arg3 harg3 arg4 harg4 arg5 harg5 arg6 harg6 hc x0 x1).2.1, y ∈ pc.1.set :=
  View.cover_of_tiledL (kernelRun3_A c i arg3 harg3 arg4 harg4 arg5 harg5 arg6 harg6 hc x0 x1).2.1 S10x512.size (by sl_kernel_rfl) y
/-- The output block after a first contraction block. -/
def out3_A (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond3 i)
    (x0 : Vec F S10x512 .f32) (x1 : Vec F S512x512 .f32) : Vec F S10x512 .f32 :=
  VO3.read (Elt F) (VO3.writes (Elt F) VO3.junk (kernelRun3_A c i arg3 harg3 arg4 harg4 arg5 harg5 arg6 harg6 hc x0 x1).1)
/-- The accumulator after a first contraction block. -/
def sout3_A (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond3 i)
    (x0 : Vec F S10x512 .f32) (x1 : Vec F S512x512 .f32) : Vec F S10x512 .f32 :=
  VS3.read (Elt F) (VS3.writes (Elt F) VS3.junk (kernelRun3_A c i arg3 harg3 arg4 harg4 arg5 harg5 arg6 harg6 hc x0 x1).2.1)

theorem cover3_B (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond3 i)
    (x0 : Vec F S10x512 .f32) (x1 : Vec F S512x512 .f32) (xs : Vec F S10x512 .f32) (y : S10x512.Idx) :
    ∃ pc ∈ (kernelRun3_B c i arg3 harg3 arg4 harg4 arg5 harg5 arg6 harg6 hc x0 x1 xs).1, y ∈ pc.1.set :=
  View.cover_of_tiledL (kernelRun3_B c i arg3 harg3 arg4 harg4 arg5 harg5 arg6 harg6 hc x0 x1 xs).1 S10x512.size (by sl_kernel_rfl) y
theorem scover3_B (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond3 i)
    (x0 : Vec F S10x512 .f32) (x1 : Vec F S512x512 .f32) (xs : Vec F S10x512 .f32) (y : S10x512.Idx) :
    ∃ pc ∈ (kernelRun3_B c i arg3 harg3 arg4 harg4 arg5 harg5 arg6 harg6 hc x0 x1 xs).2.1, y ∈ pc.1.set :=
  View.cover_of_tiledL (kernelRun3_B c i arg3 harg3 arg4 harg4 arg5 harg5 arg6 harg6 hc x0 x1 xs).2.1 S10x512.size (by sl_kernel_rfl) y
/-- The output block after a later contraction block, from what the accumulator held (`xs`). -/
def out3_B (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond3 i)
    (x0 : Vec F S10x512 .f32) (x1 : Vec F S512x512 .f32) (xs : Vec F S10x512 .f32) : Vec F S10x512 .f32 :=
  VO3.read (Elt F) (VO3.writes (Elt F) VO3.junk (kernelRun3_B c i arg3 harg3 arg4 harg4 arg5 harg5 arg6 harg6 hc x0 x1 xs).1)
/-- The accumulator after a later contraction block. -/
def sout3_B (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond3 i)
    (x0 : Vec F S10x512 .f32) (x1 : Vec F S512x512 .f32) (xs : Vec F S10x512 .f32) : Vec F S10x512 .f32 :=
  VS3.read (Elt F) (VS3.writes (Elt F) VS3.junk (kernelRun3_B c i arg3 harg3 arg4 harg4 arg5 harg5 arg6 harg6 hc x0 x1 xs).2.1)

/-! ## The accumulation over the grid points -/

/-- What the output block and the accumulator hold after the body at position `n` (output, accumulator). -/
def acc3 (c : Dev nD) : (n : ℕ) → n < cfg3.N → Vec F S10x512 .f32 × Vec F S10x512 .f32
  | 0, hn => (out3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3 ⟨0, hn⟩).mpr (Nat.zero_mod _)) (iblk3 V c 0 ⟨0, hn⟩) (iblk3 V c 1 ⟨0, hn⟩),
              sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3 ⟨0, hn⟩).mpr (Nat.zero_mod _)) (iblk3 V c 0 ⟨0, hn⟩) (iblk3 V c 1 ⟨0, hn⟩))
  | n + 1, hn =>
    if h0 : (n + 1) % 6 = 0 then
      (out3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3 ⟨n + 1, hn⟩).mpr h0) (iblk3 V c 0 ⟨n + 1, hn⟩) (iblk3 V c 1 ⟨n + 1, hn⟩),
       sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3 ⟨n + 1, hn⟩).mpr h0) (iblk3 V c 0 ⟨n + 1, hn⟩) (iblk3 V c 1 ⟨n + 1, hn⟩))
    else
      (out3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3 ⟨n + 1, hn⟩).mp h)) (iblk3 V c 0 ⟨n + 1, hn⟩) (iblk3 V c 1 ⟨n + 1, hn⟩) (acc3 c n (Nat.lt_of_succ_lt hn)).2,
       sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3 ⟨n + 1, hn⟩).mp h)) (iblk3 V c 0 ⟨n + 1, hn⟩) (iblk3 V c 1 ⟨n + 1, hn⟩) (acc3 c n (Nat.lt_of_succ_lt hn)).2)

theorem acc3_A (c : Dev nD) (t : Fin cfg3.N) (h0 : t.val % 6 = 0) :
    acc3 V c t.val t.isLt = (out3_A c (grid3.coords t) (ms3_0 t) (hs3_0 t) (ms3_1 t) (hs3_1 t) (ms3_2 t) (hs3_2 t) scM3 (Memref.isWhole_whole _) ((hcond3 t).mpr h0) (iblk3 V c 0 t) (iblk3 V c 1 t),
      sout3_A c (grid3.coords t) (ms3_0 t) (hs3_0 t) (ms3_1 t) (hs3_1 t) (ms3_2 t) (hs3_2 t) scM3 (Memref.isWhole_whole _) ((hcond3 t).mpr h0) (iblk3 V c 0 t) (iblk3 V c 1 t)) := by
  obtain ⟨n, hn⟩ := t
  cases n with
  | zero => exact rfl
  | succ n => exact (dif_pos h0).trans rfl

theorem acc3_B (c : Dev nD) (t : Fin cfg3.N) (h0 : ¬t.val % 6 = 0) :
    acc3 V c t.val t.isLt = (out3_B c (grid3.coords t) (ms3_0 t) (hs3_0 t) (ms3_1 t) (hs3_1 t) (ms3_2 t) (hs3_2 t) scM3 (Memref.isWhole_whole _) (fun h => h0 ((hcond3 t).mp h)) (iblk3 V c 0 t) (iblk3 V c 1 t) (acc3 V c (t.val - 1) (Nat.lt_of_le_of_lt (Nat.sub_le _ _) t.isLt)).2,
      sout3_B c (grid3.coords t) (ms3_0 t) (hs3_0 t) (ms3_1 t) (hs3_1 t) (ms3_2 t) (hs3_2 t) scM3 (Memref.isWhole_whole _) (fun h => h0 ((hcond3 t).mp h)) (iblk3 V c 0 t) (iblk3 V c 1 t) (acc3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: before the first point the class's; afterwards the accumulator at what the point
    before left in it, the rest of the scoped buffers untouched, the generator register at some state. -/
def PhiS3 (c : Dev nD) : (n : ℕ) → n ≤ cfg3.N → sProp 𝕄
  | 0, _ => Pipeline.ΦA spec3 c
  | n + 1, hn => iprop(iprop(owns (c : Thread nD τ) scM3 fullShare ((acc3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((acc3 V c n hn).2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare ((acc3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (acc3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (acc3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [after3_0, after3_1, after3_2]
  have hN : t.val < 36 := lt_of_lt_of_eq t.isLt (show cfg3.N = 36 from N_3)
  by_cases h0 : t.val % 6 = 0
  · rw [acc3_A V c t h0]
    unfold out3_A sout3_A; (try dsimp only)
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩⟩
      iapply ((kernelRun3_A c (grid3.coords t) _ _ _ _ _ _ _ _ ((hcond3 t).mpr h0) (iblk3 V c 0 t) (iblk3 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_A c _ _ _ _ _ _ _ _ _ _ _ _)
    · rw [PhiS3_castSucc V c t, PhiS3_pos V c _ _ hz]
      iintro ⟨⟨⟨HS, HR⟩, Hg⟩, Ho, ⟨%d0, H0⟩, ⟨%d1, H1⟩, ⟨%d2, H2⟩⟩
      iapply ((kernelRun3_A c (grid3.coords t) _ _ _ _ _ _ _ _ ((hcond3 t).mpr h0) (iblk3 V c 0 t) (iblk3 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_A c _ _ _ _ _ _ _ _ _ _ _ _)
  · rw [acc3_B V c t h0]
    unfold out3_B sout3_B; (try dsimp only)
    have hz : t.val ≠ 0 := fun h => h0 (by rw [h])
    rw [PhiS3_castSucc V c t, PhiS3_pos V c _ _ hz]
    iintro ⟨⟨⟨HS, HR⟩, Hg⟩, Ho, ⟨%d0, H0⟩, ⟨%d1, H1⟩, ⟨%d2, H2⟩⟩
    iapply ((kernelRun3_B c (grid3.coords t) _ _ _ _ _ _ _ _ (fun h => h0 ((hcond3 t).mp h)) (iblk3 V c 0 t) (iblk3 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover3_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover3_B c _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ (Pipeline.ΦA spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 36 := N_3; omega), PhiA3_eq]
  iintro ⟨⟨HS, HR⟩, Hg⟩
  isplitl [HS HR]
  · isplitl [HS]
    · iexists _; iexact HS
    iexact HR
  iexact Hg

end Cert.Kernel.Gen

end
-- ==== Proof.KB.R4.lean ====
/- REGION 4 of `proofs.«164935_j86474871537726_2_alg».proof.KernelIdeal`'s @main: custom_call 4, `cc4__final_kernel` (pipeline 4): a bf16
   matrix product plus a bias, then a row softmax, of one [128,3072] block per grid point (16 points). The body loads
   its three input windows whole, loads the output window's buffer once (the value is not used) and stores one payload
   over the whole output buffer. Stated at a PARAMETER `V` — the TensorCore's buffer contents when the region is
   entered —: each window's block at a point (`Gen.iblk4`), the output's buffer after the body (`Gen.out4_3`), the
   body's triple (`Gen.sound_kernel4`), the proof data (`Gen.dat4`) and the body obligation (`Gen.body_obligation4`).
   Generic in the float model `F`. -/
import proofs.«164935_j86474871537726_2_alg».proof.Proof.Gen.Kernel.Launch
import proofs.«164935_j86474871537726_2_alg».proof.Proof.Gen.Kernel.Skeleton
import proofs.«164935_j86474871537726_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes: the elaborator's structural look recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 4 of @main: custom_call 4, `cc4__final_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): unfetched, the block index
    has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 (the whole matrix, fetched once) likewise: its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 (the whole bias, fetched once) likewise. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S128x3072 := Rect.unit (s := S128x3072) ![0, 0] S128x3072.size inb_S128x3072_S128x3072_0_0
abbrev r4_1 : Rect S3072x3072 := Rect.unit (s := S3072x3072) ![0, 0] S3072x3072.size inb_S3072x3072_S3072x3072_0_0
abbrev r4_2 : Rect S3072 := Rect.unit (s := S3072) ![0] S3072.size inb_S3072_S3072_0

/-! ## What the body leaves in the output window's buffer -/

/-- Window 3's staging buffer after the body, from the input windows' blocks: its one store as a piece (the payload
    is the skeleton's). -/
def out4_3 (x0 : Vec F S128x3072 .f32) (x1 : Vec F S3072x3072 .bf16) (x2 : Vec F S3072 .f32) : Vec F S128x3072 .f32 :=
  View.canon [⟨r4_0, k4_pay1 (View.ld x0 r4_0) (View.ld x1 r4_1) (View.ld x2 r4_2)⟩]

/-- Its store tiles the buffer (checked by evaluation), so it covers it. -/
theorem cover4_3 (p0 : Vec F S128x3072 .f32) (y : S128x3072.Idx) :
    ∃ pc ∈ ([⟨r4_0, p0⟩] : List (View.Piece (Elt F) S128x3072 .f32)), y ∈ pc.1.set :=
  View.cover_of_tiled [⟨r4_0, p0⟩] S128x3072.size (by rfl) y

/-! ## The body's triple -/

set_option maxHeartbeats 1000000 in
/-- The kernel body on whole staging memrefs, the inputs' at read contents `xW` and the output's at anything, runs to
    the continuation holding the inputs' as they were and the output's at `out4_3` of the inputs': the printed function
    is its skeleton, whose four loads and one store are run in order; the load of the output's buffer reads whatever
    it holds, and the store over the whole buffer leaves the payload. -/
theorem sound_kernel4 (c : Dev nD) (E : Set ℕ) (i : grid4.Coords) (arg1 : Memref sig .tc .vmem S128x3072 .f32) (harg1 : arg1.IsWhole)
    (arg2 : Memref sig .tc .vmem S3072x3072 .bf16) (harg2 : arg2.IsWhole) (arg3 : Memref sig .tc .vmem S3072 .f32) (harg3 : arg3.IsWhole)
    (arg4 : Memref sig .tc .vmem S128x3072 .f32) (harg4 : arg4.IsWhole)
    (x0 : Vec F S128x3072 .f32) (x1 : Vec F S3072x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__final_kernel i arg1 harg1 arg2 harg2 arg3 harg3 arg4 harg4) K := by
  simp only [cc4__final_kernel_eq_skeleton]; unfold cc4__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at
    point `t` each input's buffer at its block and the output's at `out4_3` of the input blocks; the invariant the
    class's (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- The proof data's invariant is the class's at every point, so at the first -/
theorem hin4 (c : Dev nD) : (Pipeline.ΦA spec4 c : sProp 𝕄) ⊢ (dat4 V c).Φ 0 := .rfl

/-- and at the last. -/
theorem hout4 (c : Dev nD) : (dat4 V c).Φ (Fin.last cfg4.N) ⊢ (Pipeline.ΦA spec4 c : sProp 𝕄) := .rfl

end Cert.Kernel.Gen

end
-- ==== Proof.KB.Regs.lean ====
import proofs.«164935_j86474871537726_2_alg».proof.Proof.KB.Entry
import proofs.«164935_j86474871537726_2_alg».proof.Proof.KB.R0
import proofs.«164935_j86474871537726_2_alg».proof.Proof.KB.R1
import proofs.«164935_j86474871537726_2_alg».proof.Proof.KB.R2
import proofs.«164935_j86474871537726_2_alg».proof.Proof.KB.R3
import proofs.«164935_j86474871537726_2_alg».proof.Proof.KB.R4
import Idealize.ShloMosaic.Lib.Pipeline.Kit

/-!
The five kernel regions as segments of the program, and the program's run: every weakly fair execution terminates with
the result array at what the last region writes back and every argument array as launched. Between two items a core
holds every unscoped buffer whole at the running valuation; each region takes its windows' arrays out of it, runs its
pipeline, and puts them back at what the write-backs leave.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m outs) c
  | ⟨2, _⟩ => fun c => dat2 (U4 m outs) c
  | ⟨3, _⟩ => fun c => dat3 (U5 m outs) c
  | ⟨4, _⟩ => fun c => dat4 (U11 m outs) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-! ## Region 0 as a segment -/

set_option maxHeartbeats 1600000 in
theorem hF0 (ho2 : ∀ c, outs 2 main_v5 c = (dat0 (U1 m) c).arrAt 2 cfg0.N) (c : Dev nD) : ∀ w : Fin cfg0.W, (pdats m outs 0 c).arrAt w cfg0.N = (V2 m outs c) (Proc.devRef .tc (Pipeline.arrRef spec0 w))
  | ⟨0, _⟩ => ((pdats m outs 0 c).arrAt_in 0 rfl _).trans ((A_eq0 (U1 m) c 0).trans (V2_of m outs c main_arg1 (by decide)).symm)
  | ⟨1, _⟩ => ((pdats m outs 0 c).arrAt_in 1 rfl _).trans ((A_eq0 (U1 m) c 1).trans (V2_of m outs c main_v4 (by decide)).symm)
  | ⟨2, _⟩ => (ho2 c).symm.trans (by
      show outs 2 main_v5 c = Function.update (V1 m c) (Proc.devRef .tc main_v5) (outs 2 main_v5 c) (Proc.devRef .tc main_v5)
      rw [Function.update_self])
  | ⟨_ + 3, h⟩ => absurd h (Nat.not_lt.2 (Nat.le_add_left _ _))

theorem hrest0 (c : Dev nD) : ∀ b : Ref sig .tc, b ∉ Finset.univ.image (Pipeline.arrRef spec0) → (V2 m outs c) (Proc.devRef .tc b) = (V1 m c) (Proc.devRef .tc b) :=
  fun b hb => V2_of m outs c b (fun h => hb (by
    simp only [List.mem_cons, List.mem_nil_iff, or_false] at h
    rcases h with rfl
    · exact Finset.mem_image.mpr ⟨2, Finset.mem_univ _, rfl⟩))

set_option backward.isDefEq.respectTransparency.types false in
def reg0 (ho2 : ∀ c, outs 2 main_v5 c = (dat0 (U1 m) c).arrAt 2 cfg0.N) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U1 m) c)
    unfold Pipeline.ΦA
    iintro ⟨Hp, -, Hr⟩
    isplitl [Hr]; · iexact Hr
    iexact Hp
  hout c := by
    refine (hout0 (U1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (U1 m c) (fun b => (V2 m outs c) (Proc.devRef .tc b)) ((pdats m outs 0 c).arrAt · cfg0.N) (hF0 m outs ho2 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

set_option maxHeartbeats 1600000 in
theorem hF1 (ho3 : ∀ c, outs 3 main_v6 c = (dat1 (U2 m outs) c).arrAt 2 cfg1.N) (c : Dev nD) : ∀ w : Fin cfg1.W, (pdats m outs 1 c).arrAt w cfg1.N = (V3 m outs c) (Proc.devRef .tc (Pipeline.arrRef spec1 w))
  | ⟨0, _⟩ => ((pdats m outs 1 c).arrAt_in 0 rfl _).trans ((A_eq1 (U2 m outs) c 0).trans (V3_of m outs c main_v1 (by decide)).symm)
  | ⟨1, _⟩ => ((pdats m outs 1 c).arrAt_in 1 rfl _).trans ((A_eq1 (U2 m outs) c 1).trans (V3_of m outs c main_arg1 (by decide)).symm)
  | ⟨2, _⟩ => (ho3 c).symm.trans (by
      show outs 3 main_v6 c = Function.update (V2 m outs c) (Proc.devRef .tc main_v6) (outs 3 main_v6 c) (Proc.devRef .tc main_v6)
      rw [Function.update_self])
  | ⟨_ + 3, h⟩ => absurd h (Nat.not_lt.2 (Nat.le_add_left _ _))

theorem hrest1 (c : Dev nD) : ∀ b : Ref sig .tc, b ∉ Finset.univ.image (Pipeline.arrRef spec1) → (V3 m outs c) (Proc.devRef .tc b) = (V2 m outs c) (Proc.devRef .tc b) :=
  fun b hb => V3_of m outs c b (fun h => hb (by
    simp only [List.mem_cons, List.mem_nil_iff, or_false] at h
    rcases h with rfl
    · exact Finset.mem_image.mpr ⟨2, Finset.mem_univ _, rfl⟩))

set_option backward.isDefEq.respectTransparency.types false in
def reg1 (ho3 : ∀ c, outs 3 main_v6 c = (dat1 (U2 m outs) c).arrAt 2 cfg1.N) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m outs) c).loose
  hwaits := Pipeline.hwaits_of_owed_zero _ _ _ _ L lv 1 fun _ _ => rfl
  pre c := iprop(StableHlo.held (c : Thread nD τ) (Pipeline.ucRefs τ sig) (V2 m outs c) ∗ R c)
  post c := iprop(StableHlo.held (c : Thread nD τ) (Pipeline.ucRefs τ sig) (V3 m outs c) ∗ R c)
  X c := iprop(∃ r, prngReg c r)
  Y c := iprop(∃ r, prngReg c r)
  Z c := Pipeline.unscopedRest (Ix := Unit) (Name := ℕ) (U := UR sig nD τ) (Lvl := ℕ) spec1 c (U2 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (U2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U2 m outs) c)
    unfold Pipeline.ΦA
    iintro ⟨Hp, -, Hr⟩
    isplitl [Hr]; · iexact Hr
    iexact Hp
  hout c := by
    refine (hout1 (U2 m outs) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (U2 m outs c) (fun b => (V3 m outs c) (Proc.devRef .tc b)) ((pdats m outs 1 c).arrAt · cfg1.N) (hF1 m outs ho3 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

set_option maxHeartbeats 1600000 in
theorem hF2 (ho5a : ∀ c, outs 5 main_v15_0 c = (dat2 (U4 m outs) c).arrAt 8 cfg2.N) (ho5b : ∀ c, outs 5 main_v15_1 c = (dat2 (U4 m outs) c).arrAt 9 cfg2.N) (c : Dev nD) : ∀ w : Fin cfg2.W, (pdats m outs 2 c).arrAt w cfg2.N = (V5 m outs c) (Proc.devRef .tc (Pipeline.arrRef spec2 w))
  | ⟨0, _⟩ => ((pdats m outs 2 c).arrAt_in 0 rfl _).trans ((A_eq2 (U4 m outs) c 0).trans (V5_of m outs c main_arg1 (by decide)).symm)
  | ⟨1, _⟩ => ((pdats m outs 2 c).arrAt_in 1 rfl _).trans ((A_eq2 (U4 m outs) c 1).trans (V5_of m outs c main_v5 (by decide)).symm)
  | ⟨2, _⟩ => ((pdats m outs 2 c).arrAt_in 2 rfl _).trans ((A_eq2 (U4 m outs) c 2).trans (V5_of m outs c main_v13 (by decide)).symm)
  | ⟨3, _⟩ => ((pdats m outs 2 c).arrAt_in 3 rfl _).trans ((A_eq2 (U4 m outs) c 3).trans (V5_of m outs c main_arg4 (by decide)).symm)
  | ⟨4, _⟩ => ((pdats m outs 2 c).arrAt_in 4 rfl _).trans ((A_eq2 (U4 m outs) c 4).trans (V5_of m outs c main_arg5 (by decide)).symm)
  | ⟨5, _⟩ => ((pdats m outs 2 c).arrAt_in 5 rfl _).trans ((A_eq2 (U4 m outs) c 5).trans (V5_of m outs c main_arg6 (by decide)).symm)
  | ⟨6, _⟩ => ((pdats m outs 2 c).arrAt_in 6 rfl _).trans ((A_eq2 (U4 m outs) c 6).trans (V5_of m outs c main_v14 (by decide)).symm)
  | ⟨7, _⟩ => ((pdats m outs 2 c).arrAt_in 7 rfl _).trans ((A_eq2 (U4 m outs) c 7).trans (V5_of m outs c main_arg8 (by decide)).symm)
  | ⟨8, _⟩ => (ho5a c).symm.trans (by
      show outs 5 main_v15_0 c = Function.update (Function.update (V4 m outs c) (Proc.devRef .tc main_v15_0) (outs 5 main_v15_0 c)) (Proc.devRef .tc main_v15_1) (outs 5 main_v15_1 c) (Proc.devRef .tc main_v15_0)
      rw [Function.update_of_ne (StableHlo.devRef_ne_of_ne (by decide : (main_v15_0 : Ref sig .tc) ≠ main_v15_1)), Function.update_self])
  | ⟨9, _⟩ => (ho5b c).symm.trans (by
      show outs 5 main_v15_1 c = Function.update (Function.update (V4 m outs c) (Proc.devRef .tc main_v15_0) (outs 5 main_v15_0 c)) (Proc.devRef .tc main_v15_1) (outs 5 main_v15_1 c) (Proc.devRef .tc main_v15_1)
      rw [Function.update_self])
  | ⟨_ + 10, h⟩ => absurd h (Nat.not_lt.2 (Nat.le_add_left _ _))

theorem hrest2 (c : Dev nD) : ∀ b : Ref sig .tc, b ∉ Finset.univ.image (Pipeline.arrRef spec2) → (V5 m outs c) (Proc.devRef .tc b) = (V4 m outs c) (Proc.devRef .tc b) :=
  fun b hb => V5_of m outs c b (fun h => hb (by
    simp only [List.mem_cons, List.mem_nil_iff, or_false] at h
    rcases h with rfl | rfl
    · exact Finset.mem_image.mpr ⟨8, Finset.mem_univ _, rfl⟩
    · exact Finset.mem_image.mpr ⟨9, Finset.mem_univ _, rfl⟩))

set_option backward.isDefEq.respectTransparency.types false in
def reg2 (ho5a : ∀ c, outs 5 main_v15_0 c = (dat2 (U4 m outs) c).arrAt 8 cfg2.N) (ho5b : ∀ c, outs 5 main_v15_1 c = (dat2 (U4 m outs) c).arrAt 9 cfg2.N) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m outs) c).loose
  hwaits := Pipeline.hwaits_of_owed_zero _ _ _ _ L lv 2 fun _ _ => rfl
  pre c := iprop(StableHlo.held (c : Thread nD τ) (Pipeline.ucRefs τ sig) (V4 m outs c) ∗ R c)
  post c := iprop(StableHlo.held (c : Thread nD τ) (Pipeline.ucRefs τ sig) (V5 m outs c) ∗ R c)
  X c := iprop(∃ r, prngReg c r)
  Y c := iprop(∃ r, prngReg c r)
  Z c := Pipeline.unscopedRest (Ix := Unit) (Name := ℕ) (U := UR sig nD τ) (Lvl := ℕ) spec2 c (U4 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (U4 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (U4 m outs) c)
    unfold Pipeline.ΦA
    iintro ⟨Hp, -, Hr⟩
    isplitl [Hr]; · iexact Hr
    iexact Hp
  hout c := by
    refine (hout2 (U4 m outs) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (U4 m outs c) (fun b => (V5 m outs c) (Proc.devRef .tc b)) ((pdats m outs 2 c).arrAt · cfg2.N) (hF2 m outs ho5a ho5b c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 as a segment -/

set_option maxHeartbeats 1600000 in
theorem hF3 (ho6 : ∀ c, outs 6 main_v16 c = (dat3 (U5 m outs) c).arrAt 2 cfg3.N) (c : Dev nD) : ∀ w : Fin cfg3.W, (pdats m outs 3 c).arrAt w cfg3.N = (V6 m outs c) (Proc.devRef .tc (Pipeline.arrRef spec3 w))
  | ⟨0, _⟩ => ((pdats m outs 3 c).arrAt_in 0 rfl _).trans ((A_eq3 (U5 m outs) c 0).trans (V6_of m outs c main_v1 (by decide)).symm)
  | ⟨1, _⟩ => ((pdats m outs 3 c).arrAt_in 1 rfl _).trans ((A_eq3 (U5 m outs) c 1).trans (V6_of m outs c main_v15_0 (by decide)).symm)
  | ⟨2, _⟩ => (ho6 c).symm.trans (by
      show outs 6 main_v16 c = Function.update (V5 m outs c) (Proc.devRef .tc main_v16) (outs 6 main_v16 c) (Proc.devRef .tc main_v16)
      rw [Function.update_self])
  | ⟨_ + 3, h⟩ => absurd h (Nat.not_lt.2 (Nat.le_add_left _ _))

theorem hrest3 (c : Dev nD) : ∀ b : Ref sig .tc, b ∉ Finset.univ.image (Pipeline.arrRef spec3) → (V6 m outs c) (Proc.devRef .tc b) = (V5 m outs c) (Proc.devRef .tc b) :=
  fun b hb => V6_of m outs c b (fun h => hb (by
    simp only [List.mem_cons, List.mem_nil_iff, or_false] at h
    rcases h with rfl
    · exact Finset.mem_image.mpr ⟨2, Finset.mem_univ _, rfl⟩))

set_option backward.isDefEq.respectTransparency.types false in
def reg3 (ho6 : ∀ c, outs 6 main_v16 c = (dat3 (U5 m outs) c).arrAt 2 cfg3.N) : Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U5 m outs) c).loose
  hwaits := Pipeline.hwaits_of_owed_zero _ _ _ _ L lv 3 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec3 c (U5 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (U5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (U5 m outs) c)
    unfold Pipeline.ΦA
    iintro ⟨Hp, -, Hr⟩
    isplitl [Hr]; · iexact Hr
    iexact Hp
  hout c := by
    refine (hout3 (U5 m outs) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (U5 m outs c) (fun b => (V6 m outs c) (Proc.devRef .tc b)) ((pdats m outs 3 c).arrAt · cfg3.N) (hF3 m outs ho6 c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 as a segment -/

set_option maxHeartbeats 1600000 in
theorem hF4 (ho12 : ∀ c, outs 12 main_v36 c = (dat4 (U11 m outs) c).arrAt 3 cfg4.N) (c : Dev nD) : ∀ w : Fin cfg4.W, (pdats m outs 4 c).arrAt w cfg4.N = (V12 m outs c) (Proc.devRef .tc (Pipeline.arrRef spec4 w))
  | ⟨0, _⟩ => ((pdats m outs 4 c).arrAt_in 0 rfl _).trans ((A_eq4 (U11 m outs) c 0).trans (V12_of m outs c main_arg0 (by decide)).symm)
  | ⟨1, _⟩ => ((pdats m outs 4 c).arrAt_in 1 rfl _).trans ((A_eq4 (U11 m outs) c 1).trans (V12_of m outs c main_v15_1 (by decide)).symm)
  | ⟨2, _⟩ => ((pdats m outs 4 c).arrAt_in 2 rfl _).trans ((A_eq4 (U11 m outs) c 2).trans (V12_of m outs c main_v35 (by decide)).symm)
  | ⟨3, _⟩ => (ho12 c).symm.trans (by
      show outs 12 main_v36 c = Function.update (V11 m outs c) (Proc.devRef .tc main_v36) (outs 12 main_v36 c) (Proc.devRef .tc main_v36)
      rw [Function.update_self])
  | ⟨_ + 4, h⟩ => absurd h (Nat.not_lt.2 (Nat.le_add_left _ _))

theorem hrest4 (c : Dev nD) : ∀ b : Ref sig .tc, b ∉ Finset.univ.image (Pipeline.arrRef spec4) → (V12 m outs c) (Proc.devRef .tc b) = (V11 m outs c) (Proc.devRef .tc b) :=
  fun b hb => V12_of m outs c b (fun h => hb (by
    simp only [List.mem_cons, List.mem_nil_iff, or_false] at h
    rcases h with rfl
    · exact Finset.mem_image.mpr ⟨3, Finset.mem_univ _, rfl⟩))

set_option backward.isDefEq.respectTransparency.types false in
def reg4 (ho12 : ∀ c, outs 12 main_v36 c = (dat4 (U11 m outs) c).arrAt 3 cfg4.N) : Pipeline.RegionSeg (pcfgs (F := F)) adm (pdats m outs) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U11 m outs) c).loose
  hwaits := Pipeline.hwaits_of_owed_zero _ _ _ _ L lv 4 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec4 c (U11 m outs c)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (U11 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (U11 m outs) c)
    unfold Pipeline.ΦA
    iintro ⟨Hp, -, Hr⟩
    isplitl [Hr]; · iexact Hr
    iexact Hp
  hout c := by
    refine (hout4 (U11 m outs) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (U11 m outs c) (fun b => (V12 m outs c) (Proc.devRef .tc b)) ((pdats m outs 4 c).arrAt · cfg4.N) (hF4 m outs ho12 c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one
set_option backward.isDefEq.respectTransparency.types false in
set_option maxHeartbeats 1600000 in
/-- For any contents `outs` that are what each region's write-backs leave (`ho…`): every weakly fair execution of the
    program from memory `m` with zero counters terminates, and every final memory holds the result array at what the
    last region leaves and each argument array as launched. -/
theorem run_value (ρ : Dev nD → PrngReg)
    (ho2 : ∀ c, outs 2 main_v5 c = (dat0 (U1 m) c).arrAt 2 cfg0.N)
    (ho3 : ∀ c, outs 3 main_v6 c = (dat1 (U2 m outs) c).arrAt 2 cfg1.N)
    (ho5a : ∀ c, outs 5 main_v15_0 c = (dat2 (U4 m outs) c).arrAt 8 cfg2.N)
    (ho5b : ∀ c, outs 5 main_v15_1 c = (dat2 (U4 m outs) c).arrAt 9 cfg2.N)
    (ho6 : ∀ c, outs 6 main_v16 c = (dat3 (U5 m outs) c).arrAt 2 cfg3.N)
    (ho12 : ∀ c, outs 12 main_v36 c = (dat4 (U11 m outs) c).arrAt 3 cfg4.N) :
    θ_run defs (onTc (τ := τ) (main (F := F))) ⟨m, fun _ => 0, ρ⟩ (fun r => ∀ c : Dev nD,
      r.2.mem ((c.tc : Thread nD τ).loc main_v36) = V12 m outs c main_v36
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m outs) () cellOf_inj emb₁ defs₀ 𝒱₀ L lv m ρ main
    (segs m outs 𝒱₀ L lv (fun _ c => R c) () (pdats m outs) (reg0 m outs ho2) (reg1 m outs ho3) (reg2 m outs ho5a ho5b) (reg3 m outs ho6) (reg4 m outs ho12))
    (fun c Q => by
      rewrite [main_chain c, Seg.run_eq_chain,
        show (segs m outs 𝒱₀ L lv (fun _ c => R c) () (pdats m outs) (reg0 m outs ho2) (reg1 m outs ho3) (reg2 m outs ho5a ho5b) (reg3 m outs ho6) (reg4 m outs ho12) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4,
          StableHlo.seq hostOps4_1,
          StableHlo.seq hostOps4_2,
          StableHlo.seq hostOps4_3,
          StableHlo.seq hostOps4_4,
          Prog.lift (.customCall (Pipeline.entry 4) ()) ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V12 m outs c) ∗ ∃ r, prngReg c r))
    (hch := fun c => ⟨.rfl, .rfl, .rfl, .rfl, .rfl, .rfl, .rfl, .rfl, .rfl, .rfl, .rfl, .rfl, by
      show iprop(StableHlo.held (c : Thread nD τ) (Pipeline.ucRefs τ sig) (V12 m outs c) ∗ R c)
        ⊢ iprop((StableHlo.held (c : Thread nD τ) (Pipeline.ucRefs τ sig) (V12 m outs c) ∗ ∃ r, prngReg c r) ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v36) = V12 m outs c main_v36
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => ?_) (hQ := fun _ h => h)
  unfold StableHlo.held
  iintro ⟨⟨Hh, -⟩, HSI⟩
  ihave Hr := (pointsTo_read_all (Pipeline.ucRefs τ sig) (fun b => ((c : Thread nD τ).1, b)) (V12 m outs c) s') $$ [Hh HSI]
  · isplitl [Hh] <;> iassumption
  icases Hr with ⟨%h, HSI⟩
  imodintro
  isplitr
  · ipureintro
    exact ⟨h (Proc.devRef .tc main_v36) (Finset.mem_filter.mpr ⟨StableHlo.devRef_mem_tcRefs main_v36, by decide⟩),
      (h (Proc.devRef .tc main_arg0) (Finset.mem_filter.mpr ⟨StableHlo.devRef_mem_tcRefs main_arg0, by decide⟩)).trans (V12_main_arg0 m outs c),
      (h (Proc.devRef .tc main_arg1) (Finset.mem_filter.mpr ⟨StableHlo.devRef_mem_tcRefs main_arg1, by decide⟩)).trans (V12_main_arg1 m outs c),
      (h (Proc.devRef .tc main_arg2) (Finset.mem_filter.mpr ⟨StableHlo.devRef_mem_tcRefs main_arg2, by decide⟩)).trans (V12_main_arg2 m outs c),
      (h (Proc.devRef .tc main_arg3) (Finset.mem_filter.mpr ⟨StableHlo.devRef_mem_tcRefs main_arg3, by decide⟩)).trans (V12_main_arg3 m outs c),
      (h (Proc.devRef .tc main_arg4) (Finset.mem_filter.mpr ⟨StableHlo.devRef_mem_tcRefs main_arg4, by decide⟩)).trans (V12_main_arg4 m outs c),
      (h (Proc.devRef .tc main_arg5) (Finset.mem_filter.mpr ⟨StableHlo.devRef_mem_tcRefs main_arg5, by decide⟩)).trans (V12_main_arg5 m outs c),
      (h (Proc.devRef .tc main_arg6) (Finset.mem_filter.mpr ⟨StableHlo.devRef_mem_tcRefs main_arg6, by decide⟩)).trans (V12_main_arg6 m outs c),
      (h (Proc.devRef .tc main_arg7) (Finset.mem_filter.mpr ⟨StableHlo.devRef_mem_tcRefs main_arg7, by decide⟩)).trans (V12_main_arg7 m outs c),
      (h (Proc.devRef .tc main_arg8) (Finset.mem_filter.mpr ⟨StableHlo.devRef_mem_tcRefs main_arg8, by decide⟩)).trans (V12_main_arg8 m outs c)⟩
  · iexact HSI

/-! ## The contents the regions leave, region after region -/

/-- A family of region results from its six members; any other buffer at its launch contents (never read). -/
def outsOf (a2 : (c : Dev nD) → Buf (Elt F) ((c : Thread nD τ).loc main_v5)) (a3 : (c : Dev nD) → Buf (Elt F) ((c : Thread nD τ).loc main_v6)) (a5a : (c : Dev nD) → Buf (Elt F) ((c : Thread nD τ).loc main_v15_0)) (a5b : (c : Dev nD) → Buf (Elt F) ((c : Thread nD τ).loc main_v15_1)) (a6 : (c : Dev nD) → Buf (Elt F) ((c : Thread nD τ).loc main_v16)) (a12 : (c : Dev nD) → Buf (Elt F) ((c : Thread nD τ).loc main_v36)) : Outs (F := F) :=
  fun _ r c =>
    if h : r = main_v5 then h ▸ a2 c
    else if h : r = main_v6 then h ▸ a3 c
    else if h : r = main_v15_0 then h ▸ a5a c
    else if h : r = main_v15_1 then h ▸ a5b c
    else if h : r = main_v16 then h ▸ a6 c
    else if h : r = main_v36 then h ▸ a12 c
    else m ((c : Thread nD τ).loc r)

theorem outsOf_main_v5 (a2 : (c : Dev nD) → Buf (Elt F) ((c : Thread nD τ).loc main_v5)) (a3 : (c : Dev nD) → Buf (Elt F) ((c : Thread nD τ).loc main_v6)) (a5a : (c : Dev nD) → Buf (Elt F) ((c : Thread nD τ).loc main_v15_0)) (a5b : (c : Dev nD) → Buf (Elt F) ((c : Thread nD τ).loc main_v15_1)) (a6 : (c : Dev nD) → Buf (Elt F) ((c : Thread nD τ).loc main_v16)) (a12 : (c : Dev nD) → Buf (Elt F) ((c : Thread nD τ).loc main_v36)) (J : ℕ) (c : Dev nD) : outsOf m a2 a3 a5a a5b a6 a12 J main_v5 c = a2 c := by
  unfold outsOf; rw [dif_pos rfl]
theorem outsOf_main_v6 (a2 : (c : Dev nD) → Buf (Elt F) ((c : Thread nD τ).loc main_v5)) (a3 : (c : Dev nD) → Buf (Elt F) ((c : Thread nD τ).loc main_v6)) (a5a : (c : Dev nD) → Buf (Elt F) ((c : Thread nD τ).loc main_v15_0)) (a5b : (c : Dev nD) → Buf (Elt F) ((c : Thread nD τ).loc main_v15_1)) (a6 : (c : Dev nD) → Buf (Elt F) ((c : Thread nD τ).loc main_v16)) (a12 : (c : Dev nD) → Buf (Elt F) ((c : Thread nD τ).loc main_v36)) (J : ℕ) (c : Dev nD) : outsOf m a2 a3 a5a a5b a6 a12 J main_v6 c = a3 c := by
  unfold outsOf; rw [dif_neg (by decide : ¬(main_v6 : Ref sig .tc) = main_v5), dif_pos rfl]
theorem outsOf_main_v15_0 (a2 : (c : Dev nD) → Buf (Elt F) ((c : Thread nD τ).loc main_v5)) (a3 : (c : Dev nD) → Buf (Elt F) ((c : Thread nD τ).loc main_v6)) (a5a : (c : Dev nD) → Buf (Elt F) ((c : Thread nD τ).loc main_v15_0)) (a5b : (c : Dev nD) → Buf (Elt F) ((c : Thread nD τ).loc main_v15_1)) (a6 : (c : Dev nD) → Buf (Elt F) ((c : Thread nD τ).loc main_v16)) (a12 : (c : Dev nD) → Buf (Elt F) ((c : Thread nD τ).loc main_v36)) (J : ℕ) (c : Dev nD) : outsOf m a2 a3 a5a a5b a6 a12 J main_v15_0 c = a5a c := by
  unfold outsOf; rw [dif_neg (by decide : ¬(main_v15_0 : Ref sig .tc) = main_v5), dif_neg (by decide : ¬(main_v15_0 : Ref sig .tc) = main_v6), dif_pos rfl]
theorem outsOf_main_v15_1 (a2 : (c : Dev nD) → Buf (Elt F) ((c : Thread nD τ).loc main_v5)) (a3 : (c : Dev nD) → Buf (Elt F) ((c : Thread nD τ).loc main_v6)) (a5a : (c : Dev nD) → Buf (Elt F) ((c : Thread nD τ).loc main_v15_0)) (a5b : (c : Dev nD) → Buf (Elt F) ((c : Thread nD τ).loc main_v15_1)) (a6 : (c : Dev nD) → Buf (Elt F) ((c : Thread nD τ).loc main_v16)) (a12 : (c : Dev nD) → Buf (Elt F) ((c : Thread nD τ).loc main_v36)) (J : ℕ) (c : Dev nD) : outsOf m a2 a3 a5a a5b a6 a12 J main_v15_1 c = a5b c := by
  unfold outsOf; rw [dif_neg (by decide : ¬(main_v15_1 : Ref sig .tc) = main_v5), dif_neg (by decide : ¬(main_v15_1 : Ref sig .tc) = main_v6), dif_neg (by decide : ¬(main_v15_1 : Ref sig .tc) = main_v15_0), dif_pos rfl]
theorem outsOf_main_v16 (a2 : (c : Dev nD) → Buf (Elt F) ((c : Thread nD τ).loc main_v5)) (a3 : (c : Dev nD) → Buf (Elt F) ((c : Thread nD τ).loc main_v6)) (a5a : (c : Dev nD) → Buf (Elt F) ((c : Thread nD τ).loc main_v15_0)) (a5b : (c : Dev nD) → Buf (Elt F) ((c : Thread nD τ).loc main_v15_1)) (a6 : (c : Dev nD) → Buf (Elt F) ((c : Thread nD τ).loc main_v16)) (a12 : (c : Dev nD) → Buf (Elt F) ((c : Thread nD τ).loc main_v36)) (J : ℕ) (c : Dev nD) : outsOf m a2 a3 a5a a5b a6 a12 J main_v16 c = a6 c := by
  unfold outsOf; rw [dif_neg (by decide : ¬(main_v16 : Ref sig .tc) = main_v5), dif_neg (by decide : ¬(main_v16 : Ref sig .tc) = main_v6), dif_neg (by decide : ¬(main_v16 : Ref sig .tc) = main_v15_0), dif_neg (by decide : ¬(main_v16 : Ref sig .tc) = main_v15_1), dif_pos rfl]
theorem outsOf_main_v36 (a2 : (c : Dev nD) → Buf (Elt F) ((c : Thread nD τ).loc main_v5)) (a3 : (c : Dev nD) → Buf (Elt F) ((c : Thread nD τ).loc main_v6)) (a5a : (c : Dev nD) → Buf (Elt F) ((c : Thread nD τ).loc main_v15_0)) (a5b : (c : Dev nD) → Buf (Elt F) ((c : Thread nD τ).loc main_v15_1)) (a6 : (c : Dev nD) → Buf (Elt F) ((c : Thread nD τ).loc main_v16)) (a12 : (c : Dev nD) → Buf (Elt F) ((c : Thread nD τ).loc main_v36)) (J : ℕ) (c : Dev nD) : outsOf m a2 a3 a5a a5b a6 a12 J main_v36 c = a12 c := by
  unfold outsOf; rw [dif_neg (by decide : ¬(main_v36 : Ref sig .tc) = main_v5), dif_neg (by decide : ¬(main_v36 : Ref sig .tc) = main_v6), dif_neg (by decide : ¬(main_v36 : Ref sig .tc) = main_v15_0), dif_neg (by decide : ¬(main_v36 : Ref sig .tc) = main_v15_1), dif_neg (by decide : ¬(main_v36 : Ref sig .tc) = main_v16), dif_pos rfl]

/-! The valuation before an item depends only on the results of the regions before it. -/

theorem V2_congr (o o' : Outs (F := F)) (h2 : ∀ c, o 2 main_v5 c = o' 2 main_v5 c) (c : Dev nD) : V2 m o c = V2 m o' c := by
  simp only [V2, h2]
theorem V3_congr (o o' : Outs (F := F)) (h2 : ∀ c, o 2 main_v5 c = o' 2 main_v5 c) (h3 : ∀ c, o 3 main_v6 c = o' 3 main_v6 c) (c : Dev nD) : V3 m o c = V3 m o' c := by
  show Function.update (V2 m o c) _ (o 3 main_v6 c) = Function.update (V2 m o' c) _ (o' 3 main_v6 c)
  rw [V2_congr m o o' h2 c, h3 c]
theorem V4_congr (o o' : Outs (F := F)) (h2 : ∀ c, o 2 main_v5 c = o' 2 main_v5 c) (h3 : ∀ c, o 3 main_v6 c = o' 3 main_v6 c) (c : Dev nD) : V4 m o c = V4 m o' c := by
  show StableHlo.after hostOps2 (V3 m o c) = StableHlo.after hostOps2 (V3 m o' c)
  rw [V3_congr m o o' h2 h3 c]
theorem V5_congr (o o' : Outs (F := F)) (h2 : ∀ c, o 2 main_v5 c = o' 2 main_v5 c) (h3 : ∀ c, o 3 main_v6 c = o' 3 main_v6 c)
    (h5a : ∀ c, o 5 main_v15_0 c = o' 5 main_v15_0 c) (h5b : ∀ c, o 5 main_v15_1 c = o' 5 main_v15_1 c) (c : Dev nD) : V5 m o c = V5 m o' c := by
  show Function.update (Function.update (V4 m o c) _ (o 5 main_v15_0 c)) _ (o 5 main_v15_1 c) = Function.update (Function.update (V4 m o' c) _ (o' 5 main_v15_0 c)) _ (o' 5 main_v15_1 c)
  rw [V4_congr m o o' h2 h3 c, h5a c, h5b c]
theorem V11_congr (o o' : Outs (F := F)) (h2 : ∀ c, o 2 main_v5 c = o' 2 main_v5 c) (h3 : ∀ c, o 3 main_v6 c = o' 3 main_v6 c)
    (h5a : ∀ c, o 5 main_v15_0 c = o' 5 main_v15_0 c) (h5b : ∀ c, o 5 main_v15_1 c = o' 5 main_v15_1 c)
    (h6 : ∀ c, o 6 main_v16 c = o' 6 main_v16 c) (c : Dev nD) : V11 m o c = V11 m o' c := by
  show StableHlo.after hostOps4_4 (StableHlo.after hostOps4_3 (StableHlo.after hostOps4_2 (StableHlo.after hostOps4_1 (StableHlo.after hostOps4 (Function.update (V5 m o c) _ (o 6 main_v16 c))))))
    = StableHlo.after hostOps4_4 (StableHlo.after hostOps4_3 (StableHlo.after hostOps4_2 (StableHlo.after hostOps4_1 (StableHlo.after hostOps4 (Function.update (V5 m o' c) _ (o' 6 main_v16 c))))))
  rw [V5_congr m o o' h2 h3 h5a h5b c, h6 c]

theorem U2_congr (o o' : Outs (F := F)) (h2 : ∀ c, o 2 main_v5 c = o' 2 main_v5 c) : U2 m o = U2 m o' := by
  funext c b; exact congrFun (V2_congr m o o' h2 c) _
theorem U4_congr (o o' : Outs (F := F)) (h2 : ∀ c, o 2 main_v5 c = o' 2 main_v5 c) (h3 : ∀ c, o 3 main_v6 c = o' 3 main_v6 c) : U4 m o = U4 m o' := by
  funext c b; exact congrFun (V4_congr m o o' h2 h3 c) _
theorem U5_congr (o o' : Outs (F := F)) (h2 : ∀ c, o 2 main_v5 c = o' 2 main_v5 c) (h3 : ∀ c, o 3 main_v6 c = o' 3 main_v6 c)
    (h5a : ∀ c, o 5 main_v15_0 c = o' 5 main_v15_0 c) (h5b : ∀ c, o 5 main_v15_1 c = o' 5 main_v15_1 c) : U5 m o = U5 m o' := by
  funext c b; exact congrFun (V5_congr m o o' h2 h3 h5a h5b c) _
theorem U11_congr (o o' : Outs (F := F)) (h2 : ∀ c, o 2 main_v5 c = o' 2 main_v5 c) (h3 : ∀ c, o 3 main_v6 c = o' 3 main_v6 c)
    (h5a : ∀ c, o 5 main_v15_0 c = o' 5 main_v15_0 c) (h5b : ∀ c, o 5 main_v15_1 c = o' 5 main_v15_1 c)
    (h6 : ∀ c, o 6 main_v16 c = o' 6 main_v16 c) : U11 m o = U11 m o' := by
  funext c b; exact congrFun (V11_congr m o o' h2 h3 h5a h5b h6 c) _

/-- Placeholder for a region result not yet determined: the buffer's launch contents. -/
abbrev dflt (r : Ref sig .tc) : (c : Dev nD) → Buf (Elt F) ((c : Thread nD τ).loc r) := fun c => m ((c : Thread nD τ).loc r)

def res2 : (c : Dev nD) → Buf (Elt F) ((c : Thread nD τ).loc main_v5) := fun c => (dat0 (U1 m) c).arrAt 2 cfg0.N
def res3 : (c : Dev nD) → Buf (Elt F) ((c : Thread nD τ).loc main_v6) := fun c =>
  (dat1 (U2 m (outsOf m (res2 m) (dflt m _) (dflt m _) (dflt m _) (dflt m _) (dflt m _))) c).arrAt 2 cfg1.N
def res5a : (c : Dev nD) → Buf (Elt F) ((c : Thread nD τ).loc main_v15_0) := fun c =>
  (dat2 (U4 m (outsOf m (res2 m) (res3 m) (dflt m _) (dflt m _) (dflt m _) (dflt m _))) c).arrAt 8 cfg2.N
def res5b : (c : Dev nD) → Buf (Elt F) ((c : Thread nD τ).loc main_v15_1) := fun c =>
  (dat2 (U4 m (outsOf m (res2 m) (res3 m) (dflt m _) (dflt m _) (dflt m _) (dflt m _))) c).arrAt 9 cfg2.N
def res6 : (c : Dev nD) → Buf (Elt F) ((c : Thread nD τ).loc main_v16) := fun c =>
  (dat3 (U5 m (outsOf m (res2 m) (res3 m) (res5a m) (res5b m) (dflt m _) (dflt m _))) c).arrAt 2 cfg3.N
def res12 : (c : Dev nD) → Buf (Elt F) ((c : Thread nD τ).loc main_v36) := fun c =>
  (dat4 (U11 m (outsOf m (res2 m) (res3 m) (res5a m) (res5b m) (res6 m) (dflt m _))) c).arrAt 3 cfg4.N

/-- What each region leaves, all six. -/
def outsF : Outs (F := F) := outsOf m (res2 m) (res3 m) (res5a m) (res5b m) (res6 m) (res12 m)

theorem ho2F (c : Dev nD) : outsF m 2 main_v5 c = (dat0 (U1 m) c).arrAt 2 cfg0.N := by
  unfold outsF; rw [outsOf_main_v5]; rfl
theorem ho3F (c : Dev nD) : outsF m 3 main_v6 c = (dat1 (U2 m (outsF m)) c).arrAt 2 cfg1.N :=
  (show outsF m 3 main_v6 c = res3 m c from by unfold outsF; rw [outsOf_main_v6]).trans (by
    unfold res3; rw [U2_congr m _ (outsF m) (fun c => by rw [outsOf_main_v5]; unfold outsF; rw [outsOf_main_v5])])
theorem ho5aF (c : Dev nD) : outsF m 5 main_v15_0 c = (dat2 (U4 m (outsF m)) c).arrAt 8 cfg2.N :=
  (show outsF m 5 main_v15_0 c = res5a m c from by unfold outsF; rw [outsOf_main_v15_0]).trans (by
    unfold res5a; rw [U4_congr m _ (outsF m) (fun c => by rw [outsOf_main_v5]; unfold outsF; rw [outsOf_main_v5]) (fun c => by rw [outsOf_main_v6]; unfold outsF; rw [outsOf_main_v6])])
theorem ho5bF (c : Dev nD) : outsF m 5 main_v15_1 c = (dat2 (U4 m (outsF m)) c).arrAt 9 cfg2.N :=
  (show outsF m 5 main_v15_1 c = res5b m c from by unfold outsF; rw [outsOf_main_v15_1]).trans (by
    unfold res5b; rw [U4_congr m _ (outsF m) (fun c => by rw [outsOf_main_v5]; unfold outsF; rw [outsOf_main_v5]) (fun c => by rw [outsOf_main_v6]; unfold outsF; rw [outsOf_main_v6])])
theorem ho6F (c : Dev nD) : outsF m 6 main_v16 c = (dat3 (U5 m (outsF m)) c).arrAt 2 cfg3.N :=
  (show outsF m 6 main_v16 c = res6 m c from by unfold outsF; rw [outsOf_main_v16]).trans (by
    unfold res6; rw [U5_congr m _ (outsF m) (fun c => by rw [outsOf_main_v5]; unfold outsF; rw [outsOf_main_v5]) (fun c => by rw [outsOf_main_v6]; unfold outsF; rw [outsOf_main_v6]) (fun c => by rw [outsOf_main_v15_0]; unfold outsF; rw [outsOf_main_v15_0]) (fun c => by rw [outsOf_main_v15_1]; unfold outsF; rw [outsOf_main_v15_1])])
theorem ho12F (c : Dev nD) : outsF m 12 main_v36 c = (dat4 (U11 m (outsF m)) c).arrAt 3 cfg4.N :=
  (show outsF m 12 main_v36 c = res12 m c from by unfold outsF; rw [outsOf_main_v36]).trans (by
    unfold res12; rw [U11_congr m _ (outsF m) (fun c => by rw [outsOf_main_v5]; unfold outsF; rw [outsOf_main_v5]) (fun c => by rw [outsOf_main_v6]; unfold outsF; rw [outsOf_main_v6]) (fun c => by rw [outsOf_main_v15_0]; unfold outsF; rw [outsOf_main_v15_0]) (fun c => by rw [outsOf_main_v15_1]; unfold outsF; rw [outsOf_main_v15_1]) (fun c => by rw [outsOf_main_v16]; unfold outsF; rw [outsOf_main_v16])])

theorem V12_self (c : Dev nD) : V12 m (outsF m) c main_v36 = outsF m 12 main_v36 c := by
  show Function.update (V11 m (outsF m) c) (Proc.devRef .tc main_v36) (outsF m 12 main_v36 c) (Proc.devRef .tc main_v36) = _
  rw [Function.update_self]

/-- THE RUN: every weakly fair execution from memory `m` with zero counters terminates; the result array ends at what
    region 4's write-backs leave and every argument array as launched. -/
theorem run_main (ρ : Dev nD → PrngReg) :
    θ_run defs (onTc (τ := τ) (main (F := F))) ⟨m, fun _ => 0, ρ⟩ (fun r => ∀ c : Dev nD,
      r.2.mem ((c.tc : Thread nD τ).loc main_v36) = (dat4 (U11 m (outsF m)) c).arrAt 3 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (((V12_self m c).trans (ho12F m c))), (h c).2⟩)
    (run_value m (outsF m) ρ (ho2F m) (ho3F m) (ho5aF m) (ho5bF m) (ho6F m) (ho12F m))

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.Kernel.Gen

end
-- ==== Proof.KI.Entry.lean ====
import proofs.«164935_j86474871537726_2_alg».proof.Proof.Gen.KernelIdeal.Regions

/-!
The buffer contents each kernel region is entered from, read at the TensorCore's references: the running valuation of
the program's items (launch contents, then each host stretch applied, then each region's results put in).
-/

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (outs : Outs (F := F))

/-- Region 0's entry contents. -/
abbrev U1 : (c : Dev nD) → (b : Ref sig .tc) → Buf (Elt F) ((c : Thread nD τ).loc b) := fun c b => V1 m c b
/-- Region 1's entry contents. -/
abbrev U2 : (c : Dev nD) → (b : Ref sig .tc) → Buf (Elt F) ((c : Thread nD τ).loc b) := fun c b => V2 m outs c b
/-- Region 2's entry contents. -/
abbrev U4 : (c : Dev nD) → (b : Ref sig .tc) → Buf (Elt F) ((c : Thread nD τ).loc b) := fun c b => V4 m outs c b
/-- Region 3's entry contents. -/
abbrev U5 : (c : Dev nD) → (b : Ref sig .tc) → Buf (Elt F) ((c : Thread nD τ).loc b) := fun c b => V5 m outs c b
/-- Region 4's entry contents. -/
abbrev U11 : (c : Dev nD) → (b : Ref sig .tc) → Buf (Elt F) ((c : Thread nD τ).loc b) := fun c b => V11 m outs c b

end Cert.KernelIdeal.Gen

end
-- ==== Proof.KI.R0Run.lean ====
import proofs.«164935_j86474871537726_2_alg».proof.Proof.Gen.KernelIdeal.Launch
import proofs.«164935_j86474871537726_2_alg».proof.Proof.Gen.KernelIdeal.Skeleton
import proofs.«164935_j86474871537726_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Region 0: a matrix product accumulated over the last grid axis. At a grid point the body zeroes its accumulator
when the contraction block index is 0, adds the product of the two input blocks to it, and copies it to the output
block. What the accumulator and the output block hold after each point is defined by recursion over the points
(`acc0`), the invariant carries the accumulator from a point to the next, and the body obligation follows case by case.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition: the contraction block index is 0 -/

abbrev cond0 (i : grid0.Coords) : Prop := (Scalar.cmpi .ne (Scalar.extui (Scalar.cmpi .eq (BitVec.ofNat 32 (i 2).val) 0#32)) 0#32) = 1#1
/-- It holds at the points ≡ 0 (mod 6). -/
theorem hcond0 : ∀ t : Fin cfg0.N, cond0 (grid0.coords t) ↔ t.val % 6 = 0 :=
  (by decide +kernel : ∀ t : Fin grid0.N, cond0 (grid0.coords t) ↔ t.val % 6 = 0)

/-! ## The memrefs the body is called with -/

abbrev VO0 : View sig .tc .vmem S512x10 .f32 := (Memref.whole cc0_stg2_0 : Memref sig .tc .vmem S512x10 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x10 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x10 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S512x10 .f32 := Memref.whole cc0_scratch0
abbrev VS0 : View sig .tc .vmem S512x10 .f32 := (scM0).view

/-- The class invariant with the accumulator taken out of the scoped rest at some contents. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## The body's run, case by case -/

set_option maxHeartbeats 1000000 in
/-- The first contraction block: the accumulator is zeroed, then the product added. The pieces the output buffer and the
    accumulator end with are found by the run. -/
noncomputable def kernelRun0_A (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : cond0 i)
    (x0 : Vec F S512x512 .f32) (x1 : Vec F S512x10 .f32) :
    Σ' (L2 : List (View.Piece (Elt F) S512x10 .f32)), { LS : List (View.Piece (Elt F) S512x10 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__mm_kernel i arg3 harg3 arg4 harg4 arg5 harg5 arg6 harg6) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

set_option maxHeartbeats 1000000 in
/-- A later contraction block: the product is added to what the point before left in the accumulator (`xs`). -/
noncomputable def kernelRun0_B (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : ¬cond0 i)
    (x0 : Vec F S512x512 .f32) (x1 : Vec F S512x10 .f32) (xs : Vec F S512x10 .f32) :
    Σ' (L2 : List (View.Piece (Elt F) S512x10 .f32)), { LS : List (View.Piece (Elt F) S512x10 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__mm_kernel i arg3 harg3 arg4 harg4 arg5 harg5 arg6 harg6) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Gen

end
-- ==== Proof.KI.R0.lean ====
import proofs.«164935_j86474871537726_2_alg».proof.Proof.KI.R0Run

/-!
Region 0, continued: what the output block and the accumulator hold after each grid point (`acc0`), the invariant
that carries the accumulator between points, the proof data and the body obligation.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover0_A (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : cond0 i)
    (x0 : Vec F S512x512 .f32) (x1 : Vec F S512x10 .f32) (y : S512x10.Idx) :
    ∃ pc ∈ (kernelRun0_A c i arg3 harg3 arg4 harg4 arg5 harg5 arg6 harg6 hc x0 x1).1, y ∈ pc.1.set :=
  View.cover_of_tiledL (kernelRun0_A c i arg3 harg3 arg4 harg4 arg5 harg5 arg6 harg6 hc x0 x1).1 S512x10.size (by sl_kernel_rfl) y
theorem scover0_A (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : cond0 i)
    (x0 : Vec F S512x512 .f32) (x1 : Vec F S512x10 .f32) (y : S512x10.Idx) :
    ∃ pc ∈ (kernelRun0_A c i arg3 harg3 arg4 harg4 arg5 harg5 arg6 harg6 hc x0 x1).2.1, y ∈ pc.1.set :=
  View.cover_of_tiledL (kernelRun0_A c i arg3 harg3 arg4 harg4 arg5 harg5 arg6 harg6 hc x0 x1).2.1 S512x10.size (by sl_kernel_rfl) y
/-- The output block after a first contraction block. -/
def out0_A (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : cond0 i)
    (x0 : Vec F S512x512 .f32) (x1 : Vec F S512x10 .f32) : Vec F S512x10 .f32 :=
  VO0.read (Elt F) (VO0.writes (Elt F) VO0.junk (kernelRun0_A c i arg3 harg3 arg4 harg4 arg5 harg5 arg6 harg6 hc x0 x1).1)
/-- The accumulator after a first contraction block. -/
def sout0_A (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : cond0 i)
    (x0 : Vec F S512x512 .f32) (x1 : Vec F S512x10 .f32) : Vec F S512x10 .f32 :=
  VS0.read (Elt F) (VS0.writes (Elt F) VS0.junk (kernelRun0_A c i arg3 harg3 arg4 harg4 arg5 harg5 arg6 harg6 hc x0 x1).2.1)

theorem cover0_B (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : ¬cond0 i)
    (x0 : Vec F S512x512 .f32) (x1 : Vec F S512x10 .f32) (xs : Vec F S512x10 .f32) (y : S512x10.Idx) :
    ∃ pc ∈ (kernelRun0_B c i arg3 harg3 arg4 harg4 arg5 harg5 arg6 harg6 hc x0 x1 xs).1, y ∈ pc.1.set :=
  View.cover_of_tiledL (kernelRun0_B c i arg3 harg3 arg4 harg4 arg5 harg5 arg6 harg6 hc x0 x1 xs).1 S512x10.size (by sl_kernel_rfl) y
theorem scover0_B (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : ¬cond0 i)
    (x0 : Vec F S512x512 .f32) (x1 : Vec F S512x10 .f32) (xs : Vec F S512x10 .f32) (y : S512x10.Idx) :
    ∃ pc ∈ (kernelRun0_B c i arg3 harg3 arg4 harg4 arg5 harg5 arg6 harg6 hc x0 x1 xs).2.1, y ∈ pc.1.set :=
  View.cover_of_tiledL (kernelRun0_B c i arg3 harg3 arg4 harg4 arg5 harg5 arg6 harg6 hc x0 x1 xs).2.1 S512x10.size (by sl_kernel_rfl) y
/-- The output block after a later contraction block, from what the accumulator held (`xs`). -/
def out0_B (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : ¬cond0 i)
    (x0 : Vec F S512x512 .f32) (x1 : Vec F S512x10 .f32) (xs : Vec F S512x10 .f32) : Vec F S512x10 .f32 :=
  VO0.read (Elt F) (VO0.writes (Elt F) VO0.junk (kernelRun0_B c i arg3 harg3 arg4 harg4 arg5 harg5 arg6 harg6 hc x0 x1 xs).1)
/-- The accumulator after a later contraction block. -/
def sout0_B (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : ¬cond0 i)
    (x0 : Vec F S512x512 .f32) (x1 : Vec F S512x10 .f32) (xs : Vec F S512x10 .f32) : Vec F S512x10 .f32 :=
  VS0.read (Elt F) (VS0.writes (Elt F) VS0.junk (kernelRun0_B c i arg3 harg3 arg4 harg4 arg5 harg5 arg6 harg6 hc x0 x1 xs).2.1)

/-! ## The accumulation over the grid points -/

/-- What the output block and the accumulator hold after the body at position `n` (output, accumulator). -/
def acc0 (c : Dev nD) : (n : ℕ) → n < cfg0.N → Vec F S512x10 .f32 × Vec F S512x10 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩),
              sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn =>
    if h0 : (n + 1) % 6 = 0 then
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩),
       sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩))
    else
      (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (acc0 c n (Nat.lt_of_succ_lt hn)).2,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (acc0 c n (Nat.lt_of_succ_lt hn)).2)

theorem acc0_A (c : Dev nD) (t : Fin cfg0.N) (h0 : t.val % 6 = 0) :
    acc0 V c t.val t.isLt = (out0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact (dif_pos h0).trans rfl

theorem acc0_B (c : Dev nD) (t : Fin cfg0.N) (h0 : ¬t.val % 6 = 0) :
    acc0 V c t.val t.isLt = (out0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (acc0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (acc0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: before the first point the class's; afterwards the accumulator at what the point
    before left in it, the rest of the scoped buffers untouched, the generator register at some state. -/
def PhiS0 (c : Dev nD) : (n : ℕ) → n ≤ cfg0.N → sProp 𝕄
  | 0, _ => Pipeline.ΦA spec0 c
  | n + 1, hn => iprop(iprop(owns (c : Thread nD τ) scM0 fullShare ((acc0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((acc0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((acc0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  have hN : t.val < 36 := lt_of_lt_of_eq t.isLt (show cfg0.N = 36 from N_0)
  by_cases h0 : t.val % 6 = 0
  · rw [acc0_A V c t h0]
    unfold out0_A sout0_A; (try dsimp only)
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
    · rw [PhiS0_castSucc V c t, PhiS0_pos V c _ _ hz]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
  · rw [acc0_B V c t h0]
    unfold out0_B sout0_B; (try dsimp only)
    have hz : t.val ≠ 0 := fun h => h0 (by rw [h])
    rw [PhiS0_castSucc V c t, PhiS0_pos V c _ _ hz]
    iintro ⟨⟨⟨HS, HR⟩, Hg⟩, Ho, ⟨%d0, H0⟩, ⟨%d1, H1⟩, ⟨%d2, H2⟩⟩
    iapply ((kernelRun0_B c (grid0.coords t) _ _ _ _ _ _ _ _ (fun h => h0 ((hcond0 t).mp h)) (iblk0 V c 0 t) (iblk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover0_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 36 := N_0; omega), PhiA0_eq]
  iintro ⟨⟨HS, HR⟩, Hg⟩
  isplitl [HS HR]
  · isplitl [HS]
    · iexists _; iexact HS
    iexact HR
  iexact Hg

end Cert.KernelIdeal.Gen

end
-- ==== Proof.KI.R1Run.lean ====
import proofs.«164935_j86474871537726_2_alg».proof.Proof.Gen.KernelIdeal.Launch
import proofs.«164935_j86474871537726_2_alg».proof.Proof.Gen.KernelIdeal.Skeleton
import proofs.«164935_j86474871537726_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Region 1: a matrix product accumulated over the last grid axis. At a grid point the body zeroes its accumulator
when the contraction block index is 0, adds the product of the two input blocks to it, and copies it to the output
block. What the accumulator and the output block hold after each point is defined by recursion over the points
(`acc1`), the invariant carries the accumulator from a point to the next, and the body obligation follows case by case.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition: the contraction block index is 0 -/

abbrev cond1 (i : grid1.Coords) : Prop := (Scalar.cmpi .ne (Scalar.extui (Scalar.cmpi .eq (BitVec.ofNat 32 (i 2).val) 0#32)) 0#32) = 1#1
/-- It holds at the points ≡ 0 (mod 6). -/
theorem hcond1 : ∀ t : Fin cfg1.N, cond1 (grid1.coords t) ↔ t.val % 6 = 0 :=
  (by decide +kernel : ∀ t : Fin grid1.N, cond1 (grid1.coords t) ↔ t.val % 6 = 0)

/-! ## The memrefs the body is called with -/

abbrev VO1 : View sig .tc .vmem S10x512 .f32 := (Memref.whole cc1_stg2_0 : Memref sig .tc .vmem S10x512 .f32).view
abbrev ms1_0 (t : Fin cfg1.N) : Memref sig .tc .vmem S10x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10x512 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S10x512 .f32 := Memref.whole cc1_scratch0
abbrev VS1 : View sig .tc .vmem S10x512 .f32 := (scM1).view

/-- The class invariant with the accumulator taken out of the scoped rest at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's run, case by case -/

set_option maxHeartbeats 1000000 in
/-- The first contraction block: the accumulator is zeroed, then the product added. The pieces the output buffer and the
    accumulator end with are found by the run. -/
noncomputable def kernelRun1_A (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond1 i)
    (x0 : Vec F S10x512 .f32) (x1 : Vec F S512x512 .f32) :
    Σ' (L2 : List (View.Piece (Elt F) S10x512 .f32)), { LS : List (View.Piece (Elt F) S10x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__mm_kernel i arg3 harg3 arg4 harg4 arg5 harg5 arg6 harg6) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

set_option maxHeartbeats 1000000 in
/-- A later contraction block: the product is added to what the point before left in the accumulator (`xs`). -/
noncomputable def kernelRun1_B (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond1 i)
    (x0 : Vec F S10x512 .f32) (x1 : Vec F S512x512 .f32) (xs : Vec F S10x512 .f32) :
    Σ' (L2 : List (View.Piece (Elt F) S10x512 .f32)), { LS : List (View.Piece (Elt F) S10x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__mm_kernel i arg3 harg3 arg4 harg4 arg5 harg5 arg6 harg6) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Gen

end
-- ==== Proof.KI.R1.lean ====
import proofs.«164935_j86474871537726_2_alg».proof.Proof.KI.R1Run

/-!
Region 1, continued: what the output block and the accumulator hold after each grid point (`acc1`), the invariant
that carries the accumulator between points, the proof data and the body obligation.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover1_A (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond1 i)
    (x0 : Vec F S10x512 .f32) (x1 : Vec F S512x512 .f32) (y : S10x512.Idx) :
    ∃ pc ∈ (kernelRun1_A c i arg3 harg3 arg4 harg4 arg5 harg5 arg6 harg6 hc x0 x1).1, y ∈ pc.1.set :=
  View.cover_of_tiledL (kernelRun1_A c i arg3 harg3 arg4 harg4 arg5 harg5 arg6 harg6 hc x0 x1).1 S10x512.size (by sl_kernel_rfl) y
theorem scover1_A (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond1 i)
    (x0 : Vec F S10x512 .f32) (x1 : Vec F S512x512 .f32) (y : S10x512.Idx) :
    ∃ pc ∈ (kernelRun1_A c i arg3 harg3 arg4 harg4 arg5 harg5 arg6 harg6 hc x0 x1).2.1, y ∈ pc.1.set :=
  View.cover_of_tiledL (kernelRun1_A c i arg3 harg3 arg4 harg4 arg5 harg5 arg6 harg6 hc x0 x1).2.1 S10x512.size (by sl_kernel_rfl) y
/-- The output block after a first contraction block. -/
def out1_A (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond1 i)
    (x0 : Vec F S10x512 .f32) (x1 : Vec F S512x512 .f32) : Vec F S10x512 .f32 :=
  VO1.read (Elt F) (VO1.writes (Elt F) VO1.junk (kernelRun1_A c i arg3 harg3 arg4 harg4 arg5 harg5 arg6 harg6 hc x0 x1).1)
/-- The accumulator after a first contraction block. -/
def sout1_A (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond1 i)
    (x0 : Vec F S10x512 .f32) (x1 : Vec F S512x512 .f32) : Vec F S10x512 .f32 :=
  VS1.read (Elt F) (VS1.writes (Elt F) VS1.junk (kernelRun1_A c i arg3 harg3 arg4 harg4 arg5 harg5 arg6 harg6 hc x0 x1).2.1)

theorem cover1_B (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond1 i)
    (x0 : Vec F S10x512 .f32) (x1 : Vec F S512x512 .f32) (xs : Vec F S10x512 .f32) (y : S10x512.Idx) :
    ∃ pc ∈ (kernelRun1_B c i arg3 harg3 arg4 harg4 arg5 harg5 arg6 harg6 hc x0 x1 xs).1, y ∈ pc.1.set :=
  View.cover_of_tiledL (kernelRun1_B c i arg3 harg3 arg4 harg4 arg5 harg5 arg6 harg6 hc x0 x1 xs).1 S10x512.size (by sl_kernel_rfl) y
theorem scover1_B (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond1 i)
    (x0 : Vec F S10x512 .f32) (x1 : Vec F S512x512 .f32) (xs : Vec F S10x512 .f32) (y : S10x512.Idx) :
    ∃ pc ∈ (kernelRun1_B c i arg3 harg3 arg4 harg4 arg5 harg5 arg6 harg6 hc x0 x1 xs).2.1, y ∈ pc.1.set :=
  View.cover_of_tiledL (kernelRun1_B c i arg3 harg3 arg4 harg4 arg5 harg5 arg6 harg6 hc x0 x1 xs).2.1 S10x512.size (by sl_kernel_rfl) y
/-- The output block after a later contraction block, from what the accumulator held (`xs`). -/
def out1_B (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond1 i)
    (x0 : Vec F S10x512 .f32) (x1 : Vec F S512x512 .f32) (xs : Vec F S10x512 .f32) : Vec F S10x512 .f32 :=
  VO1.read (Elt F) (VO1.writes (Elt F) VO1.junk (kernelRun1_B c i arg3 harg3 arg4 harg4 arg5 harg5 arg6 harg6 hc x0 x1 xs).1)
/-- The accumulator after a later contraction block. -/
def sout1_B (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond1 i)
    (x0 : Vec F S10x512 .f32) (x1 : Vec F S512x512 .f32) (xs : Vec F S10x512 .f32) : Vec F S10x512 .f32 :=
  VS1.read (Elt F) (VS1.writes (Elt F) VS1.junk (kernelRun1_B c i arg3 harg3 arg4 harg4 arg5 harg5 arg6 harg6 hc x0 x1 xs).2.1)

/-! ## The accumulation over the grid points -/

/-- What the output block and the accumulator hold after the body at position `n` (output, accumulator). -/
def acc1 (c : Dev nD) : (n : ℕ) → n < cfg1.N → Vec F S10x512 .f32 × Vec F S10x512 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩),
              sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩))
  | n + 1, hn =>
    if h0 : (n + 1) % 6 = 0 then
      (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1 ⟨n + 1, hn⟩).mpr h0) (iblk1 V c 0 ⟨n + 1, hn⟩) (iblk1 V c 1 ⟨n + 1, hn⟩),
       sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1 ⟨n + 1, hn⟩).mpr h0) (iblk1 V c 0 ⟨n + 1, hn⟩) (iblk1 V c 1 ⟨n + 1, hn⟩))
    else
      (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1 ⟨n + 1, hn⟩).mp h)) (iblk1 V c 0 ⟨n + 1, hn⟩) (iblk1 V c 1 ⟨n + 1, hn⟩) (acc1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1 ⟨n + 1, hn⟩).mp h)) (iblk1 V c 0 ⟨n + 1, hn⟩) (iblk1 V c 1 ⟨n + 1, hn⟩) (acc1 c n (Nat.lt_of_succ_lt hn)).2)

theorem acc1_A (c : Dev nD) (t : Fin cfg1.N) (h0 : t.val % 6 = 0) :
    acc1 V c t.val t.isLt = (out1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t),
      sout1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t)) := by
  obtain ⟨n, hn⟩ := t
  cases n with
  | zero => exact rfl
  | succ n => exact (dif_pos h0).trans rfl

theorem acc1_B (c : Dev nD) (t : Fin cfg1.N) (h0 : ¬t.val % 6 = 0) :
    acc1 V c t.val t.isLt = (out1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (acc1 V c (t.val - 1) (Nat.lt_of_le_of_lt (Nat.sub_le _ _) t.isLt)).2,
      sout1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (acc1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: before the first point the class's; afterwards the accumulator at what the point
    before left in it, the rest of the scoped buffers untouched, the generator register at some state. -/
def PhiS1 (c : Dev nD) : (n : ℕ) → n ≤ cfg1.N → sProp 𝕄
  | 0, _ => Pipeline.ΦA spec1 c
  | n + 1, hn => iprop(iprop(owns (c : Thread nD τ) scM1 fullShare ((acc1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((acc1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((acc1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (acc1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (acc1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  have hN : t.val < 36 := lt_of_lt_of_eq t.isLt (show cfg1.N = 36 from N_1)
  by_cases h0 : t.val % 6 = 0
  · rw [acc1_A V c t h0]
    unfold out1_A sout1_A; (try dsimp only)
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩⟩
      iapply ((kernelRun1_A c (grid1.coords t) _ _ _ _ _ _ _ _ ((hcond1 t).mpr h0) (iblk1 V c 0 t) (iblk1 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
    · rw [PhiS1_castSucc V c t, PhiS1_pos V c _ _ hz]
      iintro ⟨⟨⟨HS, HR⟩, Hg⟩, Ho, ⟨%d0, H0⟩, ⟨%d1, H1⟩, ⟨%d2, H2⟩⟩
      iapply ((kernelRun1_A c (grid1.coords t) _ _ _ _ _ _ _ _ ((hcond1 t).mpr h0) (iblk1 V c 0 t) (iblk1 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
  · rw [acc1_B V c t h0]
    unfold out1_B sout1_B; (try dsimp only)
    have hz : t.val ≠ 0 := fun h => h0 (by rw [h])
    rw [PhiS1_castSucc V c t, PhiS1_pos V c _ _ hz]
    iintro ⟨⟨⟨HS, HR⟩, Hg⟩, Ho, ⟨%d0, H0⟩, ⟨%d1, H1⟩, ⟨%d2, H2⟩⟩
    iapply ((kernelRun1_B c (grid1.coords t) _ _ _ _ _ _ _ _ (fun h => h0 ((hcond1 t).mp h)) (iblk1 V c 0 t) (iblk1 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover1_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 36 := N_1; omega), PhiA1_eq]
  iintro ⟨⟨HS, HR⟩, Hg⟩
  isplitl [HS HR]
  · isplitl [HS]
    · iexists _; iexact HS
    iexact HR
  iexact Hg

end Cert.KernelIdeal.Gen

end
-- ==== Proof.KI.R2.lean ====
import proofs.«164935_j86474871537726_2_alg».proof.Proof.Gen.KernelIdeal.Launch
import proofs.«164935_j86474871537726_2_alg».proof.Proof.Gen.KernelIdeal.Skeleton
import proofs.«164935_j86474871537726_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 2 of @main: custom_call 2, `cc2__main_kernel` (pipeline 2), at the entry contents `V` -/

/-! ## What a load reads back -/

/-- A load through a whole memref's own view, the memref held at the raw contents that read `X`, reads `X` through the
    load's rectangle. -/
theorem readAt_unread_ld2 {κ : Kind} {sp : Space} {s : Shape} {e : EltTy} {Val : EltTy → Type} {m : Memref sig κ sp s e}
    (h : m.IsWhole) (X : s.Idx → Val e) (R : Rect s) :
    View.readAt Val m.view R.toLoadRect (h.unread X) = View.ld X R :=
  funext fun x => congrFun (h.read_unread X) (R.toLoadRect.idx x)

/-- A covered load whose box is separated on some axis from the last write's rectangle reads the earlier writes. -/
theorem readCov_cons_of_disj2 {κ : Kind} {sp : Space} {s : Shape} {e : EltTy} {Val : EltTy → Type} [∀ e, Nonempty (Val e)]
    (v : View sig κ sp s e) (r : Rect s) (w : r.shape.Idx → Val e) (L : List (View.Piece Val s e)) (B : LoadRect s)
    (h : LoadRect.disj r B = true) : v.readCov (⟨r, w⟩ :: L) B = v.readCov L B := by
  rw [View.readCov_eq_canon', View.readCov_eq_canon']
  funext j
  exact View.canon_cons_of_not_mem ⟨r, w⟩ L (LoadRect.idx_not_mem_of_disj h j)

open Lean Elab Tactic Meta in
/-- Unfold, in the goal, every auxiliary definition a run of the body named (`….sl.…`): each is a payload over
    earlier ones, a list of written pieces, or a covered load of such a list. -/
elab "unfold_sl2" : tactic => do
  let g ← getMainGoal
  let tgt ← instantiateMVars (← g.getType)
  let isSl (n : Name) : Bool := n.components.contains `sl
  let tgt' ← Meta.transform tgt (pre := fun e => do
    if let .const n _ := e.getAppFn then
      if isSl n then
        if let some e' ← delta? e (fun m => m == n) then return .visit e'.headBeta
    return .continue)
  let g' ← g.replaceTargetDefEq tgt'
  replaceMainGoal [g']

/-! ## The body's values, from the input windows' blocks

Every point runs the same straight-line code. Each value below is one the body computes, over the eight input blocks
`x0 … x7` (the weight block, the row part, the column part, `b1`, `W2`, `b2`, the `W3` row, `b3`): a load of an input
window through its whole rectangle (`View.ld`), a payload the body stores into a slab of the first scratch operand
(`k2t_st12_·`, read back by later loads of that slab) or into the second scratch operand (`k2t_st13_·`: the accumulator,
each store over the one before), or a value a part hands to the next (`k2t_v·`, named as the root sequence binds it). -/

def k2t_v0 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S10 .f32 :=
  View.ld x3 (Rect.unit (s := S10) ![0] S10.size inb_S10_S10_0)
def k2t_v1 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S10x10 .f32 :=
  View.ld x4 (Rect.unit (s := S10x10) ![0, 0] S10x10.size inb_S10x10_S10x10_0_0)
def k2t_v2 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S10 .f32 :=
  View.ld x5 (Rect.unit (s := S10) ![0] S10.size inb_S10_S10_0)
def k2t_v3 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S10 .f32 :=
  View.ld x6 (Rect.unit (s := S10) ![0] S10.size inb_S10_S10_0)
def k2t_v5 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S1 .f32 :=
  View.ld x7 (Rect.unit (s := S1) ![0] S1.size inb_S1_S1_0)
def k2t_v7 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S384x10 .f32 :=
  View.ld x1 (Rect.unit (s := S384x10) ![0, 0] S384x10.size inb_S384x10_S384x10_0_0)
def k2t_v9 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S384x10 .f32 :=
  View.ld x2 (Rect.unit (s := S384x10) ![0, 0] S384x10.size inb_S384x10_S384x10_0_0)
def k2t_st12_1 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay7 (k2t_v0 x0 x1 x2 x3 x4 x5 x6 x7) (k2t_v7 x0 x1 x2 x3 x4 x5 x6 x7) (k2t_v9 x0 x1 x2 x3 x4 x5 x6 x7)
def k2t_v4 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay3 (k2t_v3 x0 x1 x2 x3 x4 x5 x6 x7)
def k2t_v6 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay4 (k2t_v5 x0 x1 x2 x3 x4 x5 x6 x7)
def k2t_v11 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay5 (k2t_v7 x0 x1 x2 x3 x4 x5 x6 x7)
def k2t_v12 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay6 (k2t_v9 x0 x1 x2 x3 x4 x5 x6 x7)
def k2t_v39 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay8 (k2t_v7 x0 x1 x2 x3 x4 x5 x6 x7) (k2t_v9 x0 x1 x2 x3 x4 x5 x6 x7)
def k2t_v42 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay9 (k2t_v0 x0 x1 x2 x3 x4 x5 x6 x7)
def k2t_st12_2 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay10 (k2t_v39 x0 x1 x2 x3 x4 x5 x6 x7) (k2t_v42 x0 x1 x2 x3 x4 x5 x6 x7)
def k2t_st12_3 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay11 (k2t_v0 x0 x1 x2 x3 x4 x5 x6 x7) (k2t_v11 x0 x1 x2 x3 x4 x5 x6 x7) (k2t_v12 x0 x1 x2 x3 x4 x5 x6 x7)
def k2t_st12_4 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay12 (k2t_v0 x0 x1 x2 x3 x4 x5 x6 x7) (k2t_v11 x0 x1 x2 x3 x4 x5 x6 x7) (k2t_v12 x0 x1 x2 x3 x4 x5 x6 x7)
def k2t_v87 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay13 (k2t_v11 x0 x1 x2 x3 x4 x5 x6 x7)
def k2t_st12_5 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay14 (k2t_v0 x0 x1 x2 x3 x4 x5 x6 x7) (k2t_v12 x0 x1 x2 x3 x4 x5 x6 x7) (k2t_v87 x0 x1 x2 x3 x4 x5 x6 x7)
def k2t_st12_6 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay15 (k2t_v0 x0 x1 x2 x3 x4 x5 x6 x7) (k2t_v11 x0 x1 x2 x3 x4 x5 x6 x7) (k2t_v12 x0 x1 x2 x3 x4 x5 x6 x7)
def k2t_v135 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay16 (k2t_v0 x0 x1 x2 x3 x4 x5 x6 x7) (k2t_v11 x0 x1 x2 x3 x4 x5 x6 x7) (k2t_v12 x0 x1 x2 x3 x4 x5 x6 x7)
def k2t_st12_7 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay17 (k2t_v135 x0 x1 x2 x3 x4 x5 x6 x7)
def k2t_st12_8 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay18 (k2t_v0 x0 x1 x2 x3 x4 x5 x6 x7) (k2t_v11 x0 x1 x2 x3 x4 x5 x6 x7) (k2t_v12 x0 x1 x2 x3 x4 x5 x6 x7)
def k2t_st12_9 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay19 (k2t_v0 x0 x1 x2 x3 x4 x5 x6 x7) (k2t_v11 x0 x1 x2 x3 x4 x5 x6 x7) (k2t_v12 x0 x1 x2 x3 x4 x5 x6 x7)
def k2t_v181 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay20 (k2t_v11 x0 x1 x2 x3 x4 x5 x6 x7)
def k2t_v182 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay21 (k2t_v12 x0 x1 x2 x3 x4 x5 x6 x7)
def k2t_st12_10 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay22 (k2t_v0 x0 x1 x2 x3 x4 x5 x6 x7) (k2t_v181 x0 x1 x2 x3 x4 x5 x6 x7) (k2t_v182 x0 x1 x2 x3 x4 x5 x6 x7)
def k2t_st13_11 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay23 (F := F)
def k2t_v218 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay24 (k2t_v1 x0 x1 x2 x3 x4 x5 x6 x7) (k2t_st12_1 x0 x1 x2 x3 x4 x5 x6 x7) (k2t_st12_2 x0 x1 x2 x3 x4 x5 x6 x7) (k2t_st12_3 x0 x1 x2 x3 x4 x5 x6 x7)
def k2t_v220 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay25 (k2t_st12_4 x0 x1 x2 x3 x4 x5 x6 x7)
def k2t_v260 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay26 (k2t_v1 x0 x1 x2 x3 x4 x5 x6 x7) (k2t_v218 x0 x1 x2 x3 x4 x5 x6 x7) (k2t_v220 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7) (k2t_st12_8 x0 x1 x2 x3 x4 x5 x6 x7) (k2t_st12_9 x0 x1 x2 x3 x4 x5 x6 x7)
def k2t_v262 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay27 (k2t_st12_10 x0 x1 x2 x3 x4 x5 x6 x7)
def k2t_st13_12 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay28 (k2t_v1 x0 x1 x2 x3 x4 x5 x6 x7) (k2t_v2 x0 x1 x2 x3 x4 x5 x6 x7) (k2t_v4 x0 x1 x2 x3 x4 x5 x6 x7) (k2t_v260 x0 x1 x2 x3 x4 x5 x6 x7) (k2t_v262 x0 x1 x2 x3 x4 x5 x6 x7) (k2t_st13_11 x0 x1 x2 x3 x4 x5 x6 x7)
def k2t_v304 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay29 (k2t_v1 x0 x1 x2 x3 x4 x5 x6 x7) (k2t_st12_1 x0 x1 x2 x3 x4 x5 x6 x7) (k2t_st12_2 x0 x1 x2 x3 x4 x5 x6 x7) (k2t_st12_3 x0 x1 x2 x3 x4 x5 x6 x7)
def k2t_v346 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay30 (k2t_v1 x0 x1 x2 x3 x4 x5 x6 x7) (k2t_v304 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7) (k2t_st12_8 x0 x1 x2 x3 x4 x5 x6 x7) (k2t_st12_9 x0 x1 x2 x3 x4 x5 x6 x7)
def k2t_st13_13 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay31 (k2t_v1 x0 x1 x2 x3 x4 x5 x6 x7) (k2t_v2 x0 x1 x2 x3 x4 x5 x6 x7) (k2t_v4 x0 x1 x2 x3 x4 x5 x6 x7) (k2t_v346 x0 x1 x2 x3 x4 x5 x6 x7) (k2t_st12_10 x0 x1 x2 x3 x4 x5 x6 x7) (k2t_st13_12 x0 x1 x2 x3 x4 x5 x6 x7)
def k2t_v383 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay32 (k2t_v1 x0 x1 x2 x3 x4 x5 x6 x7) (k2t_st12_1 x0 x1 x2 x3 x4 x5 x6 x7) (k2t_st12_2 x0 x1 x2 x3 x4 x5 x6 x7)
def k2t_v389 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay33 (k2t_v1 x0 x1 x2 x3 x4 x5 x6 x7) (k2t_st12_3 x0 x1 x2 x3 x4 x5 x6 x7)
def k2t_v425 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay34 (k2t_v1 x0 x1 x2 x3 x4 x5 x6 x7) (k2t_v383 x0 x1 x2 x3 x4 x5 x6 x7) (k2t_v389 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7) (k2t_st12_8 x0 x1 x2 x3 x4 x5 x6 x7)
def k2t_v431 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay35 (k2t_v1 x0 x1 x2 x3 x4 x5 x6 x7) (k2t_st12_9 x0 x1 x2 x3 x4 x5 x6 x7)
def k2t_st13_14 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay36 (k2t_v1 x0 x1 x2 x3 x4 x5 x6 x7) (k2t_v2 x0 x1 x2 x3 x4 x5 x6 x7) (k2t_v4 x0 x1 x2 x3 x4 x5 x6 x7) (k2t_v425 x0 x1 x2 x3 x4 x5 x6 x7) (k2t_v431 x0 x1 x2 x3 x4 x5 x6 x7) (k2t_st12_10 x0 x1 x2 x3 x4 x5 x6 x7) (k2t_st13_13 x0 x1 x2 x3 x4 x5 x6 x7)
def k2t_v469 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay37 (k2t_v1 x0 x1 x2 x3 x4 x5 x6 x7) (k2t_st12_1 x0 x1 x2 x3 x4 x5 x6 x7) (k2t_st12_2 x0 x1 x2 x3 x4 x5 x6 x7)
def k2t_v471 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay38 (k2t_st12_3 x0 x1 x2 x3 x4 x5 x6 x7)
def k2t_v472 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay39 (k2t_v1 x0 x1 x2 x3 x4 x5 x6 x7)
def k2t_v511 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay40 (k2t_v1 x0 x1 x2 x3 x4 x5 x6 x7) (k2t_v469 x0 x1 x2 x3 x4 x5 x6 x7) (k2t_v471 x0 x1 x2 x3 x4 x5 x6 x7) (k2t_v472 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7) (k2t_st12_8 x0 x1 x2 x3 x4 x5 x6 x7)
def k2t_v513 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay41 (k2t_st12_9 x0 x1 x2 x3 x4 x5 x6 x7)
def k2t_v514 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay42 (k2t_v1 x0 x1 x2 x3 x4 x5 x6 x7)
def k2t_st13_15 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay43 (k2t_v1 x0 x1 x2 x3 x4 x5 x6 x7) (k2t_v2 x0 x1 x2 x3 x4 x5 x6 x7) (k2t_v4 x0 x1 x2 x3 x4 x5 x6 x7) (k2t_v511 x0 x1 x2 x3 x4 x5 x6 x7) (k2t_v513 x0 x1 x2 x3 x4 x5 x6 x7) (k2t_v514 x0 x1 x2 x3 x4 x5 x6 x7) (k2t_st12_10 x0 x1 x2 x3 x4 x5 x6 x7) (k2t_st13_14 x0 x1 x2 x3 x4 x5 x6 x7)
def k2t_v555 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay44 (k2t_v1 x0 x1 x2 x3 x4 x5 x6 x7) (k2t_st12_1 x0 x1 x2 x3 x4 x5 x6 x7) (k2t_st12_2 x0 x1 x2 x3 x4 x5 x6 x7)
def k2t_v597 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay45 (k2t_v1 x0 x1 x2 x3 x4 x5 x6 x7) (k2t_v555 x0 x1 x2 x3 x4 x5 x6 x7) (k2t_st12_3 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7) (k2t_st12_8 x0 x1 x2 x3 x4 x5 x6 x7)
def k2t_st13_16 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay46 (k2t_v1 x0 x1 x2 x3 x4 x5 x6 x7) (k2t_v2 x0 x1 x2 x3 x4 x5 x6 x7) (k2t_v4 x0 x1 x2 x3 x4 x5 x6 x7) (k2t_v597 x0 x1 x2 x3 x4 x5 x6 x7) (k2t_st12_9 x0 x1 x2 x3 x4 x5 x6 x7) (k2t_st12_10 x0 x1 x2 x3 x4 x5 x6 x7) (k2t_st13_15 x0 x1 x2 x3 x4 x5 x6 x7)
def k2t_v641 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay47 (k2t_v1 x0 x1 x2 x3 x4 x5 x6 x7) (k2t_st12_1 x0 x1 x2 x3 x4 x5 x6 x7) (k2t_st12_2 x0 x1 x2 x3 x4 x5 x6 x7)
def k2t_v683 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay48 (k2t_v1 x0 x1 x2 x3 x4 x5 x6 x7) (k2t_v641 x0 x1 x2 x3 x4 x5 x6 x7) (k2t_st12_3 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7) (k2t_st12_8 x0 x1 x2 x3 x4 x5 x6 x7)
def k2t_st13_17 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay49 (k2t_v1 x0 x1 x2 x3 x4 x5 x6 x7) (k2t_v2 x0 x1 x2 x3 x4 x5 x6 x7) (k2t_v4 x0 x1 x2 x3 x4 x5 x6 x7) (k2t_v683 x0 x1 x2 x3 x4 x5 x6 x7) (k2t_st12_9 x0 x1 x2 x3 x4 x5 x6 x7) (k2t_st12_10 x0 x1 x2 x3 x4 x5 x6 x7) (k2t_st13_16 x0 x1 x2 x3 x4 x5 x6 x7)
def k2t_v720 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay50 (k2t_v1 x0 x1 x2 x3 x4 x5 x6 x7) (k2t_st12_1 x0 x1 x2 x3 x4 x5 x6 x7)
def k2t_v722 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay51 (k2t_st12_2 x0 x1 x2 x3 x4 x5 x6 x7)
def k2t_v724 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay52 (k2t_v1 x0 x1 x2 x3 x4 x5 x6 x7)
def k2t_v762 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay53 (k2t_v1 x0 x1 x2 x3 x4 x5 x6 x7) (k2t_v720 x0 x1 x2 x3 x4 x5 x6 x7) (k2t_v722 x0 x1 x2 x3 x4 x5 x6 x7) (k2t_v724 x0 x1 x2 x3 x4 x5 x6 x7) (k2t_st12_3 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7)
def k2t_v764 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay54 (k2t_st12_8 x0 x1 x2 x3 x4 x5 x6 x7)
def k2t_v766 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay55 (k2t_v1 x0 x1 x2 x3 x4 x5 x6 x7)
def k2t_st13_18 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay56 (k2t_v1 x0 x1 x2 x3 x4 x5 x6 x7) (k2t_v2 x0 x1 x2 x3 x4 x5 x6 x7) (k2t_v4 x0 x1 x2 x3 x4 x5 x6 x7) (k2t_v762 x0 x1 x2 x3 x4 x5 x6 x7) (k2t_v764 x0 x1 x2 x3 x4 x5 x6 x7) (k2t_v766 x0 x1 x2 x3 x4 x5 x6 x7) (k2t_st12_9 x0 x1 x2 x3 x4 x5 x6 x7) (k2t_st12_10 x0 x1 x2 x3 x4 x5 x6 x7) (k2t_st13_17 x0 x1 x2 x3 x4 x5 x6 x7)
def k2t_v806 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay57 (k2t_v1 x0 x1 x2 x3 x4 x5 x6 x7) (k2t_st12_1 x0 x1 x2 x3 x4 x5 x6 x7)
def k2t_v848 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay58 (k2t_v1 x0 x1 x2 x3 x4 x5 x6 x7) (k2t_v806 x0 x1 x2 x3 x4 x5 x6 x7) (k2t_st12_2 x0 x1 x2 x3 x4 x5 x6 x7) (k2t_st12_3 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7)
def k2t_st13_19 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay59 (k2t_v1 x0 x1 x2 x3 x4 x5 x6 x7) (k2t_v2 x0 x1 x2 x3 x4 x5 x6 x7) (k2t_v4 x0 x1 x2 x3 x4 x5 x6 x7) (k2t_v848 x0 x1 x2 x3 x4 x5 x6 x7) (k2t_st12_8 x0 x1 x2 x3 x4 x5 x6 x7) (k2t_st12_9 x0 x1 x2 x3 x4 x5 x6 x7) (k2t_st12_10 x0 x1 x2 x3 x4 x5 x6 x7) (k2t_st13_18 x0 x1 x2 x3 x4 x5 x6 x7)
def k2t_v892 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay60 (k2t_v1 x0 x1 x2 x3 x4 x5 x6 x7) (k2t_st12_1 x0 x1 x2 x3 x4 x5 x6 x7)
def k2t_v934 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay61 (k2t_v1 x0 x1 x2 x3 x4 x5 x6 x7) (k2t_v892 x0 x1 x2 x3 x4 x5 x6 x7) (k2t_st12_2 x0 x1 x2 x3 x4 x5 x6 x7) (k2t_st12_3 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7) (k2t_st12_7 x0 x1 x2 x3 x4 x5 x6 x7)
def k2t_st13_20 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay62 (k2t_v1 x0 x1 x2 x3 x4 x5 x6 x7) (k2t_v2 x0 x1 x2 x3 x4 x5 x6 x7) (k2t_v4 x0 x1 x2 x3 x4 x5 x6 x7) (k2t_v934 x0 x1 x2 x3 x4 x5 x6 x7) (k2t_st12_8 x0 x1 x2 x3 x4 x5 x6 x7) (k2t_st12_9 x0 x1 x2 x3 x4 x5 x6 x7) (k2t_st12_10 x0 x1 x2 x3 x4 x5 x6 x7) (k2t_st13_19 x0 x1 x2 x3 x4 x5 x6 x7)
def k2t_v971 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay63 (F := F)
def k2t_v973 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay64 (k2t_st12_1 x0 x1 x2 x3 x4 x5 x6 x7)
def k2t_v976 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay65 (k2t_v1 x0 x1 x2 x3 x4 x5 x6 x7)
def k2t_v1013 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay66 (k2t_v1 x0 x1 x2 x3 x4 x5 x6 x7) (k2t_v971 x0 x1 x2 x3 x4 x5 x6 x7) (k2t_v973 x0 x1 x2 x3 x4 x5 x6 x7) (k2t_v976 x0 x1 x2 x3 x4 x5 x6 x7) (k2t_st12_2 x0 x1 x2 x3 x4 x5 x6 x7) (k2t_st12_3 x0 x1 x2 x3 x4 x5 x6 x7) (k2t_st12_4 x0 x1 x2 x3 x4 x5 x6 x7) (k2t_st12_5 x0 x1 x2 x3 x4 x5 x6 x7) (k2t_st12_6 x0 x1 x2 x3 x4 x5 x6 x7)
def k2t_v1015 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay67 (k2t_st12_7 x0 x1 x2 x3 x4 x5 x6 x7)
def k2t_v1018 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay68 (k2t_v1 x0 x1 x2 x3 x4 x5 x6 x7)
def k2t_st13_21 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay69 (k2t_v1 x0 x1 x2 x3 x4 x5 x6 x7) (k2t_v2 x0 x1 x2 x3 x4 x5 x6 x7) (k2t_v4 x0 x1 x2 x3 x4 x5 x6 x7) (k2t_v1013 x0 x1 x2 x3 x4 x5 x6 x7) (k2t_v1015 x0 x1 x2 x3 x4 x5 x6 x7) (k2t_v1018 x0 x1 x2 x3 x4 x5 x6 x7) (k2t_st12_8 x0 x1 x2 x3 x4 x5 x6 x7) (k2t_st12_9 x0 x1 x2 x3 x4 x5 x6 x7) (k2t_st12_10 x0 x1 x2 x3 x4 x5 x6 x7) (k2t_st13_20 x0 x1 x2 x3 x4 x5 x6 x7)
def k2t_v1057 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S384x384 .f32 :=
  View.ld x0 (Rect.unit (s := S384x384) ![0, 0] S384x384.size inb_S384x384_S384x384_0_0)
def k2t_v1059 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay70 (k2t_v1057 x0 x1 x2 x3 x4 x5 x6 x7) (k2t_st13_21 x0 x1 x2 x3 x4 x5 x6 x7)
def k2t_st10_22 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay1 (k2t_v6 x0 x1 x2 x3 x4 x5 x6 x7) (k2t_v1059 x0 x1 x2 x3 x4 x5 x6 x7)
def k2t_st11_23 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :=
  k2_pay2 (k2t_v6 x0 x1 x2 x3 x4 x5 x6 x7) (k2t_v1059 x0 x1 x2 x3 x4 x5 x6 x7)

/-! ## What the body leaves in each output window's buffer -/

/-- Window 8's staging buffer after the body, from the input windows' blocks: its one store, whole. -/
def out2_8 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S384x384 .f32 :=
  View.canon [⟨Rect.unit (s := S384x384) ![0, 0] S384x384.size inb_S384x384_S384x384_0_0, k2_pay1 (k2t_v6 x0 x1 x2 x3 x4 x5 x6 x7) (k2t_v1059 x0 x1 x2 x3 x4 x5 x6 x7)⟩]

/-- Window 9's staging buffer after the body, from the input windows' blocks: its one store, whole. -/
def out2_9 (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) : Vec F S384x384 .bf16 :=
  View.canon [⟨Rect.unit (s := S384x384) ![0, 0] S384x384.size inb_S384x384_S384x384_0_0, k2_pay2 (k2t_v6 x0 x1 x2 x3 x4 x5 x6 x7) (k2t_v1059 x0 x1 x2 x3 x4 x5 x6 x7)⟩]

theorem offsets_zero2 : (![0, 0] : Fin S384x384.rank → ℕ) = fun _ => 0 := by
  funext a; fin_cases a <;> rfl

/-- The one store fills the buffer: what it leaves is its payload. -/
theorem out2_8_eq (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :
    out2_8 x0 x1 x2 x3 x4 x5 x6 x7 = k2_pay1 (k2t_v6 x0 x1 x2 x3 x4 x5 x6 x7) (k2t_v1059 x0 x1 x2 x3 x4 x5 x6 x7) :=
  View.canon_unit_zero offsets_zero2 inb_S384x384_S384x384_0_0 _

theorem out2_9_eq (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) :
    out2_9 x0 x1 x2 x3 x4 x5 x6 x7 = k2_pay2 (k2t_v6 x0 x1 x2 x3 x4 x5 x6 x7) (k2t_v1059 x0 x1 x2 x3 x4 x5 x6 x7) :=
  View.canon_unit_zero offsets_zero2 inb_S384x384_S384x384_0_0 _

/-- Its store tiles the buffer (checked by evaluation), so it covers it. -/
theorem cover2_8 (p0 : Vec F S384x384 .f32) (y : S384x384.Idx) :
    ∃ pc ∈ ([⟨Rect.unit (s := S384x384) ![0, 0] S384x384.size inb_S384x384_S384x384_0_0, p0⟩] : List (View.Piece (Elt F) S384x384 .f32)), y ∈ pc.1.set :=
  View.cover_of_tiled [⟨Rect.unit (s := S384x384) ![0, 0] S384x384.size inb_S384x384_S384x384_0_0, p0⟩] S384x384.size (by rfl) y

theorem cover2_9 (p0 : Vec F S384x384 .bf16) (y : S384x384.Idx) :
    ∃ pc ∈ ([⟨Rect.unit (s := S384x384) ![0, 0] S384x384.size inb_S384x384_S384x384_0_0, p0⟩] : List (View.Piece (Elt F) S384x384 .bf16)), y ∈ pc.1.set :=
  View.cover_of_tiled [⟨Rect.unit (s := S384x384) ![0, 0] S384x384.size inb_S384x384_S384x384_0_0, p0⟩] S384x384.size (by rfl) y

/-! ## The body's triple -/

set_option maxHeartbeats 8000000 in
/-- The kernel body on whole memrefs, the inputs' at read contents `x·`, the outputs' and the two scratch operands' at
    anything, runs to the continuation holding the inputs' as they were, each output's at `out2_·` of the inputs' and the
    scratch operands' at something: the printed functions are their skeletons, run part by part; every slab of the
    first scratch operand is stored before it is read and the second is stored whole before it is read, so each
    load of them reads the payload last stored there. -/
theorem sound_kernel2 (c : Dev nD) (E : Set ℕ) (i : grid2.Coords) (arg2 : Memref sig .tc .vmem S384x384 .f32) (harg2 : arg2.IsWhole) (arg3 : Memref sig .tc .vmem S384x10 .f32) (harg3 : arg3.IsWhole) (arg4 : Memref sig .tc .vmem S384x10 .f32) (harg4 : arg4.IsWhole) (arg5 : Memref sig .tc .vmem S10 .f32) (harg5 : arg5.IsWhole) (arg6 : Memref sig .tc .vmem S10x10 .f32) (harg6 : arg6.IsWhole) (arg7 : Memref sig .tc .vmem S10 .f32) (harg7 : arg7.IsWhole) (arg8 : Memref sig .tc .vmem S10 .f32) (harg8 : arg8.IsWhole) (arg9 : Memref sig .tc .vmem S1 .f32) (harg9 : arg9.IsWhole) (arg10 : Memref sig .tc .vmem S384x384 .f32) (harg10 : arg10.IsWhole) (arg11 : Memref sig .tc .vmem S384x384 .bf16) (harg11 : arg11.IsWhole) (arg12 : Memref sig .tc .vmem S10x384x384 .f32) (harg12 : arg12.IsWhole) (arg13 : Memref sig .tc .vmem S384x384 .f32) (harg13 : arg13.IsWhole)
    (x0 : Vec F S384x384 .f32) (x1 : Vec F S384x10 .f32) (x2 : Vec F S384x10 .f32) (x3 : Vec F S10 .f32) (x4 : Vec F S10x10 .f32) (x5 : Vec F S10 .f32) (x6 : Vec F S10 .f32) (x7 : Vec F S1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out2_8 x0 x1 x2 x3 x4 x5 x6 x7) ∗ owns (c : Thread nD τ) arg11 fullShare (out2_9 x0 x1 x2 x3 x4 x5 x6 x7)
            ∗ (∃ d, owns (c : Thread nD τ) arg12 fullShare d) ∗ (∃ d, owns (c : Thread nD τ) arg13 fullShare d)) -∗ K ⟨⟩))
      ⊢ wp frame (wpE (defs₀ (F := F)) Variants.none c none) E (cc2__main_kernel i arg2 harg2 arg3 harg3 arg4 harg4 arg5 harg5 arg6 harg6 arg7 harg7 arg8 harg8 arg9 harg9 arg10 harg10 arg11 harg11 arg12 harg12 arg13 harg13) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d12, %f12, -, H12⟩, ⟨%d13, %f13, -, H13⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec_parts
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (View.read_writes_eq_canon _ _ _ (cover2_8 _)).trans ?_
    unfold out2_8
    unfold_sl2
    simp (disch := first | rfl | decide) only [readAt_unread_ld2, View.readCov_cons_toLoadRect, readCov_cons_of_disj2, k2t_v0, k2t_v1, k2t_v2, k2t_v3, k2t_v5, k2t_v7, k2t_v9, k2t_st12_1, k2t_v4, k2t_v6, k2t_v11, k2t_v12, k2t_v39, k2t_v42, k2t_st12_2, k2t_st12_3, k2t_st12_4, k2t_v87, k2t_st12_5, k2t_st12_6, k2t_v135, k2t_st12_7, k2t_st12_8, k2t_st12_9, k2t_v181, k2t_v182, k2t_st12_10, k2t_st13_11, k2t_v218, k2t_v220, k2t_v260, k2t_v262, k2t_st13_12, k2t_v304, k2t_v346, k2t_st13_13, k2t_v383, k2t_v389, k2t_v425, k2t_v431, k2t_st13_14, k2t_v469, k2t_v471, k2t_v472, k2t_v511, k2t_v513, k2t_v514, k2t_st13_15, k2t_v555, k2t_v597, k2t_st13_16, k2t_v641, k2t_v683, k2t_st13_17, k2t_v720, k2t_v722, k2t_v724, k2t_v762, k2t_v764, k2t_v766, k2t_st13_18, k2t_v806, k2t_v848, k2t_st13_19, k2t_v892, k2t_v934, k2t_st13_20, k2t_v971, k2t_v973, k2t_v976, k2t_v1013, k2t_v1015, k2t_v1018, k2t_st13_21, k2t_v1057, k2t_v1059, k2t_st10_22, k2t_st11_23]
  isplitl [H9]
  · iexists _; isplitr
    swap; · iexact H9
    ipureintro
    refine (View.read_writes_eq_canon _ _ _ (cover2_9 _)).trans ?_
    unfold out2_9
    unfold_sl2
    simp (disch := first | rfl | decide) only [readAt_unread_ld2, View.readCov_cons_toLoadRect, readCov_cons_of_disj2, k2t_v0, k2t_v1, k2t_v2, k2t_v3, k2t_v5, k2t_v7, k2t_v9, k2t_st12_1, k2t_v4, k2t_v6, k2t_v11, k2t_v12, k2t_v39, k2t_v42, k2t_st12_2, k2t_st12_3, k2t_st12_4, k2t_v87, k2t_st12_5, k2t_st12_6, k2t_v135, k2t_st12_7, k2t_st12_8, k2t_st12_9, k2t_v181, k2t_v182, k2t_st12_10, k2t_st13_11, k2t_v218, k2t_v220, k2t_v260, k2t_v262, k2t_st13_12, k2t_v304, k2t_v346, k2t_st13_13, k2t_v383, k2t_v389, k2t_v425, k2t_v431, k2t_st13_14, k2t_v469, k2t_v471, k2t_v472, k2t_v511, k2t_v513, k2t_v514, k2t_st13_15, k2t_v555, k2t_v597, k2t_st13_16, k2t_v641, k2t_v683, k2t_st13_17, k2t_v720, k2t_v722, k2t_v724, k2t_v762, k2t_v764, k2t_v766, k2t_st13_18, k2t_v806, k2t_v848, k2t_st13_19, k2t_v892, k2t_v934, k2t_st13_20, k2t_v971, k2t_v973, k2t_v976, k2t_v1013, k2t_v1015, k2t_v1018, k2t_st13_21, k2t_v1057, k2t_v1059, k2t_st10_22, k2t_st11_23]
  isplitl [H12]
  · iexists _; iexists _; isplitr
    swap; · iexact H12
    ipureintro; rfl
  iexists _; iexists _; isplitr
  swap; · iexact H13
  ipureintro; rfl

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place (unfetched, the index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place (unfetched, the index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place (unfetched, the index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place (unfetched, the index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place (unfetched, the index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place (unfetched, the index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place (unfetched, the index has not moved). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s and whose body leaves the block in place (unfetched, the index has not moved). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of pipeline 2 on core `c`: the arrays as the region finds them (`V`); after the body at point `t`
    each input's buffer at its block and each output's at `out2_·` of the input blocks; the invariant the class's
    (the scoped rest — the two scratch operands among it, at anything — and the generator register); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
    | ⟨9, _⟩ => out2_9 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- The class's invariant with the two scratch operands as memrefs owned at some contents: what the body obligation
    hands the body and takes back. -/
theorem PhiA2_eq (c : Dev nD) :
    (Pipeline.ΦA spec2 c : sProp 𝕄)
      = iprop(iprop(iprop((∃ d, owns (c : Thread nD τ) (Memref.whole cc2_scratch0) fullShare d) ∗ (∃ d, owns (c : Thread nD τ) (Memref.whole cc2_scratch1) fullShare d))
          ∗ Pipeline.scopedRestBut (Ix := Unit) (Name := ℕ) (U := UR sig nD τ) (Lvl := ℕ) (Val := Elt F) spec2 c [cc2_scratch0, cc2_scratch1])
        ∗ (∃ r, prngReg c r)) := by
  unfold Pipeline.ΦA; rw [scopedRest2_split]; simp only [owns_whole]

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 4000000 in
/-- The body at any point: the inputs' memrefs hold their blocks, the invariant hands over the two scratch operands at
    some contents, so the body's triple applies; the scratch operands go back into the invariant at whatever they hold
    (nothing is carried between points), the rest of the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  rw [show (dat2 V c).Φ t.castSucc = Pipeline.ΦA spec2 c from rfl, PhiA2_eq]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 HR Hg]
  · isplitr [Hg]
    · isplitr [HR]
      · isplitl [HS0]; · iexact HS0
        iexact HS1
      · iexact HR
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := .rfl

/-- The invariant after the last point is what the region hands back. -/
theorem hout2 (c : Dev nD) : (dat2 V c).Φ (Fin.last cfg2.N) ⊢ (Pipeline.ΦA spec2 c : sProp 𝕄) := .rfl

end Region

end Cert.KernelIdeal.Gen

end
-- ==== Proof.KI.R3Run.lean ====
import proofs.«164935_j86474871537726_2_alg».proof.Proof.Gen.KernelIdeal.Launch
import proofs.«164935_j86474871537726_2_alg».proof.Proof.Gen.KernelIdeal.Skeleton
import proofs.«164935_j86474871537726_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Region 3: a matrix product accumulated over the last grid axis. At a grid point the body zeroes its accumulator
when the contraction block index is 0, adds the product of the two input blocks to it, and copies it to the output
block. What the accumulator and the output block hold after each point is defined by recursion over the points
(`acc3`), the invariant carries the accumulator from a point to the next, and the body obligation follows case by case.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition: the contraction block index is 0 -/

abbrev cond3 (i : grid3.Coords) : Prop := (Scalar.cmpi .ne (Scalar.extui (Scalar.cmpi .eq (BitVec.ofNat 32 (i 2).val) 0#32)) 0#32) = 1#1
/-- It holds at the points ≡ 0 (mod 6). -/
theorem hcond3 : ∀ t : Fin cfg3.N, cond3 (grid3.coords t) ↔ t.val % 6 = 0 :=
  (by decide +kernel : ∀ t : Fin grid3.N, cond3 (grid3.coords t) ↔ t.val % 6 = 0)

/-! ## The memrefs the body is called with -/

abbrev VO3 : View sig .tc .vmem S10x512 .f32 := (Memref.whole cc3_stg2_0 : Memref sig .tc .vmem S10x512 .f32).view
abbrev ms3_0 (t : Fin cfg3.N) : Memref sig .tc .vmem S10x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S10x512 .f32 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev scM3 : Memref sig .tc .vmem S10x512 .f32 := Memref.whole cc3_scratch0
abbrev VS3 : View sig .tc .vmem S10x512 .f32 := (scM3).view

/-- The class invariant with the accumulator taken out of the scoped rest at some contents. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's run, case by case -/

set_option maxHeartbeats 1000000 in
/-- The first contraction block: the accumulator is zeroed, then the product added. The pieces the output buffer and the
    accumulator end with are found by the run. -/
noncomputable def kernelRun3_A (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond3 i)
    (x0 : Vec F S10x512 .f32) (x1 : Vec F S512x512 .f32) :
    Σ' (L2 : List (View.Piece (Elt F) S10x512 .f32)), { LS : List (View.Piece (Elt F) S10x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc3__mm_kernel i arg3 harg3 arg4 harg4 arg5 harg5 arg6 harg6) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%d2, %f2, -, H2⟩, ⟨%ds, %fs, -, HS⟩, Hk⟩
    obtain rfl := harg3.eq_unread hf0; obtain rfl := harg4.eq_unread hf1
    sl_exec (disch := exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

set_option maxHeartbeats 1000000 in
/-- A later contraction block: the product is added to what the point before left in the accumulator (`xs`). -/
noncomputable def kernelRun3_B (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond3 i)
    (x0 : Vec F S10x512 .f32) (x1 : Vec F S512x512 .f32) (xs : Vec F S10x512 .f32) :
    Σ' (L2 : List (View.Piece (Elt F) S10x512 .f32)), { LS : List (View.Piece (Elt F) S10x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc3__mm_kernel i arg3 harg3 arg4 harg4 arg5 harg5 arg6 harg6) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Gen

end
-- ==== Proof.KI.R3.lean ====
import proofs.«164935_j86474871537726_2_alg».proof.Proof.KI.R3Run

/-!
Region 3, continued: what the output block and the accumulator hold after each grid point (`acc3`), the invariant
that carries the accumulator between points, the proof data and the body obligation.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover3_A (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond3 i)
    (x0 : Vec F S10x512 .f32) (x1 : Vec F S512x512 .f32) (y : S10x512.Idx) :
    ∃ pc ∈ (kernelRun3_A c i arg3 harg3 arg4 harg4 arg5 harg5 arg6 harg6 hc x0 x1).1, y ∈ pc.1.set :=
  View.cover_of_tiledL (kernelRun3_A c i arg3 harg3 arg4 harg4 arg5 harg5 arg6 harg6 hc x0 x1).1 S10x512.size (by sl_kernel_rfl) y
theorem scover3_A (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond3 i)
    (x0 : Vec F S10x512 .f32) (x1 : Vec F S512x512 .f32) (y : S10x512.Idx) :
    ∃ pc ∈ (kernelRun3_A c i arg3 harg3 arg4 harg4 arg5 harg5 arg6 harg6 hc x0 x1).2.1, y ∈ pc.1.set :=
  View.cover_of_tiledL (kernelRun3_A c i arg3 harg3 arg4 harg4 arg5 harg5 arg6 harg6 hc x0 x1).2.1 S10x512.size (by sl_kernel_rfl) y
/-- The output block after a first contraction block. -/
def out3_A (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond3 i)
    (x0 : Vec F S10x512 .f32) (x1 : Vec F S512x512 .f32) : Vec F S10x512 .f32 :=
  VO3.read (Elt F) (VO3.writes (Elt F) VO3.junk (kernelRun3_A c i arg3 harg3 arg4 harg4 arg5 harg5 arg6 harg6 hc x0 x1).1)
/-- The accumulator after a first contraction block. -/
def sout3_A (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond3 i)
    (x0 : Vec F S10x512 .f32) (x1 : Vec F S512x512 .f32) : Vec F S10x512 .f32 :=
  VS3.read (Elt F) (VS3.writes (Elt F) VS3.junk (kernelRun3_A c i arg3 harg3 arg4 harg4 arg5 harg5 arg6 harg6 hc x0 x1).2.1)

theorem cover3_B (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond3 i)
    (x0 : Vec F S10x512 .f32) (x1 : Vec F S512x512 .f32) (xs : Vec F S10x512 .f32) (y : S10x512.Idx) :
    ∃ pc ∈ (kernelRun3_B c i arg3 harg3 arg4 harg4 arg5 harg5 arg6 harg6 hc x0 x1 xs).1, y ∈ pc.1.set :=
  View.cover_of_tiledL (kernelRun3_B c i arg3 harg3 arg4 harg4 arg5 harg5 arg6 harg6 hc x0 x1 xs).1 S10x512.size (by sl_kernel_rfl) y
theorem scover3_B (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond3 i)
    (x0 : Vec F S10x512 .f32) (x1 : Vec F S512x512 .f32) (xs : Vec F S10x512 .f32) (y : S10x512.Idx) :
    ∃ pc ∈ (kernelRun3_B c i arg3 harg3 arg4 harg4 arg5 harg5 arg6 harg6 hc x0 x1 xs).2.1, y ∈ pc.1.set :=
  View.cover_of_tiledL (kernelRun3_B c i arg3 harg3 arg4 harg4 arg5 harg5 arg6 harg6 hc x0 x1 xs).2.1 S10x512.size (by sl_kernel_rfl) y
/-- The output block after a later contraction block, from what the accumulator held (`xs`). -/
def out3_B (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond3 i)
    (x0 : Vec F S10x512 .f32) (x1 : Vec F S512x512 .f32) (xs : Vec F S10x512 .f32) : Vec F S10x512 .f32 :=
  VO3.read (Elt F) (VO3.writes (Elt F) VO3.junk (kernelRun3_B c i arg3 harg3 arg4 harg4 arg5 harg5 arg6 harg6 hc x0 x1 xs).1)
/-- The accumulator after a later contraction block. -/
def sout3_B (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond3 i)
    (x0 : Vec F S10x512 .f32) (x1 : Vec F S512x512 .f32) (xs : Vec F S10x512 .f32) : Vec F S10x512 .f32 :=
  VS3.read (Elt F) (VS3.writes (Elt F) VS3.junk (kernelRun3_B c i arg3 harg3 arg4 harg4 arg5 harg5 arg6 harg6 hc x0 x1 xs).2.1)

/-! ## The accumulation over the grid points -/

/-- What the output block and the accumulator hold after the body at position `n` (output, accumulator). -/
def acc3 (c : Dev nD) : (n : ℕ) → n < cfg3.N → Vec F S10x512 .f32 × Vec F S10x512 .f32
  | 0, hn => (out3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3 ⟨0, hn⟩).mpr (Nat.zero_mod _)) (iblk3 V c 0 ⟨0, hn⟩) (iblk3 V c 1 ⟨0, hn⟩),
              sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3 ⟨0, hn⟩).mpr (Nat.zero_mod _)) (iblk3 V c 0 ⟨0, hn⟩) (iblk3 V c 1 ⟨0, hn⟩))
  | n + 1, hn =>
    if h0 : (n + 1) % 6 = 0 then
      (out3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3 ⟨n + 1, hn⟩).mpr h0) (iblk3 V c 0 ⟨n + 1, hn⟩) (iblk3 V c 1 ⟨n + 1, hn⟩),
       sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3 ⟨n + 1, hn⟩).mpr h0) (iblk3 V c 0 ⟨n + 1, hn⟩) (iblk3 V c 1 ⟨n + 1, hn⟩))
    else
      (out3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3 ⟨n + 1, hn⟩).mp h)) (iblk3 V c 0 ⟨n + 1, hn⟩) (iblk3 V c 1 ⟨n + 1, hn⟩) (acc3 c n (Nat.lt_of_succ_lt hn)).2,
       sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3 ⟨n + 1, hn⟩).mp h)) (iblk3 V c 0 ⟨n + 1, hn⟩) (iblk3 V c 1 ⟨n + 1, hn⟩) (acc3 c n (Nat.lt_of_succ_lt hn)).2)

theorem acc3_A (c : Dev nD) (t : Fin cfg3.N) (h0 : t.val % 6 = 0) :
    acc3 V c t.val t.isLt = (out3_A c (grid3.coords t) (ms3_0 t) (hs3_0 t) (ms3_1 t) (hs3_1 t) (ms3_2 t) (hs3_2 t) scM3 (Memref.isWhole_whole _) ((hcond3 t).mpr h0) (iblk3 V c 0 t) (iblk3 V c 1 t),
      sout3_A c (grid3.coords t) (ms3_0 t) (hs3_0 t) (ms3_1 t) (hs3_1 t) (ms3_2 t) (hs3_2 t) scM3 (Memref.isWhole_whole _) ((hcond3 t).mpr h0) (iblk3 V c 0 t) (iblk3 V c 1 t)) := by
  obtain ⟨n, hn⟩ := t
  cases n with
  | zero => exact rfl
  | succ n => exact (dif_pos h0).trans rfl

theorem acc3_B (c : Dev nD) (t : Fin cfg3.N) (h0 : ¬t.val % 6 = 0) :
    acc3 V c t.val t.isLt = (out3_B c (grid3.coords t) (ms3_0 t) (hs3_0 t) (ms3_1 t) (hs3_1 t) (ms3_2 t) (hs3_2 t) scM3 (Memref.isWhole_whole _) (fun h => h0 ((hcond3 t).mp h)) (iblk3 V c 0 t) (iblk3 V c 1 t) (acc3 V c (t.val - 1) (Nat.lt_of_le_of_lt (Nat.sub_le _ _) t.isLt)).2,
      sout3_B c (grid3.coords t) (ms3_0 t) (hs3_0 t) (ms3_1 t) (hs3_1 t) (ms3_2 t) (hs3_2 t) scM3 (Memref.isWhole_whole _) (fun h => h0 ((hcond3 t).mp h)) (iblk3 V c 0 t) (iblk3 V c 1 t) (acc3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: before the first point the class's; afterwards the accumulator at what the point
    before left in it, the rest of the scoped buffers untouched, the generator register at some state. -/
def PhiS3 (c : Dev nD) : (n : ℕ) → n ≤ cfg3.N → sProp 𝕄
  | 0, _ => Pipeline.ΦA spec3 c
  | n + 1, hn => iprop(iprop(owns (c : Thread nD τ) scM3 fullShare ((acc3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((acc3 V c n hn).2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare ((acc3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (acc3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (acc3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [after3_0, after3_1, after3_2]
  have hN : t.val < 36 := lt_of_lt_of_eq t.isLt (show cfg3.N = 36 from N_3)
  by_cases h0 : t.val % 6 = 0
  · rw [acc3_A V c t h0]
    unfold out3_A sout3_A; (try dsimp only)
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩⟩
      iapply ((kernelRun3_A c (grid3.coords t) _ _ _ _ _ _ _ _ ((hcond3 t).mpr h0) (iblk3 V c 0 t) (iblk3 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_A c _ _ _ _ _ _ _ _ _ _ _ _)
    · rw [PhiS3_castSucc V c t, PhiS3_pos V c _ _ hz]
      iintro ⟨⟨⟨HS, HR⟩, Hg⟩, Ho, ⟨%d0, H0⟩, ⟨%d1, H1⟩, ⟨%d2, H2⟩⟩
      iapply ((kernelRun3_A c (grid3.coords t) _ _ _ _ _ _ _ _ ((hcond3 t).mpr h0) (iblk3 V c 0 t) (iblk3 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_A c _ _ _ _ _ _ _ _ _ _ _ _)
  · rw [acc3_B V c t h0]
    unfold out3_B sout3_B; (try dsimp only)
    have hz : t.val ≠ 0 := fun h => h0 (by rw [h])
    rw [PhiS3_castSucc V c t, PhiS3_pos V c _ _ hz]
    iintro ⟨⟨⟨HS, HR⟩, Hg⟩, Ho, ⟨%d0, H0⟩, ⟨%d1, H1⟩, ⟨%d2, H2⟩⟩
    iapply ((kernelRun3_B c (grid3.coords t) _ _ _ _ _ _ _ _ (fun h => h0 ((hcond3 t).mp h)) (iblk3 V c 0 t) (iblk3 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover3_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover3_B c _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ (Pipeline.ΦA spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 36 := N_3; omega), PhiA3_eq]
  iintro ⟨⟨HS, HR⟩, Hg⟩
  isplitl [HS HR]
  · isplitl [HS]
    · iexists _; iexact HS
    iexact HR
  iexact Hg

end Cert.KernelIdeal.Gen

end
-- ==== Proof.KI.R4.lean ====
/- REGION 4 of `proofs.«164935_j86474871537726_2_alg».proof.KernelIdeal`'s @main: custom_call 4, `cc4__final_kernel` (pipeline 4): a bf16
   matrix product plus a bias, then a row softmax, of one [128,3072] block per grid point (16 points). The body loads
   its three input windows whole, loads the output window's buffer once (the value is not used) and stores one payload
   over the whole output buffer. Stated at a PARAMETER `V` — the TensorCore's buffer contents when the region is
   entered —: each window's block at a point (`Gen.iblk4`), the output's buffer after the body (`Gen.out4_3`), the
   body's triple (`Gen.sound_kernel4`), the proof data (`Gen.dat4`) and the body obligation (`Gen.body_obligation4`).
   Generic in the float model `F`. -/
import proofs.«164935_j86474871537726_2_alg».proof.Proof.Gen.KernelIdeal.Launch
import proofs.«164935_j86474871537726_2_alg».proof.Proof.Gen.KernelIdeal.Skeleton
import proofs.«164935_j86474871537726_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes: the elaborator's structural look recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 4 of @main: custom_call 4, `cc4__final_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): unfetched, the block index
    has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 (the whole matrix, fetched once) likewise: its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 (the whole bias, fetched once) likewise. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S128x3072 := Rect.unit (s := S128x3072) ![0, 0] S128x3072.size inb_S128x3072_S128x3072_0_0
abbrev r4_1 : Rect S3072x3072 := Rect.unit (s := S3072x3072) ![0, 0] S3072x3072.size inb_S3072x3072_S3072x3072_0_0
abbrev r4_2 : Rect S3072 := Rect.unit (s := S3072) ![0] S3072.size inb_S3072_S3072_0

/-! ## What the body leaves in the output window's buffer -/

/-- Window 3's staging buffer after the body, from the input windows' blocks: its one store as a piece (the payload
    is the skeleton's). -/
def out4_3 (x0 : Vec F S128x3072 .f32) (x1 : Vec F S3072x3072 .bf16) (x2 : Vec F S3072 .f32) : Vec F S128x3072 .f32 :=
  View.canon [⟨r4_0, k4_pay1 (View.ld x0 r4_0) (View.ld x1 r4_1) (View.ld x2 r4_2)⟩]

/-- Its store tiles the buffer (checked by evaluation), so it covers it. -/
theorem cover4_3 (p0 : Vec F S128x3072 .f32) (y : S128x3072.Idx) :
    ∃ pc ∈ ([⟨r4_0, p0⟩] : List (View.Piece (Elt F) S128x3072 .f32)), y ∈ pc.1.set :=
  View.cover_of_tiled [⟨r4_0, p0⟩] S128x3072.size (by rfl) y

/-! ## The body's triple -/

set_option maxHeartbeats 1000000 in
/-- The kernel body on whole staging memrefs, the inputs' at read contents `xW` and the output's at anything, runs to
    the continuation holding the inputs' as they were and the output's at `out4_3` of the inputs': the printed function
    is its skeleton, whose four loads and one store are run in order; the load of the output's buffer reads whatever
    it holds, and the store over the whole buffer leaves the payload. -/
theorem sound_kernel4 (c : Dev nD) (E : Set ℕ) (i : grid4.Coords) (arg1 : Memref sig .tc .vmem S128x3072 .f32) (harg1 : arg1.IsWhole)
    (arg2 : Memref sig .tc .vmem S3072x3072 .bf16) (harg2 : arg2.IsWhole) (arg3 : Memref sig .tc .vmem S3072 .f32) (harg3 : arg3.IsWhole)
    (arg4 : Memref sig .tc .vmem S128x3072 .f32) (harg4 : arg4.IsWhole)
    (x0 : Vec F S128x3072 .f32) (x1 : Vec F S3072x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__final_kernel i arg1 harg1 arg2 harg2 arg3 harg3 arg4 harg4) K := by
  simp only [cc4__final_kernel_eq_skeleton]; unfold cc4__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at
    point `t` each input's buffer at its block and the output's at `out4_3` of the input blocks; the invariant the
    class's (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- The proof data's invariant is the class's at every point, so at the first -/
theorem hin4 (c : Dev nD) : (Pipeline.ΦA spec4 c : sProp 𝕄) ⊢ (dat4 V c).Φ 0 := .rfl

/-- and at the last. -/
theorem hout4 (c : Dev nD) : (dat4 V c).Φ (Fin.last cfg4.N) ⊢ (Pipeline.ΦA spec4 c : sProp 𝕄) := .rfl

end Cert.KernelIdeal.Gen

end
-- ==== Proof.KI.Regs.lean ====
import proofs.«164935_j86474871537726_2_alg».proof.Proof.KI.Entry
import proofs.«164935_j86474871537726_2_alg».proof.Proof.KI.R0
import proofs.«164935_j86474871537726_2_alg».proof.Proof.KI.R1
import proofs.«164935_j86474871537726_2_alg».proof.Proof.KI.R2
import proofs.«164935_j86474871537726_2_alg».proof.Proof.KI.R3
import proofs.«164935_j86474871537726_2_alg».proof.Proof.KI.R4
import Idealize.ShloMosaic.Lib.Pipeline.Kit

/-!
The five kernel regions as segments of the program, and the program's run: every weakly fair execution terminates with
the result array at what the last region writes back and every argument array as launched. Between two items a core
holds every unscoped buffer whole at the running valuation; each region takes its windows' arrays out of it, runs its
pipeline, and puts them back at what the write-backs leave.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m outs) c
  | ⟨2, _⟩ => fun c => dat2 (U4 m outs) c
  | ⟨3, _⟩ => fun c => dat3 (U5 m outs) c
  | ⟨4, _⟩ => fun c => dat4 (U11 m outs) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-! ## Region 0 as a segment -/

set_option maxHeartbeats 1600000 in
theorem hF0 (ho2 : ∀ c, outs 2 main_v5 c = (dat0 (U1 m) c).arrAt 2 cfg0.N) (c : Dev nD) : ∀ w : Fin cfg0.W, (pdats m outs 0 c).arrAt w cfg0.N = (V2 m outs c) (Proc.devRef .tc (Pipeline.arrRef spec0 w))
  | ⟨0, _⟩ => ((pdats m outs 0 c).arrAt_in 0 rfl _).trans ((A_eq0 (U1 m) c 0).trans (V2_of m outs c main_arg1 (by decide)).symm)
  | ⟨1, _⟩ => ((pdats m outs 0 c).arrAt_in 1 rfl _).trans ((A_eq0 (U1 m) c 1).trans (V2_of m outs c main_v4 (by decide)).symm)
  | ⟨2, _⟩ => (ho2 c).symm.trans (by
      show outs 2 main_v5 c = Function.update (V1 m c) (Proc.devRef .tc main_v5) (outs 2 main_v5 c) (Proc.devRef .tc main_v5)
      rw [Function.update_self])
  | ⟨_ + 3, h⟩ => absurd h (Nat.not_lt.2 (Nat.le_add_left _ _))

theorem hrest0 (c : Dev nD) : ∀ b : Ref sig .tc, b ∉ Finset.univ.image (Pipeline.arrRef spec0) → (V2 m outs c) (Proc.devRef .tc b) = (V1 m c) (Proc.devRef .tc b) :=
  fun b hb => V2_of m outs c b (fun h => hb (by
    simp only [List.mem_cons, List.mem_nil_iff, or_false] at h
    rcases h with rfl
    · exact Finset.mem_image.mpr ⟨2, Finset.mem_univ _, rfl⟩))

set_option backward.isDefEq.respectTransparency.types false in
def reg0 (ho2 : ∀ c, outs 2 main_v5 c = (dat0 (U1 m) c).arrAt 2 cfg0.N) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U1 m) c)
    unfold Pipeline.ΦA
    iintro ⟨Hp, -, Hr⟩
    isplitl [Hr]; · iexact Hr
    iexact Hp
  hout c := by
    refine (hout0 (U1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (U1 m c) (fun b => (V2 m outs c) (Proc.devRef .tc b)) ((pdats m outs 0 c).arrAt · cfg0.N) (hF0 m outs ho2 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

set_option maxHeartbeats 1600000 in
theorem hF1 (ho3 : ∀ c, outs 3 main_v6 c = (dat1 (U2 m outs) c).arrAt 2 cfg1.N) (c : Dev nD) : ∀ w : Fin cfg1.W, (pdats m outs 1 c).arrAt w cfg1.N = (V3 m outs c) (Proc.devRef .tc (Pipeline.arrRef spec1 w))
  | ⟨0, _⟩ => ((pdats m outs 1 c).arrAt_in 0 rfl _).trans ((A_eq1 (U2 m outs) c 0).trans (V3_of m outs c main_v1 (by decide)).symm)
  | ⟨1, _⟩ => ((pdats m outs 1 c).arrAt_in 1 rfl _).trans ((A_eq1 (U2 m outs) c 1).trans (V3_of m outs c main_arg1 (by decide)).symm)
  | ⟨2, _⟩ => (ho3 c).symm.trans (by
      show outs 3 main_v6 c = Function.update (V2 m outs c) (Proc.devRef .tc main_v6) (outs 3 main_v6 c) (Proc.devRef .tc main_v6)
      rw [Function.update_self])
  | ⟨_ + 3, h⟩ => absurd h (Nat.not_lt.2 (Nat.le_add_left _ _))

theorem hrest1 (c : Dev nD) : ∀ b : Ref sig .tc, b ∉ Finset.univ.image (Pipeline.arrRef spec1) → (V3 m outs c) (Proc.devRef .tc b) = (V2 m outs c) (Proc.devRef .tc b) :=
  fun b hb => V3_of m outs c b (fun h => hb (by
    simp only [List.mem_cons, List.mem_nil_iff, or_false] at h
    rcases h with rfl
    · exact Finset.mem_image.mpr ⟨2, Finset.mem_univ _, rfl⟩))

set_option backward.isDefEq.respectTransparency.types false in
def reg1 (ho3 : ∀ c, outs 3 main_v6 c = (dat1 (U2 m outs) c).arrAt 2 cfg1.N) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m outs) c).loose
  hwaits := Pipeline.hwaits_of_owed_zero _ _ _ _ L lv 1 fun _ _ => rfl
  pre c := iprop(StableHlo.held (c : Thread nD τ) (Pipeline.ucRefs τ sig) (V2 m outs c) ∗ R c)
  post c := iprop(StableHlo.held (c : Thread nD τ) (Pipeline.ucRefs τ sig) (V3 m outs c) ∗ R c)
  X c := iprop(∃ r, prngReg c r)
  Y c := iprop(∃ r, prngReg c r)
  Z c := Pipeline.unscopedRest (Ix := Unit) (Name := ℕ) (U := UR sig nD τ) (Lvl := ℕ) spec1 c (U2 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (U2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U2 m outs) c)
    unfold Pipeline.ΦA
    iintro ⟨Hp, -, Hr⟩
    isplitl [Hr]; · iexact Hr
    iexact Hp
  hout c := by
    refine (hout1 (U2 m outs) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (U2 m outs c) (fun b => (V3 m outs c) (Proc.devRef .tc b)) ((pdats m outs 1 c).arrAt · cfg1.N) (hF1 m outs ho3 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

set_option maxHeartbeats 1600000 in
theorem hF2 (ho5a : ∀ c, outs 5 main_v15_0 c = (dat2 (U4 m outs) c).arrAt 8 cfg2.N) (ho5b : ∀ c, outs 5 main_v15_1 c = (dat2 (U4 m outs) c).arrAt 9 cfg2.N) (c : Dev nD) : ∀ w : Fin cfg2.W, (pdats m outs 2 c).arrAt w cfg2.N = (V5 m outs c) (Proc.devRef .tc (Pipeline.arrRef spec2 w))
  | ⟨0, _⟩ => ((pdats m outs 2 c).arrAt_in 0 rfl _).trans ((A_eq2 (U4 m outs) c 0).trans (V5_of m outs c main_arg1 (by decide)).symm)
  | ⟨1, _⟩ => ((pdats m outs 2 c).arrAt_in 1 rfl _).trans ((A_eq2 (U4 m outs) c 1).trans (V5_of m outs c main_v5 (by decide)).symm)
  | ⟨2, _⟩ => ((pdats m outs 2 c).arrAt_in 2 rfl _).trans ((A_eq2 (U4 m outs) c 2).trans (V5_of m outs c main_v13 (by decide)).symm)
  | ⟨3, _⟩ => ((pdats m outs 2 c).arrAt_in 3 rfl _).trans ((A_eq2 (U4 m outs) c 3).trans (V5_of m outs c main_arg4 (by decide)).symm)
  | ⟨4, _⟩ => ((pdats m outs 2 c).arrAt_in 4 rfl _).trans ((A_eq2 (U4 m outs) c 4).trans (V5_of m outs c main_arg5 (by decide)).symm)
  | ⟨5, _⟩ => ((pdats m outs 2 c).arrAt_in 5 rfl _).trans ((A_eq2 (U4 m outs) c 5).trans (V5_of m outs c main_arg6 (by decide)).symm)
  | ⟨6, _⟩ => ((pdats m outs 2 c).arrAt_in 6 rfl _).trans ((A_eq2 (U4 m outs) c 6).trans (V5_of m outs c main_v14 (by decide)).symm)
  | ⟨7, _⟩ => ((pdats m outs 2 c).arrAt_in 7 rfl _).trans ((A_eq2 (U4 m outs) c 7).trans (V5_of m outs c main_arg8 (by decide)).symm)
  | ⟨8, _⟩ => (ho5a c).symm.trans (by
      show outs 5 main_v15_0 c = Function.update (Function.update (V4 m outs c) (Proc.devRef .tc main_v15_0) (outs 5 main_v15_0 c)) (Proc.devRef .tc main_v15_1) (outs 5 main_v15_1 c) (Proc.devRef .tc main_v15_0)
      rw [Function.update_of_ne (StableHlo.devRef_ne_of_ne (by decide : (main_v15_0 : Ref sig .tc) ≠ main_v15_1)), Function.update_self])
  | ⟨9, _⟩ => (ho5b c).symm.trans (by
      show outs 5 main_v15_1 c = Function.update (Function.update (V4 m outs c) (Proc.devRef .tc main_v15_0) (outs 5 main_v15_0 c)) (Proc.devRef .tc main_v15_1) (outs 5 main_v15_1 c) (Proc.devRef .tc main_v15_1)
      rw [Function.update_self])
  | ⟨_ + 10, h⟩ => absurd h (Nat.not_lt.2 (Nat.le_add_left _ _))

theorem hrest2 (c : Dev nD) : ∀ b : Ref sig .tc, b ∉ Finset.univ.image (Pipeline.arrRef spec2) → (V5 m outs c) (Proc.devRef .tc b) = (V4 m outs c) (Proc.devRef .tc b) :=
  fun b hb => V5_of m outs c b (fun h => hb (by
    simp only [List.mem_cons, List.mem_nil_iff, or_false] at h
    rcases h with rfl | rfl
    · exact Finset.mem_image.mpr ⟨8, Finset.mem_univ _, rfl⟩
    · exact Finset.mem_image.mpr ⟨9, Finset.mem_univ _, rfl⟩))

set_option backward.isDefEq.respectTransparency.types false in
def reg2 (ho5a : ∀ c, outs 5 main_v15_0 c = (dat2 (U4 m outs) c).arrAt 8 cfg2.N) (ho5b : ∀ c, outs 5 main_v15_1 c = (dat2 (U4 m outs) c).arrAt 9 cfg2.N) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m outs) c).loose
  hwaits := Pipeline.hwaits_of_owed_zero _ _ _ _ L lv 2 fun _ _ => rfl
  pre c := iprop(StableHlo.held (c : Thread nD τ) (Pipeline.ucRefs τ sig) (V4 m outs c) ∗ R c)
  post c := iprop(StableHlo.held (c : Thread nD τ) (Pipeline.ucRefs τ sig) (V5 m outs c) ∗ R c)
  X c := iprop(∃ r, prngReg c r)
  Y c := iprop(∃ r, prngReg c r)
  Z c := Pipeline.unscopedRest (Ix := Unit) (Name := ℕ) (U := UR sig nD τ) (Lvl := ℕ) spec2 c (U4 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (U4 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (U4 m outs) c)
    unfold Pipeline.ΦA
    iintro ⟨Hp, -, Hr⟩
    isplitl [Hr]; · iexact Hr
    iexact Hp
  hout c := by
    refine (hout2 (U4 m outs) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (U4 m outs c) (fun b => (V5 m outs c) (Proc.devRef .tc b)) ((pdats m outs 2 c).arrAt · cfg2.N) (hF2 m outs ho5a ho5b c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 as a segment -/

set_option maxHeartbeats 1600000 in
theorem hF3 (ho6 : ∀ c, outs 6 main_v16 c = (dat3 (U5 m outs) c).arrAt 2 cfg3.N) (c : Dev nD) : ∀ w : Fin cfg3.W, (pdats m outs 3 c).arrAt w cfg3.N = (V6 m outs c) (Proc.devRef .tc (Pipeline.arrRef spec3 w))
  | ⟨0, _⟩ => ((pdats m outs 3 c).arrAt_in 0 rfl _).trans ((A_eq3 (U5 m outs) c 0).trans (V6_of m outs c main_v1 (by decide)).symm)
  | ⟨1, _⟩ => ((pdats m outs 3 c).arrAt_in 1 rfl _).trans ((A_eq3 (U5 m outs) c 1).trans (V6_of m outs c main_v15_0 (by decide)).symm)
  | ⟨2, _⟩ => (ho6 c).symm.trans (by
      show outs 6 main_v16 c = Function.update (V5 m outs c) (Proc.devRef .tc main_v16) (outs 6 main_v16 c) (Proc.devRef .tc main_v16)
      rw [Function.update_self])
  | ⟨_ + 3, h⟩ => absurd h (Nat.not_lt.2 (Nat.le_add_left _ _))

theorem hrest3 (c : Dev nD) : ∀ b : Ref sig .tc, b ∉ Finset.univ.image (Pipeline.arrRef spec3) → (V6 m outs c) (Proc.devRef .tc b) = (V5 m outs c) (Proc.devRef .tc b) :=
  fun b hb => V6_of m outs c b (fun h => hb (by
    simp only [List.mem_cons, List.mem_nil_iff, or_false] at h
    rcases h with rfl
    · exact Finset.mem_image.mpr ⟨2, Finset.mem_univ _, rfl⟩))

set_option backward.isDefEq.respectTransparency.types false in
def reg3 (ho6 : ∀ c, outs 6 main_v16 c = (dat3 (U5 m outs) c).arrAt 2 cfg3.N) : Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U5 m outs) c).loose
  hwaits := Pipeline.hwaits_of_owed_zero _ _ _ _ L lv 3 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec3 c (U5 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (U5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (U5 m outs) c)
    unfold Pipeline.ΦA
    iintro ⟨Hp, -, Hr⟩
    isplitl [Hr]; · iexact Hr
    iexact Hp
  hout c := by
    refine (hout3 (U5 m outs) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (U5 m outs c) (fun b => (V6 m outs c) (Proc.devRef .tc b)) ((pdats m outs 3 c).arrAt · cfg3.N) (hF3 m outs ho6 c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 as a segment -/

set_option maxHeartbeats 1600000 in
theorem hF4 (ho12 : ∀ c, outs 12 main_v36 c = (dat4 (U11 m outs) c).arrAt 3 cfg4.N) (c : Dev nD) : ∀ w : Fin cfg4.W, (pdats m outs 4 c).arrAt w cfg4.N = (V12 m outs c) (Proc.devRef .tc (Pipeline.arrRef spec4 w))
  | ⟨0, _⟩ => ((pdats m outs 4 c).arrAt_in 0 rfl _).trans ((A_eq4 (U11 m outs) c 0).trans (V12_of m outs c main_arg0 (by decide)).symm)
  | ⟨1, _⟩ => ((pdats m outs 4 c).arrAt_in 1 rfl _).trans ((A_eq4 (U11 m outs) c 1).trans (V12_of m outs c main_v15_1 (by decide)).symm)
  | ⟨2, _⟩ => ((pdats m outs 4 c).arrAt_in 2 rfl _).trans ((A_eq4 (U11 m outs) c 2).trans (V12_of m outs c main_v35 (by decide)).symm)
  | ⟨3, _⟩ => (ho12 c).symm.trans (by
      show outs 12 main_v36 c = Function.update (V11 m outs c) (Proc.devRef .tc main_v36) (outs 12 main_v36 c) (Proc.devRef .tc main_v36)
      rw [Function.update_self])
  | ⟨_ + 4, h⟩ => absurd h (Nat.not_lt.2 (Nat.le_add_left _ _))

theorem hrest4 (c : Dev nD) : ∀ b : Ref sig .tc, b ∉ Finset.univ.image (Pipeline.arrRef spec4) → (V12 m outs c) (Proc.devRef .tc b) = (V11 m outs c) (Proc.devRef .tc b) :=
  fun b hb => V12_of m outs c b (fun h => hb (by
    simp only [List.mem_cons, List.mem_nil_iff, or_false] at h
    rcases h with rfl
    · exact Finset.mem_image.mpr ⟨3, Finset.mem_univ _, rfl⟩))

set_option backward.isDefEq.respectTransparency.types false in
def reg4 (ho12 : ∀ c, outs 12 main_v36 c = (dat4 (U11 m outs) c).arrAt 3 cfg4.N) : Pipeline.RegionSeg (pcfgs (F := F)) adm (pdats m outs) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U11 m outs) c).loose
  hwaits := Pipeline.hwaits_of_owed_zero _ _ _ _ L lv 4 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec4 c (U11 m outs c)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (U11 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (U11 m outs) c)
    unfold Pipeline.ΦA
    iintro ⟨Hp, -, Hr⟩
    isplitl [Hr]; · iexact Hr
    iexact Hp
  hout c := by
    refine (hout4 (U11 m outs) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (U11 m outs c) (fun b => (V12 m outs c) (Proc.devRef .tc b)) ((pdats m outs 4 c).arrAt · cfg4.N) (hF4 m outs ho12 c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one
set_option backward.isDefEq.respectTransparency.types false in
set_option maxHeartbeats 1600000 in
/-- For any contents `outs` that are what each region's write-backs leave (`ho…`): every weakly fair execution of the
    program from memory `m` with zero counters terminates, and every final memory holds the result array at what the
    last region leaves and each argument array as launched. -/
theorem run_value (ρ : Dev nD → PrngReg)
    (ho2 : ∀ c, outs 2 main_v5 c = (dat0 (U1 m) c).arrAt 2 cfg0.N)
    (ho3 : ∀ c, outs 3 main_v6 c = (dat1 (U2 m outs) c).arrAt 2 cfg1.N)
    (ho5a : ∀ c, outs 5 main_v15_0 c = (dat2 (U4 m outs) c).arrAt 8 cfg2.N)
    (ho5b : ∀ c, outs 5 main_v15_1 c = (dat2 (U4 m outs) c).arrAt 9 cfg2.N)
    (ho6 : ∀ c, outs 6 main_v16 c = (dat3 (U5 m outs) c).arrAt 2 cfg3.N)
    (ho12 : ∀ c, outs 12 main_v36 c = (dat4 (U11 m outs) c).arrAt 3 cfg4.N) :
    θ_run defs (onTc (τ := τ) (main (F := F))) ⟨m, fun _ => 0, ρ⟩ (fun r => ∀ c : Dev nD,
      r.2.mem ((c.tc : Thread nD τ).loc main_v36) = V12 m outs c main_v36
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m outs) () cellOf_inj emb₁ defs₀ 𝒱₀ L lv m ρ main
    (segs m outs 𝒱₀ L lv (fun _ c => R c) () (pdats m outs) (reg0 m outs ho2) (reg1 m outs ho3) (reg2 m outs ho5a ho5b) (reg3 m outs ho6) (reg4 m outs ho12))
    (fun c Q => by
      rewrite [main_chain c, Seg.run_eq_chain,
        show (segs m outs 𝒱₀ L lv (fun _ c => R c) () (pdats m outs) (reg0 m outs ho2) (reg1 m outs ho3) (reg2 m outs ho5a ho5b) (reg3 m outs ho6) (reg4 m outs ho12) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4,
          StableHlo.seq hostOps4_1,
          StableHlo.seq hostOps4_2,
          StableHlo.seq hostOps4_3,
          StableHlo.seq hostOps4_4,
          Prog.lift (.customCall (Pipeline.entry 4) ()) ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V12 m outs c) ∗ ∃ r, prngReg c r))
    (hch := fun c => ⟨.rfl, .rfl, .rfl, .rfl, .rfl, .rfl, .rfl, .rfl, .rfl, .rfl, .rfl, .rfl, by
      show iprop(StableHlo.held (c : Thread nD τ) (Pipeline.ucRefs τ sig) (V12 m outs c) ∗ R c)
        ⊢ iprop((StableHlo.held (c : Thread nD τ) (Pipeline.ucRefs τ sig) (V12 m outs c) ∗ ∃ r, prngReg c r) ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v36) = V12 m outs c main_v36
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => ?_) (hQ := fun _ h => h)
  unfold StableHlo.held
  iintro ⟨⟨Hh, -⟩, HSI⟩
  ihave Hr := (pointsTo_read_all (Pipeline.ucRefs τ sig) (fun b => ((c : Thread nD τ).1, b)) (V12 m outs c) s') $$ [Hh HSI]
  · isplitl [Hh] <;> iassumption
  icases Hr with ⟨%h, HSI⟩
  imodintro
  isplitr
  · ipureintro
    exact ⟨h (Proc.devRef .tc main_v36) (Finset.mem_filter.mpr ⟨StableHlo.devRef_mem_tcRefs main_v36, by decide⟩),
      (h (Proc.devRef .tc main_arg0) (Finset.mem_filter.mpr ⟨StableHlo.devRef_mem_tcRefs main_arg0, by decide⟩)).trans (V12_main_arg0 m outs c),
      (h (Proc.devRef .tc main_arg1) (Finset.mem_filter.mpr ⟨StableHlo.devRef_mem_tcRefs main_arg1, by decide⟩)).trans (V12_main_arg1 m outs c),
      (h (Proc.devRef .tc main_arg2) (Finset.mem_filter.mpr ⟨StableHlo.devRef_mem_tcRefs main_arg2, by decide⟩)).trans (V12_main_arg2 m outs c),
      (h (Proc.devRef .tc main_arg3) (Finset.mem_filter.mpr ⟨StableHlo.devRef_mem_tcRefs main_arg3, by decide⟩)).trans (V12_main_arg3 m outs c),
      (h (Proc.devRef .tc main_arg4) (Finset.mem_filter.mpr ⟨StableHlo.devRef_mem_tcRefs main_arg4, by decide⟩)).trans (V12_main_arg4 m outs c),
      (h (Proc.devRef .tc main_arg5) (Finset.mem_filter.mpr ⟨StableHlo.devRef_mem_tcRefs main_arg5, by decide⟩)).trans (V12_main_arg5 m outs c),
      (h (Proc.devRef .tc main_arg6) (Finset.mem_filter.mpr ⟨StableHlo.devRef_mem_tcRefs main_arg6, by decide⟩)).trans (V12_main_arg6 m outs c),
      (h (Proc.devRef .tc main_arg7) (Finset.mem_filter.mpr ⟨StableHlo.devRef_mem_tcRefs main_arg7, by decide⟩)).trans (V12_main_arg7 m outs c),
      (h (Proc.devRef .tc main_arg8) (Finset.mem_filter.mpr ⟨StableHlo.devRef_mem_tcRefs main_arg8, by decide⟩)).trans (V12_main_arg8 m outs c)⟩
  · iexact HSI

/-! ## The contents the regions leave, region after region -/

/-- A family of region results from its six members; any other buffer at its launch contents (never read). -/
def outsOf (a2 : (c : Dev nD) → Buf (Elt F) ((c : Thread nD τ).loc main_v5)) (a3 : (c : Dev nD) → Buf (Elt F) ((c : Thread nD τ).loc main_v6)) (a5a : (c : Dev nD) → Buf (Elt F) ((c : Thread nD τ).loc main_v15_0)) (a5b : (c : Dev nD) → Buf (Elt F) ((c : Thread nD τ).loc main_v15_1)) (a6 : (c : Dev nD) → Buf (Elt F) ((c : Thread nD τ).loc main_v16)) (a12 : (c : Dev nD) → Buf (Elt F) ((c : Thread nD τ).loc main_v36)) : Outs (F := F) :=
  fun _ r c =>
    if h : r = main_v5 then h ▸ a2 c
    else if h : r = main_v6 then h ▸ a3 c
    else if h : r = main_v15_0 then h ▸ a5a c
    else if h : r = main_v15_1 then h ▸ a5b c
    else if h : r = main_v16 then h ▸ a6 c
    else if h : r = main_v36 then h ▸ a12 c
    else m ((c : Thread nD τ).loc r)

theorem outsOf_main_v5 (a2 : (c : Dev nD) → Buf (Elt F) ((c : Thread nD τ).loc main_v5)) (a3 : (c : Dev nD) → Buf (Elt F) ((c : Thread nD τ).loc main_v6)) (a5a : (c : Dev nD) → Buf (Elt F) ((c : Thread nD τ).loc main_v15_0)) (a5b : (c : Dev nD) → Buf (Elt F) ((c : Thread nD τ).loc main_v15_1)) (a6 : (c : Dev nD) → Buf (Elt F) ((c : Thread nD τ).loc main_v16)) (a12 : (c : Dev nD) → Buf (Elt F) ((c : Thread nD τ).loc main_v36)) (J : ℕ) (c : Dev nD) : outsOf m a2 a3 a5a a5b a6 a12 J main_v5 c = a2 c := by
  unfold outsOf; rw [dif_pos rfl]
theorem outsOf_main_v6 (a2 : (c : Dev nD) → Buf (Elt F) ((c : Thread nD τ).loc main_v5)) (a3 : (c : Dev nD) → Buf (Elt F) ((c : Thread nD τ).loc main_v6)) (a5a : (c : Dev nD) → Buf (Elt F) ((c : Thread nD τ).loc main_v15_0)) (a5b : (c : Dev nD) → Buf (Elt F) ((c : Thread nD τ).loc main_v15_1)) (a6 : (c : Dev nD) → Buf (Elt F) ((c : Thread nD τ).loc main_v16)) (a12 : (c : Dev nD) → Buf (Elt F) ((c : Thread nD τ).loc main_v36)) (J : ℕ) (c : Dev nD) : outsOf m a2 a3 a5a a5b a6 a12 J main_v6 c = a3 c := by
  unfold outsOf; rw [dif_neg (by decide : ¬(main_v6 : Ref sig .tc) = main_v5), dif_pos rfl]
theorem outsOf_main_v15_0 (a2 : (c : Dev nD) → Buf (Elt F) ((c : Thread nD τ).loc main_v5)) (a3 : (c : Dev nD) → Buf (Elt F) ((c : Thread nD τ).loc main_v6)) (a5a : (c : Dev nD) → Buf (Elt F) ((c : Thread nD τ).loc main_v15_0)) (a5b : (c : Dev nD) → Buf (Elt F) ((c : Thread nD τ).loc main_v15_1)) (a6 : (c : Dev nD) → Buf (Elt F) ((c : Thread nD τ).loc main_v16)) (a12 : (c : Dev nD) → Buf (Elt F) ((c : Thread nD τ).loc main_v36)) (J : ℕ) (c : Dev nD) : outsOf m a2 a3 a5a a5b a6 a12 J main_v15_0 c = a5a c := by
  unfold outsOf; rw [dif_neg (by decide : ¬(main_v15_0 : Ref sig .tc) = main_v5), dif_neg (by decide : ¬(main_v15_0 : Ref sig .tc) = main_v6), dif_pos rfl]
theorem outsOf_main_v15_1 (a2 : (c : Dev nD) → Buf (Elt F) ((c : Thread nD τ).loc main_v5)) (a3 : (c : Dev nD) → Buf (Elt F) ((c : Thread nD τ).loc main_v6)) (a5a : (c : Dev nD) → Buf (Elt F) ((c : Thread nD τ).loc main_v15_0)) (a5b : (c : Dev nD) → Buf (Elt F) ((c : Thread nD τ).loc main_v15_1)) (a6 : (c : Dev nD) → Buf (Elt F) ((c : Thread nD τ).loc main_v16)) (a12 : (c : Dev nD) → Buf (Elt F) ((c : Thread nD τ).loc main_v36)) (J : ℕ) (c : Dev nD) : outsOf m a2 a3 a5a a5b a6 a12 J main_v15_1 c = a5b c := by
  unfold outsOf; rw [dif_neg (by decide : ¬(main_v15_1 : Ref sig .tc) = main_v5), dif_neg (by decide : ¬(main_v15_1 : Ref sig .tc) = main_v6), dif_neg (by decide : ¬(main_v15_1 : Ref sig .tc) = main_v15_0), dif_pos rfl]
theorem outsOf_main_v16 (a2 : (c : Dev nD) → Buf (Elt F) ((c : Thread nD τ).loc main_v5)) (a3 : (c : Dev nD) → Buf (Elt F) ((c : Thread nD τ).loc main_v6)) (a5a : (c : Dev nD) → Buf (Elt F) ((c : Thread nD τ).loc main_v15_0)) (a5b : (c : Dev nD) → Buf (Elt F) ((c : Thread nD τ).loc main_v15_1)) (a6 : (c : Dev nD) → Buf (Elt F) ((c : Thread nD τ).loc main_v16)) (a12 : (c : Dev nD) → Buf (Elt F) ((c : Thread nD τ).loc main_v36)) (J : ℕ) (c : Dev nD) : outsOf m a2 a3 a5a a5b a6 a12 J main_v16 c = a6 c := by
  unfold outsOf; rw [dif_neg (by decide : ¬(main_v16 : Ref sig .tc) = main_v5), dif_neg (by decide : ¬(main_v16 : Ref sig .tc) = main_v6), dif_neg (by decide : ¬(main_v16 : Ref sig .tc) = main_v15_0), dif_neg (by decide : ¬(main_v16 : Ref sig .tc) = main_v15_1), dif_pos rfl]
theorem outsOf_main_v36 (a2 : (c : Dev nD) → Buf (Elt F) ((c : Thread nD τ).loc main_v5)) (a3 : (c : Dev nD) → Buf (Elt F) ((c : Thread nD τ).loc main_v6)) (a5a : (c : Dev nD) → Buf (Elt F) ((c : Thread nD τ).loc main_v15_0)) (a5b : (c : Dev nD) → Buf (Elt F) ((c : Thread nD τ).loc main_v15_1)) (a6 : (c : Dev nD) → Buf (Elt F) ((c : Thread nD τ).loc main_v16)) (a12 : (c : Dev nD) → Buf (Elt F) ((c : Thread nD τ).loc main_v36)) (J : ℕ) (c : Dev nD) : outsOf m a2 a3 a5a a5b a6 a12 J main_v36 c = a12 c := by
  unfold outsOf; rw [dif_neg (by decide : ¬(main_v36 : Ref sig .tc) = main_v5), dif_neg (by decide : ¬(main_v36 : Ref sig .tc) = main_v6), dif_neg (by decide : ¬(main_v36 : Ref sig .tc) = main_v15_0), dif_neg (by decide : ¬(main_v36 : Ref sig .tc) = main_v15_1), dif_neg (by decide : ¬(main_v36 : Ref sig .tc) = main_v16), dif_pos rfl]

/-! The valuation before an item depends only on the results of the regions before it. -/

theorem V2_congr (o o' : Outs (F := F)) (h2 : ∀ c, o 2 main_v5 c = o' 2 main_v5 c) (c : Dev nD) : V2 m o c = V2 m o' c := by
  simp only [V2, h2]
theorem V3_congr (o o' : Outs (F := F)) (h2 : ∀ c, o 2 main_v5 c = o' 2 main_v5 c) (h3 : ∀ c, o 3 main_v6 c = o' 3 main_v6 c) (c : Dev nD) : V3 m o c = V3 m o' c := by
  show Function.update (V2 m o c) _ (o 3 main_v6 c) = Function.update (V2 m o' c) _ (o' 3 main_v6 c)
  rw [V2_congr m o o' h2 c, h3 c]
theorem V4_congr (o o' : Outs (F := F)) (h2 : ∀ c, o 2 main_v5 c = o' 2 main_v5 c) (h3 : ∀ c, o 3 main_v6 c = o' 3 main_v6 c) (c : Dev nD) : V4 m o c = V4 m o' c := by
  show StableHlo.after hostOps2 (V3 m o c) = StableHlo.after hostOps2 (V3 m o' c)
  rw [V3_congr m o o' h2 h3 c]
theorem V5_congr (o o' : Outs (F := F)) (h2 : ∀ c, o 2 main_v5 c = o' 2 main_v5 c) (h3 : ∀ c, o 3 main_v6 c = o' 3 main_v6 c)
    (h5a : ∀ c, o 5 main_v15_0 c = o' 5 main_v15_0 c) (h5b : ∀ c, o 5 main_v15_1 c = o' 5 main_v15_1 c) (c : Dev nD) : V5 m o c = V5 m o' c := by
  show Function.update (Function.update (V4 m o c) _ (o 5 main_v15_0 c)) _ (o 5 main_v15_1 c) = Function.update (Function.update (V4 m o' c) _ (o' 5 main_v15_0 c)) _ (o' 5 main_v15_1 c)
  rw [V4_congr m o o' h2 h3 c, h5a c, h5b c]
theorem V11_congr (o o' : Outs (F := F)) (h2 : ∀ c, o 2 main_v5 c = o' 2 main_v5 c) (h3 : ∀ c, o 3 main_v6 c = o' 3 main_v6 c)
    (h5a : ∀ c, o 5 main_v15_0 c = o' 5 main_v15_0 c) (h5b : ∀ c, o 5 main_v15_1 c = o' 5 main_v15_1 c)
    (h6 : ∀ c, o 6 main_v16 c = o' 6 main_v16 c) (c : Dev nD) : V11 m o c = V11 m o' c := by
  show StableHlo.after hostOps4_4 (StableHlo.after hostOps4_3 (StableHlo.after hostOps4_2 (StableHlo.after hostOps4_1 (StableHlo.after hostOps4 (Function.update (V5 m o c) _ (o 6 main_v16 c))))))
    = StableHlo.after hostOps4_4 (StableHlo.after hostOps4_3 (StableHlo.after hostOps4_2 (StableHlo.after hostOps4_1 (StableHlo.after hostOps4 (Function.update (V5 m o' c) _ (o' 6 main_v16 c))))))
  rw [V5_congr m o o' h2 h3 h5a h5b c, h6 c]

theorem U2_congr (o o' : Outs (F := F)) (h2 : ∀ c, o 2 main_v5 c = o' 2 main_v5 c) : U2 m o = U2 m o' := by
  funext c b; exact congrFun (V2_congr m o o' h2 c) _
theorem U4_congr (o o' : Outs (F := F)) (h2 : ∀ c, o 2 main_v5 c = o' 2 main_v5 c) (h3 : ∀ c, o 3 main_v6 c = o' 3 main_v6 c) : U4 m o = U4 m o' := by
  funext c b; exact congrFun (V4_congr m o o' h2 h3 c) _
theorem U5_congr (o o' : Outs (F := F)) (h2 : ∀ c, o 2 main_v5 c = o' 2 main_v5 c) (h3 : ∀ c, o 3 main_v6 c = o' 3 main_v6 c)
    (h5a : ∀ c, o 5 main_v15_0 c = o' 5 main_v15_0 c) (h5b : ∀ c, o 5 main_v15_1 c = o' 5 main_v15_1 c) : U5 m o = U5 m o' := by
  funext c b; exact congrFun (V5_congr m o o' h2 h3 h5a h5b c) _
theorem U11_congr (o o' : Outs (F := F)) (h2 : ∀ c, o 2 main_v5 c = o' 2 main_v5 c) (h3 : ∀ c, o 3 main_v6 c = o' 3 main_v6 c)
    (h5a : ∀ c, o 5 main_v15_0 c = o' 5 main_v15_0 c) (h5b : ∀ c, o 5 main_v15_1 c = o' 5 main_v15_1 c)
    (h6 : ∀ c, o 6 main_v16 c = o' 6 main_v16 c) : U11 m o = U11 m o' := by
  funext c b; exact congrFun (V11_congr m o o' h2 h3 h5a h5b h6 c) _

/-- Placeholder for a region result not yet determined: the buffer's launch contents. -/
abbrev dflt (r : Ref sig .tc) : (c : Dev nD) → Buf (Elt F) ((c : Thread nD τ).loc r) := fun c => m ((c : Thread nD τ).loc r)

def res2 : (c : Dev nD) → Buf (Elt F) ((c : Thread nD τ).loc main_v5) := fun c => (dat0 (U1 m) c).arrAt 2 cfg0.N
def res3 : (c : Dev nD) → Buf (Elt F) ((c : Thread nD τ).loc main_v6) := fun c =>
  (dat1 (U2 m (outsOf m (res2 m) (dflt m _) (dflt m _) (dflt m _) (dflt m _) (dflt m _))) c).arrAt 2 cfg1.N
def res5a : (c : Dev nD) → Buf (Elt F) ((c : Thread nD τ).loc main_v15_0) := fun c =>
  (dat2 (U4 m (outsOf m (res2 m) (res3 m) (dflt m _) (dflt m _) (dflt m _) (dflt m _))) c).arrAt 8 cfg2.N
def res5b : (c : Dev nD) → Buf (Elt F) ((c : Thread nD τ).loc main_v15_1) := fun c =>
  (dat2 (U4 m (outsOf m (res2 m) (res3 m) (dflt m _) (dflt m _) (dflt m _) (dflt m _))) c).arrAt 9 cfg2.N
def res6 : (c : Dev nD) → Buf (Elt F) ((c : Thread nD τ).loc main_v16) := fun c =>
  (dat3 (U5 m (outsOf m (res2 m) (res3 m) (res5a m) (res5b m) (dflt m _) (dflt m _))) c).arrAt 2 cfg3.N
def res12 : (c : Dev nD) → Buf (Elt F) ((c : Thread nD τ).loc main_v36) := fun c =>
  (dat4 (U11 m (outsOf m (res2 m) (res3 m) (res5a m) (res5b m) (res6 m) (dflt m _))) c).arrAt 3 cfg4.N

/-- What each region leaves, all six. -/
def outsF : Outs (F := F) := outsOf m (res2 m) (res3 m) (res5a m) (res5b m) (res6 m) (res12 m)

theorem ho2F (c : Dev nD) : outsF m 2 main_v5 c = (dat0 (U1 m) c).arrAt 2 cfg0.N := by
  unfold outsF; rw [outsOf_main_v5]; rfl
theorem ho3F (c : Dev nD) : outsF m 3 main_v6 c = (dat1 (U2 m (outsF m)) c).arrAt 2 cfg1.N :=
  (show outsF m 3 main_v6 c = res3 m c from by unfold outsF; rw [outsOf_main_v6]).trans (by
    unfold res3; rw [U2_congr m _ (outsF m) (fun c => by rw [outsOf_main_v5]; unfold outsF; rw [outsOf_main_v5])])
theorem ho5aF (c : Dev nD) : outsF m 5 main_v15_0 c = (dat2 (U4 m (outsF m)) c).arrAt 8 cfg2.N :=
  (show outsF m 5 main_v15_0 c = res5a m c from by unfold outsF; rw [outsOf_main_v15_0]).trans (by
    unfold res5a; rw [U4_congr m _ (outsF m) (fun c => by rw [outsOf_main_v5]; unfold outsF; rw [outsOf_main_v5]) (fun c => by rw [outsOf_main_v6]; unfold outsF; rw [outsOf_main_v6])])
theorem ho5bF (c : Dev nD) : outsF m 5 main_v15_1 c = (dat2 (U4 m (outsF m)) c).arrAt 9 cfg2.N :=
  (show outsF m 5 main_v15_1 c = res5b m c from by unfold outsF; rw [outsOf_main_v15_1]).trans (by
    unfold res5b; rw [U4_congr m _ (outsF m) (fun c => by rw [outsOf_main_v5]; unfold outsF; rw [outsOf_main_v5]) (fun c => by rw [outsOf_main_v6]; unfold outsF; rw [outsOf_main_v6])])
theorem ho6F (c : Dev nD) : outsF m 6 main_v16 c = (dat3 (U5 m (outsF m)) c).arrAt 2 cfg3.N :=
  (show outsF m 6 main_v16 c = res6 m c from by unfold outsF; rw [outsOf_main_v16]).trans (by
    unfold res6; rw [U5_congr m _ (outsF m) (fun c => by rw [outsOf_main_v5]; unfold outsF; rw [outsOf_main_v5]) (fun c => by rw [outsOf_main_v6]; unfold outsF; rw [outsOf_main_v6]) (fun c => by rw [outsOf_main_v15_0]; unfold outsF; rw [outsOf_main_v15_0]) (fun c => by rw [outsOf_main_v15_1]; unfold outsF; rw [outsOf_main_v15_1])])
theorem ho12F (c : Dev nD) : outsF m 12 main_v36 c = (dat4 (U11 m (outsF m)) c).arrAt 3 cfg4.N :=
  (show outsF m 12 main_v36 c = res12 m c from by unfold outsF; rw [outsOf_main_v36]).trans (by
    unfold res12; rw [U11_congr m _ (outsF m) (fun c => by rw [outsOf_main_v5]; unfold outsF; rw [outsOf_main_v5]) (fun c => by rw [outsOf_main_v6]; unfold outsF; rw [outsOf_main_v6]) (fun c => by rw [outsOf_main_v15_0]; unfold outsF; rw [outsOf_main_v15_0]) (fun c => by rw [outsOf_main_v15_1]; unfold outsF; rw [outsOf_main_v15_1]) (fun c => by rw [outsOf_main_v16]; unfold outsF; rw [outsOf_main_v16])])

theorem V12_self (c : Dev nD) : V12 m (outsF m) c main_v36 = outsF m 12 main_v36 c := by
  show Function.update (V11 m (outsF m) c) (Proc.devRef .tc main_v36) (outsF m 12 main_v36 c) (Proc.devRef .tc main_v36) = _
  rw [Function.update_self]

/-- THE RUN: every weakly fair execution from memory `m` with zero counters terminates; the result array ends at what
    region 4's write-backs leave and every argument array as launched. -/
theorem run_main (ρ : Dev nD → PrngReg) :
    θ_run defs (onTc (τ := τ) (main (F := F))) ⟨m, fun _ => 0, ρ⟩ (fun r => ∀ c : Dev nD,
      r.2.mem ((c.tc : Thread nD τ).loc main_v36) = (dat4 (U11 m (outsF m)) c).arrAt 3 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (((V12_self m c).trans (ho12F m c))), (h c).2⟩)
    (run_value m (outsF m) ρ (ho2F m) (ho3F m) (ho5aF m) (ho5bF m) (ho6F m) (ho12F m))

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.KernelIdeal.Gen

end
-- ==== Proof.Spec.lean ====
/-
  The mathematics of the value claim, as functions on arrays of extended reals over literal index types.
  No program is imported. Each stage of the computation is one definition:

    rowPart, colPart, biasPart   the first layer of the per-pair network, split over the three slots of its input
    h1, h2, upd, newW            the per-(i, j) three-layer update of the weight
    g1, g2, newB                 the update of the bias, from the new weight's column
    logit, rowMax, expo, denom   X · newW + newB and the pieces of its row softmax
    out                          the result

  Every sum is over `Finset.univ` of a literal `Fin n`; every product is left operand × right operand of the
  contraction it comes from; additions associate as written here.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-! ## The three slots of the first layer's input: a row of the weight, a column of the weight, one bias entry -/

/-- Column `k` of the first layer's matrix in the slot that multiplies a ROW of the weight (columns 0 … 3071). -/
abbrev slotRow (k : Fin 3072) : Fin 6145 := ⟨k.val, by have := k.isLt; omega⟩
/-- Column `k` of the first layer's matrix in the slot that multiplies a COLUMN of the weight (columns 3072 … 6143). -/
abbrev slotCol (k : Fin 3072) : Fin 6145 := ⟨3072 + k.val, by have := k.isLt; omega⟩
/-- The last column of the first layer's matrix, which multiplies the bias entry (column 6144). -/
abbrev slotBias : Fin 6145 := ⟨6144, by omega⟩

/-! ## The first layer, split over the slots -/

/-- Row `i` of the weight through the row slot: `∑ k, w[i, k] · W1[h, k]`. -/
def rowPart (w : Fin 3072 → Fin 3072 → EReal) (W1 : Fin 10 → Fin 6145 → EReal) (i : Fin 3072) (h : Fin 10) : EReal :=
  ∑ k : Fin 3072, w i k * W1 h (slotRow k)

/-- Column `j` of the weight through the column slot: `∑ k, w[k, j] · W1[h, 3072 + k]`. -/
def colPart (w : Fin 3072 → Fin 3072 → EReal) (W1 : Fin 10 → Fin 6145 → EReal) (j : Fin 3072) (h : Fin 10) : EReal :=
  ∑ k : Fin 3072, w k j * W1 h (slotCol k)

/-- The bias entry through its slot: `b[j] · W1[h, 6144]`. -/
def biasPart (b : Fin 3072 → EReal) (W1 : Fin 10 → Fin 6145 → EReal) (j : Fin 3072) (h : Fin 10) : EReal :=
  b j * W1 h slotBias

/-! ## The per-pair update of the weight -/

/-- First hidden layer at the pair (i, j): `max ((rowPart + (colPart + biasPart)) + b1) 0`. -/
def h1 (w : Fin 3072 → Fin 3072 → EReal) (b : Fin 3072 → EReal) (W1 : Fin 10 → Fin 6145 → EReal) (b1 : Fin 10 → EReal)
    (i j : Fin 3072) (h : Fin 10) : EReal :=
  max ((rowPart w W1 i h + (colPart w W1 j h + biasPart b W1 j h)) + b1 h) 0

/-- Second hidden layer at the pair (i, j): `max ((∑ h, h1[h] · W2[g, h]) + b2[g]) 0`. -/
def h2 (w : Fin 3072 → Fin 3072 → EReal) (b : Fin 3072 → EReal) (W1 : Fin 10 → Fin 6145 → EReal) (b1 : Fin 10 → EReal)
    (W2 : Fin 10 → Fin 10 → EReal) (b2 : Fin 10 → EReal) (i j : Fin 3072) (g : Fin 10) : EReal :=
  max ((∑ h : Fin 10, h1 w b W1 b1 i j h * W2 g h) + b2 g) 0

/-- The update of entry (i, j): `(∑ g, h2[g] · W3[0, g]) + b3[0]`. -/
def upd (w : Fin 3072 → Fin 3072 → EReal) (b : Fin 3072 → EReal) (W1 : Fin 10 → Fin 6145 → EReal) (b1 : Fin 10 → EReal)
    (W2 : Fin 10 → Fin 10 → EReal) (b2 : Fin 10 → EReal) (W3 : Fin 1 → Fin 10 → EReal) (b3 : Fin 1 → EReal)
    (i j : Fin 3072) : EReal :=
  (∑ g : Fin 10, h2 w b W1 b1 W2 b2 i j g * W3 0 g) + b3 0

/-- The new weight: `w[i, j] + upd[i, j]`. -/
def newW (w : Fin 3072 → Fin 3072 → EReal) (b : Fin 3072 → EReal) (W1 : Fin 10 → Fin 6145 → EReal) (b1 : Fin 10 → EReal)
    (W2 : Fin 10 → Fin 10 → EReal) (b2 : Fin 10 → EReal) (W3 : Fin 1 → Fin 10 → EReal) (b3 : Fin 1 → EReal)
    (i j : Fin 3072) : EReal :=
  w i j + upd w b W1 b1 W2 b2 W3 b3 i j

/-! ## The update of the bias, from the new weight's column (the row slot is not used) -/

/-- First hidden layer for bias entry `j`: `max (((∑ k, newW[k, j] · W1[h, 3072 + k]) + biasPart) + b1) 0`. -/
def g1 (w : Fin 3072 → Fin 3072 → EReal) (b : Fin 3072 → EReal) (W1 : Fin 10 → Fin 6145 → EReal) (b1 : Fin 10 → EReal)
    (W2 : Fin 10 → Fin 10 → EReal) (b2 : Fin 10 → EReal) (W3 : Fin 1 → Fin 10 → EReal) (b3 : Fin 1 → EReal)
    (j : Fin 3072) (h : Fin 10) : EReal :=
  max (((∑ k : Fin 3072, newW w b W1 b1 W2 b2 W3 b3 k j * W1 h (slotCol k)) + biasPart b W1 j h) + b1 h) 0

/-- Second hidden layer for bias entry `j`: `max ((∑ h, g1[h] · W2[g, h]) + b2[g]) 0`. -/
def g2 (w : Fin 3072 → Fin 3072 → EReal) (b : Fin 3072 → EReal) (W1 : Fin 10 → Fin 6145 → EReal) (b1 : Fin 10 → EReal)
    (W2 : Fin 10 → Fin 10 → EReal) (b2 : Fin 10 → EReal) (W3 : Fin 1 → Fin 10 → EReal) (b3 : Fin 1 → EReal)
    (j : Fin 3072) (g : Fin 10) : EReal :=
  max ((∑ h : Fin 10, g1 w b W1 b1 W2 b2 W3 b3 j h * W2 g h) + b2 g) 0

/-- The new bias: `(b[j] + ∑ g, g2[g] · W3[0, g]) + b3[0]`. -/
def newB (w : Fin 3072 → Fin 3072 → EReal) (b : Fin 3072 → EReal) (W1 : Fin 10 → Fin 6145 → EReal) (b1 : Fin 10 → EReal)
    (W2 : Fin 10 → Fin 10 → EReal) (b2 : Fin 10 → EReal) (W3 : Fin 1 → Fin 10 → EReal) (b3 : Fin 1 → EReal)
    (j : Fin 3072) : EReal :=
  (b j + ∑ g : Fin 10, g2 w b W1 b1 W2 b2 W3 b3 j g * W3 0 g) + b3 0

/-! ## The logits and their row softmax -/

/-- `(∑ k, X[r, k] · newW[k, j]) + newB[j]`. -/
def logit (X : Fin 2048 → Fin 3072 → EReal) (w : Fin 3072 → Fin 3072 → EReal) (b : Fin 3072 → EReal)
    (W1 : Fin 10 → Fin 6145 → EReal) (b1 : Fin 10 → EReal) (W2 : Fin 10 → Fin 10 → EReal) (b2 : Fin 10 → EReal)
    (W3 : Fin 1 → Fin 10 → EReal) (b3 : Fin 1 → EReal) (r : Fin 2048) (j : Fin 3072) : EReal :=
  (∑ k : Fin 3072, X r k * newW w b W1 b1 W2 b2 W3 b3 k j) + newB w b W1 b1 W2 b2 W3 b3 j

/-- The maximum of row `r` of the logits: the fold of `max` over the row from the value of the word `0xFF800000`
    (minus infinity). -/
def rowMax (X : Fin 2048 → Fin 3072 → EReal) (w : Fin 3072 → Fin 3072 → EReal) (b : Fin 3072 → EReal)
    (W1 : Fin 10 → Fin 6145 → EReal) (b1 : Fin 10 → EReal) (W2 : Fin 10 → Fin 10 → EReal) (b2 : Fin 10 → EReal)
    (W3 : Fin 1 → Fin 10 → EReal) (b3 : Fin 1 → EReal) (r : Fin 2048) : EReal :=
  (Finset.univ : Finset (Fin 3072)).fold max (Ideal.ofBits .f32 0xFF800000#32)
    (fun k : Fin 3072 => logit X w b W1 b1 W2 b2 W3 b3 r k)

/-- `exp (logit[r, j] − rowMax[r])`. -/
def expo (X : Fin 2048 → Fin 3072 → EReal) (w : Fin 3072 → Fin 3072 → EReal) (b : Fin 3072 → EReal)
    (W1 : Fin 10 → Fin 6145 → EReal) (b1 : Fin 10 → EReal) (W2 : Fin 10 → Fin 10 → EReal) (b2 : Fin 10 → EReal)
    (W3 : Fin 1 → Fin 10 → EReal) (b3 : Fin 1 → EReal) (r : Fin 2048) (j : Fin 3072) : EReal :=
  Ideal.exp (logit X w b W1 b1 W2 b2 W3 b3 r j - rowMax X w b W1 b1 W2 b2 W3 b3 r)

/-- The sum of row `r` of the exponentials. -/
def denom (X : Fin 2048 → Fin 3072 → EReal) (w : Fin 3072 → Fin 3072 → EReal) (b : Fin 3072 → EReal)
    (W1 : Fin 10 → Fin 6145 → EReal) (b1 : Fin 10 → EReal) (W2 : Fin 10 → Fin 10 → EReal) (b2 : Fin 10 → EReal)
    (W3 : Fin 1 → Fin 10 → EReal) (b3 : Fin 1 → EReal) (r : Fin 2048) : EReal :=
  ∑ k : Fin 3072, expo X w b W1 b1 W2 b2 W3 b3 r k

/-- The result: the row softmax of the logits, `expo[r, j] / denom[r]` with the ideal instance's division. -/
def out (X : Fin 2048 → Fin 3072 → EReal) (w : Fin 3072 → Fin 3072 → EReal) (b : Fin 3072 → EReal)
    (W1 : Fin 10 → Fin 6145 → EReal) (b1 : Fin 10 → EReal) (W2 : Fin 10 → Fin 10 → EReal) (b2 : Fin 10 → EReal)
    (W3 : Fin 1 → Fin 10 → EReal) (b3 : Fin 1 → EReal) (r : Fin 2048) (j : Fin 3072) : EReal :=
  Ideal.div (expo X w b W1 b1 W2 b2 W3 b3 r j) (denom X w b W1 b1 W2 b2 W3 b3 r)

end Cert.Spec

end
-- ==== Proof.KI.HostValue.lean ====
/- The values the kernel program's first two host stretches write, read at an index, at the ideal values:
   each theorem reads one buffer after a stretch in terms of the buffers' contents before it. -/
import proofs.«164935_j86474871537726_2_alg».proof.Proof.Gen.KernelIdeal.Regions
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.HostValue

open Cert.KernelIdeal Cert.KernelIdeal.Gen Idealize.ShloMosaic Idealize.ShloMosaic.TcCoe ValueIdx
open Idealize.ShloMosaic.StableHlo
open scoped BigOperators

variable (m : (ℓ : Loc nD τ sig) → Buf (Elt Ideal) ℓ) (outs : Outs (F := Ideal)) (c : Dev nD)

/- A buffer's contents read at an index are an extended real only after the buffer's type is unfolded, so the
   sums, products and maxima below name the extended reals' operations outright. -/
local macro:65 a:term:65 " +ᵉ " b:term:66 : term => `(@HAdd.hAdd EReal EReal EReal instHAdd $a $b)
local macro:70 a:term:70 " *ᵉ " b:term:71 : term => `(@HMul.hMul EReal EReal EReal instHMul $a $b)
local macro:50 a:term:51 " =ᵉ " b:term:51 : term => `(@Eq EReal $a $b)
local macro "maxᵉ " a:term:max b:term:max : term => `(@max EReal _ $a $b)

/-! ## The first host stretch: the three slices of the packed parameter array -/

/-- What the first stretch leaves in %4: the transpose of the first slice. -/
theorem V1_v4 : @Eq (S3072x10.Idx → EReal) (V1 m c main_v4)
    (transpose (α := EReal) S3072x10 [1, 0] (extractStridedSlice (α := EReal) S10x3072 ![0, 0] (V0 m c main_arg3) slices_S10x6145_S10x3072_0_0) transposes_S10x3072_S3072x10_1_0) := by
  show StableHlo.after hostOps0 _ (Proc.devRef .tc main_v4) = _
  after_results <;> rfl

/-- %4 at (k, h) is the packed array at (h, k). -/
theorem H0a (k : Fin 3072) (h : Fin 10) :
    (V1 m c main_v4 : S3072x10.Idx → EReal) (ix2 k h) =ᵉ (V0 m c main_arg3 : S10x6145.Idx → EReal) (ix2 h ⟨k.val, by omega⟩) := by
  rw [V1_v4, transpose_ix2_apply]
  exact slice2_axis1_apply 0 _ _ h k _ (Nat.zero_add _).symm

/-- What the first stretch leaves in %1: the second slice. -/
theorem V1_v1 : @Eq (S10x3072.Idx → EReal) (V1 m c main_v1)
    (extractStridedSlice (α := EReal) S10x3072 ![0, 3072] (V0 m c main_arg3) slices_S10x6145_S10x3072_0_3072) := by
  show StableHlo.after hostOps0 _ (Proc.devRef .tc main_v1) = _
  after_results <;> rfl

/-- %1 at (h, k) is the packed array at (h, 3072 + k). -/
theorem H0b (h : Fin 10) (k : Fin 3072) :
    (V1 m c main_v1 : S10x3072.Idx → EReal) (ix2 h k) =ᵉ (V0 m c main_arg3 : S10x6145.Idx → EReal) (ix2 h ⟨3072 + k.val, by omega⟩) := by
  rw [V1_v1]
  exact slice2_axis1_apply 3072 _ _ h k _ rfl

/-- What the first stretch leaves in %3: the last column as a vector. -/
theorem V1_v3 : @Eq (S10.Idx → EReal) (V1 m c main_v3)
    (shapeCast (α := EReal) S10 (extractStridedSlice (α := EReal) S10x1 ![0, 6144] (V0 m c main_arg3) slices_S10x6145_S10x1_0_6144) shapeCasts_S10x1_S10) := by
  show StableHlo.after hostOps0 _ (Proc.devRef .tc main_v3) = _
  after_results <;> rfl

/-- %3 at h is the packed array at (h, 6144). -/
theorem H0c (h : Fin 10) :
    (V1 m c main_v3 : S10.Idx → EReal) (ix1 h) =ᵉ (V0 m c main_arg3 : S10x6145.Idx → EReal) (ix2 h ⟨6144, by omega⟩) := by
  rw [V1_v3]
  refine (shapeCast_apply _ shapeCasts_S10x1_S10 (ix1 h) (ix2 h (0 : Fin 1)) (by
    rw [Shape.rowMajor_val_two, Shape.rowMajor_val_one]
    show h.val * 1 + 0 = h.val
    omega)).trans ?_
  exact slice2_axis1_apply 6144 _ _ h (0 : Fin 1) _ rfl

/-! ## The second host stretch: the rank-one correction and the last layer's weights as a vector -/

/-- A column vector broadcast along the second axis reads its row's entry. -/
theorem bcast_col (x : S3072.Idx → EReal) (j : Fin 3072) (h : Fin 10) :
    broadcastInDim S3072x10 ![0, 1] bcast_S3072x1_S3072x10_0_1 (broadcastInDim S3072x1 ![0] bcast_S3072_S3072x1_0 x) (ix2 j h) = x (ix1 j) := by
  refine (broadcastInDim_apply _ bcast_S3072x1_S3072x10_0_1 _ (ix2 j h) (ix2 j (0 : Fin 1)) (fun a => match a with
    | ⟨0, _⟩ => by show j.val = if (3072 : Nat) = 1 then 0 else j.val; rw [if_neg (by decide)]
    | ⟨1, _⟩ => by show 0 = if (1 : Nat) = 1 then 0 else h.val; rw [if_pos rfl])).trans ?_
  exact broadcastInDim_apply _ bcast_S3072_S3072x1_0 x (ix2 j (0 : Fin 1)) (ix1 j) (fun a => match a with
    | ⟨0, _⟩ => by show j.val = if (3072 : Nat) = 1 then 0 else j.val; rw [if_neg (by decide)])

/-- A row vector broadcast along the first axis reads its column's entry. -/
theorem bcast_row (x : S10.Idx → EReal) (j : Fin 3072) (h : Fin 10) :
    broadcastInDim S3072x10 ![0, 1] bcast_S1x10_S3072x10_0_1 (broadcastInDim S1x10 ![1] bcast_S10_S1x10_1 x) (ix2 j h) = x (ix1 h) := by
  refine (broadcastInDim_apply _ bcast_S1x10_S3072x10_0_1 _ (ix2 j h) (ix2 (0 : Fin 1) h) (fun a => match a with
    | ⟨0, _⟩ => by show 0 = if (1 : Nat) = 1 then 0 else j.val; rw [if_pos rfl]
    | ⟨1, _⟩ => by show h.val = if (10 : Nat) = 1 then 0 else h.val; rw [if_neg (by decide)])).trans ?_
  exact broadcastInDim_apply _ bcast_S10_S1x10_1 x (ix2 (0 : Fin 1) h) (ix1 h) (fun a => match a with
    | ⟨0, _⟩ => by show h.val = if (10 : Nat) = 1 then 0 else h.val; rw [if_neg (by decide)])

/-- What the second stretch leaves in %12: the outer product of %arg2 and %3. -/
theorem V4_v12 : @Eq (S3072x10.Idx → EReal) (V4 m outs c main_v12)
    (mulf (F := Ideal) (φ := .f32) (broadcastInDim (α := EReal) S3072x10 ![0, 1] bcast_S3072x1_S3072x10_0_1 (broadcastInDim (α := EReal) S3072x1 ![0] bcast_S3072_S3072x1_0 (V3 m outs c main_arg2)))
        (broadcastInDim (α := EReal) S3072x10 ![0, 1] bcast_S1x10_S3072x10_0_1 (broadcastInDim (α := EReal) S1x10 ![1] bcast_S10_S1x10_1 (V3 m outs c main_v3)))) := by
  show StableHlo.after hostOps2 _ (Proc.devRef .tc main_v12) = _
  after_results <;> rfl

/-- %12 at (j, h) is %arg2 at j times %3 at h. -/
theorem H2c (j : Fin 3072) (h : Fin 10) :
    (V4 m outs c main_v12 : S3072x10.Idx → EReal) (ix2 j h)
      =ᵉ (V3 m outs c main_arg2 : S3072.Idx → EReal) (ix1 j) *ᵉ (V3 m outs c main_v3 : S10.Idx → EReal) (ix1 h) := by
  rw [V4_v12, mulf_apply, bcast_col, bcast_row]

/-- What the second stretch leaves in %13: the transpose of %6 plus %12. -/
theorem V4_v13 : @Eq (S3072x10.Idx → EReal) (V4 m outs c main_v13)
    (addf (F := Ideal) (φ := .f32) (transpose (α := EReal) S3072x10 [1, 0] (V3 m outs c main_v6) transposes_S10x3072_S3072x10_1_0)
        (mulf (F := Ideal) (φ := .f32) (broadcastInDim (α := EReal) S3072x10 ![0, 1] bcast_S3072x1_S3072x10_0_1 (broadcastInDim (α := EReal) S3072x1 ![0] bcast_S3072_S3072x1_0 (V3 m outs c main_arg2)))
          (broadcastInDim (α := EReal) S3072x10 ![0, 1] bcast_S1x10_S3072x10_0_1 (broadcastInDim (α := EReal) S1x10 ![1] bcast_S10_S1x10_1 (V3 m outs c main_v3))))) := by
  show StableHlo.after hostOps2 _ (Proc.devRef .tc main_v13) = _
  after_results <;> rfl

/-- %13 at (j, h) is %6 at (h, j) plus %arg2 at j times %3 at h. -/
theorem H2a (j : Fin 3072) (h : Fin 10) :
    (V4 m outs c main_v13 : S3072x10.Idx → EReal) (ix2 j h)
      =ᵉ (V3 m outs c main_v6 : S10x3072.Idx → EReal) (ix2 h j)
        +ᵉ (V3 m outs c main_arg2 : S3072.Idx → EReal) (ix1 j) *ᵉ (V3 m outs c main_v3 : S10.Idx → EReal) (ix1 h) := by
  rw [V4_v13, addf_apply, mulf_apply, transpose_ix2_apply, bcast_col, bcast_row]

/-- What the second stretch leaves in %14: %arg7 as a vector. -/
theorem V4_v14 : @Eq (S10.Idx → EReal) (V4 m outs c main_v14)
    (shapeCast (α := EReal) S10 (V3 m outs c main_arg7) shapeCasts_S1x10_S10) := by
  show StableHlo.after hostOps2 _ (Proc.devRef .tc main_v14) = _
  after_results <;> rfl

/-- %14 at g is %arg7 at (0, g). -/
theorem H2b (g : Fin 10) :
    (V4 m outs c main_v14 : S10.Idx → EReal) (ix1 g) =ᵉ (V3 m outs c main_arg7 : S1x10.Idx → EReal) (ix2 (0 : Fin 1) g) := by
  rw [V4_v14]
  exact shapeCast_1a_a_apply _ shapeCasts_S1x10_S10 g

end Cert.KernelIdeal.HostValue
-- ==== Proof.KI.HostValue4.lean ====
/- The values the kernel program's third to seventh host stretches write, read at an index, at the ideal values:
   one theorem per stretch reads a buffer after it in terms of the buffers' contents before it, and `H4` composes
   the five: %35 over the contents before the third stretch. -/
import proofs.«164935_j86474871537726_2_alg».proof.Proof.Gen.KernelIdeal.Regions
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«164935_j86474871537726_2_alg».proof.Proof.KI.HostValue

noncomputable section

namespace Cert.KernelIdeal.HostValue

open Cert.KernelIdeal Cert.KernelIdeal.Gen Idealize.ShloMosaic Idealize.ShloMosaic.TcCoe ValueIdx
open Idealize.ShloMosaic.StableHlo
open scoped BigOperators

variable (m : (ℓ : Loc nD τ sig) → Buf (Elt Ideal) ℓ) (outs : Outs (F := Ideal)) (c : Dev nD)

/- A buffer's contents read at an index are an extended real only after the buffer's type is unfolded, so the
   sums, products and maxima below name the extended reals' operations outright. -/
local macro:65 a:term:65 " +ᵉ " b:term:66 : term => `(@HAdd.hAdd EReal EReal EReal instHAdd $a $b)
local macro:70 a:term:70 " *ᵉ " b:term:71 : term => `(@HMul.hMul EReal EReal EReal instHMul $a $b)
local macro:50 a:term:51 " =ᵉ " b:term:51 : term => `(@Eq EReal $a $b)
local macro "maxᵉ " a:term:max b:term:max : term => `(@max EReal _ $a $b)

/-! ## The third host stretch: the first hidden layer's pre-activation -/

/-- What the stretch leaves in %21: the transpose of %16, plus %12, plus %arg4 along the rows. -/
theorem V7_v21 : @Eq (S3072x10.Idx → EReal) (V7 m outs c main_v21)
    (addf (F := Ideal) (φ := .f32)
      (addf (F := Ideal) (φ := .f32) (transpose (α := EReal) S3072x10 [1, 0] (V6 m outs c main_v16) transposes_S10x3072_S3072x10_1_0) (V6 m outs c main_v12))
      (broadcastInDim (α := EReal) S3072x10 ![0, 1] bcast_S1x10_S3072x10_0_1 (broadcastInDim (α := EReal) S1x10 ![1] bcast_S10_S1x10_1 (V6 m outs c main_arg4)))) := by
  show StableHlo.after hostOps4 _ (Proc.devRef .tc main_v21) = _
  after_results <;> rfl

/-- %21 at (j, h). -/
theorem L7 (j : Fin 3072) (h : Fin 10) :
    (V7 m outs c main_v21 : S3072x10.Idx → EReal) (ix2 j h)
      =ᵉ ((V6 m outs c main_v16 : S10x3072.Idx → EReal) (ix2 h j) +ᵉ (V6 m outs c main_v12 : S3072x10.Idx → EReal) (ix2 j h))
          +ᵉ (V6 m outs c main_arg4 : S10.Idx → EReal) (ix1 h) := by
  rw [V7_v21, addf_apply, addf_apply, transpose_ix2_apply, bcast_row]

/-! ## The fourth host stretch: the first rectifier -/

/-- The zero constant broadcast to a matrix reads zero. -/
theorem bcast_zero (j : Fin 3072) (h : Fin 10) :
    broadcastInDim (α := EReal) S3072x10 ![] bcast_S_S3072x10 (constant (F := Ideal) S_ .f32 0x00000000#32) (ix2 j h) = 0 := by
  refine (broadcastInDim_apply _ bcast_S_S3072x10 _ (ix2 j h) ix0 (fun a => a.elim0)).trans ?_
  rw [constant_apply, Ideal.ofBits_zero_f32]

/-- What the stretch leaves in %22: the maximum of %21 and the zero matrix. -/
theorem V8_v22 : @Eq (S3072x10.Idx → EReal) (V8 m outs c main_v22)
    (maximumf (F := Ideal) (φ := .f32) (V7 m outs c main_v21)
      (broadcastInDim (α := EReal) S3072x10 ![] bcast_S_S3072x10 (constant (F := Ideal) S_ .f32 0x00000000#32))) := by
  show StableHlo.after hostOps4_1 (V7 m outs c) (Proc.devRef .tc main_v22) = _
  generalize V7 m outs c = U
  after_results <;> rfl

/-- %22 at (j, h). -/
theorem L8 (j : Fin 3072) (h : Fin 10) :
    (V8 m outs c main_v22 : S3072x10.Idx → EReal) (ix2 j h) =ᵉ maxᵉ ((V7 m outs c main_v21 : S3072x10.Idx → EReal) (ix2 j h)) 0 := by
  rw [V8_v22, maximumf_apply, bcast_zero]

/-! ## The fifth host stretch: the second hidden layer's pre-activation -/

section Dot10

theorem d10_lhs_0 (i : S3072x10.Idx) (q : dot_S3072x10_S10x10_S3072x10_1_0_0_1_n_n.contr.Idx) : (dot_S3072x10_S10x10_S3072x10_1_0_0_1_n_n.lhsIdx i q 0).val = (i 0).val := by
  unfold DotDims.lhsIdx
  rw [dif_neg (show ¬(0 : Fin S3072x10.rank) ∈ dot_S3072x10_S10x10_S3072x10_1_0_0_1_n_n.lhsBatch by decide), dif_pos (show (0 : Fin S3072x10.rank) ∈ dot_S3072x10_S10x10_S3072x10_1_0_0_1_n_n.lhsNonContracting by decide)]
  rfl
theorem d10_lhs_1 (i : S3072x10.Idx) (q : dot_S3072x10_S10x10_S3072x10_1_0_0_1_n_n.contr.Idx) : (dot_S3072x10_S10x10_S3072x10_1_0_0_1_n_n.lhsIdx i q 1).val = (q ⟨0, by decide⟩).val :=
  dot_S3072x10_S10x10_S3072x10_1_0_0_1_n_n.lhsIdx_val_of_single rfl i q
theorem d10_rhs_0 (i : S3072x10.Idx) (q : dot_S3072x10_S10x10_S3072x10_1_0_0_1_n_n.contr.Idx) : (dot_S3072x10_S10x10_S3072x10_1_0_0_1_n_n.rhsIdx i q 0).val = (q ⟨0, by decide⟩).val :=
  dot_S3072x10_S10x10_S3072x10_1_0_0_1_n_n.rhsIdx_val_of_single rfl i q
theorem d10_rhs_1 (i : S3072x10.Idx) (q : dot_S3072x10_S10x10_S3072x10_1_0_0_1_n_n.contr.Idx) : (dot_S3072x10_S10x10_S3072x10_1_0_0_1_n_n.rhsIdx i q 1).val = (i 1).val := by
  unfold DotDims.rhsIdx
  rw [dif_neg (show ¬(1 : Fin S10x10.rank) ∈ dot_S3072x10_S10x10_S3072x10_1_0_0_1_n_n.rhsBatch by decide), dif_pos (show (1 : Fin S10x10.rank) ∈ dot_S3072x10_S10x10_S3072x10_1_0_0_1_n_n.rhsNonContracting by decide)]
  rfl

/-- The [3072,10] × [10,10] product at (j, g) is the sum over the contracted axis. -/
theorem dot10_apply (l : S3072x10.Idx → EReal) (r : S10x10.Idx → EReal) (j : Fin 3072) (g : Fin 10) :
    Host.dotGeneral (F := Ideal) (φ₁ := .f32) (φ₂ := .f32) dot_S3072x10_S10x10_S3072x10_1_0_0_1_n_n none l r (ix2 j g) = ∑ h : Fin 10, l (ix2 j h) * r (ix2 h g) := by
  simp only [Host.dotGeneral]
  rw [Ideal.dotGeneral_apply, ← Equiv.sum_comp (ValueIdx.contrEquiv1 dot_S3072x10_S10x10_S3072x10_1_0_0_1_n_n 10 rfl rfl).symm]
  refine Finset.sum_congr rfl fun k _ => ?_
  have hk := ValueIdx.contrEquiv1_symm_val dot_S3072x10_S10x10_S3072x10_1_0_0_1_n_n 10 rfl rfl k
  have el : dot_S3072x10_S10x10_S3072x10_1_0_0_1_n_n.lhsIdx (ix2 j g) ((ValueIdx.contrEquiv1 dot_S3072x10_S10x10_S3072x10_1_0_0_1_n_n 10 rfl rfl).symm k) = ix2 j k := funext fun a => Fin.ext (by
    match a with
    | ⟨0, _⟩ => exact d10_lhs_0 _ _
    | ⟨1, _⟩ => exact (d10_lhs_1 _ _).trans hk)
  have er : dot_S3072x10_S10x10_S3072x10_1_0_0_1_n_n.rhsIdx (ix2 j g) ((ValueIdx.contrEquiv1 dot_S3072x10_S10x10_S3072x10_1_0_0_1_n_n 10 rfl rfl).symm k) = ix2 k g := funext fun a => Fin.ext (by
    match a with
    | ⟨0, _⟩ => exact (d10_rhs_0 _ _).trans hk
    | ⟨1, _⟩ => exact d10_rhs_1 _ _)
  rw [el, er]

/-- The product against a transposed [10,10] matrix. -/
theorem dot10T_apply (l : S3072x10.Idx → EReal) (w : S10x10.Idx → EReal) (j : Fin 3072) (g : Fin 10) :
    Host.dotGeneral (F := Ideal) (φ₁ := .f32) (φ₂ := .f32) dot_S3072x10_S10x10_S3072x10_1_0_0_1_n_n none l (transpose (α := EReal) S10x10 [1, 0] w transposes_S10x10_S10x10_1_0) (ix2 j g)
      = ∑ h : Fin 10, l (ix2 j h) * w (ix2 g h) := by
  rw [dot10_apply]
  exact Finset.sum_congr rfl fun h _ => by rw [transpose_ix2_apply]
end Dot10

/-- What the stretch leaves in %27: %22 times the transpose of %arg5, plus %arg6 along the rows. -/
theorem V9_v27 : @Eq (S3072x10.Idx → EReal) (V9 m outs c main_v27)
    (addf (F := Ideal) (φ := .f32)
      (Host.dotGeneral (F := Ideal) (φ₁ := .f32) (φ₂ := .f32) dot_S3072x10_S10x10_S3072x10_1_0_0_1_n_n none (V8 m outs c main_v22)
        (transpose (α := EReal) S10x10 [1, 0] (V8 m outs c main_arg5) transposes_S10x10_S10x10_1_0))
      (broadcastInDim (α := EReal) S3072x10 ![0, 1] bcast_S1x10_S3072x10_0_1 (broadcastInDim (α := EReal) S1x10 ![1] bcast_S10_S1x10_1 (V8 m outs c main_arg6)))) := by
  show StableHlo.after hostOps4_2 (V8 m outs c) (Proc.devRef .tc main_v27) = _
  generalize V8 m outs c = U
  after_results <;> rfl

/-- %27 at (j, g). -/
theorem L9 (j : Fin 3072) (g : Fin 10) :
    (V9 m outs c main_v27 : S3072x10.Idx → EReal) (ix2 j g)
      =ᵉ (∑ h : Fin 10, (V8 m outs c main_v22 : S3072x10.Idx → EReal) (ix2 j h) *ᵉ (V8 m outs c main_arg5 : S10x10.Idx → EReal) (ix2 g h))
          +ᵉ (V8 m outs c main_arg6 : S10.Idx → EReal) (ix1 g) := by
  rw [V9_v27, addf_apply, dot10T_apply, bcast_row]

/-! ## The sixth host stretch: the second rectifier -/

/-- What the stretch leaves in %28: the maximum of %27 and the zero matrix. -/
theorem V10_v28 : @Eq (S3072x10.Idx → EReal) (V10 m outs c main_v28)
    (maximumf (F := Ideal) (φ := .f32) (V9 m outs c main_v27)
      (broadcastInDim (α := EReal) S3072x10 ![] bcast_S_S3072x10 (constant (F := Ideal) S_ .f32 0x00000000#32))) := by
  show StableHlo.after hostOps4_3 (V9 m outs c) (Proc.devRef .tc main_v28) = _
  generalize V9 m outs c = U
  after_results <;> rfl

/-- %28 at (j, g). -/
theorem L10 (j : Fin 3072) (g : Fin 10) :
    (V10 m outs c main_v28 : S3072x10.Idx → EReal) (ix2 j g) =ᵉ maxᵉ ((V9 m outs c main_v27 : S3072x10.Idx → EReal) (ix2 j g)) 0 := by
  rw [V10_v28, maximumf_apply, bcast_zero]

/-! ## The seventh host stretch: the output layer, the residual and the last bias -/

section Dot1

theorem d1_lhs_0 (i : S3072x1.Idx) (q : dot_S3072x10_S10x1_S3072x1_1_0_0_1_n_n.contr.Idx) : (dot_S3072x10_S10x1_S3072x1_1_0_0_1_n_n.lhsIdx i q 0).val = (i 0).val := by
  unfold DotDims.lhsIdx
  rw [dif_neg (show ¬(0 : Fin S3072x10.rank) ∈ dot_S3072x10_S10x1_S3072x1_1_0_0_1_n_n.lhsBatch by decide), dif_pos (show (0 : Fin S3072x10.rank) ∈ dot_S3072x10_S10x1_S3072x1_1_0_0_1_n_n.lhsNonContracting by decide)]
  rfl
theorem d1_lhs_1 (i : S3072x1.Idx) (q : dot_S3072x10_S10x1_S3072x1_1_0_0_1_n_n.contr.Idx) : (dot_S3072x10_S10x1_S3072x1_1_0_0_1_n_n.lhsIdx i q 1).val = (q ⟨0, by decide⟩).val :=
  dot_S3072x10_S10x1_S3072x1_1_0_0_1_n_n.lhsIdx_val_of_single rfl i q
theorem d1_rhs_0 (i : S3072x1.Idx) (q : dot_S3072x10_S10x1_S3072x1_1_0_0_1_n_n.contr.Idx) : (dot_S3072x10_S10x1_S3072x1_1_0_0_1_n_n.rhsIdx i q 0).val = (q ⟨0, by decide⟩).val :=
  dot_S3072x10_S10x1_S3072x1_1_0_0_1_n_n.rhsIdx_val_of_single rfl i q
theorem d1_rhs_1 (i : S3072x1.Idx) (q : dot_S3072x10_S10x1_S3072x1_1_0_0_1_n_n.contr.Idx) : (dot_S3072x10_S10x1_S3072x1_1_0_0_1_n_n.rhsIdx i q 1).val = (i 1).val := by
  unfold DotDims.rhsIdx
  rw [dif_neg (show ¬(1 : Fin S10x1.rank) ∈ dot_S3072x10_S10x1_S3072x1_1_0_0_1_n_n.rhsBatch by decide), dif_pos (show (1 : Fin S10x1.rank) ∈ dot_S3072x10_S10x1_S3072x1_1_0_0_1_n_n.rhsNonContracting by decide)]
  rfl

/-- The [3072,10] × [10,1] product at (j, 0) is the sum over the contracted axis. -/
theorem dot1_apply (l : S3072x10.Idx → EReal) (r : S10x1.Idx → EReal) (j : Fin 3072) :
    Host.dotGeneral (F := Ideal) (φ₁ := .f32) (φ₂ := .f32) dot_S3072x10_S10x1_S3072x1_1_0_0_1_n_n none l r (ix2 j (0 : Fin 1)) = ∑ g : Fin 10, l (ix2 j g) * r (ix2 g (0 : Fin 1)) := by
  simp only [Host.dotGeneral]
  rw [Ideal.dotGeneral_apply, ← Equiv.sum_comp (ValueIdx.contrEquiv1 dot_S3072x10_S10x1_S3072x1_1_0_0_1_n_n 10 rfl rfl).symm]
  refine Finset.sum_congr rfl fun k _ => ?_
  have hk := ValueIdx.contrEquiv1_symm_val dot_S3072x10_S10x1_S3072x1_1_0_0_1_n_n 10 rfl rfl k
  have el : dot_S3072x10_S10x1_S3072x1_1_0_0_1_n_n.lhsIdx (ix2 j (0 : Fin 1)) ((ValueIdx.contrEquiv1 dot_S3072x10_S10x1_S3072x1_1_0_0_1_n_n 10 rfl rfl).symm k) = ix2 j k := funext fun a => Fin.ext (by
    match a with
    | ⟨0, _⟩ => exact d1_lhs_0 _ _
    | ⟨1, _⟩ => exact (d1_lhs_1 _ _).trans hk)
  have er : dot_S3072x10_S10x1_S3072x1_1_0_0_1_n_n.rhsIdx (ix2 j (0 : Fin 1)) ((ValueIdx.contrEquiv1 dot_S3072x10_S10x1_S3072x1_1_0_0_1_n_n 10 rfl rfl).symm k) = ix2 k (0 : Fin 1) := funext fun a => Fin.ext (by
    match a with
    | ⟨0, _⟩ => exact (d1_rhs_0 _ _).trans hk
    | ⟨1, _⟩ => exact d1_rhs_1 _ _)
  rw [el, er]

/-- The product against a transposed [1,10] row. -/
theorem dot1T_apply (l : S3072x10.Idx → EReal) (w : S1x10.Idx → EReal) (j : Fin 3072) :
    Host.dotGeneral (F := Ideal) (φ₁ := .f32) (φ₂ := .f32) dot_S3072x10_S10x1_S3072x1_1_0_0_1_n_n none l (transpose (α := EReal) S10x1 [1, 0] w transposes_S1x10_S10x1_1_0) (ix2 j (0 : Fin 1))
      = ∑ g : Fin 10, l (ix2 j g) * w (ix2 (0 : Fin 1) g) := by
  rw [dot1_apply]
  exact Finset.sum_congr rfl fun g _ => by rw [transpose_ix2_apply]
end Dot1

/-- A [3072,1] column as a vector reads, at j, the column at (j, 0). -/
theorem col_apply (y : S3072x1.Idx → EReal) (j : Fin 3072) :
    shapeCast (α := EReal) S3072 y shapeCasts_S3072x1_S3072 (ix1 j) = y (ix2 j (0 : Fin 1)) :=
  shapeCast_apply y shapeCasts_S3072x1_S3072 (ix1 j) (ix2 j (0 : Fin 1)) (by
    rw [Shape.rowMajor_val_two, Shape.rowMajor_val_one]
    show j.val * 1 + 0 = j.val
    omega)

/-- A one-element vector as a scalar, broadcast to a vector, reads the one element. -/
theorem scalar_apply (x : S1.Idx → EReal) (j : Fin 3072) :
    broadcastInDim (α := EReal) S3072 ![] bcast_S_S3072 (shapeCast (α := EReal) S_ x shapeCasts_S1_S_) (ix1 j) = x (ix1 (0 : Fin 1)) := by
  refine (broadcastInDim_apply _ bcast_S_S3072 _ (ix1 j) ix0 (fun a => a.elim0)).trans ?_
  refine shapeCast_apply x shapeCasts_S1_S_ ix0 (ix1 (0 : Fin 1)) ?_
  have h2 : (S_.rowMajor ix0).val < 1 := lt_of_lt_of_eq (S_.rowMajor ix0).isLt (Shape.numel_eq_one (fun a => a.elim0))
  rw [Shape.rowMajor_val_one]
  show (0 : ℕ) = (S_.rowMajor ix0).val
  omega

/-- What the stretch leaves in %35. -/
theorem V11_v35 : @Eq (S3072.Idx → EReal) (V11 m outs c main_v35)
    (addf (F := Ideal) (φ := .f32)
      (addf (F := Ideal) (φ := .f32) (V10 m outs c main_arg2)
        (shapeCast (α := EReal) S3072
          (Host.dotGeneral (F := Ideal) (φ₁ := .f32) (φ₂ := .f32) dot_S3072x10_S10x1_S3072x1_1_0_0_1_n_n none (V10 m outs c main_v28)
            (transpose (α := EReal) S10x1 [1, 0] (V10 m outs c main_arg7) transposes_S1x10_S10x1_1_0))
          shapeCasts_S3072x1_S3072))
      (broadcastInDim (α := EReal) S3072 ![] bcast_S_S3072 (shapeCast (α := EReal) S_ (V10 m outs c main_arg8) shapeCasts_S1_S_))) := by
  show StableHlo.after hostOps4_4 (V10 m outs c) (Proc.devRef .tc main_v35) = _
  generalize V10 m outs c = U
  after_results <;> rfl

/-- %35 at j. -/
theorem L11 (j : Fin 3072) :
    (V11 m outs c main_v35 : S3072.Idx → EReal) (ix1 j)
      =ᵉ ((V10 m outs c main_arg2 : S3072.Idx → EReal) (ix1 j)
            +ᵉ ∑ g : Fin 10, (V10 m outs c main_v28 : S3072x10.Idx → EReal) (ix2 j g) *ᵉ (V10 m outs c main_arg7 : S1x10.Idx → EReal) (ix2 (0 : Fin 1) g))
          +ᵉ (V10 m outs c main_arg8 : S1.Idx → EReal) (ix1 (0 : Fin 1)) := by
  rw [V11_v35, addf_apply, addf_apply, col_apply, dot1T_apply, scalar_apply]

/-! ## The five stretches composed: %35 from the contents before them -/

/-- The first hidden layer at (j, h), over the contents before the five stretches. -/
def g1k (j : Fin 3072) (h : Fin 10) : EReal :=
  maxᵉ (((V6 m outs c main_v16 : S10x3072.Idx → EReal) (ix2 h j) +ᵉ (V6 m outs c main_v12 : S3072x10.Idx → EReal) (ix2 j h))
        +ᵉ (V6 m outs c main_arg4 : S10.Idx → EReal) (ix1 h)) 0

/-- The second hidden layer at (j, g), over the contents before the five stretches. -/
def g2k (j : Fin 3072) (g : Fin 10) : EReal :=
  maxᵉ ((∑ h : Fin 10, g1k m outs c j h *ᵉ (V6 m outs c main_arg5 : S10x10.Idx → EReal) (ix2 g h))
        +ᵉ (V6 m outs c main_arg6 : S10.Idx → EReal) (ix1 g)) 0

/-- A reference none of the third to sixth stretches writes holds, before the seventh, what it held before the third. -/
theorem V10_keep (r : Ref sig .tc) (h1 : r ∉ hostOps4_W) (h2 : r ∉ hostOps4_1_W) (h3 : r ∉ hostOps4_2_W) (h4 : r ∉ hostOps4_3_W) :
    V10 m outs c r = V6 m outs c r :=
  (V10_of m outs c r h4).trans ((V9_of m outs c r h3).trans ((V8_of m outs c r h2).trans (V7_of m outs c r h1)))

/-- A reference neither the third nor the fourth stretch writes holds, before the fifth, what it held before the third. -/
theorem V8_keep (r : Ref sig .tc) (h1 : r ∉ hostOps4_W) (h2 : r ∉ hostOps4_1_W) : V8 m outs c r = V6 m outs c r :=
  (V8_of m outs c r h2).trans (V7_of m outs c r h1)

/-- %22 at (j, h) is the first hidden layer there. -/
theorem V8_v22_eq (j : Fin 3072) (h : Fin 10) :
    (V8 m outs c main_v22 : S3072x10.Idx → EReal) (ix2 j h) =ᵉ g1k m outs c j h := by
  rw [L8, L7]; rfl

/-- %28 at (j, g) is the second hidden layer there. -/
theorem V10_v28_eq (j : Fin 3072) (g : Fin 10) :
    (V10 m outs c main_v28 : S3072x10.Idx → EReal) (ix2 j g) =ᵉ g2k m outs c j g := by
  rw [L10, L9, V8_keep m outs c main_arg5 (by decide) (by decide), V8_keep m outs c main_arg6 (by decide) (by decide)]
  have hs : (∑ h : Fin 10, (V8 m outs c main_v22 : S3072x10.Idx → EReal) (ix2 j h) *ᵉ (V6 m outs c main_arg5 : S10x10.Idx → EReal) (ix2 g h))
      = ∑ h : Fin 10, g1k m outs c j h *ᵉ (V6 m outs c main_arg5 : S10x10.Idx → EReal) (ix2 g h) :=
    Finset.sum_congr rfl fun h _ => by rw [V8_v22_eq]
  rw [hs]; rfl

/-- %35 at j, over the contents before the five stretches: the residual plus the output layer plus the last bias. -/
theorem H4 (j : Fin 3072) :
    (V11 m outs c main_v35 : S3072.Idx → EReal) (ix1 j)
      =ᵉ ((V6 m outs c main_arg2 : S3072.Idx → EReal) (ix1 j)
            +ᵉ ∑ g : Fin 10, g2k m outs c j g *ᵉ (V6 m outs c main_arg7 : S1x10.Idx → EReal) (ix2 (0 : Fin 1) g))
          +ᵉ (V6 m outs c main_arg8 : S1.Idx → EReal) (ix1 (0 : Fin 1)) := by
  rw [L11, V10_keep m outs c main_arg2 (by decide) (by decide) (by decide) (by decide),
    V10_keep m outs c main_arg7 (by decide) (by decide) (by decide) (by decide),
    V10_keep m outs c main_arg8 (by decide) (by decide) (by decide) (by decide)]
  have hs : (∑ g : Fin 10, (V10 m outs c main_v28 : S3072x10.Idx → EReal) (ix2 j g) *ᵉ (V6 m outs c main_arg7 : S1x10.Idx → EReal) (ix2 (0 : Fin 1) g))
      = ∑ g : Fin 10, g2k m outs c j g *ᵉ (V6 m outs c main_arg7 : S1x10.Idx → EReal) (ix2 (0 : Fin 1) g) :=
    Finset.sum_congr rfl fun g _ => by rw [V10_v28_eq]
  rw [hs]

end Cert.KernelIdeal.HostValue
-- ==== Proof.KI.R4Value.lean ====
/- The value of REGION 4's output block at the ideal floats, index by index: `cc4__final_kernel`'s payload is, at row
   `r` and column `j` of the [128,3072] block, the softmax over the row of the logits
   `logit r j = (∑ k, x0 (r,k) * x1 (k,j)) + x2 j` — the exponential of the logit less the row's maximum, divided by the
   row's sum of those exponentials — with the maximum and the sum left as the folds over the row's 3072 columns. -/
import proofs.«164935_j86474871537726_2_alg».proof.Proof.KI.R4
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.ValueIdx
open scoped BigOperators

/-! ## The keepdims column: [128] → [128,1] → [128,3072] -/

/-- A [128] vector cast to a column [128,1] and broadcast along the rows reads, at (r, j), its entry r. -/
theorem col_bcast_apply {α : Type} (v : S128.Idx → α) (r : Fin 128) (j : Fin 3072) :
    broadcastTo S128x3072 (shapeCast S128x1 v shapeCasts_S128_S128x1) broadcasts_S128x1_S128x3072 (ix2 r j) = v (ix1 r) := by
  refine (broadcastTo_apply _ _ (ix2 r j) (ix2 r (0 : Fin 1)) fun a => ?_).trans ?_
  · match a with
    | ⟨0, _⟩ => rfl
    | ⟨1, _⟩ => rfl
  · refine shapeCast_apply _ _ _ (ix1 r) ?_
    rw [Shape.rowMajor_val_one, Shape.rowMajor_val_two]
    show r.val = r.val * 1 + 0
    omega

/-- The [3072] bias cast to itself, to a row [1,3072] and broadcast down the columns reads, at (r, j), its entry j. -/
theorem row_bcast_apply {α : Type} (v : S3072.Idx → α) (r : Fin 128) (j : Fin 3072) :
    broadcastTo S128x3072 (shapeCast S1x3072 (shapeCast S3072 v shapeCasts_S3072_S3072) shapeCasts_S3072_S1x3072) broadcasts_S1x3072_S128x3072 (ix2 r j)
      = v (ix1 j) := by
  rw [shapeCast_self, broadcastTo_1b_ab_apply, shapeCast_a_1a_apply]

/-! ## The row reductions -/

/-- The index the reductions over the columns insert: row `r` with column `k` put back. -/
theorem lift4 (r : Fin 128) (k : Fin 3072) : reduces_S128x3072_S128.lift (ix1 r) k = ix2 r k :=
  funext fun a => Fin.ext (by match a with | ⟨0, _⟩ => rfl | ⟨1, _⟩ => rfl)

/-- The row maximum, at the ideal floats: the fold of `max` from the accumulator's value over the row's columns. -/
theorem rowmax_apply (y : FVec Ideal S128x3072 .f32) (r : Fin 128)
    (hφ : FKind.Formats .f32) (hacc : (0xFF800000#32 : BitVec 32) = FKind.maximumf.neutral .f32 hφ) :
    multiReduction (F := Ideal) .maximumf [1] S128 y 0xFF800000#32 reduces_S128x3072_S128 hφ hacc (ix1 r)
      = (Finset.univ : Finset (Fin 3072)).fold max (FloatOps.ofBits (F := Ideal) .f32 0xFF800000#32) (fun k => y (ix2 r k)) := by
  refine (Ideal.multiReduction_maximumf_single y _ reduces_S128x3072_S128 hφ hacc (ix1 r)).trans ?_
  exact congrArg (Finset.fold max (FloatOps.ofBits (F := Ideal) .f32 0xFF800000#32) · (Finset.univ : Finset (Fin 3072)))
    (funext fun k => congrArg y (lift4 r k))

/-- The row sum, at the ideal floats: the sum over the row's columns. -/
theorem rowsum_apply (y : FVec Ideal S128x3072 .f32) (r : Fin 128)
    (hφ : FKind.Formats .f32) (hacc : (0x00000000#32 : BitVec 32) = FKind.add.neutral .f32 hφ) :
    multiReduction (F := Ideal) .add [1] S128 y 0x00000000#32 reduces_S128x3072_S128 hφ hacc (ix1 r)
      = ∑ k : Fin 3072, y (ix2 r k) := by
  refine (Ideal.multiReduction_add_single y _ reduces_S128x3072_S128 hφ hacc (ix1 r)).trans ?_
  exact Finset.sum_congr rfl fun k _ => congrArg y (lift4 r k)

/-! ## The matrix product at an index -/

theorem lhs4_0 (i : S128x3072.Idx) (q : dot_S128x3072_S3072x3072_S128x3072_1_0_0_1_n_n.contr.Idx) :
    (dot_S128x3072_S3072x3072_S128x3072_1_0_0_1_n_n.lhsIdx i q 0).val = (i 0).val := by
  unfold DotDims.lhsIdx
  rw [dif_neg (show ¬(0 : Fin S128x3072.rank) ∈ dot_S128x3072_S3072x3072_S128x3072_1_0_0_1_n_n.lhsBatch by decide),
    dif_pos (show (0 : Fin S128x3072.rank) ∈ dot_S128x3072_S3072x3072_S128x3072_1_0_0_1_n_n.lhsNonContracting by decide)]
  rfl
theorem lhs4_1 (i : S128x3072.Idx) (q : dot_S128x3072_S3072x3072_S128x3072_1_0_0_1_n_n.contr.Idx) :
    (dot_S128x3072_S3072x3072_S128x3072_1_0_0_1_n_n.lhsIdx i q 1).val = (q ⟨0, by decide⟩).val :=
  dot_S128x3072_S3072x3072_S128x3072_1_0_0_1_n_n.lhsIdx_val_of_single rfl i q
theorem rhs4_0 (i : S128x3072.Idx) (q : dot_S128x3072_S3072x3072_S128x3072_1_0_0_1_n_n.contr.Idx) :
    (dot_S128x3072_S3072x3072_S128x3072_1_0_0_1_n_n.rhsIdx i q 0).val = (q ⟨0, by decide⟩).val :=
  dot_S128x3072_S3072x3072_S128x3072_1_0_0_1_n_n.rhsIdx_val_of_single rfl i q
theorem rhs4_1 (i : S128x3072.Idx) (q : dot_S128x3072_S3072x3072_S128x3072_1_0_0_1_n_n.contr.Idx) :
    (dot_S128x3072_S3072x3072_S128x3072_1_0_0_1_n_n.rhsIdx i q 1).val = (i 1).val := by
  unfold DotDims.rhsIdx
  rw [dif_neg (show ¬(1 : Fin S3072x3072.rank) ∈ dot_S128x3072_S3072x3072_S128x3072_1_0_0_1_n_n.rhsBatch by decide),
    dif_pos (show (1 : Fin S3072x3072.rank) ∈ dot_S128x3072_S3072x3072_S128x3072_1_0_0_1_n_n.rhsNonContracting by decide)]
  rfl

/-- The matrix product into the zero splat, at (r, j): the sum over the contraction coordinate of the products; the
    narrowing of the left operand and the cast of the right one to its own shape are the identity on the ideal floats. -/
theorem mm4_apply (x0 : FVec Ideal S128x3072 .f32) (x1 : FVec Ideal S3072x3072 .bf16) (r : Fin 128) (j : Fin 3072) :
    matmul dot_S128x3072_S3072x3072_S128x3072_1_0_0_1_n_n none (truncf .bf16 x0 bitsLt_bf16_f32)
        (shapeCast S3072x3072 x1 shapeCasts_S3072x3072_S3072x3072) (constant (F := Ideal) S128x3072 .f32 0x00000000#32) (ix2 r j)
      = ∑ k : Fin 3072, x0 (ix2 r k) * x1 (ix2 k j) := by
  rw [shapeCast_self]
  simp only [matmul]
  rw [Ideal.matmul_constant_zero_apply, ← Equiv.sum_comp (contrEquiv1 dot_S128x3072_S3072x3072_S128x3072_1_0_0_1_n_n 3072 rfl rfl).symm]
  refine Finset.sum_congr rfl fun k _ => ?_
  have hk := contrEquiv1_symm_val dot_S128x3072_S3072x3072_S128x3072_1_0_0_1_n_n 3072 rfl rfl k
  have el : dot_S128x3072_S3072x3072_S128x3072_1_0_0_1_n_n.lhsIdx (ix2 r j) ((contrEquiv1 dot_S128x3072_S3072x3072_S128x3072_1_0_0_1_n_n 3072 rfl rfl).symm k) = ix2 r k :=
    funext fun a => Fin.ext (by
      match a with
      | ⟨0, _⟩ => exact lhs4_0 _ _
      | ⟨1, _⟩ => exact (lhs4_1 _ _).trans hk)
  have er : dot_S128x3072_S3072x3072_S128x3072_1_0_0_1_n_n.rhsIdx (ix2 r j) ((contrEquiv1 dot_S128x3072_S3072x3072_S128x3072_1_0_0_1_n_n 3072 rfl rfl).symm k) = ix2 k j :=
    funext fun a => Fin.ext (by
      match a with
      | ⟨0, _⟩ => exact (rhs4_0 _ _).trans hk
      | ⟨1, _⟩ => exact rhs4_1 _ _)
  rw [el, er]
  rfl

/-! ## The payload at an index -/

section Payload
variable (x0 : Vec Ideal S128x3072 .f32) (x1 : Vec Ideal S3072x3072 .bf16) (x2 : Vec Ideal S3072 .f32)

/-- The logit at row `r`, column `j`: the row of `x0` against the column of `x1`, plus the bias. -/
def logit4 (r : Fin 128) (j : Fin 3072) : EReal :=
  (∑ k : Fin 3072, (x0 (ix2 r k) : EReal) * (x1 (ix2 k j) : EReal)) + (x2 (ix1 j) : EReal)

/-- The logits as the payload computes them (its `%9`). -/
def logits4 : FVec Ideal S128x3072 .f32 :=
  addf (matmul dot_S128x3072_S3072x3072_S128x3072_1_0_0_1_n_n none (truncf .bf16 x0 bitsLt_bf16_f32)
      (shapeCast S3072x3072 x1 shapeCasts_S3072x3072_S3072x3072 : FVec Ideal S3072x3072 .bf16) (constant (F := Ideal) S128x3072 .f32 0x00000000#32))
    (broadcastTo S128x3072 (shapeCast S1x3072 (shapeCast S3072 x2 shapeCasts_S3072_S3072) shapeCasts_S3072_S1x3072) broadcasts_S1x3072_S128x3072)

theorem logits4_apply (r : Fin 128) (j : Fin 3072) : logits4 x0 x1 x2 (ix2 r j) = logit4 x0 x1 x2 r j := by
  unfold logits4 logit4
  rw [addf_apply, mm4_apply, row_bcast_apply]

/-- The exponentials of a block less its row maxima, as the payload computes them (its `%14`). -/
def expShift4 (y : FVec Ideal S128x3072 .f32) : FVec Ideal S128x3072 .f32 :=
  exp (subf y (broadcastTo S128x3072 (shapeCast S128x1
    (multiReduction (F := Ideal) .maximumf [1] S128 y 0xFF800000#32 reduces_S128x3072_S128 (.inl rfl) rfl) shapeCasts_S128_S128x1) broadcasts_S128x1_S128x3072))

/-- and their quotient by their row sums (its `%18`). -/
def softmax4 (y : FVec Ideal S128x3072 .f32) : FVec Ideal S128x3072 .f32 :=
  divf (expShift4 y) (broadcastTo S128x3072 (shapeCast S128x1
    (multiReduction (F := Ideal) .add [1] S128 (expShift4 y) 0x00000000#32 reduces_S128x3072_S128 (.inl rfl) rfl) shapeCasts_S128_S128x1) broadcasts_S128x1_S128x3072)

/-- The payload is the softmax of the logits (its bindings read in order). -/
theorem k4_pay1_eq : k4_pay1 (F := Ideal) x0 x1 x2 = softmax4 (logits4 x0 x1 x2) := rfl

theorem expShift4_apply (y : FVec Ideal S128x3072 .f32) (r : Fin 128) (j : Fin 3072) :
    expShift4 y (ix2 r j) = Ideal.exp (y (ix2 r j)
      - (Finset.univ : Finset (Fin 3072)).fold max (FloatOps.ofBits (F := Ideal) .f32 0xFF800000#32) (fun k => y (ix2 r k))) := by
  unfold expShift4
  exact congrArg (fun m => Ideal.exp (y (ix2 r j) - m)) ((col_bcast_apply _ r j).trans (rowmax_apply y r _ _))

theorem softmax4_apply (y : FVec Ideal S128x3072 .f32) (r : Fin 128) (j : Fin 3072) :
    softmax4 y (ix2 r j)
      = Ideal.div
          (Ideal.exp (y (ix2 r j)
            - (Finset.univ : Finset (Fin 3072)).fold max (FloatOps.ofBits (F := Ideal) .f32 0xFF800000#32) (fun k => y (ix2 r k))))
          (∑ k : Fin 3072, Ideal.exp (y (ix2 r k)
            - (Finset.univ : Finset (Fin 3072)).fold max (FloatOps.ofBits (F := Ideal) .f32 0xFF800000#32) (fun k => y (ix2 r k)))) := by
  unfold softmax4
  exact congrArg₂ Ideal.div (expShift4_apply y r j)
    ((col_bcast_apply _ r j).trans ((rowsum_apply (expShift4 y) r _ _).trans
      (Finset.sum_congr rfl fun k _ => expShift4_apply y r k)))

private theorem z2 : (![0, 0] : Fin 2 → Nat) = fun _ => 0 := funext fun a => by match a with | ⟨0, _⟩ => rfl | ⟨1, _⟩ => rfl
private theorem z1 : (![0] : Fin 1 → Nat) = fun _ => 0 := funext fun a => by match a with | ⟨0, _⟩ => rfl

/-- The output buffer after the body is the payload of the three input blocks: one store over the whole buffer, of
    values loaded through the whole input buffers. -/
theorem out4_3_eq : out4_3 (F := Ideal) x0 x1 x2 = k4_pay1 x0 x1 x2 := by
  unfold out4_3 r4_0 r4_1 r4_2
  rw [View.canon_unit_zero z2, View.ld_unit_zero z2, View.ld_unit_zero z2, View.ld_unit_zero z1]

/-- The output block at row `r`, column `j`: the softmax over row `r` of the logits. -/
theorem out4_3_apply (r : Fin 128) (j : Fin 3072) :
    out4_3 (F := Ideal) x0 x1 x2 (ix2 r j)
      = Ideal.div
          (Ideal.exp (logit4 x0 x1 x2 r j
            - (Finset.univ : Finset (Fin 3072)).fold max (FloatOps.ofBits (F := Ideal) .f32 0xFF800000#32) (fun k => logit4 x0 x1 x2 r k)))
          (∑ k : Fin 3072, Ideal.exp (logit4 x0 x1 x2 r k
            - (Finset.univ : Finset (Fin 3072)).fold max (FloatOps.ofBits (F := Ideal) .f32 0xFF800000#32) (fun k => logit4 x0 x1 x2 r k))) := by
  rw [out4_3_eq, k4_pay1_eq, softmax4_apply]
  simp only [logits4_apply]

end Payload

end Cert.KernelIdeal.Gen

end
-- ==== Proof.KI.R4Array.lean ====
/- The WHOLE output array of REGION 4 at the ideal floats, index by index: after the region's 16 write-backs the
   [2048,3072] array holds, at row `r` and column `j`, the softmax over row `r` of the logits
   `logitA r j = (∑ k, A0 (r,k) * A1 (k,j)) + A2 j` of the three argument arrays as the region finds them. Point `t`
   writes rows `128·t … 128·t+127`; the 16 blocks tile the array. -/
import proofs.«164935_j86474871537726_2_alg».proof.Proof.KI.R4Value

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The index maps, decided over the grid -/

/-- Window 0's and the output's block at point `t` is block row `t`; windows 1 and 2 are whole arrays. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- A point's rows are rows of the array. -/
theorem row_lt4 (t : Fin cfg4.N) (p : Fin 128) : 128 * t.val + p.val < 2048 := by
  have ht : t.val < grid4.N := t.isLt
  rw [N_4] at ht
  have := p.isLt
  omega

/-! ## The blocks' indices in their arrays -/

theorem emb4_0 (t : Fin cfg4.N) (p : Fin 128) (k : Fin 3072) :
    ((cfg4.win 0).blk t).view.emb (ix2 p k) = ix2 (⟨128 * t.val + p.val, row_lt4 t p⟩ : Fin 2048) k := by
  obtain ⟨e0, e1, e2, e3, e4, e5, e6⟩ := idx_facts4 t
  funext a; apply Fin.ext
  match a with
  | ⟨0, _⟩ => show win4_0.index t (0 : Fin 2) * 128 + 1 * p.val = 128 * t.val + p.val; omega
  | ⟨1, _⟩ => show win4_0.index t (1 : Fin 2) * 3072 + 1 * k.val = k.val; omega

theorem emb4_1 (t : Fin cfg4.N) (k : Fin 3072) (j : Fin 3072) :
    ((cfg4.win 1).blk t).view.emb (ix2 k j) = ix2 k j := by
  obtain ⟨e0, e1, e2, e3, e4, e5, e6⟩ := idx_facts4 t
  funext a; apply Fin.ext
  match a with
  | ⟨0, _⟩ => show win4_1.index t (0 : Fin 2) * 3072 + 1 * k.val = k.val; omega
  | ⟨1, _⟩ => show win4_1.index t (1 : Fin 2) * 3072 + 1 * j.val = j.val; omega

theorem emb4_2 (t : Fin cfg4.N) (j : Fin 3072) :
    ((cfg4.win 2).blk t).view.emb (ix1 j) = ix1 j := by
  obtain ⟨e0, e1, e2, e3, e4, e5, e6⟩ := idx_facts4 t
  funext a; apply Fin.ext
  match a with
  | ⟨0, _⟩ => show win4_2.index t (0 : Fin 1) * 3072 + 1 * j.val = j.val; omega

theorem emb4_3 (t : Fin cfg4.N) (p : Fin 128) (j : Fin 3072) :
    ((cfg4.win 3).blk t).view.emb (ix2 p j) = ix2 (⟨128 * t.val + p.val, row_lt4 t p⟩ : Fin 2048) j := by
  obtain ⟨e0, e1, e2, e3, e4, e5, e6⟩ := idx_facts4 t
  funext a; apply Fin.ext
  match a with
  | ⟨0, _⟩ => show win4_3.index t (0 : Fin 2) * 128 + 1 * p.val = 128 * t.val + p.val; omega
  | ⟨1, _⟩ => show win4_3.index t (1 : Fin 2) * 3072 + 1 * j.val = j.val; omega

/-! ## The logits and the array's contents -/

/-- The three argument arrays as the region finds them, read as extended reals (their elements are ideal floats). -/
abbrev A4_0 (c : Dev nD) : S2048x3072.Idx → EReal := V c main_arg0
abbrev A4_1 (c : Dev nD) : S3072x3072.Idx → EReal := V c main_v15_1
abbrev A4_2 (c : Dev nD) : S3072.Idx → EReal := V c main_v35

/-- The logit at row `r`, column `j` of the whole arrays as the region finds them. -/
def logitA (c : Dev nD) (r : Fin 2048) (j : Fin 3072) : EReal :=
  (∑ k : Fin 3072, A4_0 V c (ix2 r k) * A4_1 V c (ix2 k j)) + A4_2 V c (ix1 j)

/-- What the output array ends holding: at each index the softmax over its row of the logits. -/
def G4 (c : Dev nD) : S2048x3072.Idx → Elt Ideal .f32 := fun i =>
  Ideal.div
    (Ideal.exp (logitA V c (i 0 : Fin 2048) (i 1 : Fin 3072)
      - (Finset.univ : Finset (Fin 3072)).fold max (FloatOps.ofBits (F := Ideal) .f32 0xFF800000#32) (fun k => logitA V c (i 0 : Fin 2048) k)))
    (∑ k : Fin 3072, Ideal.exp (logitA V c (i 0 : Fin 2048) k
      - (Finset.univ : Finset (Fin 3072)).fold max (FloatOps.ofBits (F := Ideal) .f32 0xFF800000#32) (fun k => logitA V c (i 0 : Fin 2048) k)))

/-- The logits of point `t`'s input blocks are the arrays' logits at the point's rows. -/
theorem logit4_blk (c : Dev nD) (t : Fin cfg4.N) (p : Fin 128) (j : Fin 3072) :
    logit4 (iblk4 V c 0 t) (iblk4 V c 1 t) (iblk4 V c 2 t) p j = logitA V c ⟨128 * t.val + p.val, row_lt4 t p⟩ j := by
  unfold logit4 logitA
  refine congrArg₂ (· + ·) (Finset.sum_congr rfl fun k _ => ?_) ?_
  · show A4_0 V c (((cfg4.win 0).blk t).view.emb (ix2 p k)) * A4_1 V c (((cfg4.win 1).blk t).view.emb (ix2 k j)) = _
    rw [emb4_0, emb4_1]
  · show A4_2 V c (((cfg4.win 2).blk t).view.emb (ix1 j)) = _
    rw [emb4_2]

/-! ## What each point writes back -/

/-- WHAT POINT `t` WRITES BACK is block `t` of `G4`. -/
theorem flushed4_eq (c : Dev nD) (t : Fin cfg4.N) :
    (dat4 V c).flushed 3 t = ((cfg4.win 3).blk t).view.read (Elt Ideal) (G4 V c) := by
  show (cfg4.win 3).cut (grid4.coords t) ((dat4 V c).after 3 t) = _
  rw [after4_3]
  funext y
  obtain ⟨p, q, rfl⟩ : ∃ (p : Fin 128) (q : Fin 3072), y = ix2 p q := ⟨y 0, y 1, eq_ix2 y⟩
  show out4_3 (F := Ideal) (iblk4 V c 0 t) (iblk4 V c 1 t) (iblk4 V c 2 t) (ix2 p q) = G4 V c (((cfg4.win 3).blk t).view.emb (ix2 p q))
  rw [out4_3_apply, emb4_3]
  simp only [logit4_blk]
  rfl

/-! ## The blocks tile the array -/

/-- An index of the array is in point `t`'s block iff each coordinate is in the block's range on its axis. -/
theorem mem_blk4 (t : Fin cfg4.N) (i : S2048x3072.Idx) :
    i ∈ ((cfg4.win 3).blk t).view.set ↔ ∀ a : Fin 2, win4_3.index t a * S128x3072.size a ≤ (i a).val ∧ (i a).val < win4_3.index t a * S128x3072.size a + S128x3072.size a := by
  show i ∈ ((View.whole main_v36).slice (win4_3.rect t)).set ↔ _
  rw [View.set_slice_whole, Rect.mem_set_unit]
  exact Iff.rfl

/-- Row `r` is in the block of point `r / 128`, which writes back. -/
theorem cover4 (i : S2048x3072.Idx) :
    ∃ t : Fin cfg4.N, (cfg4.win 3).flush t = true ∧ i ∈ ((cfg4.win 3).blk t).view.set := by
  have hi0 : (i 0).val < 2048 := (i 0).isLt
  have hi1 : (i 1).val < 3072 := (i 1).isLt
  have ht : (i 0).val / 128 < cfg4.N := by show _ < grid4.N; rw [N_4]; omega
  obtain ⟨e0, e1, e2, e3, e4, e5, e6⟩ := idx_facts4 ⟨(i 0).val / 128, ht⟩
  refine ⟨⟨(i 0).val / 128, ht⟩, flush4_3 _, ?_⟩
  rw [mem_blk4]
  intro a
  match a with
  | ⟨0, _⟩ =>
    show win4_3.index ⟨(i 0).val / 128, ht⟩ (0 : Fin 2) * 128 ≤ (i 0).val ∧ (i 0).val < win4_3.index ⟨(i 0).val / 128, ht⟩ (0 : Fin 2) * 128 + 128
    rw [e5]; show (i 0).val / 128 * 128 ≤ (i 0).val ∧ (i 0).val < (i 0).val / 128 * 128 + 128; omega
  | ⟨1, _⟩ =>
    show win4_3.index ⟨(i 0).val / 128, ht⟩ (1 : Fin 2) * 3072 ≤ (i 1).val ∧ (i 1).val < win4_3.index ⟨(i 0).val / 128, ht⟩ (1 : Fin 2) * 3072 + 3072
    rw [e6]; omega

/-! ## The array after the region -/

/-- THE ARRAY after the region's write-backs is `G4`. -/
theorem final4 (c : Dev nD) : (dat4 V c).arrAt 3 cfg4.N = G4 V c :=
  (dat4 V c).arrAt_eq_of_cover 3 (G4 V c) (fun t _ => flushed4_eq V c t) cover4

/-- Index by index: the output array at row `r`, column `j` is the softmax over row `r` of the logits. -/
theorem arr4 (c : Dev nD) (r : Fin 2048) (j : Fin 3072) :
    (dat4 V c).arrAt 3 cfg4.N (ix2 r j)
      = Ideal.div
          (Ideal.exp (logitA V c r j
            - (Finset.univ : Finset (Fin 3072)).fold max (FloatOps.ofBits (F := Ideal) .f32 0xFF800000#32) (fun k => logitA V c r k)))
          (∑ k : Fin 3072, Ideal.exp (logitA V c r k
            - (Finset.univ : Finset (Fin 3072)).fold max (FloatOps.ofBits (F := Ideal) .f32 0xFF800000#32) (fun k => logitA V c r k))) := by
  rw [final4]
  rfl

end Cert.KernelIdeal.Gen

end
-- ==== Proof.KI.KChain.lean ====
/- The kernel program's values at the ideal floats, chained from the launch contents to the result: each buffer a
   later item reads is rewritten back to where it was written (the items in between leave it alone), then read by that
   item's value theorem, down to the nine argument arrays at launch. The regions' matrix products and region 2's
   results enter as hypotheses in the forms their own modules prove them; the host stretches' values are theorems. -/
import proofs.«164935_j86474871537726_2_alg».proof.Proof.Spec
import proofs.«164935_j86474871537726_2_alg».proof.Proof.KI.HostValue
import proofs.«164935_j86474871537726_2_alg».proof.Proof.KI.HostValue4
import proofs.«164935_j86474871537726_2_alg».proof.Proof.KI.Entry
import proofs.«164935_j86474871537726_2_alg».proof.Proof.KI.R0
import proofs.«164935_j86474871537726_2_alg».proof.Proof.KI.R1
import proofs.«164935_j86474871537726_2_alg».proof.Proof.KI.R3
import proofs.«164935_j86474871537726_2_alg».proof.Proof.KI.R4Array

noncomputable section

namespace Cert.KernelIdeal.KChain

open Cert.KernelIdeal Cert.KernelIdeal.Gen Idealize.ShloMosaic Idealize.ShloMosaic.TcCoe ValueIdx
open scoped BigOperators

variable (m : (ℓ : Loc nD τ sig) → Buf (Elt Ideal) ℓ) (outs : Outs (F := Ideal)) (c : Dev nD)

/- A buffer's contents read at an index are an extended real only after the buffer's type is unfolded, so the
   sums, products and maxima below name the extended reals' operations outright. -/
local macro:65 a:term:65 " +ᵉ " b:term:66 : term => `(@HAdd.hAdd EReal EReal EReal instHAdd $a $b)
local macro:70 a:term:70 " *ᵉ " b:term:71 : term => `(@HMul.hMul EReal EReal EReal instHMul $a $b)
local macro:50 a:term:51 " =ᵉ " b:term:51 : term => `(@Eq EReal $a $b)
local macro "maxᵉ " a:term:max b:term:max : term => `(@max EReal _ $a $b)

/-! ## The nine arguments at launch, as functions of their coordinates -/

abbrev aX : Fin 2048 → Fin 3072 → EReal := fun r k => (V0 m c main_arg0 : S2048x3072.Idx → EReal) (ix2 r k)
abbrev aw : Fin 3072 → Fin 3072 → EReal := fun a b => (V0 m c main_arg1 : S3072x3072.Idx → EReal) (ix2 a b)
abbrev ab : Fin 3072 → EReal := fun j => (V0 m c main_arg2 : S3072.Idx → EReal) (ix1 j)
abbrev aW1 : Fin 10 → Fin 6145 → EReal := fun h k => (V0 m c main_arg3 : S10x6145.Idx → EReal) (ix2 h k)
abbrev ab1 : Fin 10 → EReal := fun h => (V0 m c main_arg4 : S10.Idx → EReal) (ix1 h)
abbrev aW2 : Fin 10 → Fin 10 → EReal := fun g h => (V0 m c main_arg5 : S10x10.Idx → EReal) (ix2 g h)
abbrev ab2 : Fin 10 → EReal := fun g => (V0 m c main_arg6 : S10.Idx → EReal) (ix1 g)
abbrev aW3 : Fin 1 → Fin 10 → EReal := fun o g => (V0 m c main_arg7 : S1x10.Idx → EReal) (ix2 o g)
abbrev ab3 : Fin 1 → EReal := fun o => (V0 m c main_arg8 : S1.Idx → EReal) (ix1 o)

/-! ## Buffers no item in between writes -/

/-- A buffer the first two host stretches and regions 0, 1 leave alone holds its launch contents at region 2's entry. -/
theorem keep4 (r : Ref sig .tc) (h4 : r ∉ hostOps2_W) (h3 : r ∉ ([main_v6] : List (Ref sig .tc)))
    (h2 : r ∉ ([main_v5] : List (Ref sig .tc))) (h1 : r ∉ hostOps0_W) : V4 m outs c r = V0 m c r :=
  (V4_of m outs c r h4).trans <| (V3_of m outs c r h3).trans <| (V2_of m outs c r h2).trans (V1_of m c r h1)

/-- A buffer regions 0, 1 leave alone holds after them what the first host stretch left. -/
theorem keep3 (r : Ref sig .tc) (h3 : r ∉ ([main_v6] : List (Ref sig .tc))) (h2 : r ∉ ([main_v5] : List (Ref sig .tc))) :
    V3 m outs c r = V1 m c r :=
  (V3_of m outs c r h3).trans (V2_of m outs c r h2)

/-- A buffer regions 2, 3 leave alone holds after them what it held at region 2's entry. -/
theorem keep6 (r : Ref sig .tc) (h6 : r ∉ ([main_v16] : List (Ref sig .tc))) (h5 : r ∉ ([main_v15_0, main_v15_1] : List (Ref sig .tc))) :
    V6 m outs c r = V4 m outs c r :=
  (V6_of m outs c r h6).trans (V5_of m outs c r h5)

/-- A buffer the last five host stretches leave alone holds at region 4's entry what it held after region 3. -/
theorem keep11 (r : Ref sig .tc) (h11 : r ∉ hostOps4_4_W) (h10 : r ∉ hostOps4_3_W) (h9 : r ∉ hostOps4_2_W)
    (h8 : r ∉ hostOps4_1_W) (h7 : r ∉ hostOps4_W) : V11 m outs c r = V6 m outs c r :=
  (V11_of m outs c r h11).trans <| (V10_of m outs c r h10).trans <| (V9_of m outs c r h9).trans <|
    (V8_of m outs c r h8).trans (V7_of m outs c r h7)

/-! ## The hypotheses: what the regions leave, and the regions' values -/

/-- What region 0 leaves in %5 is its output window's array after its write-backs. -/
def Ho2 : Prop := ∀ c : Dev nD, outs 2 main_v5 c = (dat0 (U1 m) c).arrAt 2 cfg0.N
/-- What region 1 leaves in %6 likewise. -/
def Ho3 : Prop := ∀ c : Dev nD, outs 3 main_v6 c = (dat1 (U2 m outs) c).arrAt 2 cfg1.N
/-- What region 3 leaves in %16 likewise. -/
def Ho6 : Prop := ∀ c : Dev nD, outs 6 main_v16 c = (dat3 (U5 m outs) c).arrAt 2 cfg3.N
/-- What region 4 leaves in %36 likewise. -/
def Ho12 : Prop := ∀ c : Dev nD, outs 12 main_v36 c = (dat4 (U11 m outs) c).arrAt 3 cfg4.N

/-- Region 0's array is the matrix product of %arg1 and %4 as it finds them. -/
def Harr0 : Prop := ∀ (V : (c : Dev nD) → (b : Ref sig .tc) → Buf (Elt Ideal) ((c : Thread nD τ).loc b)) (c : Dev nD) (r : Fin 3072) (q : Fin 10),
  ((dat0 V c).arrAt 2 cfg0.N : S3072x10.Idx → EReal) (ix2 r q)
    =ᵉ ∑ k : Fin 3072, (V c main_arg1 : S3072x3072.Idx → EReal) (ix2 r k) *ᵉ (V c main_v4 : S3072x10.Idx → EReal) (ix2 k q)
/-- Region 1's array is the matrix product of %1 and %arg1 as it finds them. -/
def Harr1 : Prop := ∀ (V : (c : Dev nD) → (b : Ref sig .tc) → Buf (Elt Ideal) ((c : Thread nD τ).loc b)) (c : Dev nD) (h : Fin 10) (j : Fin 3072),
  ((dat1 V c).arrAt 2 cfg1.N : S10x3072.Idx → EReal) (ix2 h j)
    =ᵉ ∑ k : Fin 3072, (V c main_v1 : S10x3072.Idx → EReal) (ix2 h k) *ᵉ (V c main_arg1 : S3072x3072.Idx → EReal) (ix2 k j)
/-- Region 3's array is the matrix product of %1 and %15#0 as it finds them. -/
def Harr3 : Prop := ∀ (V : (c : Dev nD) → (b : Ref sig .tc) → Buf (Elt Ideal) ((c : Thread nD τ).loc b)) (c : Dev nD) (h : Fin 10) (j : Fin 3072),
  ((dat3 V c).arrAt 2 cfg3.N : S10x3072.Idx → EReal) (ix2 h j)
    =ᵉ ∑ k : Fin 3072, (V c main_v1 : S10x3072.Idx → EReal) (ix2 h k) *ᵉ (V c main_v15_0 : S3072x3072.Idx → EReal) (ix2 k j)

/-- Region 2's first result, after it, is the new weight. -/
def HnewW0 : Prop := ∀ i j : Fin 3072,
  (V5 m outs c main_v15_0 : S3072x3072.Idx → EReal) (ix2 i j)
    =ᵉ Cert.Spec.newW (aw m c) (ab m c) (aW1 m c) (ab1 m c) (aW2 m c) (ab2 m c) (aW3 m c) (ab3 m c) i j
/-- Region 2's second result (the narrow copy) likewise. -/
def HnewW1 : Prop := ∀ i j : Fin 3072,
  (V5 m outs c main_v15_1 : S3072x3072.Idx → EReal) (ix2 i j)
    =ᵉ Cert.Spec.newW (aw m c) (ab m c) (aW1 m c) (ab1 m c) (aW2 m c) (ab2 m c) (aW3 m c) (ab3 m c) i j

/-! ## Region 2's entry: the row part, the column and bias parts, the last layer's weights, the arguments -/

/-- %5 at region 2's entry is the row part of the first layer. -/
theorem K_v5 (ho2 : Ho2 m outs) (harr0 : Harr0) (i : Fin 3072) (h : Fin 10) :
    (V4 m outs c main_v5 : S3072x10.Idx → EReal) (ix2 i h) =ᵉ Cert.Spec.rowPart (aw m c) (aW1 m c) i h := by
  have hb : V4 m outs c main_v5 = (dat0 (U1 m) c).arrAt 2 cfg0.N :=
    (V4_of m outs c main_v5 (by decide)).trans <| (V3_of m outs c main_v5 (by decide)).trans <|
      (Function.update_self _ _ _).trans (ho2 c)
  rw [hb]
  refine (harr0 (U1 m) c i h).trans ?_
  unfold Cert.Spec.rowPart
  refine Finset.sum_congr rfl fun k _ => ?_
  show (V1 m c main_arg1 : S3072x3072.Idx → EReal) (ix2 i k) *ᵉ (V1 m c main_v4 : S3072x10.Idx → EReal) (ix2 k h) =ᵉ _
  rw [V1_of m c main_arg1 (by decide), HostValue.H0a m c k h]

/-- %13 at region 2's entry is the column part plus the bias part of the first layer. -/
theorem K_v13 (ho3 : Ho3 m outs) (harr1 : Harr1) (j : Fin 3072) (h : Fin 10) :
    (V4 m outs c main_v13 : S3072x10.Idx → EReal) (ix2 j h)
      =ᵉ Cert.Spec.colPart (aw m c) (aW1 m c) j h + Cert.Spec.biasPart (ab m c) (aW1 m c) j h := by
  have hb : V3 m outs c main_v6 = (dat1 (U2 m outs) c).arrAt 2 cfg1.N :=
    (Function.update_self _ _ _).trans (ho3 c)
  refine (HostValue.H2a m outs c j h).trans ?_
  rw [hb, keep3 m outs c main_arg2 (by decide) (by decide), V1_of m c main_arg2 (by decide),
    keep3 m outs c main_v3 (by decide) (by decide), HostValue.H0c m c h]
  refine congrArg₂ (fun a b : EReal => a + b) ((harr1 (U2 m outs) c h j).trans ?_) rfl
  unfold Cert.Spec.colPart
  refine Finset.sum_congr rfl fun k _ => ?_
  show (V2 m outs c main_v1 : S10x3072.Idx → EReal) (ix2 h k) *ᵉ (V2 m outs c main_arg1 : S3072x3072.Idx → EReal) (ix2 k j) =ᵉ _
  rw [V2_of m outs c main_v1 (by decide), HostValue.H0b m c h k, V2_of m outs c main_arg1 (by decide), V1_of m c main_arg1 (by decide)]
  exact mul_comm _ _

/-- %14 at region 2's entry is the last layer's weights. -/
theorem K_v14 (g : Fin 10) : (V4 m outs c main_v14 : S10.Idx → EReal) (ix1 g) =ᵉ aW3 m c 0 g := by
  refine (HostValue.H2b m outs c g).trans ?_
  rw [keep3 m outs c main_arg7 (by decide) (by decide), V1_of m c main_arg7 (by decide)]

/-- The arguments region 2 reads hold their launch contents at its entry. -/
theorem K_arg1 : V4 m outs c main_arg1 = V0 m c main_arg1 := keep4 m outs c main_arg1 (by decide) (by decide) (by decide) (by decide)
theorem K_arg4 : V4 m outs c main_arg4 = V0 m c main_arg4 := keep4 m outs c main_arg4 (by decide) (by decide) (by decide) (by decide)
theorem K_arg5 : V4 m outs c main_arg5 = V0 m c main_arg5 := keep4 m outs c main_arg5 (by decide) (by decide) (by decide) (by decide)
theorem K_arg6 : V4 m outs c main_arg6 = V0 m c main_arg6 := keep4 m outs c main_arg6 (by decide) (by decide) (by decide) (by decide)
theorem K_arg8 : V4 m outs c main_arg8 = V0 m c main_arg8 := keep4 m outs c main_arg8 (by decide) (by decide) (by decide) (by decide)

/-! ## After region 3: the new weight's columns through the column slot -/

/-- %16 after region 3 is the new weight's column through the column slot of the first layer. -/
theorem K_v16 (ho6 : Ho6 m outs) (harr3 : Harr3) (hnewW0 : HnewW0 m outs c) (h : Fin 10) (j : Fin 3072) :
    (V6 m outs c main_v16 : S10x3072.Idx → EReal) (ix2 h j)
      =ᵉ ∑ k : Fin 3072, Cert.Spec.newW (aw m c) (ab m c) (aW1 m c) (ab1 m c) (aW2 m c) (ab2 m c) (aW3 m c) (ab3 m c) k j
          * aW1 m c h (Cert.Spec.slotCol k) := by
  have hb : V6 m outs c main_v16 = (dat3 (U5 m outs) c).arrAt 2 cfg3.N :=
    (Function.update_self _ _ _).trans (ho6 c)
  rw [hb]
  refine (harr3 (U5 m outs) c h j).trans ?_
  refine Finset.sum_congr rfl fun k _ => ?_
  show (V5 m outs c main_v1 : S10x3072.Idx → EReal) (ix2 h k) *ᵉ (V5 m outs c main_v15_0 : S3072x3072.Idx → EReal) (ix2 k j) =ᵉ _
  rw [hnewW0 k j, V5_of m outs c main_v1 (by decide), V4_of m outs c main_v1 (by decide), keep3 m outs c main_v1 (by decide) (by decide),
    HostValue.H0b m c h k]
  exact mul_comm _ _

/-! ## Region 4's entry: the new bias -/

/-- %12 after region 3 is the bias part of the first layer. -/
theorem K_v12 (j : Fin 3072) (h : Fin 10) :
    (V6 m outs c main_v12 : S3072x10.Idx → EReal) (ix2 j h) =ᵉ Cert.Spec.biasPart (ab m c) (aW1 m c) j h := by
  rw [keep6 m outs c main_v12 (by decide) (by decide)]
  refine (HostValue.H2c m outs c j h).trans ?_
  rw [keep3 m outs c main_arg2 (by decide) (by decide), V1_of m c main_arg2 (by decide),
    keep3 m outs c main_v3 (by decide) (by decide), HostValue.H0c m c h]
  rfl

/-- An argument after region 3 holds its launch contents. -/
theorem keep6_arg (r : Ref sig .tc) (h6 : r ∉ ([main_v16] : List (Ref sig .tc))) (h5 : r ∉ ([main_v15_0, main_v15_1] : List (Ref sig .tc)))
    (h4 : r ∉ hostOps2_W) (h3 : r ∉ ([main_v6] : List (Ref sig .tc))) (h2 : r ∉ ([main_v5] : List (Ref sig .tc))) (h1 : r ∉ hostOps0_W) :
    V6 m outs c r = V0 m c r :=
  (keep6 m outs c r h6 h5).trans (keep4 m outs c r h4 h3 h2 h1)

/-- %35 at region 4's entry is the new bias. -/
theorem K_v35 (ho6 : Ho6 m outs) (harr3 : Harr3) (hnewW0 : HnewW0 m outs c) (j : Fin 3072) :
    (V11 m outs c main_v35 : S3072.Idx → EReal) (ix1 j)
      =ᵉ Cert.Spec.newB (aw m c) (ab m c) (aW1 m c) (ab1 m c) (aW2 m c) (ab2 m c) (aW3 m c) (ab3 m c) j := by
  refine (HostValue.H4 m outs c j).trans ?_
  have e16 := K_v16 m outs c ho6 harr3 hnewW0
  have e12 := K_v12 m outs c
  unfold Cert.Spec.newB Cert.Spec.g2 Cert.Spec.g1
  simp only [HostValue.g2k, HostValue.g1k, e16, e12,
    keep6_arg m outs c main_arg2 (by decide) (by decide) (by decide) (by decide) (by decide) (by decide),
    keep6_arg m outs c main_arg4 (by decide) (by decide) (by decide) (by decide) (by decide) (by decide),
    keep6_arg m outs c main_arg5 (by decide) (by decide) (by decide) (by decide) (by decide) (by decide),
    keep6_arg m outs c main_arg6 (by decide) (by decide) (by decide) (by decide) (by decide) (by decide),
    keep6_arg m outs c main_arg7 (by decide) (by decide) (by decide) (by decide) (by decide) (by decide),
    keep6_arg m outs c main_arg8 (by decide) (by decide) (by decide) (by decide) (by decide) (by decide)]

/-! ## The result -/

/-- The logits of region 4's entry contents are the specification's. -/
theorem K_logit (ho6 : Ho6 m outs) (harr3 : Harr3) (hnewW0 : HnewW0 m outs c) (hnewW1 : HnewW1 m outs c)
    (r : Fin 2048) (j : Fin 3072) :
    logitA (U11 m outs) c r j
      = Cert.Spec.logit (aX m c) (aw m c) (ab m c) (aW1 m c) (ab1 m c) (aW2 m c) (ab2 m c) (aW3 m c) (ab3 m c) r j := by
  unfold logitA Cert.Spec.logit
  refine congrArg₂ (fun a b : EReal => a + b) (Finset.sum_congr rfl fun k _ => ?_) (K_v35 m outs c ho6 harr3 hnewW0 j)
  show (V11 m outs c main_arg0 : S2048x3072.Idx → EReal) (ix2 r k) *ᵉ (V11 m outs c main_v15_1 : S3072x3072.Idx → EReal) (ix2 k j) =ᵉ _
  rw [keep11 m outs c main_arg0 (by decide) (by decide) (by decide) (by decide) (by decide),
    keep6_arg m outs c main_arg0 (by decide) (by decide) (by decide) (by decide) (by decide) (by decide),
    keep11 m outs c main_v15_1 (by decide) (by decide) (by decide) (by decide) (by decide),
    V6_of m outs c main_v15_1 (by decide), hnewW1 k j]

/-- The output array after region 4 is the specification's result. -/
theorem K_out (ho6 : Ho6 m outs) (harr3 : Harr3) (hnewW0 : HnewW0 m outs c) (hnewW1 : HnewW1 m outs c)
    (r : Fin 2048) (j : Fin 3072) :
    ((dat4 (U11 m outs) c).arrAt 3 cfg4.N : S2048x3072.Idx → EReal) (ix2 r j)
      =ᵉ Cert.Spec.out (aX m c) (aw m c) (ab m c) (aW1 m c) (ab1 m c) (aW2 m c) (ab2 m c) (aW3 m c) (ab3 m c) r j := by
  refine (arr4 (U11 m outs) c r j).trans ?_
  have e : ∀ k : Fin 3072, logitA (U11 m outs) c r k
      = Cert.Spec.logit (aX m c) (aw m c) (ab m c) (aW1 m c) (ab1 m c) (aW2 m c) (ab2 m c) (aW3 m c) (ab3 m c) r k :=
    fun k => K_logit m outs c ho6 harr3 hnewW0 hnewW1 r k
  simp only [e]
  rfl

/-- The output buffer at the end of the program, read off the last valuation, is the specification's result. -/
theorem K_final (ho6 : Ho6 m outs) (ho12 : Ho12 m outs) (harr3 : Harr3) (hnewW0 : HnewW0 m outs c) (hnewW1 : HnewW1 m outs c)
    (r : Fin 2048) (j : Fin 3072) :
    (V12 m outs c main_v36 : S2048x3072.Idx → EReal) (ix2 r j)
      =ᵉ Cert.Spec.out (aX m c) (aw m c) (ab m c) (aW1 m c) (ab1 m c) (aW2 m c) (ab2 m c) (aW3 m c) (ab3 m c) r j := by
  have hb : V12 m outs c main_v36 = (dat4 (U11 m outs) c).arrAt 3 cfg4.N :=
    (Function.update_self _ _ _).trans (ho12 c)
  rw [hb]
  exact K_out m outs c ho6 harr3 hnewW0 hnewW1 r j

end Cert.KernelIdeal.KChain

end
-- ==== Proof.KI.KChain2.lean ====
/- Region 2's two results as the new weight: the region's array value, read at its entry contents, is the
   specification's three-layer update of the weight entry — the first layer's row part, column part and bias part
   being what regions 0 and 1 and the second host stretch left — and with it the whole chain from the launch contents
   to the result. -/
import proofs.«164935_j86474871537726_2_alg».proof.Proof.KI.KChain
import proofs.«164935_j86474871537726_2_alg».proof.Proof.KI.R2

noncomputable section

namespace Cert.KernelIdeal.KChain

open Cert.KernelIdeal Cert.KernelIdeal.Gen Idealize.ShloMosaic Idealize.ShloMosaic.TcCoe ValueIdx
open scoped BigOperators

variable (m : (ℓ : Loc nD τ sig) → Buf (Elt Ideal) ℓ) (outs : Outs (F := Ideal)) (c : Dev nD)

local macro:65 a:term:65 " +ᵉ " b:term:66 : term => `(@HAdd.hAdd EReal EReal EReal instHAdd $a $b)
local macro:70 a:term:70 " *ᵉ " b:term:71 : term => `(@HMul.hMul EReal EReal EReal instHMul $a $b)
local macro:50 a:term:51 " =ᵉ " b:term:51 : term => `(@Eq EReal $a $b)
local macro "maxᵉ " a:term:max b:term:max : term => `(@max EReal _ $a $b)

/-! ## The hypotheses on region 2 -/

/-- What region 2 leaves in %15#0 is its first output window's array after its write-backs. -/
def Ho5a : Prop := ∀ c : Dev nD, outs 5 main_v15_0 c = (dat2 (U4 m outs) c).arrAt 8 cfg2.N
/-- What region 2 leaves in %15#1 is its second output window's array after its write-backs. -/
def Ho5b : Prop := ∀ c : Dev nD, outs 5 main_v15_1 c = (dat2 (U4 m outs) c).arrAt 9 cfg2.N

section Region2
variable (V : (c : Dev nD) → (b : Ref sig .tc) → Buf (Elt Ideal) ((c : Thread nD τ).loc b))

/-- The first hidden layer at the pair (i, j), from the buffers region 2 finds. -/
abbrev H1 (c : Dev nD) (i j : Fin 3072) (h : Fin 10) : EReal :=
  maxᵉ ((((V c main_v5 : S3072x10.Idx → EReal) (ix2 i h)) +ᵉ (V c main_v13 : S3072x10.Idx → EReal) (ix2 j h))
    +ᵉ (V c main_arg4 : S10.Idx → EReal) (ix1 h)) 0
/-- The second hidden layer likewise. -/
abbrev H2 (c : Dev nD) (i j : Fin 3072) (g : Fin 10) : EReal :=
  maxᵉ ((∑ h : Fin 10, H1 V c i j h *ᵉ (V c main_arg5 : S10x10.Idx → EReal) (ix2 g h))
    +ᵉ (V c main_arg6 : S10.Idx → EReal) (ix1 g)) 0
/-- The updated weight entry likewise: the entry plus the output layer plus its bias. -/
abbrev W2k (c : Dev nD) (i j : Fin 3072) : EReal :=
  (((V c main_arg1 : S3072x3072.Idx → EReal) (ix2 i j)
      +ᵉ ∑ g : Fin 10, H2 V c i j g *ᵉ (V c main_v14 : S10.Idx → EReal) (ix1 g))
    +ᵉ (V c main_arg8 : S1.Idx → EReal) (ix1 (0 : Fin 1)))

end Region2

/-- Region 2's first array is the updated weight of the buffers it finds. -/
def Harr2a : Prop := ∀ (V : (c : Dev nD) → (b : Ref sig .tc) → Buf (Elt Ideal) ((c : Thread nD τ).loc b)) (c : Dev nD) (i j : Fin 3072),
  ((dat2 V c).arrAt 8 cfg2.N : S3072x3072.Idx → EReal) (ix2 i j) =ᵉ W2k V c i j
/-- Region 2's second array (the narrow copy) likewise. -/
def Harr2b : Prop := ∀ (V : (c : Dev nD) → (b : Ref sig .tc) → Buf (Elt Ideal) ((c : Thread nD τ).loc b)) (c : Dev nD) (i j : Fin 3072),
  ((dat2 V c).arrAt 9 cfg2.N : S3072x3072.Idx → EReal) (ix2 i j) =ᵉ W2k V c i j

/-! ## The updated weight of region 2's entry contents is the specification's -/

theorem W2k_entry (ho2 : Ho2 m outs) (ho3 : Ho3 m outs) (harr0 : Harr0) (harr1 : Harr1) (i j : Fin 3072) :
    W2k (U4 m outs) c i j
      =ᵉ Cert.Spec.newW (aw m c) (ab m c) (aW1 m c) (ab1 m c) (aW2 m c) (ab2 m c) (aW3 m c) (ab3 m c) i j := by
  have e5 := K_v5 m outs c ho2 harr0
  have e13 := K_v13 m outs c ho3 harr1
  have e14 := K_v14 m outs c
  unfold Cert.Spec.newW Cert.Spec.upd Cert.Spec.h2 Cert.Spec.h1
  simp only [W2k, H2, H1, U4, e5, e13, e14, K_arg1 m outs c, K_arg4 m outs c, K_arg5 m outs c, K_arg6 m outs c, K_arg8 m outs c]
  exact add_assoc _ _ _

/-! ## Region 2's results -/

/-- Region 2's first result is the new weight. -/
theorem K_newW0 (ho2 : Ho2 m outs) (ho3 : Ho3 m outs) (harr0 : Harr0) (harr1 : Harr1) (ho5a : Ho5a m outs) (harr2a : Harr2a) :
    HnewW0 m outs c := by
  intro i j
  have hb : V5 m outs c main_v15_0 = (dat2 (U4 m outs) c).arrAt 8 cfg2.N :=
    (Function.update_of_ne (StableHlo.devRef_ne_of_ne (by decide)) _ _).trans <|
      (Function.update_self _ _ _).trans (ho5a c)
  rw [hb]
  exact (harr2a (U4 m outs) c i j).trans (W2k_entry m outs c ho2 ho3 harr0 harr1 i j)

/-- Region 2's second result is the new weight. -/
theorem K_newW1 (ho2 : Ho2 m outs) (ho3 : Ho3 m outs) (harr0 : Harr0) (harr1 : Harr1) (ho5b : Ho5b m outs) (harr2b : Harr2b) :
    HnewW1 m outs c := by
  intro i j
  have hb : V5 m outs c main_v15_1 = (dat2 (U4 m outs) c).arrAt 9 cfg2.N :=
    (Function.update_self _ _ _).trans (ho5b c)
  rw [hb]
  exact (harr2b (U4 m outs) c i j).trans (W2k_entry m outs c ho2 ho3 harr0 harr1 i j)

/-! ## The result, from the regions' facts alone -/

/-- The output array after region 4 is the specification's result of the nine arguments at launch, whatever the
    regions leave (`outs`) provided each leaves its arrays after its write-backs and the arrays are the regions' values. -/
theorem K_result (ho2 : Ho2 m outs) (ho3 : Ho3 m outs) (ho5a : Ho5a m outs) (ho5b : Ho5b m outs) (ho6 : Ho6 m outs)
    (harr0 : Harr0) (harr1 : Harr1) (harr2a : Harr2a) (harr2b : Harr2b) (harr3 : Harr3) (r : Fin 2048) (j : Fin 3072) :
    ((dat4 (U11 m outs) c).arrAt 3 cfg4.N : S2048x3072.Idx → EReal) (ix2 r j)
      =ᵉ Cert.Spec.out (aX m c) (aw m c) (ab m c) (aW1 m c) (ab1 m c) (aW2 m c) (ab2 m c) (aW3 m c) (ab3 m c) r j :=
  K_out m outs c ho6 harr3 (K_newW0 m outs c ho2 ho3 harr0 harr1 ho5a harr2a)
    (K_newW1 m outs c ho2 ho3 harr0 harr1 ho5b harr2b) r j

end Cert.KernelIdeal.KChain

end
-- ==== Proof.LibBlockSum.lean ====
/- Regrouping a sum over Fin (nb * bs) into nb consecutive blocks of bs terms, in any additive commutative monoid:
   the index r = bs * t + y runs over every r < nb * bs exactly once as t runs over the blocks and y over the places in
   a block. Stated with the blocks indexed by Fin nb and by a range of naturals, and at 10000 = 50 * 200. -/
import Mathlib.Algebra.BigOperators.Fin
import Mathlib.Data.Fintype.BigOperators
import Mathlib.Logic.Equiv.Fin.Basic

namespace Cert.Lib

/-- The place y of block t lies below nb * bs. -/
theorem block_lt {nb bs : ℕ} (t : Fin nb) (y : Fin bs) : bs * t.val + y.val < nb * bs := by
  have h1 : bs * t.val + y.val < bs * (t.val + 1) := by rw [Nat.mul_succ]; exact Nat.add_lt_add_left y.isLt _
  have h2 : bs * (t.val + 1) ≤ bs * nb := Nat.mul_le_mul_left _ t.isLt
  rw [Nat.mul_comm nb bs]
  exact lt_of_lt_of_le h1 h2

/-- The same when the total is named N = nb * bs. -/
theorem block_lt_of_eq {nb bs N : ℕ} (h : nb * bs = N) (t : Fin nb) (y : Fin bs) : bs * t.val + y.val < N :=
  h ▸ block_lt t y

/-- A sum over Fin (nb * bs) is the sum over the nb blocks of the sums over the bs places of each block. -/
theorem sum_blocks {M : Type*} [AddCommMonoid M] (nb bs : ℕ) (f : Fin (nb * bs) → M) :
    ∑ t : Fin nb, ∑ y : Fin bs, f ⟨bs * t.val + y.val, block_lt t y⟩ = ∑ r : Fin (nb * bs), f r := by
  rw [← Equiv.sum_comp (finProdFinEquiv (m := nb) (n := bs)) f, Fintype.sum_prod_type]
  refine Finset.sum_congr rfl (fun t _ => Finset.sum_congr rfl (fun y _ => ?_))
  refine congrArg f (Fin.ext ?_)
  show bs * t.val + y.val = y.val + bs * t.val
  exact Nat.add_comm _ _

/-- The same for a sum over Fin N with N = nb * bs. -/
theorem sum_blocks_of_eq {M : Type*} [AddCommMonoid M] {nb bs N : ℕ} (h : nb * bs = N) (f : Fin N → M) :
    ∑ t : Fin nb, ∑ y : Fin bs, f ⟨bs * t.val + y.val, block_lt_of_eq h t y⟩ = ∑ r : Fin N, f r := by
  subst h
  exact sum_blocks nb bs f

/-- The blocks indexed by a range of naturals: if B t is the sum of block t for every t < nb, the sum of B over
    range nb is the whole sum. -/
theorem sum_range_blocks_of_eq {M : Type*} [AddCommMonoid M] {nb bs N : ℕ} (h : nb * bs = N) (f : Fin N → M)
    (B : ℕ → M)
    (hB : ∀ (t : ℕ) (ht : t < nb), B t = ∑ y : Fin bs, f ⟨bs * t + y.val, block_lt_of_eq h ⟨t, ht⟩ y⟩) :
    ∑ s ∈ Finset.range nb, B s = ∑ r : Fin N, f r := by
  rw [Finset.sum_range, ← sum_blocks_of_eq h f]
  exact Finset.sum_congr rfl (fun t _ => hB t.val t.isLt)

/-- 10000 terms are 50 blocks of 200. -/
theorem sum_blocks_10000 {M : Type*} [AddCommMonoid M] (f : Fin 10000 → M) :
    ∑ t : Fin 50, ∑ y : Fin 200, f ⟨200 * t.val + y.val, by omega⟩ = ∑ r : Fin 10000, f r :=
  sum_blocks_of_eq (nb := 50) (bs := 200) (N := 10000) rfl f

/-- 10000 terms from a range of 50 block sums. -/
theorem sum_range_blocks_10000 {M : Type*} [AddCommMonoid M] (f : Fin 10000 → M) (B : ℕ → M)
    (hB : ∀ (t : ℕ) (ht : t < 50), B t = ∑ y : Fin 200, f ⟨200 * t + y.val, by omega⟩) :
    ∑ s ∈ Finset.range 50, B s = ∑ r : Fin 10000, f r :=
  sum_range_blocks_of_eq (nb := 50) (bs := 200) (N := 10000) rfl f B hB

/-- A running sum: an accumulator that starts at b 0 and adds b (n + 1) at step n + 1 holds, after step n, the sum of
    b over range (n + 1). -/
theorem running_sum {M : Type*} [AddCommMonoid M] (b acc : ℕ → M) (h0 : acc 0 = b 0)
    (hs : ∀ n, acc (n + 1) = acc n + b (n + 1)) (n : ℕ) : acc n = ∑ t ∈ Finset.range (n + 1), b t := by
  induction n with
  | zero => rw [h0, Finset.sum_range_one]
  | succ n ih => rw [hs n, ih, Finset.sum_range_succ _ (n + 1)]

/-- The same with the steps known only below a bound N. -/
theorem running_sum_lt {M : Type*} [AddCommMonoid M] {N : ℕ} (b acc : ℕ → M) (h0 : acc 0 = b 0)
    (hs : ∀ n, n + 1 < N → acc (n + 1) = acc n + b (n + 1)) (n : ℕ) (hn : n < N) :
    acc n = ∑ t ∈ Finset.range (n + 1), b t := by
  induction n with
  | zero => rw [h0, Finset.sum_range_one]
  | succ n ih => rw [hs n hn, ih (Nat.lt_of_succ_lt hn), Finset.sum_range_succ _ (n + 1)]

/-- The same when the accumulator starts from zero plus the first term. -/
theorem running_sum_lt' {M : Type*} [AddCommMonoid M] {N : ℕ} (b acc : ℕ → M) (h0 : acc 0 = 0 + b 0)
    (hs : ∀ n, n + 1 < N → acc (n + 1) = acc n + b (n + 1)) (n : ℕ) (hn : n < N) :
    acc n = ∑ t ∈ Finset.range (n + 1), b t :=
  running_sum_lt b acc (by rw [h0, zero_add]) hs n hn

/-- An accumulator that starts at zero plus block 0 and adds block n + 1 at step n + 1, for 50 blocks of 200, holds
    after step 49 the sum of all 10000 terms. -/
theorem acc_49_10000 {M : Type*} [AddCommMonoid M] (f : Fin 10000 → M) (b acc : ℕ → M)
    (hb : ∀ (t : ℕ) (ht : t < 50), b t = ∑ y : Fin 200, f ⟨200 * t + y.val, by omega⟩)
    (h0 : acc 0 = 0 + b 0) (hs : ∀ n, n + 1 < 50 → acc (n + 1) = acc n + b (n + 1)) :
    acc 49 = ∑ r : Fin 10000, f r := by
  rw [running_sum_lt' b acc h0 hs 49 (by omega)]
  exact sum_range_blocks_10000 f b hb

end Cert.Lib
-- ==== Proof.KI.R0ValueA.lean ====
import proofs.«164935_j86474871537726_2_alg».proof.Proof.KI.R0
import Idealize.ShloMosaic.Lib.Pipeline.Value
import Idealize.ShloMosaic.Lib.ValueIdx
import Idealize.ShloMosaic.PureOps.Ideal.Laws
import proofs.«164935_j86474871537726_2_alg».proof.Proof.LibBlockSum

/-!
Region 0's values, first part: what the body's found pieces leave in the accumulator and in the output block, as the
body's payloads of the loaded blocks (any float values); and the payloads read at an index over the extended reals:
the product payload is what the accumulator held plus the row-by-column sum over the block, the zero block is 0.
-/

set_option maxRecDepth 16384

noncomputable section

namespace Cert.KernelIdeal.RV0

open Cert.KernelIdeal Cert.KernelIdeal.Gen
open Idealize.ShloMosaic Idealize.ShloMosaic.TcCoe Idealize.ShloMosaic.Tactic
open Idealize.SL.Sem
open Idealize.ShloMosaic.Pipeline (Dat Cfg Window)

section Pieces
variable {F : FTy → Type} [FloatOps F]

theorem hz : (![0, 0] : Fin 2 → Nat) = fun _ => 0 := funext fun a => by fin_cases a <;> rfl

/-- The accumulator after a first contraction block: the product payload over the zero block. -/
theorem sout_A (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : cond0 i)
    (x0 : Vec F S512x512 .f32) (x1 : Vec F S512x10 .f32) :
    sout0_A c i arg3 harg3 arg4 harg4 arg5 harg5 arg6 harg6 hc x0 x1 = k0_pay2 k0_pay1 x0 x1 := by
  unfold sout0_A
  rw [View.read_writes_eq_canon _ _ _ (scover0_A c i arg3 harg3 arg4 harg4 arg5 harg5 arg6 harg6 hc x0 x1)]
  unfold kernelRun0_A
  dsimp only
  sl_unfold_words
  rw [View.canon_cons_unit_zero (S := S512x10) hz, View.readCov_unit_zero (S := S512x10) _ hz]
  simp only [View.readAt_eq_ld, harg3.read_unread, harg4.read_unread, View.ld_unit_zero (S := S512x512) hz, View.ld_unit_zero (S := S512x10) hz]

/-- The output block after a first contraction block: the same. -/
theorem out_A (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : cond0 i)
    (x0 : Vec F S512x512 .f32) (x1 : Vec F S512x10 .f32) :
    out0_A c i arg3 harg3 arg4 harg4 arg5 harg5 arg6 harg6 hc x0 x1 = k0_pay2 k0_pay1 x0 x1 := by
  unfold out0_A
  rw [View.read_writes_eq_canon _ _ _ (cover0_A c i arg3 harg3 arg4 harg4 arg5 harg5 arg6 harg6 hc x0 x1)]
  unfold kernelRun0_A
  dsimp only
  sl_unfold_words
  rw [View.canon_unit_zero (S := S512x10) hz, View.readCov_cons_toLoadRect, View.readCov_unit_zero (S := S512x10) _ hz]
  simp only [View.readAt_eq_ld, harg3.read_unread, harg4.read_unread, View.ld_unit_zero (S := S512x512) hz, View.ld_unit_zero (S := S512x10) hz]

/-- The accumulator after a later contraction block: the product payload over what it held. -/
theorem sout_B (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : ¬cond0 i)
    (x0 : Vec F S512x512 .f32) (x1 : Vec F S512x10 .f32) (xs : Vec F S512x10 .f32) :
    sout0_B c i arg3 harg3 arg4 harg4 arg5 harg5 arg6 harg6 hc x0 x1 xs = k0_pay2 xs x0 x1 := by
  unfold sout0_B
  rw [View.read_writes_eq_canon _ _ _ (scover0_B c i arg3 harg3 arg4 harg4 arg5 harg5 arg6 harg6 hc x0 x1 xs)]
  unfold kernelRun0_B
  dsimp only
  sl_unfold_words
  rw [View.canon_unit_zero (S := S512x10) hz]
  simp only [View.readAt_eq_ld, harg3.read_unread, harg4.read_unread, harg6.read_unread, View.ld_unit_zero (S := S512x512) hz, View.ld_unit_zero (S := S512x10) hz]

/-- The output block after a later contraction block: the same. -/
theorem out_B (c : Dev nD) (i : grid0.Coords) (arg3 : Memref sig .tc .vmem S512x512 .f32) (harg3 : arg3.IsWhole) (arg4 : Memref sig .tc .vmem S512x10 .f32) (harg4 : arg4.IsWhole) (arg5 : Memref sig .tc .vmem S512x10 .f32) (harg5 : arg5.IsWhole) (arg6 : Memref sig .tc .vmem S512x10 .f32) (harg6 : arg6.IsWhole) (hc : ¬cond0 i)
    (x0 : Vec F S512x512 .f32) (x1 : Vec F S512x10 .f32) (xs : Vec F S512x10 .f32) :
    out0_B c i arg3 harg3 arg4 harg4 arg5 harg5 arg6 harg6 hc x0 x1 xs = k0_pay2 xs x0 x1 := by
  unfold out0_B
  rw [View.read_writes_eq_canon _ _ _ (cover0_B c i arg3 harg3 arg4 harg4 arg5 harg5 arg6 harg6 hc x0 x1 xs)]
  unfold kernelRun0_B
  dsimp only
  sl_unfold_words
  rw [View.canon_unit_zero (S := S512x10) hz, View.readCov_cons_toLoadRect]
  simp only [View.readAt_eq_ld, harg3.read_unread, harg4.read_unread, harg6.read_unread, View.ld_unit_zero (S := S512x512) hz, View.ld_unit_zero (S := S512x10) hz]

end Pieces

/-! ## The payloads at an index, over the extended reals -/

theorem lhs_0 (i : S512x10.Idx) (q : dot_S512x512_S512x10_S512x10_1_0_0_1_n_n.contr.Idx) :
    (dot_S512x512_S512x10_S512x10_1_0_0_1_n_n.lhsIdx i q 0).val = (i 0).val := by
  unfold DotDims.lhsIdx
  rw [dif_neg (show ¬(0 : Fin S512x512.rank) ∈ dot_S512x512_S512x10_S512x10_1_0_0_1_n_n.lhsBatch by decide), dif_pos (show (0 : Fin S512x512.rank) ∈ dot_S512x512_S512x10_S512x10_1_0_0_1_n_n.lhsNonContracting by decide)]
  rfl
theorem lhs_1 (i : S512x10.Idx) (q : dot_S512x512_S512x10_S512x10_1_0_0_1_n_n.contr.Idx) :
    (dot_S512x512_S512x10_S512x10_1_0_0_1_n_n.lhsIdx i q 1).val = (q ⟨0, by decide⟩).val :=
  dot_S512x512_S512x10_S512x10_1_0_0_1_n_n.lhsIdx_val_of_single rfl i q
theorem rhs_0 (i : S512x10.Idx) (q : dot_S512x512_S512x10_S512x10_1_0_0_1_n_n.contr.Idx) :
    (dot_S512x512_S512x10_S512x10_1_0_0_1_n_n.rhsIdx i q 0).val = (q ⟨0, by decide⟩).val :=
  dot_S512x512_S512x10_S512x10_1_0_0_1_n_n.rhsIdx_val_of_single rfl i q
theorem rhs_1 (i : S512x10.Idx) (q : dot_S512x512_S512x10_S512x10_1_0_0_1_n_n.contr.Idx) :
    (dot_S512x512_S512x10_S512x10_1_0_0_1_n_n.rhsIdx i q 1).val = (i 1).val := by
  unfold DotDims.rhsIdx
  rw [dif_neg (show ¬(1 : Fin S512x10.rank) ∈ dot_S512x512_S512x10_S512x10_1_0_0_1_n_n.rhsBatch by decide), dif_pos (show (1 : Fin S512x10.rank) ∈ dot_S512x512_S512x10_S512x10_1_0_0_1_n_n.rhsNonContracting by decide)]
  rfl

/-- The body's product payload at an index: what the accumulator held plus the row-by-column sum over the block. -/
theorem pay2_apply (v3 : Vec Ideal S512x10 .f32) (v4 : Vec Ideal S512x512 .f32) (v6 : Vec Ideal S512x10 .f32) (p : Fin 512) (q : Fin 10) :
    k0_pay2 (F := Ideal) v3 v4 v6 (ValueIdx.ix2 p q) = v3 (ValueIdx.ix2 p q) + ∑ κ : Fin 512, v4 (ValueIdx.ix2 p κ) * v6 (ValueIdx.ix2 κ q) := by
  unfold k0_pay2
  refine (congrFun (shapeCast_self _ _) _).trans ?_
  refine congrArg (v3 (ValueIdx.ix2 p q) + ·) ?_
  refine (Ideal.matmul_constant_zero_apply dot_S512x512_S512x10_S512x10_1_0_0_1_n_n none _ _ _).trans ?_
  refine (Equiv.sum_comp (ValueIdx.contrEquiv1 dot_S512x512_S512x10_S512x10_1_0_0_1_n_n 512 rfl rfl).symm _).symm.trans ?_
  refine Finset.sum_congr rfl fun k _ => ?_
  have hk := ValueIdx.contrEquiv1_symm_val dot_S512x512_S512x10_S512x10_1_0_0_1_n_n 512 rfl rfl k
  have el : dot_S512x512_S512x10_S512x10_1_0_0_1_n_n.lhsIdx (ValueIdx.ix2 p q) ((ValueIdx.contrEquiv1 dot_S512x512_S512x10_S512x10_1_0_0_1_n_n 512 rfl rfl).symm k) = ValueIdx.ix2 p k := funext fun a => Fin.ext (by
    match a with
    | ⟨0, _⟩ => exact lhs_0 _ _
    | ⟨1, _⟩ => exact (lhs_1 _ _).trans hk)
  have er : dot_S512x512_S512x10_S512x10_1_0_0_1_n_n.rhsIdx (ValueIdx.ix2 p q) ((ValueIdx.contrEquiv1 dot_S512x512_S512x10_S512x10_1_0_0_1_n_n 512 rfl rfl).symm k) = ValueIdx.ix2 k q := funext fun a => Fin.ext (by
    match a with
    | ⟨0, _⟩ => exact (rhs_0 _ _).trans hk
    | ⟨1, _⟩ => exact rhs_1 _ _)
  exact congrArg₂ (· * ·) (congrArg v4 el) ((congrFun (shapeCast_self v6 _) _).trans (congrArg v6 er))

/-- The zero block at an index. -/
theorem pay1_apply (j : S512x10.Idx) : k0_pay1 (F := Ideal) j = 0 := by
  unfold k0_pay1
  refine (congrFun (shapeCast_self _ _) _).trans ?_
  exact Ideal.ofBits_zero_f32

end Cert.KernelIdeal.RV0

end
-- ==== Proof.KI.R0ValueB.lean ====
import proofs.«164935_j86474871537726_2_alg».proof.Proof.KI.R0ValueA

/-!
Region 0's values, second part: the printed index maps over the grid, and each input window's block read at an index as
the window's array at the block's offset plus the index.
-/

set_option maxRecDepth 16384

noncomputable section

namespace Cert.KernelIdeal.RV0

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (V : (c : Dev nD) → (b : Ref sig .tc) → Buf (Elt F) ((c : Thread nD τ).loc b))

/-- The printed index maps over the grid: the point t = 6·i + k reads block (i, k) of the left operand, block (k, 0) of
    the right one, and writes block (i, 0) of the result. -/
theorem idx_facts0 : ∀ t : Fin cfg0.N, win0_0.index t (0 : Fin 2) = t.val / 6 ∧ win0_0.index t (1 : Fin 2) = t.val % 6
    ∧ win0_1.index t (0 : Fin 2) = t.val % 6 ∧ win0_1.index t (1 : Fin 2) = 0
    ∧ win0_2.index t (0 : Fin 2) = t.val / 6 ∧ win0_2.index t (1 : Fin 2) = 0 :=
  (by decide +kernel : ∀ t : Fin grid0.N, _)

/-- The left operand's block at a point, at an index: the array at (512·i + row, 512·k + column). -/
theorem blk0_0_apply (c : Dev nD) (t : Fin cfg0.N) (x : S512x512.Idx) (k : S3072x3072.Idx)
    (hk0 : (k 0).val = 512 * (t.val / 6) + (x 0).val) (hk1 : (k 1).val = 512 * (t.val % 6) + (x 1).val) :
    (iblk0 V c 0 t : Vec F S512x512 .f32) x = (V c main_arg1 : S3072x3072.Idx → Elt F .f32) k := by
  obtain ⟨e0, e1, -, -, -, -⟩ := idx_facts0 t
  unfold iblk0
  rw [View.read_apply]
  show V c main_arg1 _ = V c main_arg1 _
  congr 1
  funext a
  apply Fin.ext
  match a with
  | ⟨0, _⟩ => show win0_0.index t 0 * 512 + 1 * (x 0).val = (k 0).val; rw [e0, hk0]; omega
  | ⟨1, _⟩ => show win0_0.index t 1 * 512 + 1 * (x 1).val = (k 1).val; rw [e1, hk1]; omega

/-- The right operand's block at a point, at an index: the array at (512·k + row, column). -/
theorem blk0_1_apply (c : Dev nD) (t : Fin cfg0.N) (x : S512x10.Idx) (k : S3072x10.Idx)
    (hk0 : (k 0).val = 512 * (t.val % 6) + (x 0).val) (hk1 : (k 1).val = (x 1).val) :
    (iblk0 V c 1 t : Vec F S512x10 .f32) x = (V c main_v4 : S3072x10.Idx → Elt F .f32) k := by
  obtain ⟨-, -, e0, e1, -, -⟩ := idx_facts0 t
  unfold iblk0
  rw [View.read_apply]
  show V c main_v4 _ = V c main_v4 _
  congr 1
  funext a
  apply Fin.ext
  match a with
  | ⟨0, _⟩ => show win0_1.index t 0 * 512 + 1 * (x 0).val = (k 0).val; rw [e0, hk0]; omega
  | ⟨1, _⟩ => show win0_1.index t 1 * 10 + 1 * (x 1).val = (k 1).val; rw [e1, hk1]; omega

end Cert.KernelIdeal.RV0

end
-- ==== Proof.KI.R0ValueC.lean ====
import proofs.«164935_j86474871537726_2_alg».proof.Proof.KI.R0ValueB

/-!
Region 0's values, third part: the accumulator after a point as the product payload of the point's blocks over the zero
block or over what the point before left; and, over the extended reals, by induction on the points, the accumulator
after the point t = 6·i + k as the sum over the contraction blocks 0 … k of the blocks' row-by-column sums.
-/

set_option maxRecDepth 16384

noncomputable section

namespace Cert.KernelIdeal.RV0

open Cert.KernelIdeal Cert.KernelIdeal.Gen
open Idealize.ShloMosaic Idealize.ShloMosaic.TcCoe Idealize.ShloMosaic.Tactic
open Idealize.SL.Sem
open Idealize.ShloMosaic.Pipeline (Dat Cfg Window)

section Blocks
variable {F : FTy → Type} [FloatOps F]
variable (V : (c : Dev nD) → (b : Ref sig .tc) → Buf (Elt F) ((c : Thread nD τ).loc b))

/-! ## The accumulator and the output block after a point, as payloads -/

theorem acc_snd_A (c : Dev nD) (t : Fin cfg0.N) (h0 : t.val % 6 = 0) :
    (acc0 V c t.val t.isLt).2 = k0_pay2 k0_pay1 (iblk0 V c 0 t) (iblk0 V c 1 t) := by
  rw [acc0_A V c t h0]
  dsimp only
  exact sout_A (F := F) ..
theorem acc_fst_A (c : Dev nD) (t : Fin cfg0.N) (h0 : t.val % 6 = 0) :
    (acc0 V c t.val t.isLt).1 = k0_pay2 k0_pay1 (iblk0 V c 0 t) (iblk0 V c 1 t) := by
  rw [acc0_A V c t h0]
  dsimp only
  exact out_A (F := F) ..
theorem acc_snd_B (c : Dev nD) (t : Fin cfg0.N) (h0 : ¬t.val % 6 = 0) :
    (acc0 V c t.val t.isLt).2 = k0_pay2 (acc0 V c (t.val - 1) (Nat.lt_of_le_of_lt (Nat.sub_le _ _) t.isLt)).2 (iblk0 V c 0 t) (iblk0 V c 1 t) := by
  rw [acc0_B V c t h0]
  dsimp only
  exact sout_B (F := F) ..
theorem acc_fst_B (c : Dev nD) (t : Fin cfg0.N) (h0 : ¬t.val % 6 = 0) :
    (acc0 V c t.val t.isLt).1 = k0_pay2 (acc0 V c (t.val - 1) (Nat.lt_of_le_of_lt (Nat.sub_le _ _) t.isLt)).2 (iblk0 V c 0 t) (iblk0 V c 1 t) := by
  rw [acc0_B V c t h0]
  dsimp only
  exact out_B (F := F) ..
/-- After every point the output block holds what the accumulator holds. -/
theorem acc_fst_eq_snd (c : Dev nD) (t : Fin cfg0.N) : (acc0 V c t.val t.isLt).1 = (acc0 V c t.val t.isLt).2 := by
  by_cases h0 : t.val % 6 = 0
  · rw [acc_fst_A V c t h0, acc_snd_A V c t h0]
  · rw [acc_fst_B V c t h0, acc_snd_B V c t h0]

end Blocks

/-! ## The accumulation, over the extended reals -/

section Sums
variable (V : (c : Dev nD) → (b : Ref sig .tc) → Buf (Elt Ideal) ((c : Thread nD τ).loc b))

/-- The left operand at natural coordinates (0 outside the array). -/
def Af (c : Dev nD) (r k : ℕ) : EReal :=
  if h : r < 3072 ∧ k < 3072 then (V c main_arg1 : S3072x3072.Idx → EReal) (ValueIdx.ix2 ⟨r, h.1⟩ ⟨k, h.2⟩) else 0
/-- The right operand at natural coordinates (0 outside the array). -/
def Bf (c : Dev nD) (k q : ℕ) : EReal :=
  if h : k < 3072 ∧ q < 10 then (V c main_v4 : S3072x10.Idx → EReal) (ValueIdx.ix2 ⟨k, h.1⟩ ⟨q, h.2⟩) else 0

theorem blk0_0_Af (c : Dev nD) (t : Fin cfg0.N) (p κ : Fin 512) :
    (iblk0 V c 0 t : Vec Ideal S512x512 .f32) (ValueIdx.ix2 p κ) = Af V c (512 * (t.val / 6) + p.val) (512 * (t.val % 6) + κ.val) := by
  have hN : t.val < 36 := lt_of_lt_of_eq t.isLt (show cfg0.N = 36 from N_0)
  have hp := p.isLt
  have hκ := κ.isLt
  have h : 512 * (t.val / 6) + p.val < 3072 ∧ 512 * (t.val % 6) + κ.val < 3072 := by omega
  unfold Af
  rw [dif_pos h]
  exact blk0_0_apply V c t _ _ rfl rfl
theorem blk0_1_Bf (c : Dev nD) (t : Fin cfg0.N) (κ : Fin 512) (q : Fin 10) :
    (iblk0 V c 1 t : Vec Ideal S512x10 .f32) (ValueIdx.ix2 κ q) = Bf V c (512 * (t.val % 6) + κ.val) q.val := by
  have hN : t.val < 36 := lt_of_lt_of_eq t.isLt (show cfg0.N = 36 from N_0)
  have hq := q.isLt
  have hκ := κ.isLt
  have h : 512 * (t.val % 6) + κ.val < 3072 ∧ q.val < 10 := by omega
  unfold Bf
  rw [dif_pos h]
  exact blk0_1_apply V c t _ _ rfl rfl

/-- Row 512·i + p of the left operand's block (i, k') times column q of the right operand's block (k', 0). -/
def G (c : Dev nD) (i k' : ℕ) (p : Fin 512) (q : Fin 10) : EReal :=
  ∑ κ : Fin 512, Af V c (512 * i + p.val) (512 * k' + κ.val) * Bf V c (512 * k' + κ.val) q.val

/-- A first contraction block leaves its product. -/
theorem step_A (c : Dev nD) (t : Fin cfg0.N) (h0 : t.val % 6 = 0) (p : Fin 512) (q : Fin 10) :
    (acc0 V c t.val t.isLt).2 (ValueIdx.ix2 p q) = G V c (t.val / 6) (t.val % 6) p q := by
  refine (congrFun (acc_snd_A V c t h0) _).trans ?_
  refine (pay2_apply _ _ _ p q).trans ?_
  refine (congrArg (· + _) (pay1_apply _)).trans ((zero_add _).trans ?_)
  unfold G
  exact Finset.sum_congr rfl fun κ _ => congrArg₂ (· * ·) (blk0_0_Af V c t p κ) (blk0_1_Bf V c t κ q)

/-- A later contraction block adds its product to what the point before left. -/
theorem step_B (c : Dev nD) (t : Fin cfg0.N) (h0 : ¬t.val % 6 = 0) (p : Fin 512) (q : Fin 10) :
    (acc0 V c t.val t.isLt).2 (ValueIdx.ix2 p q)
      = (acc0 V c (t.val - 1) (Nat.lt_of_le_of_lt (Nat.sub_le _ _) t.isLt)).2 (ValueIdx.ix2 p q) + G V c (t.val / 6) (t.val % 6) p q := by
  refine (congrFun (acc_snd_B V c t h0) _).trans ?_
  refine (pay2_apply _ _ _ p q).trans ?_
  refine congrArg (_ + ·) ?_
  unfold G
  exact Finset.sum_congr rfl fun κ _ => congrArg₂ (· * ·) (blk0_0_Af V c t p κ) (blk0_1_Bf V c t κ q)

/-- After the point n = 6·i + k the accumulator holds the sum of the products of the contraction blocks 0 … k. -/
theorem acc_val (c : Dev nD) (p : Fin 512) (q : Fin 10) : ∀ (n : ℕ) (hn : n < cfg0.N),
    (acc0 V c n hn).2 (ValueIdx.ix2 p q) = ∑ k' ∈ Finset.range (n % 6 + 1), G V c (n / 6) k' p q
  | 0, hn => by
    refine (step_A V c ⟨0, hn⟩ rfl p q).trans ?_
    exact (Finset.sum_range_one (fun k' => G V c (0 / 6) k' p q)).symm
  | n + 1, hn => by
    by_cases h0 : (n + 1) % 6 = 0
    · refine (step_A V c ⟨n + 1, hn⟩ h0 p q).trans ?_
      show G V c ((n + 1) / 6) ((n + 1) % 6) p q = ∑ k' ∈ Finset.range ((n + 1) % 6 + 1), G V c ((n + 1) / 6) k' p q
      rw [h0, Finset.sum_range_one]
    · refine (step_B V c ⟨n + 1, hn⟩ h0 p q).trans ?_
      show (acc0 V c n _).2 (ValueIdx.ix2 p q) + G V c ((n + 1) / 6) ((n + 1) % 6) p q = _
      rw [acc_val c p q n (Nat.lt_of_succ_lt hn)]
      have e1 : (n + 1) / 6 = n / 6 := by omega
      have e2 : (n + 1) % 6 = n % 6 + 1 := by omega
      rw [e1, e2]
      exact (Finset.sum_range_succ (fun k' => G V c (n / 6) k' p q) (n % 6 + 1)).symm

/-- The output block after a point holds the same. -/
theorem out_val (c : Dev nD) (t : Fin cfg0.N) (p : Fin 512) (q : Fin 10) :
    (acc0 V c t.val t.isLt).1 (ValueIdx.ix2 p q) = ∑ k' ∈ Finset.range (t.val % 6 + 1), G V c (t.val / 6) k' p q :=
  (congrFun (acc_fst_eq_snd V c t) _).trans (acc_val V c p q t.val t.isLt)

end Sums

end Cert.KernelIdeal.RV0

end
-- ==== Proof.KI.R0Value.lean ====
import proofs.«164935_j86474871537726_2_alg».proof.Proof.KI.R0ValueC

/-!
Region 0's value: what each flushing point writes back is its block of the matrix product, the flushing points' blocks
cover the result array, so the result array ends holding the product of the two operand arrays as the region finds them.
-/

set_option maxRecDepth 16384

noncomputable section

namespace Cert.KernelIdeal.RV0

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (V : (c : Dev nD) → (b : Ref sig .tc) → Buf (Elt Ideal) ((c : Thread nD τ).loc b))

/-- The product of a [3072,3072] matrix and a [3072,10] matrix, at an index of the result. -/
def prod0 (A : S3072x3072.Idx → EReal) (B : S3072x10.Idx → EReal) : S3072x10.Idx → EReal := fun idx =>
  ∑ k : Fin 3072, A (ValueIdx.ix2 (idx 0 : Fin 3072) k) * B (ValueIdx.ix2 k (idx 1 : Fin 10))

/-- The same over natural coordinates. -/
theorem prod0_eq (c : Dev nD) (r : ℕ) (hr : r < 3072) (q : Fin 10) (idx : S3072x10.Idx) (h0 : (idx 0).val = r) (h1 : (idx 1).val = q.val) :
    prod0 (V c main_arg1) (V c main_v4) idx = ∑ k : Fin 3072, Af V c r k.val * Bf V c k.val q.val := by
  unfold prod0
  refine Finset.sum_congr rfl fun k _ => ?_
  have hk := k.isLt
  have hq := q.isLt
  unfold Af Bf
  rw [dif_pos ⟨hr, hk⟩, dif_pos ⟨hk, hq⟩]
  refine congrArg₂ (· * ·) (congrArg _ ?_) (congrArg _ ?_)
  · funext a; apply Fin.ext
    match a with
    | ⟨0, _⟩ => exact h0
    | ⟨1, _⟩ => rfl
  · funext a; apply Fin.ext
    match a with
    | ⟨0, _⟩ => rfl
    | ⟨1, _⟩ => exact h1

/-- The six contraction blocks' sums make the sum over the whole contraction axis. -/
theorem blocks_sum (c : Dev nD) (i : ℕ) (p : Fin 512) (q : Fin 10) :
    ∑ k' ∈ Finset.range 6, G V c i k' p q = ∑ k : Fin 3072, Af V c (512 * i + p.val) k.val * Bf V c k.val q.val :=
  Cert.Lib.sum_range_blocks_of_eq (nb := 6) (bs := 512) (N := 3072) rfl
    (fun k => Af V c (512 * i + p.val) k.val * Bf V c k.val q.val) (fun k' => G V c i k' p q) (fun t ht => rfl)

/-- What a flushing point writes back is its block of the product. -/
theorem flushed_eq (c : Dev nD) (t : Fin cfg0.N) (hf : (cfg0.win 2).flush t = true) :
    (dat0 V c).flushed 2 t = ((cfg0.win 2).blk t).view.read (Elt Ideal) (prod0 (V c main_arg1) (V c main_v4)) := by
  have h5 : t.val % 6 = 5 := (flush0_2 t).mp hf
  have hN : t.val < 36 := lt_of_lt_of_eq t.isLt (show cfg0.N = 36 from N_0)
  obtain ⟨-, -, -, -, e0, e1⟩ := idx_facts0 t
  show (cfg0.win 2).cut (grid0.coords t) ((dat0 V c).after 2 t) = _
  rw [after0_2]
  funext j
  obtain ⟨p, q, rfl⟩ : ∃ (p : Fin 512) (q : Fin 10), j = ValueIdx.ix2 p q := ⟨j 0, j 1, ValueIdx.eq_ix2 j⟩
  rw [View.read_apply]
  show (acc0 V c t.val t.isLt).1 (ValueIdx.ix2 p q) = prod0 (V c main_arg1) (V c main_v4) (((cfg0.win 2).blk t).view.emb (ValueIdx.ix2 p q))
  rw [out_val V c t p q, h5, blocks_sum]
  have hp := p.isLt
  refine (prod0_eq V c (512 * (t.val / 6) + p.val) (by omega) q _ ?_ ?_).symm
  · show win0_2.index t 0 * 512 + 1 * p.val = _
    rw [e0]; omega
  · show win0_2.index t 1 * 10 + 1 * q.val = _
    rw [e1]; omega

/-- An index of the result array is in a point's block iff each coordinate is in the block's range on its axis. -/
theorem mem_blk (t : Fin cfg0.N) (i : S3072x10.Idx) :
    i ∈ ((cfg0.win 2).blk t).view.set ↔ ∀ a : Fin 2, win0_2.index t a * S512x10.size a ≤ (i a).val ∧ (i a).val < win0_2.index t a * S512x10.size a + S512x10.size a := by
  show i ∈ ((View.whole main_v5).slice (win0_2.rect t)).set ↔ _
  rw [View.set_slice_whole, Rect.mem_set_unit]
  exact Iff.rfl

/-- Row r of the result array is in the block the point 6·(r / 512) + 5 writes back. -/
theorem cover (i : S3072x10.Idx) : ∃ t : Fin cfg0.N, (cfg0.win 2).flush t = true ∧ i ∈ ((cfg0.win 2).blk t).view.set := by
  have hi0 : (i 0).val < 3072 := (i 0).isLt
  have hi1 : (i 1).val < 10 := (i 1).isLt
  have hN : cfg0.N = 36 := N_0
  obtain ⟨t, ht⟩ : ∃ t : Fin cfg0.N, t.val = 6 * ((i 0).val / 512) + 5 := ⟨⟨6 * ((i 0).val / 512) + 5, by rw [hN]; omega⟩, rfl⟩
  obtain ⟨-, -, -, -, e0, e1⟩ := idx_facts0 t
  refine ⟨t, (flush0_2 t).mpr (by rw [ht]; omega), ?_⟩
  rw [mem_blk]
  intro a
  match a with
  | ⟨0, _⟩ =>
    show win0_2.index t 0 * 512 ≤ (i 0).val ∧ (i 0).val < win0_2.index t 0 * 512 + 512
    rw [e0, ht]; omega
  | ⟨1, _⟩ =>
    show win0_2.index t 1 * 10 ≤ (i 1).val ∧ (i 1).val < win0_2.index t 1 * 10 + 10
    rw [e1]; omega

/-- The result array after the region, as a function of the index. -/
theorem arr0_fun (c : Dev nD) : (dat0 V c).arrAt 2 cfg0.N = prod0 (V c main_arg1) (V c main_v4) :=
  (dat0 V c).arrAt_eq_of_cover 2 (prod0 (V c main_arg1) (V c main_v4)) (flushed_eq V c) cover

/-- The result array after the region: the matrix product of the two operand arrays as the region finds them. -/
theorem arr0 (V : (c : Dev nD) → (b : Ref sig .tc) → Buf (Elt Ideal) ((c : Thread nD τ).loc b)) (c : Dev nD) (r : Fin 3072) (q : Fin 10) :
    (dat0 V c).arrAt 2 cfg0.N (ValueIdx.ix2 r q)
      = (∑ k : Fin 3072, HMul.hMul (α := EReal) (β := EReal) (V c main_arg1 (ValueIdx.ix2 r k)) (V c main_v4 (ValueIdx.ix2 k q)) : EReal) :=
  congrFun (arr0_fun V c) (ValueIdx.ix2 r q)

end Cert.KernelIdeal.RV0

end
-- ==== Proof.KI.R1ValueA.lean ====
import proofs.«164935_j86474871537726_2_alg».proof.Proof.KI.R1
import Idealize.ShloMosaic.Lib.Pipeline.Value
import Idealize.ShloMosaic.Lib.ValueIdx
import Idealize.ShloMosaic.PureOps.Ideal.Laws
import proofs.«164935_j86474871537726_2_alg».proof.Proof.LibBlockSum

/-!
Region 1's values, first part: what the body's found pieces leave in the accumulator and in the output block, as the
body's payloads of the loaded blocks (any float values); and the payloads read at an index over the extended reals:
the product payload is what the accumulator held plus the row-by-column sum over the block, the zero block is 0.
-/

set_option maxRecDepth 16384

noncomputable section

namespace Cert.KernelIdeal.RV1

open Cert.KernelIdeal Cert.KernelIdeal.Gen
open Idealize.ShloMosaic Idealize.ShloMosaic.TcCoe Idealize.ShloMosaic.Tactic
open Idealize.SL.Sem
open Idealize.ShloMosaic.Pipeline (Dat Cfg Window)

section Pieces
variable {F : FTy → Type} [FloatOps F]

theorem hz : (![0, 0] : Fin 2 → Nat) = fun _ => 0 := funext fun a => by fin_cases a <;> rfl

/-- The accumulator after a first contraction block: the product payload over the zero block. -/
theorem sout_A (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond1 i)
    (x0 : Vec F S10x512 .f32) (x1 : Vec F S512x512 .f32) :
    sout1_A c i arg3 harg3 arg4 harg4 arg5 harg5 arg6 harg6 hc x0 x1 = k1_pay2 k1_pay1 x0 x1 := by
  unfold sout1_A
  rw [View.read_writes_eq_canon _ _ _ (scover1_A c i arg3 harg3 arg4 harg4 arg5 harg5 arg6 harg6 hc x0 x1)]
  unfold kernelRun1_A
  dsimp only
  sl_unfold_words
  rw [View.canon_cons_unit_zero (S := S10x512) hz, View.readCov_unit_zero (S := S10x512) _ hz]
  simp only [View.readAt_eq_ld, harg3.read_unread, harg4.read_unread, View.ld_unit_zero (S := S512x512) hz, View.ld_unit_zero (S := S10x512) hz]

/-- The output block after a first contraction block: the same. -/
theorem out_A (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond1 i)
    (x0 : Vec F S10x512 .f32) (x1 : Vec F S512x512 .f32) :
    out1_A c i arg3 harg3 arg4 harg4 arg5 harg5 arg6 harg6 hc x0 x1 = k1_pay2 k1_pay1 x0 x1 := by
  unfold out1_A
  rw [View.read_writes_eq_canon _ _ _ (cover1_A c i arg3 harg3 arg4 harg4 arg5 harg5 arg6 harg6 hc x0 x1)]
  unfold kernelRun1_A
  dsimp only
  sl_unfold_words
  rw [View.canon_unit_zero (S := S10x512) hz, View.readCov_cons_toLoadRect, View.readCov_unit_zero (S := S10x512) _ hz]
  simp only [View.readAt_eq_ld, harg3.read_unread, harg4.read_unread, View.ld_unit_zero (S := S512x512) hz, View.ld_unit_zero (S := S10x512) hz]

/-- The accumulator after a later contraction block: the product payload over what it held. -/
theorem sout_B (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond1 i)
    (x0 : Vec F S10x512 .f32) (x1 : Vec F S512x512 .f32) (xs : Vec F S10x512 .f32) :
    sout1_B c i arg3 harg3 arg4 harg4 arg5 harg5 arg6 harg6 hc x0 x1 xs = k1_pay2 xs x0 x1 := by
  unfold sout1_B
  rw [View.read_writes_eq_canon _ _ _ (scover1_B c i arg3 harg3 arg4 harg4 arg5 harg5 arg6 harg6 hc x0 x1 xs)]
  unfold kernelRun1_B
  dsimp only
  sl_unfold_words
  rw [View.canon_unit_zero (S := S10x512) hz]
  simp only [View.readAt_eq_ld, harg3.read_unread, harg4.read_unread, harg6.read_unread, View.ld_unit_zero (S := S512x512) hz, View.ld_unit_zero (S := S10x512) hz]

/-- The output block after a later contraction block: the same. -/
theorem out_B (c : Dev nD) (i : grid1.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond1 i)
    (x0 : Vec F S10x512 .f32) (x1 : Vec F S512x512 .f32) (xs : Vec F S10x512 .f32) :
    out1_B c i arg3 harg3 arg4 harg4 arg5 harg5 arg6 harg6 hc x0 x1 xs = k1_pay2 xs x0 x1 := by
  unfold out1_B
  rw [View.read_writes_eq_canon _ _ _ (cover1_B c i arg3 harg3 arg4 harg4 arg5 harg5 arg6 harg6 hc x0 x1 xs)]
  unfold kernelRun1_B
  dsimp only
  sl_unfold_words
  rw [View.canon_unit_zero (S := S10x512) hz, View.readCov_cons_toLoadRect]
  simp only [View.readAt_eq_ld, harg3.read_unread, harg4.read_unread, harg6.read_unread, View.ld_unit_zero (S := S512x512) hz, View.ld_unit_zero (S := S10x512) hz]

end Pieces

/-! ## The payloads at an index, over the extended reals -/

theorem lhs_0 (i : S10x512.Idx) (q : dot_S10x512_S512x512_S10x512_1_0_0_1_n_n.contr.Idx) :
    (dot_S10x512_S512x512_S10x512_1_0_0_1_n_n.lhsIdx i q 0).val = (i 0).val := by
  unfold DotDims.lhsIdx
  rw [dif_neg (show ¬(0 : Fin S10x512.rank) ∈ dot_S10x512_S512x512_S10x512_1_0_0_1_n_n.lhsBatch by decide), dif_pos (show (0 : Fin S10x512.rank) ∈ dot_S10x512_S512x512_S10x512_1_0_0_1_n_n.lhsNonContracting by decide)]
  rfl
theorem lhs_1 (i : S10x512.Idx) (q : dot_S10x512_S512x512_S10x512_1_0_0_1_n_n.contr.Idx) :
    (dot_S10x512_S512x512_S10x512_1_0_0_1_n_n.lhsIdx i q 1).val = (q ⟨0, by decide⟩).val :=
  dot_S10x512_S512x512_S10x512_1_0_0_1_n_n.lhsIdx_val_of_single rfl i q
theorem rhs_0 (i : S10x512.Idx) (q : dot_S10x512_S512x512_S10x512_1_0_0_1_n_n.contr.Idx) :
    (dot_S10x512_S512x512_S10x512_1_0_0_1_n_n.rhsIdx i q 0).val = (q ⟨0, by decide⟩).val :=
  dot_S10x512_S512x512_S10x512_1_0_0_1_n_n.rhsIdx_val_of_single rfl i q
theorem rhs_1 (i : S10x512.Idx) (q : dot_S10x512_S512x512_S10x512_1_0_0_1_n_n.contr.Idx) :
    (dot_S10x512_S512x512_S10x512_1_0_0_1_n_n.rhsIdx i q 1).val = (i 1).val := by
  unfold DotDims.rhsIdx
  rw [dif_neg (show ¬(1 : Fin S512x512.rank) ∈ dot_S10x512_S512x512_S10x512_1_0_0_1_n_n.rhsBatch by decide), dif_pos (show (1 : Fin S512x512.rank) ∈ dot_S10x512_S512x512_S10x512_1_0_0_1_n_n.rhsNonContracting by decide)]
  rfl

/-- The body's product payload at an index: what the accumulator held plus the row-by-column sum over the block. -/
theorem pay2_apply (v3 : Vec Ideal S10x512 .f32) (v4 : Vec Ideal S10x512 .f32) (v7 : Vec Ideal S512x512 .f32) (h : Fin 10) (p : Fin 512) :
    k1_pay2 (F := Ideal) v3 v4 v7 (ValueIdx.ix2 h p) = v3 (ValueIdx.ix2 h p) + ∑ κ : Fin 512, v4 (ValueIdx.ix2 h κ) * v7 (ValueIdx.ix2 κ p) := by
  unfold k1_pay2
  refine (congrFun (shapeCast_self _ _) _).trans ?_
  refine congrArg (v3 (ValueIdx.ix2 h p) + ·) ?_
  refine (Ideal.matmul_constant_zero_apply dot_S10x512_S512x512_S10x512_1_0_0_1_n_n none _ _ _).trans ?_
  refine (Equiv.sum_comp (ValueIdx.contrEquiv1 dot_S10x512_S512x512_S10x512_1_0_0_1_n_n 512 rfl rfl).symm _).symm.trans ?_
  refine Finset.sum_congr rfl fun k _ => ?_
  have hk := ValueIdx.contrEquiv1_symm_val dot_S10x512_S512x512_S10x512_1_0_0_1_n_n 512 rfl rfl k
  have el : dot_S10x512_S512x512_S10x512_1_0_0_1_n_n.lhsIdx (ValueIdx.ix2 h p) ((ValueIdx.contrEquiv1 dot_S10x512_S512x512_S10x512_1_0_0_1_n_n 512 rfl rfl).symm k) = ValueIdx.ix2 h k := funext fun a => Fin.ext (by
    match a with
    | ⟨0, _⟩ => exact lhs_0 _ _
    | ⟨1, _⟩ => exact (lhs_1 _ _).trans hk)
  have er : dot_S10x512_S512x512_S10x512_1_0_0_1_n_n.rhsIdx (ValueIdx.ix2 h p) ((ValueIdx.contrEquiv1 dot_S10x512_S512x512_S10x512_1_0_0_1_n_n 512 rfl rfl).symm k) = ValueIdx.ix2 k p := funext fun a => Fin.ext (by
    match a with
    | ⟨0, _⟩ => exact (rhs_0 _ _).trans hk
    | ⟨1, _⟩ => exact rhs_1 _ _)
  exact congrArg₂ (· * ·) ((congrFun (shapeCast_self v4 _) _).trans (congrArg v4 el)) (congrArg v7 er)

/-- The zero block at an index. -/
theorem pay1_apply (j : S10x512.Idx) : k1_pay1 (F := Ideal) j = 0 := by
  unfold k1_pay1
  refine (congrFun (shapeCast_self _ _) _).trans ?_
  exact Ideal.ofBits_zero_f32

end Cert.KernelIdeal.RV1

end
-- ==== Proof.KI.R1ValueB.lean ====
import proofs.«164935_j86474871537726_2_alg».proof.Proof.KI.R1ValueA

/-!
Region 1's values, second part: the printed index maps over the grid, and each input window's block read at an index as
the window's array at the block's offset plus the index.
-/

set_option maxRecDepth 16384

noncomputable section

namespace Cert.KernelIdeal.RV1

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (V : (c : Dev nD) → (b : Ref sig .tc) → Buf (Elt F) ((c : Thread nD τ).loc b))

/-- The printed index maps over the grid: the point t = 6·j + k reads block (0, k) of the left operand, block (k, j) of
    the right one, and writes block (0, j) of the result. -/
theorem idx_facts1 : ∀ t : Fin cfg1.N, win1_0.index t (0 : Fin 2) = 0 ∧ win1_0.index t (1 : Fin 2) = t.val % 6
    ∧ win1_1.index t (0 : Fin 2) = t.val % 6 ∧ win1_1.index t (1 : Fin 2) = t.val / 6
    ∧ win1_2.index t (0 : Fin 2) = 0 ∧ win1_2.index t (1 : Fin 2) = t.val / 6 :=
  (by decide +kernel : ∀ t : Fin grid1.N, _)

/-- The left operand's block at a point, at an index: the array at (row, 512·k + column). -/
theorem blk1_0_apply (c : Dev nD) (t : Fin cfg1.N) (x : S10x512.Idx) (k : S10x3072.Idx)
    (hk0 : (k 0).val = (x 0).val) (hk1 : (k 1).val = 512 * (t.val % 6) + (x 1).val) :
    (iblk1 V c 0 t : Vec F S10x512 .f32) x = (V c main_v1 : S10x3072.Idx → Elt F .f32) k := by
  obtain ⟨e0, e1, -, -, -, -⟩ := idx_facts1 t
  unfold iblk1
  rw [View.read_apply]
  show V c main_v1 _ = V c main_v1 _
  congr 1
  funext a
  apply Fin.ext
  match a with
  | ⟨0, _⟩ => show win1_0.index t 0 * 10 + 1 * (x 0).val = (k 0).val; rw [e0, hk0]; omega
  | ⟨1, _⟩ => show win1_0.index t 1 * 512 + 1 * (x 1).val = (k 1).val; rw [e1, hk1]; omega

/-- The right operand's block at a point, at an index: the array at (512·k + row, 512·j + column). -/
theorem blk1_1_apply (c : Dev nD) (t : Fin cfg1.N) (x : S512x512.Idx) (k : S3072x3072.Idx)
    (hk0 : (k 0).val = 512 * (t.val % 6) + (x 0).val) (hk1 : (k 1).val = 512 * (t.val / 6) + (x 1).val) :
    (iblk1 V c 1 t : Vec F S512x512 .f32) x = (V c main_arg1 : S3072x3072.Idx → Elt F .f32) k := by
  obtain ⟨-, -, e0, e1, -, -⟩ := idx_facts1 t
  unfold iblk1
  rw [View.read_apply]
  show V c main_arg1 _ = V c main_arg1 _
  congr 1
  funext a
  apply Fin.ext
  match a with
  | ⟨0, _⟩ => show win1_1.index t 0 * 512 + 1 * (x 0).val = (k 0).val; rw [e0, hk0]; omega
  | ⟨1, _⟩ => show win1_1.index t 1 * 512 + 1 * (x 1).val = (k 1).val; rw [e1, hk1]; omega

end Cert.KernelIdeal.RV1

end
-- ==== Proof.KI.R1ValueC.lean ====
import proofs.«164935_j86474871537726_2_alg».proof.Proof.KI.R1ValueB

/-!
Region 1's values, third part: the accumulator after a point as the product payload of the point's blocks over the zero
block or over what the point before left; and, over the extended reals, by induction on the points, the accumulator
after the point t = 6·j + k as the sum over the contraction blocks 0 … k of the blocks' row-by-column sums.
-/

set_option maxRecDepth 16384

noncomputable section

namespace Cert.KernelIdeal.RV1

open Cert.KernelIdeal Cert.KernelIdeal.Gen
open Idealize.ShloMosaic Idealize.ShloMosaic.TcCoe Idealize.ShloMosaic.Tactic
open Idealize.SL.Sem
open Idealize.ShloMosaic.Pipeline (Dat Cfg Window)

section Blocks
variable {F : FTy → Type} [FloatOps F]
variable (V : (c : Dev nD) → (b : Ref sig .tc) → Buf (Elt F) ((c : Thread nD τ).loc b))

/-! ## The accumulator and the output block after a point, as payloads -/

theorem acc_snd_A (c : Dev nD) (t : Fin cfg1.N) (h0 : t.val % 6 = 0) :
    (acc1 V c t.val t.isLt).2 = k1_pay2 k1_pay1 (iblk1 V c 0 t) (iblk1 V c 1 t) := by
  rw [acc1_A V c t h0]
  dsimp only
  exact sout_A (F := F) ..
theorem acc_fst_A (c : Dev nD) (t : Fin cfg1.N) (h0 : t.val % 6 = 0) :
    (acc1 V c t.val t.isLt).1 = k1_pay2 k1_pay1 (iblk1 V c 0 t) (iblk1 V c 1 t) := by
  rw [acc1_A V c t h0]
  dsimp only
  exact out_A (F := F) ..
theorem acc_snd_B (c : Dev nD) (t : Fin cfg1.N) (h0 : ¬t.val % 6 = 0) :
    (acc1 V c t.val t.isLt).2 = k1_pay2 (acc1 V c (t.val - 1) (Nat.lt_of_le_of_lt (Nat.sub_le _ _) t.isLt)).2 (iblk1 V c 0 t) (iblk1 V c 1 t) := by
  rw [acc1_B V c t h0]
  dsimp only
  exact sout_B (F := F) ..
theorem acc_fst_B (c : Dev nD) (t : Fin cfg1.N) (h0 : ¬t.val % 6 = 0) :
    (acc1 V c t.val t.isLt).1 = k1_pay2 (acc1 V c (t.val - 1) (Nat.lt_of_le_of_lt (Nat.sub_le _ _) t.isLt)).2 (iblk1 V c 0 t) (iblk1 V c 1 t) := by
  rw [acc1_B V c t h0]
  dsimp only
  exact out_B (F := F) ..
/-- After every point the output block holds what the accumulator holds. -/
theorem acc_fst_eq_snd (c : Dev nD) (t : Fin cfg1.N) : (acc1 V c t.val t.isLt).1 = (acc1 V c t.val t.isLt).2 := by
  by_cases h0 : t.val % 6 = 0
  · rw [acc_fst_A V c t h0, acc_snd_A V c t h0]
  · rw [acc_fst_B V c t h0, acc_snd_B V c t h0]

end Blocks

/-! ## The accumulation, over the extended reals -/

section Sums
variable (V : (c : Dev nD) → (b : Ref sig .tc) → Buf (Elt Ideal) ((c : Thread nD τ).loc b))

/-- The left operand at natural coordinates (0 outside the array). -/
def Af (c : Dev nD) (h k : ℕ) : EReal :=
  if hh : h < 10 ∧ k < 3072 then (V c main_v1 : S10x3072.Idx → EReal) (ValueIdx.ix2 ⟨h, hh.1⟩ ⟨k, hh.2⟩) else 0
/-- The right operand at natural coordinates (0 outside the array). -/
def Bf (c : Dev nD) (k j : ℕ) : EReal :=
  if hh : k < 3072 ∧ j < 3072 then (V c main_arg1 : S3072x3072.Idx → EReal) (ValueIdx.ix2 ⟨k, hh.1⟩ ⟨j, hh.2⟩) else 0

theorem blk1_0_Af (c : Dev nD) (t : Fin cfg1.N) (h : Fin 10) (κ : Fin 512) :
    (iblk1 V c 0 t : Vec Ideal S10x512 .f32) (ValueIdx.ix2 h κ) = Af V c h.val (512 * (t.val % 6) + κ.val) := by
  have hN : t.val < 36 := lt_of_lt_of_eq t.isLt (show cfg1.N = 36 from N_1)
  have hh := h.isLt
  have hκ := κ.isLt
  have hb : h.val < 10 ∧ 512 * (t.val % 6) + κ.val < 3072 := by omega
  unfold Af
  rw [dif_pos hb]
  exact blk1_0_apply V c t _ _ rfl rfl
theorem blk1_1_Bf (c : Dev nD) (t : Fin cfg1.N) (κ : Fin 512) (p : Fin 512) :
    (iblk1 V c 1 t : Vec Ideal S512x512 .f32) (ValueIdx.ix2 κ p) = Bf V c (512 * (t.val % 6) + κ.val) (512 * (t.val / 6) + p.val) := by
  have hN : t.val < 36 := lt_of_lt_of_eq t.isLt (show cfg1.N = 36 from N_1)
  have hp := p.isLt
  have hκ := κ.isLt
  have hb : 512 * (t.val % 6) + κ.val < 3072 ∧ 512 * (t.val / 6) + p.val < 3072 := by omega
  unfold Bf
  rw [dif_pos hb]
  exact blk1_1_apply V c t _ _ rfl rfl

/-- Row h of the left operand's block (0, k') times column 512·j + p of the right operand's block (k', j). -/
def G (c : Dev nD) (j k' : ℕ) (h : Fin 10) (p : Fin 512) : EReal :=
  ∑ κ : Fin 512, Af V c h.val (512 * k' + κ.val) * Bf V c (512 * k' + κ.val) (512 * j + p.val)

/-- A first contraction block leaves its product. -/
theorem step_A (c : Dev nD) (t : Fin cfg1.N) (h0 : t.val % 6 = 0) (h : Fin 10) (p : Fin 512) :
    (acc1 V c t.val t.isLt).2 (ValueIdx.ix2 h p) = G V c (t.val / 6) (t.val % 6) h p := by
  refine (congrFun (acc_snd_A V c t h0) _).trans ?_
  refine (pay2_apply _ _ _ h p).trans ?_
  refine (congrArg (· + _) (pay1_apply _)).trans ((zero_add _).trans ?_)
  unfold G
  exact Finset.sum_congr rfl fun κ _ => congrArg₂ (· * ·) (blk1_0_Af V c t h κ) (blk1_1_Bf V c t κ p)

/-- A later contraction block adds its product to what the point before left. -/
theorem step_B (c : Dev nD) (t : Fin cfg1.N) (h0 : ¬t.val % 6 = 0) (h : Fin 10) (p : Fin 512) :
    (acc1 V c t.val t.isLt).2 (ValueIdx.ix2 h p)
      = (acc1 V c (t.val - 1) (Nat.lt_of_le_of_lt (Nat.sub_le _ _) t.isLt)).2 (ValueIdx.ix2 h p) + G V c (t.val / 6) (t.val % 6) h p := by
  refine (congrFun (acc_snd_B V c t h0) _).trans ?_
  refine (pay2_apply _ _ _ h p).trans ?_
  refine congrArg (_ + ·) ?_
  unfold G
  exact Finset.sum_congr rfl fun κ _ => congrArg₂ (· * ·) (blk1_0_Af V c t h κ) (blk1_1_Bf V c t κ p)

/-- After the point n = 6·j + k the accumulator holds the sum of the products of the contraction blocks 0 … k. -/
theorem acc_val (c : Dev nD) (h : Fin 10) (p : Fin 512) : ∀ (n : ℕ) (hn : n < cfg1.N),
    (acc1 V c n hn).2 (ValueIdx.ix2 h p) = ∑ k' ∈ Finset.range (n % 6 + 1), G V c (n / 6) k' h p
  | 0, hn => by
    refine (step_A V c ⟨0, hn⟩ rfl h p).trans ?_
    exact (Finset.sum_range_one (fun k' => G V c (0 / 6) k' h p)).symm
  | n + 1, hn => by
    by_cases h0 : (n + 1) % 6 = 0
    · refine (step_A V c ⟨n + 1, hn⟩ h0 h p).trans ?_
      show G V c ((n + 1) / 6) ((n + 1) % 6) h p = ∑ k' ∈ Finset.range ((n + 1) % 6 + 1), G V c ((n + 1) / 6) k' h p
      rw [h0, Finset.sum_range_one]
    · refine (step_B V c ⟨n + 1, hn⟩ h0 h p).trans ?_
      show (acc1 V c n _).2 (ValueIdx.ix2 h p) + G V c ((n + 1) / 6) ((n + 1) % 6) h p = _
      rw [acc_val c h p n (Nat.lt_of_succ_lt hn)]
      have e1 : (n + 1) / 6 = n / 6 := by omega
      have e2 : (n + 1) % 6 = n % 6 + 1 := by omega
      rw [e1, e2]
      exact (Finset.sum_range_succ (fun k' => G V c (n / 6) k' h p) (n % 6 + 1)).symm

/-- The output block after a point holds the same. -/
theorem out_val (c : Dev nD) (t : Fin cfg1.N) (h : Fin 10) (p : Fin 512) :
    (acc1 V c t.val t.isLt).1 (ValueIdx.ix2 h p) = ∑ k' ∈ Finset.range (t.val % 6 + 1), G V c (t.val / 6) k' h p :=
  (congrFun (acc_fst_eq_snd V c t) _).trans (acc_val V c h p t.val t.isLt)

end Sums

end Cert.KernelIdeal.RV1

end
-- ==== Proof.KI.R1Value.lean ====
import proofs.«164935_j86474871537726_2_alg».proof.Proof.KI.R1ValueC

/-!
Region 1's value: what each flushing point writes back is its block of the matrix product, the flushing points' blocks
cover the result array, so the result array ends holding the product of the two operand arrays as the region finds them.
-/

set_option maxRecDepth 16384

noncomputable section

namespace Cert.KernelIdeal.RV1

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (V : (c : Dev nD) → (b : Ref sig .tc) → Buf (Elt Ideal) ((c : Thread nD τ).loc b))

/-- The product of a [10,3072] matrix and a [3072,3072] matrix, at an index of the result. -/
def prod1 (A : S10x3072.Idx → EReal) (B : S3072x3072.Idx → EReal) : S10x3072.Idx → EReal := fun idx =>
  ∑ k : Fin 3072, A (ValueIdx.ix2 (idx 0 : Fin 10) k) * B (ValueIdx.ix2 k (idx 1 : Fin 3072))

/-- The same over natural coordinates. -/
theorem prod1_eq (c : Dev nD) (h : Fin 10) (j : ℕ) (hj : j < 3072) (idx : S10x3072.Idx) (h0 : (idx 0).val = h.val) (h1 : (idx 1).val = j) :
    prod1 (V c main_v1) (V c main_arg1) idx = ∑ k : Fin 3072, Af V c h.val k.val * Bf V c k.val j := by
  unfold prod1
  refine Finset.sum_congr rfl fun k _ => ?_
  have hk := k.isLt
  have hh := h.isLt
  unfold Af Bf
  rw [dif_pos ⟨hh, hk⟩, dif_pos ⟨hk, hj⟩]
  refine congrArg₂ (· * ·) (congrArg _ ?_) (congrArg _ ?_)
  · funext a; apply Fin.ext
    match a with
    | ⟨0, _⟩ => exact h0
    | ⟨1, _⟩ => rfl
  · funext a; apply Fin.ext
    match a with
    | ⟨0, _⟩ => rfl
    | ⟨1, _⟩ => exact h1

/-- The six contraction blocks' sums make the sum over the whole contraction axis. -/
theorem blocks_sum (c : Dev nD) (j : ℕ) (h : Fin 10) (p : Fin 512) :
    ∑ k' ∈ Finset.range 6, G V c j k' h p = ∑ k : Fin 3072, Af V c h.val k.val * Bf V c k.val (512 * j + p.val) :=
  Cert.Lib.sum_range_blocks_of_eq (nb := 6) (bs := 512) (N := 3072) rfl
    (fun k => Af V c h.val k.val * Bf V c k.val (512 * j + p.val)) (fun k' => G V c j k' h p) (fun t ht => rfl)

/-- What a flushing point writes back is its block of the product. -/
theorem flushed_eq (c : Dev nD) (t : Fin cfg1.N) (hf : (cfg1.win 2).flush t = true) :
    (dat1 V c).flushed 2 t = ((cfg1.win 2).blk t).view.read (Elt Ideal) (prod1 (V c main_v1) (V c main_arg1)) := by
  have h5 : t.val % 6 = 5 := (flush1_2 t).mp hf
  have hN : t.val < 36 := lt_of_lt_of_eq t.isLt (show cfg1.N = 36 from N_1)
  obtain ⟨-, -, -, -, e0, e1⟩ := idx_facts1 t
  show (cfg1.win 2).cut (grid1.coords t) ((dat1 V c).after 2 t) = _
  rw [after1_2]
  funext j
  obtain ⟨h, p, rfl⟩ : ∃ (h : Fin 10) (p : Fin 512), j = ValueIdx.ix2 h p := ⟨j 0, j 1, ValueIdx.eq_ix2 j⟩
  rw [View.read_apply]
  show (acc1 V c t.val t.isLt).1 (ValueIdx.ix2 h p) = prod1 (V c main_v1) (V c main_arg1) (((cfg1.win 2).blk t).view.emb (ValueIdx.ix2 h p))
  rw [out_val V c t h p, h5, blocks_sum]
  have hp := p.isLt
  refine (prod1_eq V c h (512 * (t.val / 6) + p.val) (by omega) _ ?_ ?_).symm
  · show win1_2.index t 0 * 10 + 1 * h.val = _
    rw [e0]; omega
  · show win1_2.index t 1 * 512 + 1 * p.val = _
    rw [e1]; omega

/-- An index of the result array is in a point's block iff each coordinate is in the block's range on its axis. -/
theorem mem_blk (t : Fin cfg1.N) (i : S10x3072.Idx) :
    i ∈ ((cfg1.win 2).blk t).view.set ↔ ∀ a : Fin 2, win1_2.index t a * S10x512.size a ≤ (i a).val ∧ (i a).val < win1_2.index t a * S10x512.size a + S10x512.size a := by
  show i ∈ ((View.whole main_v6).slice (win1_2.rect t)).set ↔ _
  rw [View.set_slice_whole, Rect.mem_set_unit]
  exact Iff.rfl

/-- Column j of the result array is in the block the point 6·(j / 512) + 5 writes back. -/
theorem cover (i : S10x3072.Idx) : ∃ t : Fin cfg1.N, (cfg1.win 2).flush t = true ∧ i ∈ ((cfg1.win 2).blk t).view.set := by
  have hi0 : (i 0).val < 10 := (i 0).isLt
  have hi1 : (i 1).val < 3072 := (i 1).isLt
  have hN : cfg1.N = 36 := N_1
  obtain ⟨t, ht⟩ : ∃ t : Fin cfg1.N, t.val = 6 * ((i 1).val / 512) + 5 := ⟨⟨6 * ((i 1).val / 512) + 5, by rw [hN]; omega⟩, rfl⟩
  obtain ⟨-, -, -, -, e0, e1⟩ := idx_facts1 t
  refine ⟨t, (flush1_2 t).mpr (by rw [ht]; omega), ?_⟩
  rw [mem_blk]
  intro a
  match a with
  | ⟨0, _⟩ =>
    show win1_2.index t 0 * 10 ≤ (i 0).val ∧ (i 0).val < win1_2.index t 0 * 10 + 10
    rw [e0]; omega
  | ⟨1, _⟩ =>
    show win1_2.index t 1 * 512 ≤ (i 1).val ∧ (i 1).val < win1_2.index t 1 * 512 + 512
    rw [e1, ht]; omega

/-- The result array after the region, as a function of the index. -/
theorem arr1_fun (c : Dev nD) : (dat1 V c).arrAt 2 cfg1.N = prod1 (V c main_v1) (V c main_arg1) :=
  (dat1 V c).arrAt_eq_of_cover 2 (prod1 (V c main_v1) (V c main_arg1)) (flushed_eq V c) cover

/-- The result array after the region: the matrix product of the two operand arrays as the region finds them. -/
theorem arr1 (V : (c : Dev nD) → (b : Ref sig .tc) → Buf (Elt Ideal) ((c : Thread nD τ).loc b)) (c : Dev nD) (h : Fin 10) (j : Fin 3072) :
    (dat1 V c).arrAt 2 cfg1.N (ValueIdx.ix2 h j)
      = (∑ k : Fin 3072, HMul.hMul (α := EReal) (β := EReal) (V c main_v1 (ValueIdx.ix2 h k)) (V c main_arg1 (ValueIdx.ix2 k j)) : EReal) :=
  congrFun (arr1_fun V c) (ValueIdx.ix2 h j)

end Cert.KernelIdeal.RV1

end
-- ==== Proof.KI.R3ValueA.lean ====
import proofs.«164935_j86474871537726_2_alg».proof.Proof.KI.R3
import Idealize.ShloMosaic.Lib.Pipeline.Value
import Idealize.ShloMosaic.Lib.ValueIdx
import Idealize.ShloMosaic.PureOps.Ideal.Laws
import proofs.«164935_j86474871537726_2_alg».proof.Proof.LibBlockSum

/-!
Region 3's values, first part: what the body's found pieces leave in the accumulator and in the output block, as the
body's payloads of the loaded blocks (any float values); and the payloads read at an index over the extended reals:
the product payload is what the accumulator held plus the row-by-column sum over the block, the zero block is 0.
-/

set_option maxRecDepth 16384

noncomputable section

namespace Cert.KernelIdeal.RV3

open Cert.KernelIdeal Cert.KernelIdeal.Gen
open Idealize.ShloMosaic Idealize.ShloMosaic.TcCoe Idealize.ShloMosaic.Tactic
open Idealize.SL.Sem
open Idealize.ShloMosaic.Pipeline (Dat Cfg Window)

section Pieces
variable {F : FTy → Type} [FloatOps F]

theorem hz : (![0, 0] : Fin 2 → Nat) = fun _ => 0 := funext fun a => by fin_cases a <;> rfl

/-- The accumulator after a first contraction block: the product payload over the zero block. -/
theorem sout_A (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond3 i)
    (x0 : Vec F S10x512 .f32) (x1 : Vec F S512x512 .f32) :
    sout3_A c i arg3 harg3 arg4 harg4 arg5 harg5 arg6 harg6 hc x0 x1 = k3_pay2 k3_pay1 x0 x1 := by
  unfold sout3_A
  rw [View.read_writes_eq_canon _ _ _ (scover3_A c i arg3 harg3 arg4 harg4 arg5 harg5 arg6 harg6 hc x0 x1)]
  unfold kernelRun3_A
  dsimp only
  sl_unfold_words
  rw [View.canon_cons_unit_zero (S := S10x512) hz, View.readCov_unit_zero (S := S10x512) _ hz]
  simp only [View.readAt_eq_ld, harg3.read_unread, harg4.read_unread, View.ld_unit_zero (S := S512x512) hz, View.ld_unit_zero (S := S10x512) hz]

/-- The output block after a first contraction block: the same. -/
theorem out_A (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : cond3 i)
    (x0 : Vec F S10x512 .f32) (x1 : Vec F S512x512 .f32) :
    out3_A c i arg3 harg3 arg4 harg4 arg5 harg5 arg6 harg6 hc x0 x1 = k3_pay2 k3_pay1 x0 x1 := by
  unfold out3_A
  rw [View.read_writes_eq_canon _ _ _ (cover3_A c i arg3 harg3 arg4 harg4 arg5 harg5 arg6 harg6 hc x0 x1)]
  unfold kernelRun3_A
  dsimp only
  sl_unfold_words
  rw [View.canon_unit_zero (S := S10x512) hz, View.readCov_cons_toLoadRect, View.readCov_unit_zero (S := S10x512) _ hz]
  simp only [View.readAt_eq_ld, harg3.read_unread, harg4.read_unread, View.ld_unit_zero (S := S512x512) hz, View.ld_unit_zero (S := S10x512) hz]

/-- The accumulator after a later contraction block: the product payload over what it held. -/
theorem sout_B (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond3 i)
    (x0 : Vec F S10x512 .f32) (x1 : Vec F S512x512 .f32) (xs : Vec F S10x512 .f32) :
    sout3_B c i arg3 harg3 arg4 harg4 arg5 harg5 arg6 harg6 hc x0 x1 xs = k3_pay2 xs x0 x1 := by
  unfold sout3_B
  rw [View.read_writes_eq_canon _ _ _ (scover3_B c i arg3 harg3 arg4 harg4 arg5 harg5 arg6 harg6 hc x0 x1 xs)]
  unfold kernelRun3_B
  dsimp only
  sl_unfold_words
  rw [View.canon_unit_zero (S := S10x512) hz]
  simp only [View.readAt_eq_ld, harg3.read_unread, harg4.read_unread, harg6.read_unread, View.ld_unit_zero (S := S512x512) hz, View.ld_unit_zero (S := S10x512) hz]

/-- The output block after a later contraction block: the same. -/
theorem out_B (c : Dev nD) (i : grid3.Coords) (arg3 : Memref sig .tc .vmem S10x512 .f32) (harg3 : arg3.IsWhole) (arg4 : Memref sig .tc .vmem S512x512 .f32) (harg4 : arg4.IsWhole) (arg5 : Memref sig .tc .vmem S10x512 .f32) (harg5 : arg5.IsWhole) (arg6 : Memref sig .tc .vmem S10x512 .f32) (harg6 : arg6.IsWhole) (hc : ¬cond3 i)
    (x0 : Vec F S10x512 .f32) (x1 : Vec F S512x512 .f32) (xs : Vec F S10x512 .f32) :
    out3_B c i arg3 harg3 arg4 harg4 arg5 harg5 arg6 harg6 hc x0 x1 xs = k3_pay2 xs x0 x1 := by
  unfold out3_B
  rw [View.read_writes_eq_canon _ _ _ (cover3_B c i arg3 harg3 arg4 harg4 arg5 harg5 arg6 harg6 hc x0 x1 xs)]
  unfold kernelRun3_B
  dsimp only
  sl_unfold_words
  rw [View.canon_unit_zero (S := S10x512) hz, View.readCov_cons_toLoadRect]
  simp only [View.readAt_eq_ld, harg3.read_unread, harg4.read_unread, harg6.read_unread, View.ld_unit_zero (S := S512x512) hz, View.ld_unit_zero (S := S10x512) hz]

end Pieces

/-! ## The payloads at an index, over the extended reals -/

theorem lhs_0 (i : S10x512.Idx) (q : dot_S10x512_S512x512_S10x512_1_0_0_1_n_n.contr.Idx) :
    (dot_S10x512_S512x512_S10x512_1_0_0_1_n_n.lhsIdx i q 0).val = (i 0).val := by
  unfold DotDims.lhsIdx
  rw [dif_neg (show ¬(0 : Fin S10x512.rank) ∈ dot_S10x512_S512x512_S10x512_1_0_0_1_n_n.lhsBatch by decide), dif_pos (show (0 : Fin S10x512.rank) ∈ dot_S10x512_S512x512_S10x512_1_0_0_1_n_n.lhsNonContracting by decide)]
  rfl
theorem lhs_1 (i : S10x512.Idx) (q : dot_S10x512_S512x512_S10x512_1_0_0_1_n_n.contr.Idx) :
    (dot_S10x512_S512x512_S10x512_1_0_0_1_n_n.lhsIdx i q 1).val = (q ⟨0, by decide⟩).val :=
  dot_S10x512_S512x512_S10x512_1_0_0_1_n_n.lhsIdx_val_of_single rfl i q
theorem rhs_0 (i : S10x512.Idx) (q : dot_S10x512_S512x512_S10x512_1_0_0_1_n_n.contr.Idx) :
    (dot_S10x512_S512x512_S10x512_1_0_0_1_n_n.rhsIdx i q 0).val = (q ⟨0, by decide⟩).val :=
  dot_S10x512_S512x512_S10x512_1_0_0_1_n_n.rhsIdx_val_of_single rfl i q
theorem rhs_1 (i : S10x512.Idx) (q : dot_S10x512_S512x512_S10x512_1_0_0_1_n_n.contr.Idx) :
    (dot_S10x512_S512x512_S10x512_1_0_0_1_n_n.rhsIdx i q 1).val = (i 1).val := by
  unfold DotDims.rhsIdx
  rw [dif_neg (show ¬(1 : Fin S512x512.rank) ∈ dot_S10x512_S512x512_S10x512_1_0_0_1_n_n.rhsBatch by decide), dif_pos (show (1 : Fin S512x512.rank) ∈ dot_S10x512_S512x512_S10x512_1_0_0_1_n_n.rhsNonContracting by decide)]
  rfl

/-- The body's product payload at an index: what the accumulator held plus the row-by-column sum over the block. -/
theorem pay2_apply (v3 : Vec Ideal S10x512 .f32) (v4 : Vec Ideal S10x512 .f32) (v7 : Vec Ideal S512x512 .f32) (h : Fin 10) (p : Fin 512) :
    k3_pay2 (F := Ideal) v3 v4 v7 (ValueIdx.ix2 h p) = v3 (ValueIdx.ix2 h p) + ∑ κ : Fin 512, v4 (ValueIdx.ix2 h κ) * v7 (ValueIdx.ix2 κ p) := by
  unfold k3_pay2
  refine (congrFun (shapeCast_self _ _) _).trans ?_
  refine congrArg (v3 (ValueIdx.ix2 h p) + ·) ?_
  refine (Ideal.matmul_constant_zero_apply dot_S10x512_S512x512_S10x512_1_0_0_1_n_n none _ _ _).trans ?_
  refine (Equiv.sum_comp (ValueIdx.contrEquiv1 dot_S10x512_S512x512_S10x512_1_0_0_1_n_n 512 rfl rfl).symm _).symm.trans ?_
  refine Finset.sum_congr rfl fun k _ => ?_
  have hk := ValueIdx.contrEquiv1_symm_val dot_S10x512_S512x512_S10x512_1_0_0_1_n_n 512 rfl rfl k
  have el : dot_S10x512_S512x512_S10x512_1_0_0_1_n_n.lhsIdx (ValueIdx.ix2 h p) ((ValueIdx.contrEquiv1 dot_S10x512_S512x512_S10x512_1_0_0_1_n_n 512 rfl rfl).symm k) = ValueIdx.ix2 h k := funext fun a => Fin.ext (by
    match a with
    | ⟨0, _⟩ => exact lhs_0 _ _
    | ⟨1, _⟩ => exact (lhs_1 _ _).trans hk)
  have er : dot_S10x512_S512x512_S10x512_1_0_0_1_n_n.rhsIdx (ValueIdx.ix2 h p) ((ValueIdx.contrEquiv1 dot_S10x512_S512x512_S10x512_1_0_0_1_n_n 512 rfl rfl).symm k) = ValueIdx.ix2 k p := funext fun a => Fin.ext (by
    match a with
    | ⟨0, _⟩ => exact (rhs_0 _ _).trans hk
    | ⟨1, _⟩ => exact rhs_1 _ _)
  exact congrArg₂ (· * ·) ((congrFun (shapeCast_self v4 _) _).trans (congrArg v4 el)) ((congrFun (shapeCast_self v7 _) _).trans (congrArg v7 er))

/-- The zero block at an index. -/
theorem pay1_apply (j : S10x512.Idx) : k3_pay1 (F := Ideal) j = 0 := by
  unfold k3_pay1
  refine (congrFun (shapeCast_self _ _) _).trans ?_
  exact Ideal.ofBits_zero_f32

end Cert.KernelIdeal.RV3

end
-- ==== Proof.KI.R3ValueB.lean ====
import proofs.«164935_j86474871537726_2_alg».proof.Proof.KI.R3ValueA

/-!
Region 3's values, second part: the printed index maps over the grid, and each input window's block read at an index as
the window's array at the block's offset plus the index.
-/

set_option maxRecDepth 16384

noncomputable section

namespace Cert.KernelIdeal.RV3

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (V : (c : Dev nD) → (b : Ref sig .tc) → Buf (Elt F) ((c : Thread nD τ).loc b))

/-- The printed index maps over the grid: the point t = 6·j + k reads block (0, k) of the left operand, block (k, j) of
    the right one, and writes block (0, j) of the result. -/
theorem idx_facts3 : ∀ t : Fin cfg3.N, win3_0.index t (0 : Fin 2) = 0 ∧ win3_0.index t (1 : Fin 2) = t.val % 6
    ∧ win3_1.index t (0 : Fin 2) = t.val % 6 ∧ win3_1.index t (1 : Fin 2) = t.val / 6
    ∧ win3_2.index t (0 : Fin 2) = 0 ∧ win3_2.index t (1 : Fin 2) = t.val / 6 :=
  (by decide +kernel : ∀ t : Fin grid3.N, _)

/-- The left operand's block at a point, at an index: the array at (row, 512·k + column). -/
theorem blk3_0_apply (c : Dev nD) (t : Fin cfg3.N) (x : S10x512.Idx) (k : S10x3072.Idx)
    (hk0 : (k 0).val = (x 0).val) (hk1 : (k 1).val = 512 * (t.val % 6) + (x 1).val) :
    (iblk3 V c 0 t : Vec F S10x512 .f32) x = (V c main_v1 : S10x3072.Idx → Elt F .f32) k := by
  obtain ⟨e0, e1, -, -, -, -⟩ := idx_facts3 t
  unfold iblk3
  rw [View.read_apply]
  show V c main_v1 _ = V c main_v1 _
  congr 1
  funext a
  apply Fin.ext
  match a with
  | ⟨0, _⟩ => show win3_0.index t 0 * 10 + 1 * (x 0).val = (k 0).val; rw [e0, hk0]; omega
  | ⟨1, _⟩ => show win3_0.index t 1 * 512 + 1 * (x 1).val = (k 1).val; rw [e1, hk1]; omega

/-- The right operand's block at a point, at an index: the array at (512·k + row, 512·j + column). -/
theorem blk3_1_apply (c : Dev nD) (t : Fin cfg3.N) (x : S512x512.Idx) (k : S3072x3072.Idx)
    (hk0 : (k 0).val = 512 * (t.val % 6) + (x 0).val) (hk1 : (k 1).val = 512 * (t.val / 6) + (x 1).val) :
    (iblk3 V c 1 t : Vec F S512x512 .f32) x = (V c main_v15_0 : S3072x3072.Idx → Elt F .f32) k := by
  obtain ⟨-, -, e0, e1, -, -⟩ := idx_facts3 t
  unfold iblk3
  rw [View.read_apply]
  show V c main_v15_0 _ = V c main_v15_0 _
  congr 1
  funext a
  apply Fin.ext
  match a with
  | ⟨0, _⟩ => show win3_1.index t 0 * 512 + 1 * (x 0).val = (k 0).val; rw [e0, hk0]; omega
  | ⟨1, _⟩ => show win3_1.index t 1 * 512 + 1 * (x 1).val = (k 1).val; rw [e1, hk1]; omega

end Cert.KernelIdeal.RV3

end
-- ==== Proof.KI.R3ValueC.lean ====
import proofs.«164935_j86474871537726_2_alg».proof.Proof.KI.R3ValueB

/-!
Region 3's values, third part: the accumulator after a point as the product payload of the point's blocks over the zero
block or over what the point before left; and, over the extended reals, by induction on the points, the accumulator
after the point t = 6·j + k as the sum over the contraction blocks 0 … k of the blocks' row-by-column sums.
-/

set_option maxRecDepth 16384

noncomputable section

namespace Cert.KernelIdeal.RV3

open Cert.KernelIdeal Cert.KernelIdeal.Gen
open Idealize.ShloMosaic Idealize.ShloMosaic.TcCoe Idealize.ShloMosaic.Tactic
open Idealize.SL.Sem
open Idealize.ShloMosaic.Pipeline (Dat Cfg Window)

section Blocks
variable {F : FTy → Type} [FloatOps F]
variable (V : (c : Dev nD) → (b : Ref sig .tc) → Buf (Elt F) ((c : Thread nD τ).loc b))

/-! ## The accumulator and the output block after a point, as payloads -/

theorem acc_snd_A (c : Dev nD) (t : Fin cfg3.N) (h0 : t.val % 6 = 0) :
    (acc3 V c t.val t.isLt).2 = k3_pay2 k3_pay1 (iblk3 V c 0 t) (iblk3 V c 1 t) := by
  rw [acc3_A V c t h0]
  dsimp only
  exact sout_A (F := F) ..
theorem acc_fst_A (c : Dev nD) (t : Fin cfg3.N) (h0 : t.val % 6 = 0) :
    (acc3 V c t.val t.isLt).1 = k3_pay2 k3_pay1 (iblk3 V c 0 t) (iblk3 V c 1 t) := by
  rw [acc3_A V c t h0]
  dsimp only
  exact out_A (F := F) ..
theorem acc_snd_B (c : Dev nD) (t : Fin cfg3.N) (h0 : ¬t.val % 6 = 0) :
    (acc3 V c t.val t.isLt).2 = k3_pay2 (acc3 V c (t.val - 1) (Nat.lt_of_le_of_lt (Nat.sub_le _ _) t.isLt)).2 (iblk3 V c 0 t) (iblk3 V c 1 t) := by
  rw [acc3_B V c t h0]
  dsimp only
  exact sout_B (F := F) ..
theorem acc_fst_B (c : Dev nD) (t : Fin cfg3.N) (h0 : ¬t.val % 6 = 0) :
    (acc3 V c t.val t.isLt).1 = k3_pay2 (acc3 V c (t.val - 1) (Nat.lt_of_le_of_lt (Nat.sub_le _ _) t.isLt)).2 (iblk3 V c 0 t) (iblk3 V c 1 t) := by
  rw [acc3_B V c t h0]
  dsimp only
  exact out_B (F := F) ..
/-- After every point the output block holds what the accumulator holds. -/
theorem acc_fst_eq_snd (c : Dev nD) (t : Fin cfg3.N) : (acc3 V c t.val t.isLt).1 = (acc3 V c t.val t.isLt).2 := by
  by_cases h0 : t.val % 6 = 0
  · rw [acc_fst_A V c t h0, acc_snd_A V c t h0]
  · rw [acc_fst_B V c t h0, acc_snd_B V c t h0]

end Blocks

/-! ## The accumulation, over the extended reals -/

section Sums
variable (V : (c : Dev nD) → (b : Ref sig .tc) → Buf (Elt Ideal) ((c : Thread nD τ).loc b))

/-- The left operand at natural coordinates (0 outside the array). -/
def Af (c : Dev nD) (h k : ℕ) : EReal :=
  if hh : h < 10 ∧ k < 3072 then (V c main_v1 : S10x3072.Idx → EReal) (ValueIdx.ix2 ⟨h, hh.1⟩ ⟨k, hh.2⟩) else 0
/-- The right operand at natural coordinates (0 outside the array). -/
def Bf (c : Dev nD) (k j : ℕ) : EReal :=
  if hh : k < 3072 ∧ j < 3072 then (V c main_v15_0 : S3072x3072.Idx → EReal) (ValueIdx.ix2 ⟨k, hh.1⟩ ⟨j, hh.2⟩) else 0

theorem blk3_0_Af (c : Dev nD) (t : Fin cfg3.N) (h : Fin 10) (κ : Fin 512) :
    (iblk3 V c 0 t : Vec Ideal S10x512 .f32) (ValueIdx.ix2 h κ) = Af V c h.val (512 * (t.val % 6) + κ.val) := by
  have hN : t.val < 36 := lt_of_lt_of_eq t.isLt (show cfg3.N = 36 from N_3)
  have hh := h.isLt
  have hκ := κ.isLt
  have hb : h.val < 10 ∧ 512 * (t.val % 6) + κ.val < 3072 := by omega
  unfold Af
  rw [dif_pos hb]
  exact blk3_0_apply V c t _ _ rfl rfl
theorem blk3_1_Bf (c : Dev nD) (t : Fin cfg3.N) (κ : Fin 512) (p : Fin 512) :
    (iblk3 V c 1 t : Vec Ideal S512x512 .f32) (ValueIdx.ix2 κ p) = Bf V c (512 * (t.val % 6) + κ.val) (512 * (t.val / 6) + p.val) := by
  have hN : t.val < 36 := lt_of_lt_of_eq t.isLt (show cfg3.N = 36 from N_3)
  have hp := p.isLt
  have hκ := κ.isLt
  have hb : 512 * (t.val % 6) + κ.val < 3072 ∧ 512 * (t.val / 6) + p.val < 3072 := by omega
  unfold Bf
  rw [dif_pos hb]
  exact blk3_1_apply V c t _ _ rfl rfl

/-- Row h of the left operand's block (0, k') times column 512·j + p of the right operand's block (k', j). -/
def G (c : Dev nD) (j k' : ℕ) (h : Fin 10) (p : Fin 512) : EReal :=
  ∑ κ : Fin 512, Af V c h.val (512 * k' + κ.val) * Bf V c (512 * k' + κ.val) (512 * j + p.val)

/-- A first contraction block leaves its product. -/
theorem step_A (c : Dev nD) (t : Fin cfg3.N) (h0 : t.val % 6 = 0) (h : Fin 10) (p : Fin 512) :
    (acc3 V c t.val t.isLt).2 (ValueIdx.ix2 h p) = G V c (t.val / 6) (t.val % 6) h p := by
  refine (congrFun (acc_snd_A V c t h0) _).trans ?_
  refine (pay2_apply _ _ _ h p).trans ?_
  refine (congrArg (· + _) (pay1_apply _)).trans ((zero_add _).trans ?_)
  unfold G
  exact Finset.sum_congr rfl fun κ _ => congrArg₂ (· * ·) (blk3_0_Af V c t h κ) (blk3_1_Bf V c t κ p)

/-- A later contraction block adds its product to what the point before left. -/
theorem step_B (c : Dev nD) (t : Fin cfg3.N) (h0 : ¬t.val % 6 = 0) (h : Fin 10) (p : Fin 512) :
    (acc3 V c t.val t.isLt).2 (ValueIdx.ix2 h p)
      = (acc3 V c (t.val - 1) (Nat.lt_of_le_of_lt (Nat.sub_le _ _) t.isLt)).2 (ValueIdx.ix2 h p) + G V c (t.val / 6) (t.val % 6) h p := by
  refine (congrFun (acc_snd_B V c t h0) _).trans ?_
  refine (pay2_apply _ _ _ h p).trans ?_
  refine congrArg (_ + ·) ?_
  unfold G
  exact Finset.sum_congr rfl fun κ _ => congrArg₂ (· * ·) (blk3_0_Af V c t h κ) (blk3_1_Bf V c t κ p)

/-- After the point n = 6·j + k the accumulator holds the sum of the products of the contraction blocks 0 … k. -/
theorem acc_val (c : Dev nD) (h : Fin 10) (p : Fin 512) : ∀ (n : ℕ) (hn : n < cfg3.N),
    (acc3 V c n hn).2 (ValueIdx.ix2 h p) = ∑ k' ∈ Finset.range (n % 6 + 1), G V c (n / 6) k' h p
  | 0, hn => by
    refine (step_A V c ⟨0, hn⟩ rfl h p).trans ?_
    exact (Finset.sum_range_one (fun k' => G V c (0 / 6) k' h p)).symm
  | n + 1, hn => by
    by_cases h0 : (n + 1) % 6 = 0
    · refine (step_A V c ⟨n + 1, hn⟩ h0 h p).trans ?_
      show G V c ((n + 1) / 6) ((n + 1) % 6) h p = ∑ k' ∈ Finset.range ((n + 1) % 6 + 1), G V c ((n + 1) / 6) k' h p
      rw [h0, Finset.sum_range_one]
    · refine (step_B V c ⟨n + 1, hn⟩ h0 h p).trans ?_
      show (acc3 V c n _).2 (ValueIdx.ix2 h p) + G V c ((n + 1) / 6) ((n + 1) % 6) h p = _
      rw [acc_val c h p n (Nat.lt_of_succ_lt hn)]
      have e1 : (n + 1) / 6 = n / 6 := by omega
      have e2 : (n + 1) % 6 = n % 6 + 1 := by omega
      rw [e1, e2]
      exact (Finset.sum_range_succ (fun k' => G V c (n / 6) k' h p) (n % 6 + 1)).symm

/-- The output block after a point holds the same. -/
theorem out_val (c : Dev nD) (t : Fin cfg3.N) (h : Fin 10) (p : Fin 512) :
    (acc3 V c t.val t.isLt).1 (ValueIdx.ix2 h p) = ∑ k' ∈ Finset.range (t.val % 6 + 1), G V c (t.val / 6) k' h p :=
  (congrFun (acc_fst_eq_snd V c t) _).trans (acc_val V c h p t.val t.isLt)

end Sums

end Cert.KernelIdeal.RV3

end
-- ==== Proof.KI.R3Value.lean ====
import proofs.«164935_j86474871537726_2_alg».proof.Proof.KI.R3ValueC

/-!
Region 3's value: what each flushing point writes back is its block of the matrix product, the flushing points' blocks
cover the result array, so the result array ends holding the product of the two operand arrays as the region finds them.
-/

set_option maxRecDepth 16384

noncomputable section

namespace Cert.KernelIdeal.RV3

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (V : (c : Dev nD) → (b : Ref sig .tc) → Buf (Elt Ideal) ((c : Thread nD τ).loc b))

/-- The product of a [10,3072] matrix and a [3072,3072] matrix, at an index of the result. -/
def prod3 (A : S10x3072.Idx → EReal) (B : S3072x3072.Idx → EReal) : S10x3072.Idx → EReal := fun idx =>
  ∑ k : Fin 3072, A (ValueIdx.ix2 (idx 0 : Fin 10) k) * B (ValueIdx.ix2 k (idx 1 : Fin 3072))

/-- The same over natural coordinates. -/
theorem prod3_eq (c : Dev nD) (h : Fin 10) (j : ℕ) (hj : j < 3072) (idx : S10x3072.Idx) (h0 : (idx 0).val = h.val) (h1 : (idx 1).val = j) :
    prod3 (V c main_v1) (V c main_v15_0) idx = ∑ k : Fin 3072, Af V c h.val k.val * Bf V c k.val j := by
  unfold prod3
  refine Finset.sum_congr rfl fun k _ => ?_
  have hk := k.isLt
  have hh := h.isLt
  unfold Af Bf
  rw [dif_pos ⟨hh, hk⟩, dif_pos ⟨hk, hj⟩]
  refine congrArg₂ (· * ·) (congrArg _ ?_) (congrArg _ ?_)
  · funext a; apply Fin.ext
    match a with
    | ⟨0, _⟩ => exact h0
    | ⟨1, _⟩ => rfl
  · funext a; apply Fin.ext
    match a with
    | ⟨0, _⟩ => rfl
    | ⟨1, _⟩ => exact h1

/-- The six contraction blocks' sums make the sum over the whole contraction axis. -/
theorem blocks_sum (c : Dev nD) (j : ℕ) (h : Fin 10) (p : Fin 512) :
    ∑ k' ∈ Finset.range 6, G V c j k' h p = ∑ k : Fin 3072, Af V c h.val k.val * Bf V c k.val (512 * j + p.val) :=
  Cert.Lib.sum_range_blocks_of_eq (nb := 6) (bs := 512) (N := 3072) rfl
    (fun k => Af V c h.val k.val * Bf V c k.val (512 * j + p.val)) (fun k' => G V c j k' h p) (fun t ht => rfl)

/-- What a flushing point writes back is its block of the product. -/
theorem flushed_eq (c : Dev nD) (t : Fin cfg3.N) (hf : (cfg3.win 2).flush t = true) :
    (dat3 V c).flushed 2 t = ((cfg3.win 2).blk t).view.read (Elt Ideal) (prod3 (V c main_v1) (V c main_v15_0)) := by
  have h5 : t.val % 6 = 5 := (flush3_2 t).mp hf
  have hN : t.val < 36 := lt_of_lt_of_eq t.isLt (show cfg3.N = 36 from N_3)
  obtain ⟨-, -, -, -, e0, e1⟩ := idx_facts3 t
  show (cfg3.win 2).cut (grid3.coords t) ((dat3 V c).after 2 t) = _
  rw [after3_2]
  funext j
  obtain ⟨h, p, rfl⟩ : ∃ (h : Fin 10) (p : Fin 512), j = ValueIdx.ix2 h p := ⟨j 0, j 1, ValueIdx.eq_ix2 j⟩
  rw [View.read_apply]
  show (acc3 V c t.val t.isLt).1 (ValueIdx.ix2 h p) = prod3 (V c main_v1) (V c main_v15_0) (((cfg3.win 2).blk t).view.emb (ValueIdx.ix2 h p))
  rw [out_val V c t h p, h5, blocks_sum]
  have hp := p.isLt
  refine (prod3_eq V c h (512 * (t.val / 6) + p.val) (by omega) _ ?_ ?_).symm
  · show win3_2.index t 0 * 10 + 1 * h.val = _
    rw [e0]; omega
  · show win3_2.index t 1 * 512 + 1 * p.val = _
    rw [e1]; omega

/-- An index of the result array is in a point's block iff each coordinate is in the block's range on its axis. -/
theorem mem_blk (t : Fin cfg3.N) (i : S10x3072.Idx) :
    i ∈ ((cfg3.win 2).blk t).view.set ↔ ∀ a : Fin 2, win3_2.index t a * S10x512.size a ≤ (i a).val ∧ (i a).val < win3_2.index t a * S10x512.size a + S10x512.size a := by
  show i ∈ ((View.whole main_v16).slice (win3_2.rect t)).set ↔ _
  rw [View.set_slice_whole, Rect.mem_set_unit]
  exact Iff.rfl

/-- Column j of the result array is in the block the point 6·(j / 512) + 5 writes back. -/
theorem cover (i : S10x3072.Idx) : ∃ t : Fin cfg3.N, (cfg3.win 2).flush t = true ∧ i ∈ ((cfg3.win 2).blk t).view.set := by
  have hi0 : (i 0).val < 10 := (i 0).isLt
  have hi1 : (i 1).val < 3072 := (i 1).isLt
  have hN : cfg3.N = 36 := N_3
  obtain ⟨t, ht⟩ : ∃ t : Fin cfg3.N, t.val = 6 * ((i 1).val / 512) + 5 := ⟨⟨6 * ((i 1).val / 512) + 5, by rw [hN]; omega⟩, rfl⟩
  obtain ⟨-, -, -, -, e0, e1⟩ := idx_facts3 t
  refine ⟨t, (flush3_2 t).mpr (by rw [ht]; omega), ?_⟩
  rw [mem_blk]
  intro a
  match a with
  | ⟨0, _⟩ =>
    show win3_2.index t 0 * 10 ≤ (i 0).val ∧ (i 0).val < win3_2.index t 0 * 10 + 10
    rw [e0]; omega
  | ⟨1, _⟩ =>
    show win3_2.index t 1 * 512 ≤ (i 1).val ∧ (i 1).val < win3_2.index t 1 * 512 + 512
    rw [e1, ht]; omega

/-- The result array after the region, as a function of the index. -/
theorem arr3_fun (c : Dev nD) : (dat3 V c).arrAt 2 cfg3.N = prod3 (V c main_v1) (V c main_v15_0) :=
  (dat3 V c).arrAt_eq_of_cover 2 (prod3 (V c main_v1) (V c main_v15_0)) (flushed_eq V c) cover

/-- The result array after the region: the matrix product of the two operand arrays as the region finds them. -/
theorem arr3 (V : (c : Dev nD) → (b : Ref sig .tc) → Buf (Elt Ideal) ((c : Thread nD τ).loc b)) (c : Dev nD) (h : Fin 10) (j : Fin 3072) :
    (dat3 V c).arrAt 2 cfg3.N (ValueIdx.ix2 h j)
      = (∑ k : Fin 3072, HMul.hMul (α := EReal) (β := EReal) (V c main_v1 (ValueIdx.ix2 h k)) (V c main_v15_0 (ValueIdx.ix2 k j)) : EReal) :=
  congrFun (arr3_fun V c) (ValueIdx.ix2 h j)

end Cert.KernelIdeal.RV3

end
-- ==== Proof.KI.R2Value.lean ====
import proofs.«164935_j86474871537726_2_alg».proof.Proof.KI.R2
import Idealize.ShloMosaic.Lib.Pipeline.Value
import Idealize.ShloMosaic.Lib.ValueLayout
import Idealize.ShloMosaic.Lib.ValueIdx
import Idealize.ShloMosaic.PureOps.Ideal.Laws

set_option maxRecDepth 16384

/-
  REGION 2's body at a pair (p, q) of its block: the stored payload is the new weight,
  `(w[p, q] + ∑ g, h2k[g] · W3[g]) + b3[0]`, with `h1k`, `h2k` the two hidden layers at the pair.
  The body computes each sum as a left fold from zero over ten unrolled terms; `sum_ten` is that fold as a sum.
-/

noncomputable section

open scoped BigOperators

namespace Cert.KernelIdeal.R2Value

open Cert.KernelIdeal Cert.KernelIdeal.Gen Idealize.ShloMosaic Idealize.ShloMosaic.ValueIdx Idealize.ShloMosaic.View

/-! ## Layout operations read at an index (the forms this body uses that the library does not state) -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-row block of a matrix starts at a row of the matrix. -/
theorem row_lt {n0 n1 m : ℕ} {o o' : ℕ} (h : (⟨2, ![n0, n1]⟩ : Shape).Slices ![o, o'] ⟨2, ![1, m]⟩) : o < n0 := h.2 0
/-- A one-column block of a matrix starts at a column of the matrix. -/
theorem col_lt {n0 n1 m : ℕ} {o o' : ℕ} (h : (⟨2, ![n0, n1]⟩ : Shape).Slices ![o, o'] ⟨2, ![m, 1]⟩) : o' < n1 := h.2 1
/-- A one-entry block of a vector starts at an entry of the vector. -/
theorem entry_lt {n : ℕ} {o : ℕ} (h : (⟨1, ![n]⟩ : Shape).Slices ![o] ⟨1, ![1]⟩) : o < n := h.2 0

/-- Row `o` of a matrix, cut out as a one-row matrix, reads at `(u, e)` the matrix at `(o, e)`. -/
theorem slice_row_apply {n0 n1 : ℕ} (o : ℕ) (X : (⟨2, ![n0, n1]⟩ : Shape).Idx → α)
    (h : (⟨2, ![n0, n1]⟩ : Shape).Slices ![o, 0] ⟨2, ![1, n1]⟩) (u : Fin 1) (e : Fin n1) :
    extractStridedSlice ⟨2, ![1, n1]⟩ ![o, 0] X h (ix2 u e) = X (ix2 (⟨o, row_lt h⟩ : Fin n0) e) :=
  slice2_axis0_apply o X h u e ⟨o, row_lt h⟩ (by show o = o + u.val; omega)

/-- Entry `o` of a vector, cut out as a one-entry vector, reads at its one index the vector at `o`. -/
theorem slice_entry_apply {n : ℕ} (o : ℕ) (v : (⟨1, ![n]⟩ : Shape).Idx → α) (h : (⟨1, ![n]⟩ : Shape).Slices ![o] ⟨1, ![1]⟩)
    (u : Fin 1) : extractStridedSlice ⟨1, ![1]⟩ ![o] v h (ix1 u) = v (ix1 (⟨o, entry_lt h⟩ : Fin n)) := by
  refine extractStridedSlice_apply _ v h _ _ fun a => ?_
  match a with
  | ⟨0, _⟩ => show o = o + u.val; omega

/-- Entry `(o, o')` of a matrix, cut out as a one-by-one matrix, reads at its one index the matrix at `(o, o')`. -/
theorem slice_entry2_apply {n0 n1 : ℕ} (o o' : ℕ) (v : (⟨2, ![n0, n1]⟩ : Shape).Idx → α)
    (h : (⟨2, ![n0, n1]⟩ : Shape).Slices ![o, o'] ⟨2, ![1, 1]⟩) (u u' : Fin 1) :
    extractStridedSlice ⟨2, ![1, 1]⟩ ![o, o'] v h (ix2 u u')
      = v (ix2 (⟨o, row_lt h⟩ : Fin n0) (⟨o', col_lt h⟩ : Fin n1)) := by
  refine extractStridedSlice_apply _ v h _ _ fun a => ?_
  match a with
  | ⟨0, _⟩ => show o = o + u.val; omega
  | ⟨1, _⟩ => show o' = o' + u'.val; omega

/-- The one entry of a one-entry vector, extracted. -/
theorem extractAt_1 (v : (⟨1, ![1]⟩ : Shape).Idx → α)
    (hp : ∀ a, (![0] : Fin (⟨1, ![1]⟩ : Shape).rank → ℕ) a < (⟨1, ![1]⟩ : Shape).size a) :
    extractAt ![0] v hp = v (ix1 (0 : Fin 1)) := by
  unfold extractAt
  exact congrArg v (funext fun a => by match a with | ⟨0, _⟩ => rfl)

/-- The one entry of a one-by-one matrix, extracted. -/
theorem extractAt_11 (v : (⟨2, ![1, 1]⟩ : Shape).Idx → α)
    (hp : ∀ a, (![0, 0] : Fin (⟨2, ![1, 1]⟩ : Shape).rank → ℕ) a < (⟨2, ![1, 1]⟩ : Shape).size a) :
    extractAt ![0, 0] v hp = v (ix2 (0 : Fin 1) (0 : Fin 1)) := by
  unfold extractAt
  exact congrArg v (funext fun a => by match a with | ⟨0, _⟩ => rfl | ⟨1, _⟩ => rfl)

/-- The row part and the column part are transposed before their rows are cut out: at `(k, p)` the transpose reads
    the operand at `(p, k)`. -/
theorem transpose_rows_apply (x : S384x10.Idx → α) (k : Fin 10) (p : Fin 384) :
    transpose S10x384 [1, 0] x transposes_S384x10_p1_0_S10x384 (ix2 k p) = x (ix2 p k) :=
  transpose_ix2_apply x transposes_S384x10_p1_0_S10x384 k p

end Layout

/-- A scalar constant at the ideal instance is the extended real its word encodes. -/
theorem scalar_ofBits (φ : FTy) (b : BitVec φ.bits) : Scalar.ofBits (F := Ideal) φ b = Ideal.ofBits φ b := rfl

theorem zeros1 : (![0] : Fin S10.rank → ℕ) = fun _ => 0 := by funext a; fin_cases a; rfl
theorem zeros1' : (![0] : Fin S1.rank → ℕ) = fun _ => 0 := by funext a; fin_cases a; rfl
theorem zeros2 : (![0, 0] : Fin S10x10.rank → ℕ) = fun _ => 0 := by funext a; fin_cases a <;> rfl
theorem zeros2' : (![0, 0] : Fin S384x10.rank → ℕ) = fun _ => 0 := by funext a; fin_cases a <;> rfl
theorem zeros2'' : (![0, 0] : Fin S384x384.rank → ℕ) = fun _ => 0 := by funext a; fin_cases a <;> rfl

/-! ## The body's mathematics at a pair (p, q) of the block -/

variable (x0 : Vec Ideal S384x384 .f32) (x1 : Vec Ideal S384x10 .f32) (x2 : Vec Ideal S384x10 .f32) (x3 : Vec Ideal S10 .f32)
  (x4 : Vec Ideal S10x10 .f32) (x5 : Vec Ideal S10 .f32) (x6 : Vec Ideal S10 .f32) (x7 : Vec Ideal S1 .f32)

/-- First hidden layer at the pair: `max ((rowPart[p, h] + colb[q, h]) + b1[h]) 0`. -/
def h1k (p q : Fin 384) (h : Fin 10) : EReal := max ((x1 (ix2 p h) + x2 (ix2 q h)) + x3 (ix1 h)) 0
/-- Second hidden layer at the pair: `max ((∑ h, h1k[h] · W2[g, h]) + b2[g]) 0`. -/
def h2k (p q : Fin 384) (g : Fin 10) : EReal := max ((∑ h : Fin 10, h1k x1 x2 x3 p q h * x4 (ix2 g h)) + x5 (ix1 g)) 0

/-- A sum over ten terms is the left fold from zero over them in order. -/
theorem sum_ten {M : Type*} [AddCommMonoid M] (f : Fin 10 → M) :
    ∑ h : Fin 10, f h = 0 + f ⟨0, by omega⟩ + f ⟨1, by omega⟩ + f ⟨2, by omega⟩ + f ⟨3, by omega⟩ + f ⟨4, by omega⟩ + f ⟨5, by omega⟩ + f ⟨6, by omega⟩ + f ⟨7, by omega⟩ + f ⟨8, by omega⟩ + f ⟨9, by omega⟩ := by
  rw [zero_add, Fin.sum_univ_castSucc, Fin.sum_univ_castSucc, Fin.sum_univ_eight]
  rfl

/-! ## The ten slabs of the first scratch operand: slab `h` holds the first hidden layer's unit `h` -/

theorem slab1 (p q : Fin 384) :
    k2t_st12_1 x0 x1 x2 x3 x4 x5 x6 x7 (ix3 (0 : Fin 1) p q) = h1k x1 x2 x3 p q ⟨0, by omega⟩ := by
  simp only [k2t_st12_1, k2t_v0, k2t_v7, k2t_v9, k2_pay7, k2_pay5, k2_pay6,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32]
  rfl

theorem slab2 (p q : Fin 384) :
    k2t_st12_2 x0 x1 x2 x3 x4 x5 x6 x7 (ix3 (0 : Fin 1) p q) = h1k x1 x2 x3 p q ⟨1, by omega⟩ := by
  simp only [k2t_st12_2, k2t_v39, k2t_v7, k2t_v9, k2t_v42, k2t_v0, k2_pay10, k2_pay8, k2_pay5, k2_pay6, k2_pay9,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32]
  rfl

theorem slab3 (p q : Fin 384) :
    k2t_st12_3 x0 x1 x2 x3 x4 x5 x6 x7 (ix3 (0 : Fin 1) p q) = h1k x1 x2 x3 p q ⟨2, by omega⟩ := by
  simp only [k2t_st12_3, k2t_v0, k2t_v11, k2t_v7, k2t_v12, k2t_v9, k2_pay11, k2_pay5, k2_pay6,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32]
  rfl

theorem slab4 (p q : Fin 384) :
    k2t_st12_4 x0 x1 x2 x3 x4 x5 x6 x7 (ix3 (0 : Fin 1) p q) = h1k x1 x2 x3 p q ⟨3, by omega⟩ := by
  simp only [k2t_st12_4, k2t_v0, k2t_v11, k2t_v7, k2t_v12, k2t_v9, k2_pay12, k2_pay5, k2_pay6,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32]
  rfl

theorem slab5 (p q : Fin 384) :
    k2t_st12_5 x0 x1 x2 x3 x4 x5 x6 x7 (ix3 (0 : Fin 1) p q) = h1k x1 x2 x3 p q ⟨4, by omega⟩ := by
  simp only [k2t_st12_5, k2t_v0, k2t_v12, k2t_v9, k2t_v87, k2t_v11, k2t_v7, k2_pay14, k2_pay6, k2_pay13, k2_pay5,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32]
  rfl

theorem slab6 (p q : Fin 384) :
    k2t_st12_6 x0 x1 x2 x3 x4 x5 x6 x7 (ix3 (0 : Fin 1) p q) = h1k x1 x2 x3 p q ⟨5, by omega⟩ := by
  simp only [k2t_st12_6, k2t_v0, k2t_v11, k2t_v7, k2t_v12, k2t_v9, k2_pay15, k2_pay5, k2_pay6,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32]
  rfl

theorem slab7 (p q : Fin 384) :
    k2t_st12_7 x0 x1 x2 x3 x4 x5 x6 x7 (ix3 (0 : Fin 1) p q) = h1k x1 x2 x3 p q ⟨6, by omega⟩ := by
  simp only [k2t_st12_7, k2t_v135, k2t_v0, k2t_v11, k2t_v7, k2t_v12, k2t_v9, k2_pay17, k2_pay16, k2_pay5, k2_pay6,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32]
  rfl

theorem slab8 (p q : Fin 384) :
    k2t_st12_8 x0 x1 x2 x3 x4 x5 x6 x7 (ix3 (0 : Fin 1) p q) = h1k x1 x2 x3 p q ⟨7, by omega⟩ := by
  simp only [k2t_st12_8, k2t_v0, k2t_v11, k2t_v7, k2t_v12, k2t_v9, k2_pay18, k2_pay5, k2_pay6,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32]
  rfl

theorem slab9 (p q : Fin 384) :
    k2t_st12_9 x0 x1 x2 x3 x4 x5 x6 x7 (ix3 (0 : Fin 1) p q) = h1k x1 x2 x3 p q ⟨8, by omega⟩ := by
  simp only [k2t_st12_9, k2t_v0, k2t_v11, k2t_v7, k2t_v12, k2t_v9, k2_pay19, k2_pay5, k2_pay6,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32]
  rfl

theorem slab10 (p q : Fin 384) :
    k2t_st12_10 x0 x1 x2 x3 x4 x5 x6 x7 (ix3 (0 : Fin 1) p q) = h1k x1 x2 x3 p q ⟨9, by omega⟩ := by
  simp only [k2t_st12_10, k2t_v0, k2t_v181, k2t_v11, k2t_v7, k2t_v182, k2t_v12, k2t_v9, k2_pay22, k2_pay20, k2_pay5, k2_pay21, k2_pay6,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32]
  rfl

/-! ## The second scratch operand: zero, then one unit of the second hidden layer added per round -/

theorem acc0 (p q : Fin 384) : k2t_st13_11 x0 x1 x2 x3 x4 x5 x6 x7 (ix2 p q) = 0 := by
  simp only [k2t_st13_11, k2_pay23, ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32]

theorem round0 (p q : Fin 384) :
    k2t_st13_12 x0 x1 x2 x3 x4 x5 x6 x7 (ix2 p q)
      = k2t_st13_11 x0 x1 x2 x3 x4 x5 x6 x7 (ix2 p q) + h2k x1 x2 x3 x4 x5 p q ⟨0, by omega⟩ * x6 (ix1 ⟨0, by omega⟩) := by
  simp only [k2t_st13_12, k2t_v1, k2t_v2, k2t_v4, k2t_v3, k2t_v260, k2t_v218, k2t_v220, k2t_v262, k2_pay28, k2_pay3, k2_pay26, k2_pay24, k2_pay25, k2_pay27,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32,
    slab1 x0 x1 x2 x3 x4 x5 x6 x7, slab2 x0 x1 x2 x3 x4 x5 x6 x7, slab3 x0 x1 x2 x3 x4 x5 x6 x7, slab4 x0 x1 x2 x3 x4 x5 x6 x7, slab5 x0 x1 x2 x3 x4 x5 x6 x7, slab6 x0 x1 x2 x3 x4 x5 x6 x7, slab7 x0 x1 x2 x3 x4 x5 x6 x7, slab8 x0 x1 x2 x3 x4 x5 x6 x7, slab9 x0 x1 x2 x3 x4 x5 x6 x7, slab10 x0 x1 x2 x3 x4 x5 x6 x7]
  unfold h2k
  rw [sum_ten]

theorem round1 (p q : Fin 384) :
    k2t_st13_13 x0 x1 x2 x3 x4 x5 x6 x7 (ix2 p q)
      = k2t_st13_12 x0 x1 x2 x3 x4 x5 x6 x7 (ix2 p q) + h2k x1 x2 x3 x4 x5 p q ⟨1, by omega⟩ * x6 (ix1 ⟨1, by omega⟩) := by
  simp only [k2t_st13_13, k2t_v1, k2t_v2, k2t_v4, k2t_v3, k2t_v346, k2t_v304, k2_pay31, k2_pay3, k2_pay30, k2_pay29,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32,
    slab1 x0 x1 x2 x3 x4 x5 x6 x7, slab2 x0 x1 x2 x3 x4 x5 x6 x7, slab3 x0 x1 x2 x3 x4 x5 x6 x7, slab4 x0 x1 x2 x3 x4 x5 x6 x7, slab5 x0 x1 x2 x3 x4 x5 x6 x7, slab6 x0 x1 x2 x3 x4 x5 x6 x7, slab7 x0 x1 x2 x3 x4 x5 x6 x7, slab8 x0 x1 x2 x3 x4 x5 x6 x7, slab9 x0 x1 x2 x3 x4 x5 x6 x7, slab10 x0 x1 x2 x3 x4 x5 x6 x7]
  unfold h2k
  rw [sum_ten]

theorem round2 (p q : Fin 384) :
    k2t_st13_14 x0 x1 x2 x3 x4 x5 x6 x7 (ix2 p q)
      = k2t_st13_13 x0 x1 x2 x3 x4 x5 x6 x7 (ix2 p q) + h2k x1 x2 x3 x4 x5 p q ⟨2, by omega⟩ * x6 (ix1 ⟨2, by omega⟩) := by
  simp only [k2t_st13_14, k2t_v1, k2t_v2, k2t_v4, k2t_v3, k2t_v425, k2t_v383, k2t_v389, k2t_v431, k2_pay36, k2_pay3, k2_pay34, k2_pay32, k2_pay33, k2_pay35,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32,
    slab1 x0 x1 x2 x3 x4 x5 x6 x7, slab2 x0 x1 x2 x3 x4 x5 x6 x7, slab3 x0 x1 x2 x3 x4 x5 x6 x7, slab4 x0 x1 x2 x3 x4 x5 x6 x7, slab5 x0 x1 x2 x3 x4 x5 x6 x7, slab6 x0 x1 x2 x3 x4 x5 x6 x7, slab7 x0 x1 x2 x3 x4 x5 x6 x7, slab8 x0 x1 x2 x3 x4 x5 x6 x7, slab9 x0 x1 x2 x3 x4 x5 x6 x7, slab10 x0 x1 x2 x3 x4 x5 x6 x7]
  unfold h2k
  rw [sum_ten]

theorem round3 (p q : Fin 384) :
    k2t_st13_15 x0 x1 x2 x3 x4 x5 x6 x7 (ix2 p q)
      = k2t_st13_14 x0 x1 x2 x3 x4 x5 x6 x7 (ix2 p q) + h2k x1 x2 x3 x4 x5 p q ⟨3, by omega⟩ * x6 (ix1 ⟨3, by omega⟩) := by
  simp only [k2t_st13_15, k2t_v1, k2t_v2, k2t_v4, k2t_v3, k2t_v511, k2t_v469, k2t_v471, k2t_v472, k2t_v513, k2t_v514, k2_pay43, k2_pay3, k2_pay40, k2_pay37, k2_pay38, k2_pay39, k2_pay41, k2_pay42,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32,
    slab1 x0 x1 x2 x3 x4 x5 x6 x7, slab2 x0 x1 x2 x3 x4 x5 x6 x7, slab3 x0 x1 x2 x3 x4 x5 x6 x7, slab4 x0 x1 x2 x3 x4 x5 x6 x7, slab5 x0 x1 x2 x3 x4 x5 x6 x7, slab6 x0 x1 x2 x3 x4 x5 x6 x7, slab7 x0 x1 x2 x3 x4 x5 x6 x7, slab8 x0 x1 x2 x3 x4 x5 x6 x7, slab9 x0 x1 x2 x3 x4 x5 x6 x7, slab10 x0 x1 x2 x3 x4 x5 x6 x7]
  unfold h2k
  rw [sum_ten]

theorem round4 (p q : Fin 384) :
    k2t_st13_16 x0 x1 x2 x3 x4 x5 x6 x7 (ix2 p q)
      = k2t_st13_15 x0 x1 x2 x3 x4 x5 x6 x7 (ix2 p q) + h2k x1 x2 x3 x4 x5 p q ⟨4, by omega⟩ * x6 (ix1 ⟨4, by omega⟩) := by
  simp only [k2t_st13_16, k2t_v1, k2t_v2, k2t_v4, k2t_v3, k2t_v597, k2t_v555, k2_pay46, k2_pay3, k2_pay45, k2_pay44,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32,
    slab1 x0 x1 x2 x3 x4 x5 x6 x7, slab2 x0 x1 x2 x3 x4 x5 x6 x7, slab3 x0 x1 x2 x3 x4 x5 x6 x7, slab4 x0 x1 x2 x3 x4 x5 x6 x7, slab5 x0 x1 x2 x3 x4 x5 x6 x7, slab6 x0 x1 x2 x3 x4 x5 x6 x7, slab7 x0 x1 x2 x3 x4 x5 x6 x7, slab8 x0 x1 x2 x3 x4 x5 x6 x7, slab9 x0 x1 x2 x3 x4 x5 x6 x7, slab10 x0 x1 x2 x3 x4 x5 x6 x7]
  unfold h2k
  rw [sum_ten]

theorem round5 (p q : Fin 384) :
    k2t_st13_17 x0 x1 x2 x3 x4 x5 x6 x7 (ix2 p q)
      = k2t_st13_16 x0 x1 x2 x3 x4 x5 x6 x7 (ix2 p q) + h2k x1 x2 x3 x4 x5 p q ⟨5, by omega⟩ * x6 (ix1 ⟨5, by omega⟩) := by
  simp only [k2t_st13_17, k2t_v1, k2t_v2, k2t_v4, k2t_v3, k2t_v683, k2t_v641, k2_pay49, k2_pay3, k2_pay48, k2_pay47,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32,
    slab1 x0 x1 x2 x3 x4 x5 x6 x7, slab2 x0 x1 x2 x3 x4 x5 x6 x7, slab3 x0 x1 x2 x3 x4 x5 x6 x7, slab4 x0 x1 x2 x3 x4 x5 x6 x7, slab5 x0 x1 x2 x3 x4 x5 x6 x7, slab6 x0 x1 x2 x3 x4 x5 x6 x7, slab7 x0 x1 x2 x3 x4 x5 x6 x7, slab8 x0 x1 x2 x3 x4 x5 x6 x7, slab9 x0 x1 x2 x3 x4 x5 x6 x7, slab10 x0 x1 x2 x3 x4 x5 x6 x7]
  unfold h2k
  rw [sum_ten]

theorem round6 (p q : Fin 384) :
    k2t_st13_18 x0 x1 x2 x3 x4 x5 x6 x7 (ix2 p q)
      = k2t_st13_17 x0 x1 x2 x3 x4 x5 x6 x7 (ix2 p q) + h2k x1 x2 x3 x4 x5 p q ⟨6, by omega⟩ * x6 (ix1 ⟨6, by omega⟩) := by
  simp only [k2t_st13_18, k2t_v1, k2t_v2, k2t_v4, k2t_v3, k2t_v762, k2t_v720, k2t_v722, k2t_v724, k2t_v764, k2t_v766, k2_pay56, k2_pay3, k2_pay53, k2_pay50, k2_pay51, k2_pay52, k2_pay54, k2_pay55,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32,
    slab1 x0 x1 x2 x3 x4 x5 x6 x7, slab2 x0 x1 x2 x3 x4 x5 x6 x7, slab3 x0 x1 x2 x3 x4 x5 x6 x7, slab4 x0 x1 x2 x3 x4 x5 x6 x7, slab5 x0 x1 x2 x3 x4 x5 x6 x7, slab6 x0 x1 x2 x3 x4 x5 x6 x7, slab7 x0 x1 x2 x3 x4 x5 x6 x7, slab8 x0 x1 x2 x3 x4 x5 x6 x7, slab9 x0 x1 x2 x3 x4 x5 x6 x7, slab10 x0 x1 x2 x3 x4 x5 x6 x7]
  unfold h2k
  rw [sum_ten]

theorem round7 (p q : Fin 384) :
    k2t_st13_19 x0 x1 x2 x3 x4 x5 x6 x7 (ix2 p q)
      = k2t_st13_18 x0 x1 x2 x3 x4 x5 x6 x7 (ix2 p q) + h2k x1 x2 x3 x4 x5 p q ⟨7, by omega⟩ * x6 (ix1 ⟨7, by omega⟩) := by
  simp only [k2t_st13_19, k2t_v1, k2t_v2, k2t_v4, k2t_v3, k2t_v848, k2t_v806, k2_pay59, k2_pay3, k2_pay58, k2_pay57,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32,
    slab1 x0 x1 x2 x3 x4 x5 x6 x7, slab2 x0 x1 x2 x3 x4 x5 x6 x7, slab3 x0 x1 x2 x3 x4 x5 x6 x7, slab4 x0 x1 x2 x3 x4 x5 x6 x7, slab5 x0 x1 x2 x3 x4 x5 x6 x7, slab6 x0 x1 x2 x3 x4 x5 x6 x7, slab7 x0 x1 x2 x3 x4 x5 x6 x7, slab8 x0 x1 x2 x3 x4 x5 x6 x7, slab9 x0 x1 x2 x3 x4 x5 x6 x7, slab10 x0 x1 x2 x3 x4 x5 x6 x7]
  unfold h2k
  rw [sum_ten]

theorem round8 (p q : Fin 384) :
    k2t_st13_20 x0 x1 x2 x3 x4 x5 x6 x7 (ix2 p q)
      = k2t_st13_19 x0 x1 x2 x3 x4 x5 x6 x7 (ix2 p q) + h2k x1 x2 x3 x4 x5 p q ⟨8, by omega⟩ * x6 (ix1 ⟨8, by omega⟩) := by
  simp only [k2t_st13_20, k2t_v1, k2t_v2, k2t_v4, k2t_v3, k2t_v934, k2t_v892, k2_pay62, k2_pay3, k2_pay61, k2_pay60,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32,
    slab1 x0 x1 x2 x3 x4 x5 x6 x7, slab2 x0 x1 x2 x3 x4 x5 x6 x7, slab3 x0 x1 x2 x3 x4 x5 x6 x7, slab4 x0 x1 x2 x3 x4 x5 x6 x7, slab5 x0 x1 x2 x3 x4 x5 x6 x7, slab6 x0 x1 x2 x3 x4 x5 x6 x7, slab7 x0 x1 x2 x3 x4 x5 x6 x7, slab8 x0 x1 x2 x3 x4 x5 x6 x7, slab9 x0 x1 x2 x3 x4 x5 x6 x7, slab10 x0 x1 x2 x3 x4 x5 x6 x7]
  unfold h2k
  rw [sum_ten]

theorem round9 (p q : Fin 384) :
    k2t_st13_21 x0 x1 x2 x3 x4 x5 x6 x7 (ix2 p q)
      = k2t_st13_20 x0 x1 x2 x3 x4 x5 x6 x7 (ix2 p q) + h2k x1 x2 x3 x4 x5 p q ⟨9, by omega⟩ * x6 (ix1 ⟨9, by omega⟩) := by
  simp only [k2t_st13_21, k2t_v1, k2t_v2, k2t_v4, k2t_v3, k2t_v1013, k2t_v971, k2t_v973, k2t_v976, k2t_v1015, k2t_v1018, k2_pay69, k2_pay3, k2_pay66, k2_pay63, k2_pay64, k2_pay65, k2_pay67, k2_pay68,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32,
    slab1 x0 x1 x2 x3 x4 x5 x6 x7, slab2 x0 x1 x2 x3 x4 x5 x6 x7, slab3 x0 x1 x2 x3 x4 x5 x6 x7, slab4 x0 x1 x2 x3 x4 x5 x6 x7, slab5 x0 x1 x2 x3 x4 x5 x6 x7, slab6 x0 x1 x2 x3 x4 x5 x6 x7, slab7 x0 x1 x2 x3 x4 x5 x6 x7, slab8 x0 x1 x2 x3 x4 x5 x6 x7, slab9 x0 x1 x2 x3 x4 x5 x6 x7, slab10 x0 x1 x2 x3 x4 x5 x6 x7]
  unfold h2k
  rw [sum_ten]
/-- After the ten rounds the second scratch operand holds the third layer's sum. -/
theorem acc_total (p q : Fin 384) :
    k2t_st13_21 x0 x1 x2 x3 x4 x5 x6 x7 (ix2 p q) = ∑ g : Fin 10, h2k x1 x2 x3 x4 x5 p q g * x6 (ix1 g) := by
  rw [round9, round8, round7, round6, round5, round4, round3, round2, round1, round0, acc0, sum_ten]

/-! ## The two stored payloads -/

/-- THE NEW WEIGHT AT A PAIR: the stored f32 payload is `(w + ∑ g, h2k[g] · W3[g]) + b3[0]`. -/
theorem pay_newW (p q : Fin 384) :
    k2_pay1 (F := Ideal) (k2t_v6 x0 x1 x2 x3 x4 x5 x6 x7) (k2t_v1059 x0 x1 x2 x3 x4 x5 x6 x7) (ix2 p q)
      = (x0 (ix2 p q) + ∑ g : Fin 10, h2k x1 x2 x3 x4 x5 p q g * x6 (ix1 g)) + x7 (ix1 (0 : Fin 1)) := by
  simp only [k2_pay1, k2t_v6, k2_pay4, k2t_v5, k2t_v1059, k2_pay70, k2t_v1057,
    ld_unit_zero (S := S10) zeros1, ld_unit_zero (S := S1) zeros1', ld_unit_zero (S := S10x10) zeros2,
    ld_unit_zero (S := S384x10) zeros2', ld_unit_zero (S := S384x384) zeros2'', shapeCast_self,
    shapeCast_ab_1ab_apply, shapeCast_1ab_ab_apply, shapeCast_1a_a_apply, shapeCast_a_1a_apply, shapeCast_a_a1_apply,
    broadcastTo_a1_ab_apply, broadcastTo_1b_ab_apply, slice_row_apply, slice_entry_apply, slice_entry2_apply,
    transpose_rows_apply x1, transpose_rows_apply x2, extractAt_1, extractAt_11, maximumf_apply, addf_apply, mulf_apply, broadcast_apply,
    scalar_ofBits, Ideal.ofBits_zero_f32]
  rw [acc_total]

/-- The bf16 copy is the same value: narrowing is the identity at the ideal instance. -/
theorem pay_newW_bf16 (p q : Fin 384) :
    k2_pay2 (F := Ideal) (k2t_v6 x0 x1 x2 x3 x4 x5 x6 x7) (k2t_v1059 x0 x1 x2 x3 x4 x5 x6 x7) (ix2 p q)
      = (x0 (ix2 p q) + ∑ g : Fin 10, h2k x1 x2 x3 x4 x5 p q g * x6 (ix1 g)) + x7 (ix1 (0 : Fin 1)) := by
  unfold k2_pay2
  rw [truncf_apply]
  exact pay_newW x0 x1 x2 x3 x4 x5 x6 x7 p q

end Cert.KernelIdeal.R2Value

end
-- ==== Proof.KI.R2Array.lean ====
import proofs.«164935_j86474871537726_2_alg».proof.Proof.KI.R2Value

set_option maxRecDepth 16384

/-
  The two output arrays of REGION 2 at the ideal floats, index by index: after the region's 64 write-backs each
  [3072,3072] array holds, at (i, j), the new weight `(w[i, j] + ∑ g, H2[i, j, g] · W3[g]) + b3[0]` of the eight
  argument arrays as the region finds them. Point `t` writes the block of rows `384·(t / 8) …` and columns
  `384·(t % 8) …`; the 64 blocks tile the array.
-/

noncomputable section

namespace Cert.KernelIdeal.R2Value

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The index maps, decided over the grid -/

/-- The weight's and the outputs' block at point `t` is block (t / 8, t % 8); the row part's is block row `t / 8`, the
    column part's block row `t % 8`; the five small windows are whole arrays. -/
theorem idx_facts2 : ∀ t : Fin cfg2.N,
    win2_0.index t (0 : Fin 2) = t.val / 8 ∧ win2_0.index t (1 : Fin 2) = t.val % 8
    ∧ win2_1.index t (0 : Fin 2) = t.val / 8 ∧ win2_1.index t (1 : Fin 2) = 0
    ∧ win2_2.index t (0 : Fin 2) = t.val % 8 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 1) = 0
    ∧ win2_7.index t (0 : Fin 1) = 0
    ∧ win2_8.index t (0 : Fin 2) = t.val / 8 ∧ win2_8.index t (1 : Fin 2) = t.val % 8
    ∧ win2_9.index t (0 : Fin 2) = t.val / 8 ∧ win2_9.index t (1 : Fin 2) = t.val % 8 :=
  (by decide +kernel : ∀ t : Fin grid2.N, _)

/-- A point's rows are rows of the array. -/
theorem row_lt2 (t : Fin cfg2.N) (p : Fin 384) : 384 * (t.val / 8) + p.val < 3072 := by
  have ht : t.val < grid2.N := t.isLt
  rw [N_2] at ht
  have := p.isLt
  omega

/-- A point's columns are columns of the array. -/
theorem col_lt2 (t : Fin cfg2.N) (q : Fin 384) : 384 * (t.val % 8) + q.val < 3072 := by
  have := q.isLt
  omega

/-! ## The blocks' indices in their arrays -/

theorem emb2_0 (t : Fin cfg2.N) (p q : Fin 384) :
    ((cfg2.win 0).blk t).view.emb (ix2 p q)
      = ix2 (⟨384 * (t.val / 8) + p.val, row_lt2 t p⟩ : Fin 3072) (⟨384 * (t.val % 8) + q.val, col_lt2 t q⟩ : Fin 3072) := by
  obtain ⟨e0, e1, -⟩ := idx_facts2 t
  funext a; apply Fin.ext
  match a with
  | ⟨0, _⟩ => show win2_0.index t (0 : Fin 2) * 384 + 1 * p.val = 384 * (t.val / 8) + p.val; omega
  | ⟨1, _⟩ => show win2_0.index t (1 : Fin 2) * 384 + 1 * q.val = 384 * (t.val % 8) + q.val; omega

theorem emb2_1 (t : Fin cfg2.N) (p : Fin 384) (h : Fin 10) :
    ((cfg2.win 1).blk t).view.emb (ix2 p h) = ix2 (⟨384 * (t.val / 8) + p.val, row_lt2 t p⟩ : Fin 3072) h := by
  obtain ⟨-, -, e2, e3, -⟩ := idx_facts2 t
  funext a; apply Fin.ext
  match a with
  | ⟨0, _⟩ => show win2_1.index t (0 : Fin 2) * 384 + 1 * p.val = 384 * (t.val / 8) + p.val; omega
  | ⟨1, _⟩ => show win2_1.index t (1 : Fin 2) * 10 + 1 * h.val = h.val; omega

theorem emb2_2 (t : Fin cfg2.N) (q : Fin 384) (h : Fin 10) :
    ((cfg2.win 2).blk t).view.emb (ix2 q h) = ix2 (⟨384 * (t.val % 8) + q.val, col_lt2 t q⟩ : Fin 3072) h := by
  obtain ⟨-, -, -, -, e4, e5, -⟩ := idx_facts2 t
  funext a; apply Fin.ext
  match a with
  | ⟨0, _⟩ => show win2_2.index t (0 : Fin 2) * 384 + 1 * q.val = 384 * (t.val % 8) + q.val; omega
  | ⟨1, _⟩ => show win2_2.index t (1 : Fin 2) * 10 + 1 * h.val = h.val; omega

theorem emb2_3 (t : Fin cfg2.N) (h : Fin 10) : ((cfg2.win 3).blk t).view.emb (ix1 h) = ix1 h := by
  obtain ⟨-, -, -, -, -, -, e6, -⟩ := idx_facts2 t
  funext a; apply Fin.ext
  match a with
  | ⟨0, _⟩ => show win2_3.index t (0 : Fin 1) * 10 + 1 * h.val = h.val; omega

theorem emb2_4 (t : Fin cfg2.N) (g h : Fin 10) : ((cfg2.win 4).blk t).view.emb (ix2 g h) = ix2 g h := by
  obtain ⟨-, -, -, -, -, -, -, e7, e8, -⟩ := idx_facts2 t
  funext a; apply Fin.ext
  match a with
  | ⟨0, _⟩ => show win2_4.index t (0 : Fin 2) * 10 + 1 * g.val = g.val; omega
  | ⟨1, _⟩ => show win2_4.index t (1 : Fin 2) * 10 + 1 * h.val = h.val; omega

theorem emb2_5 (t : Fin cfg2.N) (g : Fin 10) : ((cfg2.win 5).blk t).view.emb (ix1 g) = ix1 g := by
  obtain ⟨-, -, -, -, -, -, -, -, -, e9, -⟩ := idx_facts2 t
  funext a; apply Fin.ext
  match a with
  | ⟨0, _⟩ => show win2_5.index t (0 : Fin 1) * 10 + 1 * g.val = g.val; omega

theorem emb2_6 (t : Fin cfg2.N) (g : Fin 10) : ((cfg2.win 6).blk t).view.emb (ix1 g) = ix1 g := by
  obtain ⟨-, -, -, -, -, -, -, -, -, -, e10, -⟩ := idx_facts2 t
  funext a; apply Fin.ext
  match a with
  | ⟨0, _⟩ => show win2_6.index t (0 : Fin 1) * 10 + 1 * g.val = g.val; omega

theorem emb2_7 (t : Fin cfg2.N) (u : Fin 1) : ((cfg2.win 7).blk t).view.emb (ix1 u) = ix1 u := by
  obtain ⟨-, -, -, -, -, -, -, -, -, -, -, e11, -⟩ := idx_facts2 t
  funext a; apply Fin.ext
  match a with
  | ⟨0, _⟩ => show win2_7.index t (0 : Fin 1) * 1 + 1 * u.val = u.val; omega

theorem emb2_8 (t : Fin cfg2.N) (p q : Fin 384) :
    ((cfg2.win 8).blk t).view.emb (ix2 p q)
      = ix2 (⟨384 * (t.val / 8) + p.val, row_lt2 t p⟩ : Fin 3072) (⟨384 * (t.val % 8) + q.val, col_lt2 t q⟩ : Fin 3072) := by
  obtain ⟨-, -, -, -, -, -, -, -, -, -, -, -, e12, e13, -⟩ := idx_facts2 t
  funext a; apply Fin.ext
  match a with
  | ⟨0, _⟩ => show win2_8.index t (0 : Fin 2) * 384 + 1 * p.val = 384 * (t.val / 8) + p.val; omega
  | ⟨1, _⟩ => show win2_8.index t (1 : Fin 2) * 384 + 1 * q.val = 384 * (t.val % 8) + q.val; omega

theorem emb2_9 (t : Fin cfg2.N) (p q : Fin 384) :
    ((cfg2.win 9).blk t).view.emb (ix2 p q)
      = ix2 (⟨384 * (t.val / 8) + p.val, row_lt2 t p⟩ : Fin 3072) (⟨384 * (t.val % 8) + q.val, col_lt2 t q⟩ : Fin 3072) := by
  obtain ⟨-, -, -, -, -, -, -, -, -, -, -, -, -, -, e14, e15⟩ := idx_facts2 t
  funext a; apply Fin.ext
  match a with
  | ⟨0, _⟩ => show win2_9.index t (0 : Fin 2) * 384 + 1 * p.val = 384 * (t.val / 8) + p.val; omega
  | ⟨1, _⟩ => show win2_9.index t (1 : Fin 2) * 384 + 1 * q.val = 384 * (t.val % 8) + q.val; omega

/-! ## The arrays as the region finds them, and the mathematics over them -/

/-- The eight argument arrays, read as extended reals (their elements are ideal floats). -/
abbrev A2_0 (c : Dev nD) : S3072x3072.Idx → EReal := V c main_arg1
abbrev A2_1 (c : Dev nD) : S3072x10.Idx → EReal := V c main_v5
abbrev A2_2 (c : Dev nD) : S3072x10.Idx → EReal := V c main_v13
abbrev A2_3 (c : Dev nD) : S10.Idx → EReal := V c main_arg4
abbrev A2_4 (c : Dev nD) : S10x10.Idx → EReal := V c main_arg5
abbrev A2_5 (c : Dev nD) : S10.Idx → EReal := V c main_arg6
abbrev A2_6 (c : Dev nD) : S10.Idx → EReal := V c main_v14
abbrev A2_7 (c : Dev nD) : S1.Idx → EReal := V c main_arg8

/-- First hidden layer at the pair (i, j) of the whole arrays: `max ((rowPart[i, h] + colb[j, h]) + b1[h]) 0`. -/
def H1 (c : Dev nD) (i j : Fin 3072) (h : Fin 10) : EReal :=
  max ((A2_1 V c (ix2 i h) + A2_2 V c (ix2 j h)) + A2_3 V c (ix1 h)) 0

/-- Second hidden layer at the pair (i, j): `max ((∑ h, H1[h] · W2[g, h]) + b2[g]) 0`. -/
def H2 (c : Dev nD) (i j : Fin 3072) (g : Fin 10) : EReal :=
  max ((∑ h : Fin 10, H1 V c i j h * A2_4 V c (ix2 g h)) + A2_5 V c (ix1 g)) 0

/-- The new weight at (i, j): `(w[i, j] + ∑ g, H2[g] · W3[g]) + b3[0]`. -/
def newWA (c : Dev nD) (i j : Fin 3072) : EReal :=
  (A2_0 V c (ix2 i j) + ∑ g : Fin 10, H2 V c i j g * A2_6 V c (ix1 g)) + A2_7 V c (ix1 (0 : Fin 1))

/-- What the f32 output array ends holding. -/
def G2a (c : Dev nD) : S3072x3072.Idx → Elt Ideal .f32 := fun i => newWA V c (i 0 : Fin 3072) (i 1 : Fin 3072)
/-- What the bf16 output array ends holding: the same extended reals. -/
def G2b (c : Dev nD) : S3072x3072.Idx → Elt Ideal .bf16 := fun i => newWA V c (i 0 : Fin 3072) (i 1 : Fin 3072)

/-- The first hidden layer of point `t`'s input blocks is the arrays' at the point's rows and columns. -/
theorem h1k_blk (c : Dev nD) (t : Fin cfg2.N) (p q : Fin 384) (h : Fin 10) :
    h1k (iblk2 V c 1 t) (iblk2 V c 2 t) (iblk2 V c 3 t) p q h
      = H1 V c ⟨384 * (t.val / 8) + p.val, row_lt2 t p⟩ ⟨384 * (t.val % 8) + q.val, col_lt2 t q⟩ h := by
  unfold h1k H1
  show max ((A2_1 V c (((cfg2.win 1).blk t).view.emb (ix2 p h)) + A2_2 V c (((cfg2.win 2).blk t).view.emb (ix2 q h)))
      + A2_3 V c (((cfg2.win 3).blk t).view.emb (ix1 h))) 0 = _
  rw [emb2_1, emb2_2, emb2_3]

/-- The second hidden layer likewise. -/
theorem h2k_blk (c : Dev nD) (t : Fin cfg2.N) (p q : Fin 384) (g : Fin 10) :
    h2k (iblk2 V c 1 t) (iblk2 V c 2 t) (iblk2 V c 3 t) (iblk2 V c 4 t) (iblk2 V c 5 t) p q g
      = H2 V c ⟨384 * (t.val / 8) + p.val, row_lt2 t p⟩ ⟨384 * (t.val % 8) + q.val, col_lt2 t q⟩ g := by
  unfold h2k H2
  refine congrArg (max · 0) (congrArg₂ (· + ·) (Finset.sum_congr rfl fun h _ => ?_) ?_)
  · rw [h1k_blk]
    show _ * A2_4 V c (((cfg2.win 4).blk t).view.emb (ix2 g h)) = _
    rw [emb2_4]
  · show A2_5 V c (((cfg2.win 5).blk t).view.emb (ix1 g)) = _
    rw [emb2_5]

/-- Point `t`'s blocks of the weight, the third layer's row and the third layer's bias, read as extended reals. -/
abbrev B2_0 (c : Dev nD) (t : Fin cfg2.N) : Vec Ideal S384x384 .f32 := iblk2 V c 0 t
abbrev B2_6 (c : Dev nD) (t : Fin cfg2.N) : Vec Ideal S10 .f32 := iblk2 V c 6 t
abbrev B2_7 (c : Dev nD) (t : Fin cfg2.N) : Vec Ideal S1 .f32 := iblk2 V c 7 t

/-- The new weight of point `t`'s input blocks at (p, q) is the arrays' at the point's row and column. -/
theorem newW_blk (c : Dev nD) (t : Fin cfg2.N) (p q : Fin 384) :
    (B2_0 V c t (ix2 p q)
        + ∑ g : Fin 10, h2k (iblk2 V c 1 t) (iblk2 V c 2 t) (iblk2 V c 3 t) (iblk2 V c 4 t) (iblk2 V c 5 t) p q g
          * B2_6 V c t (ix1 g)) + B2_7 V c t (ix1 (0 : Fin 1))
      = newWA V c ⟨384 * (t.val / 8) + p.val, row_lt2 t p⟩ ⟨384 * (t.val % 8) + q.val, col_lt2 t q⟩ := by
  unfold newWA
  refine congrArg₂ (· + ·) (congrArg₂ (· + ·) ?_ (Finset.sum_congr rfl fun g _ => ?_)) ?_
  · show A2_0 V c (((cfg2.win 0).blk t).view.emb (ix2 p q)) = _
    rw [emb2_0]
  · rw [h2k_blk]
    show _ * A2_6 V c (((cfg2.win 6).blk t).view.emb (ix1 g)) = _
    rw [emb2_6]
  · show A2_7 V c (((cfg2.win 7).blk t).view.emb (ix1 (0 : Fin 1))) = _
    rw [emb2_7]

/-! ## What each point writes back -/

/-- WHAT POINT `t` WRITES BACK through window 8 is block `t` of `G2a`. -/
theorem flushed2_8_eq (c : Dev nD) (t : Fin cfg2.N) :
    (dat2 V c).flushed 8 t = ((cfg2.win 8).blk t).view.read (Elt Ideal) (G2a V c) := by
  show (cfg2.win 8).cut (grid2.coords t) ((dat2 V c).after 8 t) = _
  rw [after2_8, out2_8_eq]
  funext y
  obtain ⟨p, q, rfl⟩ : ∃ (p : Fin 384) (q : Fin 384), y = ix2 p q := ⟨y 0, y 1, eq_ix2 y⟩
  show k2_pay1 (F := Ideal) (k2t_v6 (iblk2 V c 0 t) (iblk2 V c 1 t) (iblk2 V c 2 t) (iblk2 V c 3 t) (iblk2 V c 4 t) (iblk2 V c 5 t) (iblk2 V c 6 t) (iblk2 V c 7 t))
      (k2t_v1059 (iblk2 V c 0 t) (iblk2 V c 1 t) (iblk2 V c 2 t) (iblk2 V c 3 t) (iblk2 V c 4 t) (iblk2 V c 5 t) (iblk2 V c 6 t) (iblk2 V c 7 t)) (ix2 p q)
    = G2a V c (((cfg2.win 8).blk t).view.emb (ix2 p q))
  rw [pay_newW, emb2_8]
  exact newW_blk V c t p q

/-- WHAT POINT `t` WRITES BACK through window 9 is block `t` of `G2b`. -/
theorem flushed2_9_eq (c : Dev nD) (t : Fin cfg2.N) :
    (dat2 V c).flushed 9 t = ((cfg2.win 9).blk t).view.read (Elt Ideal) (G2b V c) := by
  show (cfg2.win 9).cut (grid2.coords t) ((dat2 V c).after 9 t) = _
  rw [after2_9, out2_9_eq]
  funext y
  obtain ⟨p, q, rfl⟩ : ∃ (p : Fin 384) (q : Fin 384), y = ix2 p q := ⟨y 0, y 1, eq_ix2 y⟩
  show k2_pay2 (F := Ideal) (k2t_v6 (iblk2 V c 0 t) (iblk2 V c 1 t) (iblk2 V c 2 t) (iblk2 V c 3 t) (iblk2 V c 4 t) (iblk2 V c 5 t) (iblk2 V c 6 t) (iblk2 V c 7 t))
      (k2t_v1059 (iblk2 V c 0 t) (iblk2 V c 1 t) (iblk2 V c 2 t) (iblk2 V c 3 t) (iblk2 V c 4 t) (iblk2 V c 5 t) (iblk2 V c 6 t) (iblk2 V c 7 t)) (ix2 p q)
    = G2b V c (((cfg2.win 9).blk t).view.emb (ix2 p q))
  rw [pay_newW_bf16, emb2_9]
  exact newW_blk V c t p q

/-! ## The blocks tile the arrays -/

/-- An index of the f32 output is in point `t`'s block iff each coordinate is in the block's range on its axis. -/
theorem mem_blk2_8 (t : Fin cfg2.N) (i : S3072x3072.Idx) :
    i ∈ ((cfg2.win 8).blk t).view.set ↔ ∀ a : Fin 2, win2_8.index t a * S384x384.size a ≤ (i a).val ∧ (i a).val < win2_8.index t a * S384x384.size a + S384x384.size a := by
  show i ∈ ((View.whole main_v15_0).slice (win2_8.rect t)).set ↔ _
  rw [View.set_slice_whole, Rect.mem_set_unit]
  exact Iff.rfl

/-- The same for the bf16 output. -/
theorem mem_blk2_9 (t : Fin cfg2.N) (i : S3072x3072.Idx) :
    i ∈ ((cfg2.win 9).blk t).view.set ↔ ∀ a : Fin 2, win2_9.index t a * S384x384.size a ≤ (i a).val ∧ (i a).val < win2_9.index t a * S384x384.size a + S384x384.size a := by
  show i ∈ ((View.whole main_v15_1).slice (win2_9.rect t)).set ↔ _
  rw [View.set_slice_whole, Rect.mem_set_unit]
  exact Iff.rfl

/-- The point whose block holds (i, j): block row `i / 384`, block column `j / 384`. -/
theorem pt_lt2 (i : S3072x3072.Idx) : (i 0).val / 384 * 8 + (i 1).val / 384 < cfg2.N := by
  have hi0 : (i 0).val < 3072 := (i 0).isLt
  have hi1 : (i 1).val < 3072 := (i 1).isLt
  show _ < grid2.N; rw [N_2]; omega

/-- Index (i, j) is in the block of point `(i / 384) · 8 + j / 384`, which writes back. -/
theorem cover2_8a (i : S3072x3072.Idx) :
    ∃ t : Fin cfg2.N, (cfg2.win 8).flush t = true ∧ i ∈ ((cfg2.win 8).blk t).view.set := by
  have hi0 : (i 0).val < 3072 := (i 0).isLt
  have hi1 : (i 1).val < 3072 := (i 1).isLt
  obtain ⟨-, -, -, -, -, -, -, -, -, -, -, -, e12, e13, -⟩ := idx_facts2 ⟨_, pt_lt2 i⟩
  refine ⟨⟨_, pt_lt2 i⟩, flush2_8 _, ?_⟩
  rw [mem_blk2_8]
  intro a
  match a with
  | ⟨0, _⟩ =>
    show win2_8.index ⟨_, pt_lt2 i⟩ (0 : Fin 2) * 384 ≤ (i 0).val ∧ (i 0).val < win2_8.index ⟨_, pt_lt2 i⟩ (0 : Fin 2) * 384 + 384
    rw [e12]; show ((i 0).val / 384 * 8 + (i 1).val / 384) / 8 * 384 ≤ (i 0).val ∧ (i 0).val < ((i 0).val / 384 * 8 + (i 1).val / 384) / 8 * 384 + 384; omega
  | ⟨1, _⟩ =>
    show win2_8.index ⟨_, pt_lt2 i⟩ (1 : Fin 2) * 384 ≤ (i 1).val ∧ (i 1).val < win2_8.index ⟨_, pt_lt2 i⟩ (1 : Fin 2) * 384 + 384
    rw [e13]; show ((i 0).val / 384 * 8 + (i 1).val / 384) % 8 * 384 ≤ (i 1).val ∧ (i 1).val < ((i 0).val / 384 * 8 + (i 1).val / 384) % 8 * 384 + 384; omega

theorem cover2_9a (i : S3072x3072.Idx) :
    ∃ t : Fin cfg2.N, (cfg2.win 9).flush t = true ∧ i ∈ ((cfg2.win 9).blk t).view.set := by
  have hi0 : (i 0).val < 3072 := (i 0).isLt
  have hi1 : (i 1).val < 3072 := (i 1).isLt
  obtain ⟨-, -, -, -, -, -, -, -, -, -, -, -, -, -, e14, e15⟩ := idx_facts2 ⟨_, pt_lt2 i⟩
  refine ⟨⟨_, pt_lt2 i⟩, flush2_9 _, ?_⟩
  rw [mem_blk2_9]
  intro a
  match a with
  | ⟨0, _⟩ =>
    show win2_9.index ⟨_, pt_lt2 i⟩ (0 : Fin 2) * 384 ≤ (i 0).val ∧ (i 0).val < win2_9.index ⟨_, pt_lt2 i⟩ (0 : Fin 2) * 384 + 384
    rw [e14]; show ((i 0).val / 384 * 8 + (i 1).val / 384) / 8 * 384 ≤ (i 0).val ∧ (i 0).val < ((i 0).val / 384 * 8 + (i 1).val / 384) / 8 * 384 + 384; omega
  | ⟨1, _⟩ =>
    show win2_9.index ⟨_, pt_lt2 i⟩ (1 : Fin 2) * 384 ≤ (i 1).val ∧ (i 1).val < win2_9.index ⟨_, pt_lt2 i⟩ (1 : Fin 2) * 384 + 384
    rw [e15]; show ((i 0).val / 384 * 8 + (i 1).val / 384) % 8 * 384 ≤ (i 1).val ∧ (i 1).val < ((i 0).val / 384 * 8 + (i 1).val / 384) % 8 * 384 + 384; omega

/-! ## The arrays after the region -/

/-- THE f32 ARRAY after the region's write-backs is `G2a`. -/
theorem final2_8 (c : Dev nD) : (dat2 V c).arrAt 8 cfg2.N = G2a V c :=
  (dat2 V c).arrAt_eq_of_cover 8 (G2a V c) (fun t _ => flushed2_8_eq V c t) cover2_8a

/-- THE bf16 ARRAY after the region's write-backs is `G2b`. -/
theorem final2_9 (c : Dev nD) : (dat2 V c).arrAt 9 cfg2.N = G2b V c :=
  (dat2 V c).arrAt_eq_of_cover 9 (G2b V c) (fun t _ => flushed2_9_eq V c t) cover2_9a

/-- Index by index: the f32 output array at (i, j) is the new weight of the arrays as the region finds them. -/
theorem arr2a (c : Dev nD) (i j : Fin 3072) :
    (dat2 V c).arrAt 8 cfg2.N (ix2 i j)
      = (A2_0 V c (ix2 i j) + ∑ g : Fin 10, H2 V c i j g * A2_6 V c (ix1 g)) + A2_7 V c (ix1 (0 : Fin 1)) := by
  rw [final2_8]
  rfl

/-- Index by index: the bf16 output array holds the same extended reals. -/
theorem arr2b (c : Dev nD) (i j : Fin 3072) :
    (dat2 V c).arrAt 9 cfg2.N (ix2 i j)
      = (A2_0 V c (ix2 i j) + ∑ g : Fin 10, H2 V c i j g * A2_6 V c (ix1 g)) + A2_7 V c (ix1 (0 : Fin 1)) := by
  rw [final2_9]
  rfl

end Cert.KernelIdeal.R2Value

end
-- ==== Proof.RefValue.lean ====
/-
  The reference program's result is the specification's `out` of its nine arguments.

  One lemma per stage of the specification (Spec.lean), each reading the operation that computes the stage at an index
  given by its coordinates and identifying the operands' indices with those coordinates; the stages chain upward to
  the result.
-/
import proofs.«164935_j86474871537726_2_alg».proof.Proof.Spec
import proofs.«164935_j86474871537726_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- Two indices of rank 1, 2, 3 with the same coordinates are equal; every coordinate here is equal by computation. -/
local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

variable (x0 : (⟨S2048x3072, .f32⟩ : BufTy).Contents (Elt Ideal)) (x1 : (⟨S3072x3072, .f32⟩ : BufTy).Contents (Elt Ideal))
  (x2 : (⟨S3072, .f32⟩ : BufTy).Contents (Elt Ideal)) (x3 : (⟨S10x6145, .f32⟩ : BufTy).Contents (Elt Ideal))
  (x4 : (⟨S10, .f32⟩ : BufTy).Contents (Elt Ideal)) (x5 : (⟨S10x10, .f32⟩ : BufTy).Contents (Elt Ideal))
  (x6 : (⟨S10, .f32⟩ : BufTy).Contents (Elt Ideal)) (x7 : (⟨S1x10, .f32⟩ : BufTy).Contents (Elt Ideal))
  (x8 : (⟨S1, .f32⟩ : BufTy).Contents (Elt Ideal))

/-! ## The arguments as arrays of their coordinates -/

abbrev aX : Fin 2048 → Fin 3072 → EReal := fun r k => x0 (ix2 r k)
abbrev aw : Fin 3072 → Fin 3072 → EReal := fun a c => x1 (ix2 a c)
abbrev ab : Fin 3072 → EReal := fun j => x2 (ix1 j)
abbrev aW1 : Fin 10 → Fin 6145 → EReal := fun h k => x3 (ix2 h k)
abbrev ab1 : Fin 10 → EReal := fun h => x4 (ix1 h)
abbrev aW2 : Fin 10 → Fin 10 → EReal := fun g h => x5 (ix2 g h)
abbrev ab2 : Fin 10 → EReal := fun g => x6 (ix1 g)
abbrev aW3 : Fin 1 → Fin 10 → EReal := fun o g => x7 (ix2 o g)
abbrev ab3 : Fin 1 → EReal := fun o => x8 (ix1 o)

/-! ## The first layer, split over the slots -/

/-- The row slot: the product of the weight with the transposed first slice of the first layer's matrix. -/
theorem rowPart_eq (i : Fin 3072) (h : Fin 10) :
    val_main_v5 (F := Ideal) x1 x3 (ix2 i h) = Cert.Spec.rowPart (aw x1) (aW1 x3) i h := by
  rw [val_main_v5_apply]
  unfold Cert.Spec.rowPart
  refine Finset.sum_congr rfl fun k _ => ?_
  rw [val_main_v4_apply, val_main_v0_apply]
  exact congrArg₂ (· * ·) (congrArg x1 (by idx2)) (congrArg x3 (by idx2))

/-- The column slot: the product of the transposed weight with the transposed second slice. -/
theorem colPart_eq (j : Fin 3072) (h : Fin 10) :
    val_main_v8 (F := Ideal) x1 x3 (ix2 j h) = Cert.Spec.colPart (aw x1) (aW1 x3) j h := by
  rw [val_main_v8_apply]
  unfold Cert.Spec.colPart
  refine Finset.sum_congr rfl fun k _ => ?_
  rw [val_main_v6_apply, val_main_v7_apply, val_main_v1_apply]
  exact congrArg₂ (· * ·) (congrArg x1 (by idx2)) (congrArg x3 (by idx2))

/-- The bias slot: the bias entry times the last column of the first layer's matrix. -/
theorem biasPart_eq (j : Fin 3072) (h : Fin 10) :
    val_main_v13 (F := Ideal) x2 x3 (ix2 j h) = Cert.Spec.biasPart (ab x2) (aW1 x3) j h := by
  rw [val_main_v13_apply, val_main_v11_apply, val_main_v9_apply, val_main_v12_apply, val_main_v10_apply,
    val_main_v3_apply, val_main_v2_apply]
  unfold Cert.Spec.biasPart
  refine congrArg₂ (· * ·) (congrArg x2 (by idx1)) (congrArg x3 ?_)
  funext a
  match a with
  | ⟨0, _⟩ => exact Fin.ext (Nat.div_one _)
  | ⟨1, _⟩ => rfl

/-! ## The per-pair update of the weight -/

theorem h1_eq (i j : Fin 3072) (h : Fin 10) :
    val_main_v23 (F := Ideal) x1 x2 x3 x4 (ix3 i j h) = Cert.Spec.h1 (aw x1) (ab x2) (aW1 x3) (ab1 x4) i j h := by
  rw [val_main_v23_apply, val_main_v22_apply, val_main_v19_apply, val_main_v17_apply, val_main_v14_apply,
    val_main_v18_apply, val_main_v16_apply, val_main_v15_apply, val_main_v21_apply, val_main_v20_apply,
    val_main_call0_v0_apply, val_main_call0_cst_apply]
  have e1 : idx_main_v14 (idx_main_v17 (ix3 i j h)) = ix2 i h := by idx2
  have e2 : idx_main_v16 (idx_main_v18 (ix3 i j h)) = ix2 j h := by idx2
  have e3 : idx_main_v20 (idx_main_v21 (ix3 i j h)) = ix1 h := by idx1
  rw [e1, e2, e3, rowPart_eq, colPart_eq, biasPart_eq]
  simp only [Ideal.addf_def, Ideal.maximumf_def, Ideal.ofBits_def, Ideal.ofBits_zero_f32]
  rfl

theorem h2_eq (i j : Fin 3072) (g : Fin 10) :
    val_main_v28 (F := Ideal) x1 x2 x3 x4 x5 x6 (ix3 i j g)
      = Cert.Spec.h2 (aw x1) (ab x2) (aW1 x3) (ab1 x4) (aW2 x5) (ab2 x6) i j g := by
  rw [val_main_v28_apply, val_main_v27_apply, val_main_v24_apply, val_main_v26_apply, val_main_v25_apply,
    val_main_call1_v0_apply, val_main_call1_cst_apply]
  have hs : (∑ k : Fin 10, val_main_v23 (F := Ideal) x1 x2 x3 x4 (lidx_main_v24 (ix3 i j g) k) * x5 (ridx_main_v24 (ix3 i j g) k))
      = ∑ h : Fin 10, Cert.Spec.h1 (aw x1) (ab x2) (aW1 x3) (ab1 x4) i j h * aW2 x5 g h :=
    Finset.sum_congr rfl fun k _ => by
      rw [show lidx_main_v24 (ix3 i j g) k = ix3 i j k from by idx3, h1_eq]
      exact congrArg (_ * ·) (congrArg x5 (by idx2))
  have e3 : idx_main_v25 (idx_main_v26 (ix3 i j g)) = ix1 g := by idx1
  rw [hs, e3]
  simp only [Ideal.addf_def, Ideal.maximumf_def, Ideal.ofBits_def, Ideal.ofBits_zero_f32]
  rfl

/-- The reshape of the one-entry last argument to a scalar reads its entry. -/
theorem b3_scalar (j : S_.Idx) : val_main_v31 (F := Ideal) x8 j = x8 (ix1 0) := by
  unfold val_main_v31
  refine shapeCast_apply x8 shapeCasts_S1_S_ j (ix1 0) ?_
  rw [Shape.rowMajor_val_one]
  exact (Shape.rowMajorPi_zero _ j).symm

theorem upd_eq (i j : Fin 3072) :
    val_main_v33 (F := Ideal) x1 x2 x3 x4 x5 x6 x7 x8 (ix2 i j)
      = Cert.Spec.upd (aw x1) (ab x2) (aW1 x3) (ab1 x4) (aW2 x5) (ab2 x6) (aW3 x7) (ab3 x8) i j := by
  rw [val_main_v33_apply, val_main_v30_apply, val_main_v29_apply, val_main_v32_apply, b3_scalar]
  have hs : (∑ k : Fin 10, val_main_v28 (F := Ideal) x1 x2 x3 x4 x5 x6 (lidx_main_v29 (idx_main_v30 (ix2 i j)) k)
        * x7 (ridx_main_v29 (idx_main_v30 (ix2 i j)) k))
      = ∑ g : Fin 10, Cert.Spec.h2 (aw x1) (ab x2) (aW1 x3) (ab1 x4) (aW2 x5) (ab2 x6) i j g * aW3 x7 0 g :=
    Finset.sum_congr rfl fun k _ => by
      have el : lidx_main_v29 (idx_main_v30 (ix2 i j)) k = ix3 i j k := by
        funext a
        match a with
        | ⟨0, _⟩ => exact Fin.ext (by have := i.isLt; have := j.isLt; show (i.val * 3072 + j.val) / 3072 = i.val; omega)
        | ⟨1, _⟩ => exact Fin.ext (by have := i.isLt; have := j.isLt; show (i.val * 3072 + j.val) / 1 % 3072 = j.val; omega)
        | ⟨2, _⟩ => rfl
      rw [el, h2_eq]
      exact congrArg (_ * ·) (congrArg x7 (by idx2))
  rw [hs]
  simp only [Ideal.addf_def]
  rfl

theorem newW_eq (i j : Fin 3072) :
    val_main_v34 (F := Ideal) x1 x2 x3 x4 x5 x6 x7 x8 (ix2 i j)
      = Cert.Spec.newW (aw x1) (ab x2) (aW1 x3) (ab1 x4) (aW2 x5) (ab2 x6) (aW3 x7) (ab3 x8) i j := by
  rw [val_main_v34_apply, upd_eq]
  rfl

/-! ## The update of the bias -/

theorem g1_eq (j : Fin 3072) (h : Fin 10) :
    val_main_v42 (F := Ideal) x1 x2 x3 x4 x5 x6 x7 x8 (ix2 j h)
      = Cert.Spec.g1 (aw x1) (ab x2) (aW1 x3) (ab1 x4) (aW2 x5) (ab2 x6) (aW3 x7) (ab3 x8) j h := by
  rw [val_main_v42_apply, val_main_v41_apply, val_main_v38_apply, val_main_v37_apply, val_main_v40_apply,
    val_main_v39_apply, val_main_call2_v0_apply, val_main_call2_cst_apply]
  have hs : (∑ k : Fin 3072, val_main_v35 (F := Ideal) x1 x2 x3 x4 x5 x6 x7 x8 (lidx_main_v37 (ix2 j h) k)
        * val_main_v36 (F := Ideal) x3 (ridx_main_v37 (ix2 j h) k))
      = ∑ k : Fin 3072, Cert.Spec.newW (aw x1) (ab x2) (aW1 x3) (ab1 x4) (aW2 x5) (ab2 x6) (aW3 x7) (ab3 x8) k j
          * aW1 x3 h (Cert.Spec.slotCol k) :=
    Finset.sum_congr rfl fun k _ => by
      rw [val_main_v35_apply, val_main_v36_apply, val_main_v1_apply,
        show idx_main_v35 (lidx_main_v37 (ix2 j h) k) = ix2 k j from by idx2, newW_eq]
      exact congrArg (_ * ·) (congrArg x3 (by idx2))
  have e3 : idx_main_v39 (idx_main_v40 (ix2 j h)) = ix1 h := by idx1
  rw [hs, biasPart_eq, e3]
  simp only [Ideal.addf_def, Ideal.maximumf_def, Ideal.ofBits_def, Ideal.ofBits_zero_f32]
  rfl

theorem g2_eq (j : Fin 3072) (g : Fin 10) :
    val_main_v48 (F := Ideal) x1 x2 x3 x4 x5 x6 x7 x8 (ix2 j g)
      = Cert.Spec.g2 (aw x1) (ab x2) (aW1 x3) (ab1 x4) (aW2 x5) (ab2 x6) (aW3 x7) (ab3 x8) j g := by
  rw [val_main_v48_apply, val_main_v47_apply, val_main_v44_apply, val_main_v46_apply, val_main_v45_apply,
    val_main_call3_v0_apply, val_main_call3_cst_apply]
  have hs : (∑ k : Fin 10, val_main_v42 (F := Ideal) x1 x2 x3 x4 x5 x6 x7 x8 (lidx_main_v44 (ix2 j g) k)
        * val_main_v43 (F := Ideal) x5 (ridx_main_v44 (ix2 j g) k))
      = ∑ h : Fin 10, Cert.Spec.g1 (aw x1) (ab x2) (aW1 x3) (ab1 x4) (aW2 x5) (ab2 x6) (aW3 x7) (ab3 x8) j h * aW2 x5 g h :=
    Finset.sum_congr rfl fun k _ => by
      rw [val_main_v43_apply, show lidx_main_v44 (ix2 j g) k = ix2 j k from by idx2, g1_eq]
      exact congrArg (_ * ·) (congrArg x5 (by idx2))
  have e3 : idx_main_v45 (idx_main_v46 (ix2 j g)) = ix1 g := by idx1
  rw [hs, e3]
  simp only [Ideal.addf_def, Ideal.maximumf_def, Ideal.ofBits_def, Ideal.ofBits_zero_f32]
  rfl

/-- The second reshape of the one-entry last argument to a scalar reads its entry. -/
theorem b3_scalar' (j : S_.Idx) : val_main_v53 (F := Ideal) x8 j = x8 (ix1 0) := by
  unfold val_main_v53
  refine shapeCast_apply x8 shapeCasts_S1_S_ j (ix1 0) ?_
  rw [Shape.rowMajor_val_one]
  exact (Shape.rowMajorPi_zero _ j).symm

theorem newB_eq (j : Fin 3072) :
    val_main_v55 (F := Ideal) x1 x2 x3 x4 x5 x6 x7 x8 (ix1 j)
      = Cert.Spec.newB (aw x1) (ab x2) (aW1 x3) (ab1 x4) (aW2 x5) (ab2 x6) (aW3 x7) (ab3 x8) j := by
  rw [val_main_v55_apply, val_main_v52_apply, val_main_v51_apply, val_main_v50_apply, val_main_v54_apply, b3_scalar']
  have hs : (∑ k : Fin 10, val_main_v48 (F := Ideal) x1 x2 x3 x4 x5 x6 x7 x8 (lidx_main_v50 (idx_main_v51 (ix1 j)) k)
        * val_main_v49 (F := Ideal) x7 (ridx_main_v50 (idx_main_v51 (ix1 j)) k))
      = ∑ g : Fin 10, Cert.Spec.g2 (aw x1) (ab x2) (aW1 x3) (ab1 x4) (aW2 x5) (ab2 x6) (aW3 x7) (ab3 x8) j g * aW3 x7 0 g :=
    Finset.sum_congr rfl fun k _ => by
      have el : lidx_main_v50 (idx_main_v51 (ix1 j)) k = ix2 j k := by
        funext a
        match a with
        | ⟨0, _⟩ => exact Fin.ext (Nat.div_one _)
        | ⟨1, _⟩ => rfl
      rw [val_main_v49_apply, el, g2_eq]
      exact congrArg (_ * ·) (congrArg x7 (by idx2))
  rw [hs]
  simp only [Ideal.addf_def]
  rfl

/-! ## The logits and their row softmax -/

theorem logit_eq (r : Fin 2048) (j : Fin 3072) :
    val_main_v59 (F := Ideal) x0 x1 x2 x3 x4 x5 x6 x7 x8 (ix2 r j)
      = Cert.Spec.logit (aX x0) (aw x1) (ab x2) (aW1 x3) (ab1 x4) (aW2 x5) (ab2 x6) (aW3 x7) (ab3 x8) r j := by
  rw [val_main_v59_apply, val_main_v56_apply, val_main_v58_apply, val_main_v57_apply]
  have hs : (∑ k : Fin 3072, x0 (lidx_main_v56 (ix2 r j) k)
        * val_main_v34 (F := Ideal) x1 x2 x3 x4 x5 x6 x7 x8 (ridx_main_v56 (ix2 r j) k))
      = ∑ k : Fin 3072, aX x0 r k
          * Cert.Spec.newW (aw x1) (ab x2) (aW1 x3) (ab1 x4) (aW2 x5) (ab2 x6) (aW3 x7) (ab3 x8) k j :=
    Finset.sum_congr rfl fun k _ => by
      rw [show ridx_main_v56 (ix2 r j) k = ix2 k j from by idx2, newW_eq]
      exact congrArg (· * _) (congrArg x0 (by idx2))
  have e3 : idx_main_v57 (idx_main_v58 (ix2 r j)) = ix1 j := by idx1
  rw [hs, e3, newB_eq]
  simp only [Ideal.addf_def]
  rfl

/-- The word `0xFF800000` is the least extended real: a maximum with it is the other operand. -/
theorem max_negInf (y : EReal) : max (Ideal.ofBits .f32 0xFF800000#32) y = y := by
  simp [Ideal.ofBits, Ideal.ieee]

/-- Row `r` with column `k` put back is (r, k). -/
theorem lift_row (hR : S2048x3072.Reduces [1] S2048) (r : Fin 2048) (k : Fin (S2048x3072.size 1)) :
    hR.lift (ix1 r) k = ix2 r (⟨k.val, k.isLt⟩ : Fin 3072) := by
  funext c; apply Fin.ext
  fin_cases c <;> rfl

/-- The row maximum: the reduce from minus infinity is the fold of `max` over the row, and the maximum of that with
    minus infinity changes nothing. -/
theorem rowMax_eq (r : Fin 2048) :
    val_main_v62 (F := Ideal) x0 x1 x2 x3 x4 x5 x6 x7 x8 (ix1 r)
      = Cert.Spec.rowMax (aX x0) (aw x1) (ab x2) (aW1 x3) (ab1 x4) (aW2 x5) (ab2 x6) (aW3 x7) (ab3 x8) r := by
  have hR : S2048x3072.Reduces [1] S2048 := by decide
  rw [val_main_v62_apply, val_main_v61_apply, val_main_cst_0_apply]
  unfold val_main_v60
  rw [Host.reduce_eq_fold_single FloatOps.maximumf _ _ reducesTo_S2048x3072_S2048_d1 hR h_S_, val_main_cst_apply]
  have hf : (val_main_v59 (F := Ideal) x0 x1 x2 x3 x4 x5 x6 x7 x8 ∘ hR.lift (ix1 r))
      = fun k : Fin 3072 => Cert.Spec.logit (aX x0) (aw x1) (ab x2) (aW1 x3) (ab1 x4) (aW2 x5) (ab2 x6) (aW3 x7) (ab3 x8) r k := by
    funext k
    show val_main_v59 (F := Ideal) x0 x1 x2 x3 x4 x5 x6 x7 x8 (hR.lift (ix1 r) k) = _
    rw [lift_row hR r k, logit_eq]
    rfl
  rw [hf]
  exact max_negInf _

theorem expo_eq (r : Fin 2048) (j : Fin 3072) :
    val_main_v66 (F := Ideal) x0 x1 x2 x3 x4 x5 x6 x7 x8 (ix2 r j)
      = Cert.Spec.expo (aX x0) (aw x1) (ab x2) (aW1 x3) (ab1 x4) (aW2 x5) (ab2 x6) (aW3 x7) (ab3 x8) r j := by
  rw [val_main_v66_apply, val_main_v65_apply, val_main_v64_apply, val_main_v63_apply, logit_eq]
  have e3 : idx_main_v63 (idx_main_v64 (ix2 r j)) = ix1 r := by idx1
  rw [e3, rowMax_eq]
  simp only [Ideal.subf_def, Ideal.hostUnary_exp_def]
  rfl

theorem denom_eq (r : Fin 2048) :
    val_main_v67 (F := Ideal) x0 x1 x2 x3 x4 x5 x6 x7 x8 (ix1 r)
      = Cert.Spec.denom (aX x0) (aw x1) (ab x2) (aW1 x3) (ab1 x4) (aW2 x5) (ab2 x6) (aW3 x7) (ab3 x8) r := by
  rw [val_main_v67_apply, val_main_cst_1_apply]
  have hs : (∑ k : Fin 3072, val_main_v66 (F := Ideal) x0 x1 x2 x3 x4 x5 x6 x7 x8 (idx_main_v67 (ix1 r) k))
      = ∑ k : Fin 3072, Cert.Spec.expo (aX x0) (aw x1) (ab x2) (aW1 x3) (ab1 x4) (aW2 x5) (ab2 x6) (aW3 x7) (ab3 x8) r k :=
    Finset.sum_congr rfl fun k _ => by
      rw [show idx_main_v67 (ix1 r) k = ix2 r k from by idx2, expo_eq]
  rw [hs]
  unfold Cert.Spec.denom
  simp only [Ideal.ofBits_def, Ideal.ofBits_zero_f32, zero_add]

theorem out_eq (r : Fin 2048) (j : Fin 3072) :
    val_main_v70 (F := Ideal) x0 x1 x2 x3 x4 x5 x6 x7 x8 (ix2 r j)
      = Cert.Spec.out (aX x0) (aw x1) (ab x2) (aW1 x3) (ab1 x4) (aW2 x5) (ab2 x6) (aW3 x7) (ab3 x8) r j := by
  rw [val_main_v70_apply, val_main_v69_apply, val_main_v68_apply, expo_eq]
  have e3 : idx_main_v68 (idx_main_v69 (ix2 r j)) = ix1 r := by idx1
  rw [e3, denom_eq]
  simp only [Ideal.hostDivf_def]
  rfl

/-! ## The result -/

/-- THE REFERENCE IS THE SPECIFICATION: the reference program's result, as a function of its nine arguments, is the
    specification's `out` of the arguments read by their coordinates. -/
theorem ref_eq :
    val_main_v70 (F := Ideal) x0 x1 x2 x3 x4 x5 x6 x7 x8
      = fun i => Cert.Spec.out (fun r k => x0 (ix2 r k)) (fun a c => x1 (ix2 a c)) (fun j => x2 (ix1 j))
          (fun h k => x3 (ix2 h k)) (fun h => x4 (ix1 h)) (fun g h => x5 (ix2 g h)) (fun g => x6 (ix1 g))
          (fun o g => x7 (ix2 o g)) (fun o => x8 (ix1 o)) (i 0) (i 1) := by
  funext i
  obtain ⟨r, j, rfl⟩ : ∃ (r : Fin 2048) (j : Fin 3072), i = ix2 r j := ⟨i 0, i 1, eq_ix2 i⟩
  exact out_eq x0 x1 x2 x3 x4 x5 x6 x7 x8 r j

/-- The specification's result of nine arrays given at the program's buffer types, read by their coordinates. -/
abbrev specOut : S2048x3072.Idx → EReal :=
  fun i => Cert.Spec.out (fun r k => x0 (ix2 r k)) (fun a c => x1 (ix2 a c)) (fun j => x2 (ix1 j))
    (fun h k => x3 (ix2 h k)) (fun h => x4 (ix1 h)) (fun g h => x5 (ix2 g h)) (fun g => x6 (ix1 g))
    (fun o g => x7 (ix2 o g)) (fun o => x8 (ix1 o)) (i 0) (i 1)

/-- The term the reference's run ends with is the specification's result of the arguments' launch contents. -/
theorem res_eq (m : (ℓ : Loc nD τ sig) → Buf (Elt Ideal) ℓ) (c : Dev nD) :
    Cert.ReferenceIdeal.Value.res_main_v70 m c
      = specOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (val_main_v70_eq m c).trans (ref_eq _ _ _ _ _ _ _ _ _)

end Cert.ReferenceIdeal.RefValue

end
-- ==== Proof.KI.KValue.lean ====
import proofs.«164935_j86474871537726_2_alg».proof.Proof.KI.Regs
import proofs.«164935_j86474871537726_2_alg».proof.Proof.KI.KChain2
import proofs.«164935_j86474871537726_2_alg».proof.Proof.KI.R0Value
import proofs.«164935_j86474871537726_2_alg».proof.Proof.KI.R1Value
import proofs.«164935_j86474871537726_2_alg».proof.Proof.KI.R3Value
import proofs.«164935_j86474871537726_2_alg».proof.Proof.KI.R2Array
import proofs.«164935_j86474871537726_2_alg».proof.Proof.RefValue

/-!
The kernel program's result array at the extended reals is the specification's function of the argument arrays:
the value chain (Proof/KI/KChain.lean, KChain2.lean) instantiated at the contents the five regions really leave
(Proof/KI/Regs.lean), with each region's whole-array value (the three tiled products, the per-pair update, the softmax).
-/

noncomputable section

namespace Cert.KernelIdeal.KValue

open Cert.KernelIdeal Cert.KernelIdeal.Gen Idealize.ShloMosaic Idealize.ShloMosaic.TcCoe Idealize.SL.Sem ValueIdx

variable (m : (ℓ : Loc nD τ sig) → Buf (Elt Ideal) ℓ) (c : Dev nD)

/-- What region 4 writes back is the row softmax of the specification, entry by entry. -/
theorem result_eq :
    (dat4 (U11 m (outsF m)) c).arrAt 3 cfg4.N
      = Cert.ReferenceIdeal.RefValue.specOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨r, j, rfl⟩ : ∃ (r : Fin 2048) (j : Fin 3072), i = ix2 r j := ⟨i 0, i 1, eq_ix2 i⟩
  exact Cert.KernelIdeal.KChain.K_result m (outsF m) c (ho2F m) (ho3F m) (ho5aF m) (ho5bF m) (ho6F m)
    Cert.KernelIdeal.RV0.arr0 Cert.KernelIdeal.RV1.arr1 Cert.KernelIdeal.R2Value.arr2a Cert.KernelIdeal.R2Value.arr2b Cert.KernelIdeal.RV3.arr3 r j

end Cert.KernelIdeal.KValue

end
-- ==== Proof.lean ====
/-
  The kernel program computes, in five kernel regions among host operations, a per-pair update of a 3072×3072 weight
  matrix by a small three-layer network (two tiled matrix products for the first layer's row and column parts, one
  region that evaluates the network for every pair (i, j) block by block, a third tiled product for the bias update) and
  then the row softmax of X · new_w + new_b; the reference program computes the same with whole-array operations.
  At the extended reals both are one function of the nine argument arrays (Proof/Spec.lean): the tiled products are
  the whole sums regrouped block by block, the unrolled ten-term folds are the sums over the hidden width, and the
  additions differ only by association and the products by the order of their factors.
  The frames: each kernel program's run is assembled from one segment per host stretch and one record per region
  (Proof/KI/Regs.lean at the extended reals, Proof/KB/Regs.lean at words); the reference's is its operations' run.
-/
import proofs.«164935_j86474871537726_2_alg».proof.Defs
import proofs.«164935_j86474871537726_2_alg».proof.Proof.Gen.Kernel
import proofs.«164935_j86474871537726_2_alg».proof.Proof.Gen.KernelIdeal
import proofs.«164935_j86474871537726_2_alg».proof.Proof.Gen.ReferenceIdeal
import proofs.«164935_j86474871537726_2_alg».proof.Proof.Gen.Pre_finite_inputs
import proofs.«164935_j86474871537726_2_alg».proof.Proof.KB.Regs
import proofs.«164935_j86474871537726_2_alg».proof.Proof.KI.Regs
import proofs.«164935_j86474871537726_2_alg».proof.Proof.KI.KValue
import proofs.«164935_j86474871537726_2_alg».proof.Proof.RefValue

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Gen.frame (F := Bits) m ρ

/-- So does the kernel program read at the extended reals. -/
theorem frame_ki : Cert.frame_KernelIdeal := fun m ρ _ => Cert.KernelIdeal.Gen.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals the kernel program's result array and the reference's are the same function of the arguments. -/
theorem algebraic : Cert.algebraic_KernelIdeal_ReferenceIdeal := by
  intro m ρ m' ρ' _ hagree
  refine ⟨fun c => Cert.ReferenceIdeal.RefValue.specOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.KValue.result_eq m c), (h c).2⟩)
      (Cert.KernelIdeal.Gen.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
